-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S1000000x128 : Shape := ⟨2, ![1000000, 128]⟩
abbrev S50000x192 : Shape := ⟨2, ![50000, 192]⟩
abbrev S1000000 : Shape := ⟨1, ![1000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S50000x192 : S_.BroadcastsInDim S50000x192 (![] : Fin 0 → Fin S50000x192.rank)
  reducesTo_S50000x192_S_d0_1 : S50000x192.ReducesTo [0, 1] S_

variable [Facts]

def fn {F : FTy → Type} [FloatOps F] (main_arg0 : FVec F S200000x64 .f32) (main_arg1 : FVec F S1000000x128 .f32) (main_arg2 : FVec F S50000x192 .f32) (main_arg3 : IVec S1000000 32) (main_arg4 : IVec S1000000 32) (main_arg5 : IVec S1000000 32) (main_arg6 : IVec S1000000 32) (main_arg7 : IVec S1000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S50000x192 .f32 := Host.absf main_arg2
  let main_cst_2 : FVec F S_ .f32 := constant S_ .f32 0x7F800000#32
  let main_v10 : FVec F S50000x192 .f32 := broadcastInDim S50000x192 ![] bcast_S_S50000x192 main_cst_2
  let main_v11 : IVec S50000x192 1 := cmpf .olt main_v9 main_v10
  let main_c_3 : IVec S_ 1 := constantI S_ 1 1#1
  let main_v12 : IVec S_ 1 := (fun x v => Host.reduce IntOp.andi x v reducesTo_S50000x192_S_d0_1 h_S_) main_v11 main_c_3
  let main_v13 : IVec S_ 1 := andi main_v8 main_v12
  main_v13
-- ==== Kernel.lean ====
abbrev S200000x64 : Shape := ⟨2, ![200000, 64]⟩
abbrev S1000000x128 : Shape := ⟨2, ![1000000, 128]⟩
abbrev S50000x192 : Shape := ⟨2, ![50000, 192]⟩
abbrev S1000000 : Shape := ⟨1, ![1000000]⟩
abbrev S_ : Shape := ⟨0, ![]⟩
abbrev S1000000x1 : Shape := ⟨2, ![1000000, 1]⟩
abbrev S200000x128 : Shape := ⟨2, ![200000, 128]⟩
abbrev S200000 : Shape := ⟨1, ![200000]⟩
abbrev S200000x1 : Shape := ⟨2, ![200000, 1]⟩
abbrev S4000x128 : Shape := ⟨2, ![4000, 128]⟩
abbrev S4000x1 : Shape := ⟨2, ![4000, 1]⟩
abbrev S50000x64 : Shape := ⟨2, ![50000, 64]⟩
abbrev S50000x128 : Shape := ⟨2, ![50000, 128]⟩
abbrev S4000x64 : Shape := ⟨2, ![4000, 64]⟩
abbrev S1000000x64 : Shape := ⟨2, ![1000000, 64]⟩
abbrev S10000x64 : Shape := ⟨2, ![10000, 64]⟩
abbrev S10000x1 : Shape := ⟨2, ![10000, 1]⟩
abbrev S10000x128 : Shape := ⟨2, ![10000, 128]⟩
abbrev S200000x192 : Shape := ⟨2, ![200000, 192]⟩

abbrev nBuf : Space → Nat
  | .hbm => 221
  | .vmem => 124
  | .smem => 0
  | _ => 0

abbrev hbmTy0_0 (i : Nat) : BufTy := match i % 128 with
  | 0 => ⟨S200000x64, .f32⟩
  | 1 => ⟨S1000000x128, .f32⟩
  | 2 => ⟨S50000x192, .f32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S_, .f32⟩
  | 9 => ⟨S1000000, .f32⟩
  | 10 => ⟨S_, .f32⟩
  | 11 => ⟨S1000000, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x128, .f32⟩
  | 21 => ⟨S_, .f32⟩
  | 22 => ⟨S200000x128, .f32⟩
  | 23 => ⟨S1000000x1, .i32⟩
  | 24 => ⟨S200000x128, .f32⟩
  | 25 => ⟨S_, .f32⟩
  | 26 => ⟨S200000, .f32⟩
  | 27 => ⟨S1000000x1, .i32⟩
  | 28 => ⟨S200000, .f32⟩
  | 29 => ⟨S200000x1, .f32⟩
  | 30 => ⟨S_, .f32⟩
  | 31 => ⟨S200000, .f32⟩
  | 32 => ⟨S1000000x1, .i32⟩
  | 33 => ⟨S200000, .f32⟩
  | 34 => ⟨S200000x1, .f32⟩
  | 35 => ⟨S_, .f32⟩
  | 36 => ⟨S200000, .f32⟩
  | 37 => ⟨S1000000x1, .i32⟩
  | 38 => ⟨S200000, .f32⟩
  | 39 => ⟨S200000x1, .f32⟩
  | 40 => ⟨S200000x128, .f32⟩
  | 41 => ⟨S200000x1, .f32⟩
  | 42 => ⟨S50000x64, .f32⟩
  | 43 => ⟨S50000x128, .f32⟩
  | 44 => ⟨S200000x64, .f32⟩
  | 45 => ⟨S200000x128, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x128, .f32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x1, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x128, .f32⟩
  | 91 => ⟨S1000000x64, .f32⟩
  | 92 => ⟨S1000000x128, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x64, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x128, .f32⟩
  | 111 => ⟨S_, .f32⟩
  | 112 => ⟨S200000x64, .f32⟩
  | 113 => ⟨S1000000x1, .i32⟩
  | 114 => ⟨S200000x64, .f32⟩
  | 115 => ⟨S_, .f32⟩
  | 116 => ⟨S200000x128, .f32⟩
  | 117 => ⟨S1000000x1, .i32⟩
  | 118 => ⟨S200000x128, .f32⟩
  | 119 => ⟨S_, .f32⟩
  | 120 => ⟨S200000x64, .f32⟩
  | 121 => ⟨S1000000x1, .i32⟩
  | 122 => ⟨S200000x64, .f32⟩
  | 123 => ⟨S_, .f32⟩
  | 124 => ⟨S200000x128, .f32⟩
  | 125 => ⟨S1000000x1, .i32⟩
  | 126 => ⟨S200000x128, .f32⟩
  | 127 => ⟨S200000x64, .f32⟩
  | _ => ⟨S200000x64, .f32⟩

abbrev hbmTy0_1 (i : Nat) : BufTy := match i % 128 with
  | 0 => ⟨S200000x64, .f32⟩
  | 1 => ⟨S200000x128, .f32⟩
  | 2 => ⟨S200000x128, .f32⟩
  | 3 => ⟨S200000x64, .f32⟩
  | 4 => ⟨S200000x128, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x64, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x128, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x1, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x128, .f32⟩
  | 50 => ⟨S1000000x64, .f32⟩
  | 51 => ⟨S1000000x128, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x128, .f32⟩
  | 70 => ⟨S_, .f32⟩
  | 71 => ⟨S200000x64, .f32⟩
  | 72 => ⟨S1000000x1, .i32⟩
  | 73 => ⟨S200000x64, .f32⟩
  | 74 => ⟨S_, .f32⟩
  | 75 => ⟨S200000x128, .f32⟩
  | 76 => ⟨S1000000x1, .i32⟩
  | 77 => ⟨S200000x128, .f32⟩
  | 78 => ⟨S_, .f32⟩
  | 79 => ⟨S200000x64, .f32⟩
  | 80 => ⟨S1000000x1, .i32⟩
  | 81 => ⟨S200000x64, .f32⟩
  | 82 => ⟨S_, .f32⟩
  | 83 => ⟨S200000x128, .f32⟩
  | 84 => ⟨S1000000x1, .i32⟩
  | 85 => ⟨S200000x128, .f32⟩
  | 86 => ⟨S200000x64, .f32⟩
  | 87 => ⟨S200000x64, .f32⟩
  | 88 => ⟨S200000x128, .f32⟩
  | 89 => ⟨S200000x128, .f32⟩
  | 90 => ⟨S200000x64, .f32⟩
  | 91 => ⟨S200000x128, .f32⟩
  | 92 => ⟨S200000x192, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S4000x64, .f32⟩
  | .local _ .vmem, ⟨13, _⟩ => ⟨S4000x64, .f32⟩
  | .local _ .vmem, ⟨14, _⟩ => ⟨S4000x1, .f32⟩
  | .local _ .vmem, ⟨15, _⟩ => ⟨S4000x1, .f32⟩
  | .local _ .vmem, ⟨16, _⟩ => ⟨S4000x64, .f32⟩
  | .local _ .vmem, ⟨17, _⟩ => ⟨S4000x64, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S4000x128, .f32⟩
  | .local _ .vmem, ⟨23, _⟩ => ⟨S4000x128, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x1, .f32⟩
  | .local _ .vmem, ⟨29, _⟩ => ⟨S10000x1, .f32⟩
  | .local _ .vmem, ⟨30, _⟩ => ⟨S10000x64, .f32⟩
  | .local _ .vmem, ⟨31, _⟩ => ⟨S10000x64, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x1, .f32⟩
  | .local _ .vmem, ⟨37, _⟩ => ⟨S10000x1, .f32⟩
  | .local _ .vmem, ⟨38, _⟩ => ⟨S10000x128, .f32⟩
  | .local _ .vmem, ⟨39, _⟩ => ⟨S10000x128, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S4000x1, .f32⟩
  | .local _ .vmem, ⟨45, _⟩ => ⟨S4000x1, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x64, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S4000x1, .f32⟩
  | .local _ .vmem, ⟨57, _⟩ => ⟨S4000x1, .f32⟩
  | .local _ .vmem, ⟨58, _⟩ => ⟨S4000x128, .f32⟩
  | .local _ .vmem, ⟨59, _⟩ => ⟨S4000x128, .f32⟩
  | .local _ .vmem, ⟨60, _⟩ => ⟨S4000x128, .f32⟩
  | .local _ .vmem, ⟨61, _⟩ => ⟨S4000x128, .f32⟩
  | .local _ .vmem, ⟨62, _⟩ => ⟨S4000x128, .f32⟩
  | .local _ .vmem, ⟨63, _⟩ => ⟨S4000x128, .f32⟩
  | .local _ .vmem, ⟨64, _⟩ => ⟨S4000x64, .f32⟩
  | .local _ .vmem, ⟨65, _⟩ => ⟨S4000x64, .f32⟩
  | .local _ .vmem, ⟨66, _⟩ => ⟨S4000x1, .f32⟩
  | .local _ .vmem, ⟨67, _⟩ => ⟨S4000x1, .f32⟩
  | .local _ .vmem, ⟨68, _⟩ => ⟨S4000x64, .f32⟩
  | .local _ .vmem, ⟨69, _⟩ => ⟨S4000x64, .f32⟩
  | .local _ .vmem, ⟨70, _⟩ => ⟨S4000x128, .f32⟩
  | .local _ .vmem, ⟨71, _⟩ => ⟨S4000x128, .f32⟩
  | .local _ .vmem, ⟨72, _⟩ => ⟨S4000x1, .f32⟩
  | .local _ .vmem, ⟨73, _⟩ => ⟨S4000x1, .f32⟩
  | .local _ .vmem, ⟨74, _⟩ => ⟨S4000x128, .f32⟩
  | .local _ .vmem, ⟨75, _⟩ => ⟨S4000x128, .f32⟩
  | .local _ .vmem, ⟨76, _⟩ => ⟨S10000x64, .f32⟩
  | .local _ .vmem, ⟨77, _⟩ => ⟨S10000x64, .f32⟩
  | .local _ .vmem, ⟨78, _⟩ => ⟨S10000x64, .f32⟩
  | .local _ .vmem, ⟨79, _⟩ => ⟨S10000x64, .f32⟩
  | .local _ .vmem, ⟨80, _⟩ => ⟨S10000x1, .f32⟩
  | .local _ .vmem, ⟨81, _⟩ => ⟨S10000x1, .f32⟩
  | .local _ .vmem, ⟨82, _⟩ => ⟨S10000x64, .f32⟩
  | .local _ .vmem, ⟨83, _⟩ => ⟨S10000x64, .f32⟩
  | .local _ .vmem, ⟨84, _⟩ => ⟨S10000x128, .f32⟩
  | .local _ .vmem, ⟨85, _⟩ => ⟨S10000x128, .f32⟩
  | .local _ .vmem, ⟨86, _⟩ => ⟨S10000x128, .f32⟩
  | .local _ .vmem, ⟨87, _⟩ => ⟨S10000x128, .f32⟩
  | .local _ .vmem, ⟨88, _⟩ => ⟨S10000x1, .f32⟩
  | .local _ .vmem, ⟨89, _⟩ => ⟨S10000x1, .f32⟩
  | .local _ .vmem, ⟨90, _⟩ => ⟨S10000x128, .f32⟩
  | .local _ .vmem, ⟨91, _⟩ => ⟨S10000x128, .f32⟩
  | .local _ .vmem, ⟨92, _⟩ => ⟨S4000x64, .f32⟩
  | .local _ .vmem, ⟨93, _⟩ => ⟨S4000x64, .f32⟩
  | .local _ .vmem, ⟨94, _⟩ => ⟨S4000x64, .f32⟩
  | .local _ .vmem, ⟨95, _⟩ => ⟨S4000x64, .f32⟩
  | .local _ .vmem, ⟨96, _⟩ => ⟨S4000x1, .f32⟩
  | .local _ .vmem, ⟨97, _⟩ => ⟨S4000x1, .f32⟩
  | .local _ .vmem, ⟨98, _⟩ => ⟨S4000x64, .f32⟩
  | .local _ .vmem, ⟨99, _⟩ => ⟨S4000x64, .f32⟩
  | .local _ .vmem, ⟨100, _⟩ => ⟨S4000x64, .f32⟩
  | .local _ .vmem, ⟨101, _⟩ => ⟨S4000x64, .f32⟩
  | .local _ .vmem, ⟨102, _⟩ => ⟨S4000x64, .f32⟩
  | .local _ .vmem, ⟨103, _⟩ => ⟨S4000x64, .f32⟩
  | .local _ .vmem, ⟨104, _⟩ => ⟨S4000x128, .f32⟩
  | .local _ .vmem, ⟨105, _⟩ => ⟨S4000x128, .f32⟩
  | .local _ .vmem, ⟨106, _⟩ => ⟨S4000x128, .f32⟩
  | .local _ .vmem, ⟨107, _⟩ => ⟨S4000x128, .f32⟩
  | .local _ .vmem, ⟨108, _⟩ => ⟨S4000x1, .f32⟩
  | .local _ .vmem, ⟨109, _⟩ => ⟨S4000x1, .f32⟩
  | .local _ .vmem, ⟨110, _⟩ => ⟨S4000x128, .f32⟩
  | .local _ .vmem, ⟨111, _⟩ => ⟨S4000x128, .f32⟩
  | .local _ .vmem, ⟨112, _⟩ => ⟨S4000x128, .f32⟩
  | .local _ .vmem, ⟨113, _⟩ => ⟨S4000x128, .f32⟩
  | .local _ .vmem, ⟨114, _⟩ => ⟨S4000x128, .f32⟩
  | .local _ .vmem, ⟨115, _⟩ => ⟨S4000x128, .f32⟩
  | .local _ .vmem, ⟨116, _⟩ => ⟨S4000x64, .f32⟩
  | .local _ .vmem, ⟨117, _⟩ => ⟨S4000x64, .f32⟩
  | .local _ .vmem, ⟨118, _⟩ => ⟨S4000x64, .f32⟩
  | .local _ .vmem, ⟨119, _⟩ => ⟨S4000x64, .f32⟩
  | .local _ .vmem, ⟨120, _⟩ => ⟨S4000x128, .f32⟩
  | .local _ .vmem, ⟨121, _⟩ => ⟨S4000x128, .f32⟩
  | .local _ .vmem, ⟨122, _⟩ => ⟨S4000x128, .f32⟩
  | .local _ .vmem, ⟨123, _⟩ => ⟨S4000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  ofTc nBuf bufTy 0 124 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_c_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_c_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_c_19 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_20 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_21 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_22 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93_0 : Ref sig .tc := ⟨.hbm, 127, rfl⟩
abbrev main_v93_1 : Ref sig .tc := ⟨.hbm, 128, rfl⟩
abbrev main_v94_0 : Ref sig .tc := ⟨.hbm, 129, rfl⟩
abbrev main_v94_1 : Ref sig .tc := ⟨.hbm, 130, rfl⟩
abbrev main_v95 : Ref sig .tc := ⟨.hbm, 131, rfl⟩
abbrev main_v96 : Ref sig .tc := ⟨.hbm, 132, rfl⟩
abbrev main_c_24 : Ref sig .tc := ⟨.hbm, 133, rfl⟩
abbrev main_v97 : Ref sig .tc := ⟨.hbm, 134, rfl⟩
abbrev main_v98 : Ref sig .tc := ⟨.hbm, 135, rfl⟩
abbrev main_c_25 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_26 : Ref sig .tc := ⟨.hbm, 142, rfl⟩
abbrev main_v104 : Ref sig .tc := ⟨.hbm, 143, rfl⟩
abbrev main_v105 : Ref sig .tc := ⟨.hbm, 144, rfl⟩
abbrev main_c_27 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_28 : Ref sig .tc := ⟨.hbm, 151, rfl⟩
abbrev main_v111 : Ref sig .tc := ⟨.hbm, 152, rfl⟩
abbrev main_v112 : Ref sig .tc := ⟨.hbm, 153, rfl⟩
abbrev main_c_29 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_30 : Ref sig .tc := ⟨.hbm, 160, rfl⟩
abbrev main_v118 : Ref sig .tc := ⟨.hbm, 161, rfl⟩
abbrev main_v119 : Ref sig .tc := ⟨.hbm, 162, rfl⟩
abbrev main_c_31 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_c_32 : Ref sig .tc := ⟨.hbm, 169, rfl⟩
abbrev main_v125 : Ref sig .tc := ⟨.hbm, 170, rfl⟩
abbrev main_v126 : Ref sig .tc := ⟨.hbm, 171, rfl⟩
abbrev main_c_33 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_34 : Ref sig .tc := ⟨.hbm, 180, rfl⟩
abbrev main_v134 : Ref sig .tc := ⟨.hbm, 181, rfl⟩
abbrev main_v135 : Ref sig .tc := ⟨.hbm, 182, rfl⟩
abbrev main_c_35 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_c_36 : Ref sig .tc := ⟨.hbm, 189, rfl⟩
abbrev main_v141 : Ref sig .tc := ⟨.hbm, 190, rfl⟩
abbrev main_v142 : Ref sig .tc := ⟨.hbm, 191, rfl⟩
abbrev main_c_37 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_38 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_39 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_40 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_41 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160_0 : Ref sig .tc := ⟨.hbm, 214, rfl⟩
abbrev main_v160_1 : Ref sig .tc := ⟨.hbm, 215, rfl⟩
abbrev main_v161_0 : Ref sig .tc := ⟨.hbm, 216, rfl⟩
abbrev main_v161_1 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg5_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg2_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg1_1 : Ref sig .tc := ⟨.vmem, 79, rfl⟩
abbrev cc10_stg2_0 : Ref sig .tc := ⟨.vmem, 80, rfl⟩
abbrev cc10_stg2_1 : Ref sig .tc := ⟨.vmem, 81, rfl⟩
abbrev cc10_stg3_0 : Ref sig .tc := ⟨.vmem, 82, rfl⟩
abbrev cc10_stg3_1 : Ref sig .tc := ⟨.vmem, 83, rfl⟩
abbrev cc11_stg0_0 : Ref sig .tc := ⟨.vmem, 84, rfl⟩
abbrev cc11_stg0_1 : Ref sig .tc := ⟨.vmem, 85, rfl⟩
abbrev cc11_stg1_0 : Ref sig .tc := ⟨.vmem, 86, rfl⟩
abbrev cc11_stg1_1 : Ref sig .tc := ⟨.vmem, 87, rfl⟩
abbrev cc11_stg2_0 : Ref sig .tc := ⟨.vmem, 88, rfl⟩
abbrev cc11_stg2_1 : Ref sig .tc := ⟨.vmem, 89, rfl⟩
abbrev cc11_stg3_0 : Ref sig .tc := ⟨.vmem, 90, rfl⟩
abbrev cc11_stg3_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg1_1 : Ref sig .tc := ⟨.vmem, 95, rfl⟩
abbrev cc12_stg2_0 : Ref sig .tc := ⟨.vmem, 96, rfl⟩
abbrev cc12_stg2_1 : Ref sig .tc := ⟨.vmem, 97, rfl⟩
abbrev cc12_stg3_0 : Ref sig .tc := ⟨.vmem, 98, rfl⟩
abbrev cc12_stg3_1 : Ref sig .tc := ⟨.vmem, 99, rfl⟩
abbrev cc12_stg4_0 : Ref sig .tc := ⟨.vmem, 100, rfl⟩
abbrev cc12_stg4_1 : Ref sig .tc := ⟨.vmem, 101, rfl⟩
abbrev cc12_stg5_0 : Ref sig .tc := ⟨.vmem, 102, rfl⟩
abbrev cc12_stg5_1 : Ref sig .tc := ⟨.vmem, 103, rfl⟩
abbrev cc13_stg0_0 : Ref sig .tc := ⟨.vmem, 104, rfl⟩
abbrev cc13_stg0_1 : Ref sig .tc := ⟨.vmem, 105, rfl⟩
abbrev cc13_stg1_0 : Ref sig .tc := ⟨.vmem, 106, rfl⟩
abbrev cc13_stg1_1 : Ref sig .tc := ⟨.vmem, 107, rfl⟩
abbrev cc13_stg2_0 : Ref sig .tc := ⟨.vmem, 108, rfl⟩
abbrev cc13_stg2_1 : Ref sig .tc := ⟨.vmem, 109, rfl⟩
abbrev cc13_stg3_0 : Ref sig .tc := ⟨.vmem, 110, rfl⟩
abbrev cc13_stg3_1 : Ref sig .tc := ⟨.vmem, 111, rfl⟩
abbrev cc13_stg4_0 : Ref sig .tc := ⟨.vmem, 112, rfl⟩
abbrev cc13_stg4_1 : Ref sig .tc := ⟨.vmem, 113, rfl⟩
abbrev cc13_stg5_0 : Ref sig .tc := ⟨.vmem, 114, rfl⟩
abbrev cc13_stg5_1 : Ref sig .tc := ⟨.vmem, 115, rfl⟩
abbrev cc14_stg0_0 : Ref sig .tc := ⟨.vmem, 116, rfl⟩
abbrev cc14_stg0_1 : Ref sig .tc := ⟨.vmem, 117, rfl⟩
abbrev cc14_stg1_0 : Ref sig .tc := ⟨.vmem, 118, rfl⟩
abbrev cc14_stg1_1 : Ref sig .tc := ⟨.vmem, 119, rfl⟩
abbrev cc15_stg0_0 : Ref sig .tc := ⟨.vmem, 120, rfl⟩
abbrev cc15_stg0_1 : Ref sig .tc := ⟨.vmem, 121, rfl⟩
abbrev cc15_stg1_0 : Ref sig .tc := ⟨.vmem, 122, rfl⟩
abbrev cc15_stg1_1 : Ref sig .tc := ⟨.vmem, 123, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49
abbrev cc6_sem5_0 : DmaSem sig := 50
abbrev cc6_sem5_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc7_sem4_0 : DmaSem sig := 60
abbrev cc7_sem4_1 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem2_1 : DmaSem sig := 75
abbrev cc10_sem0_0 : DmaSem sig := 76
abbrev cc10_sem0_1 : DmaSem sig := 77
abbrev cc10_sem1_0 : DmaSem sig := 78
abbrev cc10_sem1_1 : DmaSem sig := 79
abbrev cc10_sem2_0 : DmaSem sig := 80
abbrev cc10_sem2_1 : DmaSem sig := 81
abbrev cc10_sem3_0 : DmaSem sig := 82
abbrev cc10_sem3_1 : DmaSem sig := 83
abbrev cc11_sem0_0 : DmaSem sig := 84
abbrev cc11_sem0_1 : DmaSem sig := 85
abbrev cc11_sem1_0 : DmaSem sig := 86
abbrev cc11_sem1_1 : DmaSem sig := 87
abbrev cc11_sem2_0 : DmaSem sig := 88
abbrev cc11_sem2_1 : DmaSem sig := 89
abbrev cc11_sem3_0 : DmaSem sig := 90
abbrev cc11_sem3_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem2_1 : DmaSem sig := 97
abbrev cc12_sem3_0 : DmaSem sig := 98
abbrev cc12_sem3_1 : DmaSem sig := 99
abbrev cc12_sem4_0 : DmaSem sig := 100
abbrev cc12_sem4_1 : DmaSem sig := 101
abbrev cc12_sem5_0 : DmaSem sig := 102
abbrev cc12_sem5_1 : DmaSem sig := 103
abbrev cc13_sem0_0 : DmaSem sig := 104
abbrev cc13_sem0_1 : DmaSem sig := 105
abbrev cc13_sem1_0 : DmaSem sig := 106
abbrev cc13_sem1_1 : DmaSem sig := 107
abbrev cc13_sem2_0 : DmaSem sig := 108
abbrev cc13_sem2_1 : DmaSem sig := 109
abbrev cc13_sem3_0 : DmaSem sig := 110
abbrev cc13_sem3_1 : DmaSem sig := 111
abbrev cc13_sem4_0 : DmaSem sig := 112
abbrev cc13_sem4_1 : DmaSem sig := 113
abbrev cc13_sem5_0 : DmaSem sig := 114
abbrev cc13_sem5_1 : DmaSem sig := 115
abbrev cc14_sem0_0 : DmaSem sig := 116
abbrev cc14_sem0_1 : DmaSem sig := 117
abbrev cc14_sem1_0 : DmaSem sig := 118
abbrev cc14_sem1_1 : DmaSem sig := 119
abbrev cc15_sem0_0 : DmaSem sig := 120
abbrev cc15_sem0_1 : DmaSem sig := 121
abbrev cc15_sem1_0 : DmaSem sig := 122
abbrev cc15_sem1_1 : DmaSem sig := 123

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S4000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S4000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S4000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![100], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S10000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![100], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S10000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S10000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S4000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S4000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S4000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S4000x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S4000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S4000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S4000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S4000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S4000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  slices_S50000x192_S50000x64_0_0 : S50000x192.Slices ![0, 0] S50000x64
  slices_S50000x192_S50000x128_0_64 : S50000x192.Slices ![0, 64] S50000x128
  inb_S4000x64_S4000x64_0_0 : ∀ a, (![0, 0] : Fin 2 → Nat) a + S4000x64.size a ≤ S4000x64.size a
  h_S4000x64 : 0 < S4000x64.numel
  broadcasts_S4000x1_S4000x64 : S4000x1.Broadcasts S4000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  bcast_S_S200000x64 : S_.BroadcastsInDim S200000x64 (![] : Fin 0 → Fin S200000x64.rank)
  shapeCasts_S4000x64_S4000x64 : S4000x64.ShapeCasts S4000x64
  concatenates_S200000x64_S200000x128_S200000x192_d1 : Shape.Concatenates [S200000x64, S200000x128] S200000x192 1
  gather_S1000000x128_S1000000x1_S1000000x128_1_0_n_n_0_1_1128_wf : GatherDims.WF S1000000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  gather_S200000x64_S1000000x1_S1000000x64_1_0_n_n_0_1_164_wf : GatherDims.WF S200000x64 S1000000x1 S1000000x64 [1] [0] [] [0] [] 1 ![1, 64]
  gather_S200000x128_S1000000x1_S1000000x128_1_0_n_n_0_1_1128_wf : GatherDims.WF S200000x128 S1000000x1 S1000000x128 [1] [0] [] [0] [] 1 ![1, 128]
  gather_S200000x1_S1000000x1_S1000000x1_1_0_n_n_0_1_11_wf : GatherDims.WF S200000x1 S1000000x1 S1000000x1 [1] [0] [] [0] [] 1 ![1, 1]
  gather_S50000x64_S1000000x1_S1000000x64_1_0_n_n_0_1_164_wf : GatherDims.WF S50000x64 S1000000x1 S1000000x64 [1] [0] [] [0] [] 1 ![1, 64]
  gather_S50000x128_S1000000x1_S1000000x128_1_0_n_n_0_1_1128_wf : GatherDims.WF S50000x128 S1000000x1 S1000000x128 [1] [0] [] [0] [] 1 ![1, 128]
  scatter_S200000x64_S1000000x1_S1000000x64_1_0_0_1_wf : ScatterDims.WF S200000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .f32 = 32 ∨ (Rect.block (s := S200000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S200000x1.size a
  hwx1_0 : ∀ i : grid1.Coords, EltTy.bits .f32 = 32 ∨ (Rect.block (s := S200000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S200000x1.size a
  hwx1_1 : ∀ i : grid1.Coords, EltTy.bits .f32 = 32 ∨ (Rect.block (s := S200000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S200000x1.size a
  hwx1_2 : ∀ i : grid1.Coords, EltTy.bits .f32 = 32 ∨ (Rect.block (s := S200000x1) S4000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S200000x1.size a
  hwx2_1 : ∀ i : grid2.Coords, EltTy.bits .f32 = 32 ∨ (Rect.block (s := S200000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S200000x64.size a
  hwx2_2 : ∀ i : grid2.Coords, EltTy.bits .f32 = 32 ∨ (Rect.block (s := S200000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S200000x1.size a
  hwx3_1 : ∀ i : grid3.Coords, EltTy.bits .f32 = 32 ∨ (Rect.block (s := S200000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S200000x128.size a
  hwx3_2 : ∀ i : grid3.Coords, EltTy.bits .f32 = 32 ∨ (Rect.block (s := S200000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1000000x64.size a
  hwx4_0 : ∀ i : grid4.Coords, EltTy.bits .f32 = 32 ∨ (Rect.block (s := S1000000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S1000000x64.size a
  hwx4_1 : ∀ i : grid4.Coords, EltTy.bits .f32 = 32 ∨ (Rect.block (s := S1000000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S1000000x1.size a
  hwx4_2 : ∀ i : grid4.Coords, EltTy.bits .f32 = 32 ∨ (Rect.block (s := S1000000x1) S10000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S1000000x64.size a
  hwx4_3 : ∀ i : grid4.Coords, EltTy.bits .f32 = 32 ∨ (Rect.block (s := S1000000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S1000000x128.size a
  hwx5_0 : ∀ i : grid5.Coords, EltTy.bits .f32 = 32 ∨ (Rect.block (s := S1000000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S1000000x128.size a
  hwx5_1 : ∀ i : grid5.Coords, EltTy.bits .f32 = 32 ∨ (Rect.block (s := S1000000x128) S10000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S1000000x1.size a
  hwx5_2 : ∀ i : grid5.Coords, EltTy.bits .f32 = 32 ∨ (Rect.block (s := S1000000x1) S10000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S1000000x128.size a
  hwx5_3 : ∀ i : grid5.Coords, EltTy.bits .f32 = 32 ∨ (Rect.block (s := S1000000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S200000x64.size a
  hwx6_0 : ∀ i : grid6.Coords, EltTy.bits .f32 = 32 ∨ (Rect.block (s := S200000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S200000x64.size a
  hwx6_1 : ∀ i : grid6.Coords, EltTy.bits .f32 = 32 ∨ (Rect.block (s := S200000x64) S4000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S200000x1.size a
  hwx6_2 : ∀ i : grid6.Coords, EltTy.bits .f32 = 32 ∨ (Rect.block (s := S200000x1) S4000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S200000x64.size a
  hwx6_3 : ∀ i : grid6.Coords, EltTy.bits .f32 = 32 ∨ (Rect.block (s := S200000x64) S4000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x64.size a ≤ S200000x64.size a
  hwx6_4 : ∀ i : grid6.Coords, EltTy.bits .f32 = 32 ∨ (Rect.block (s := S200000x64) S4000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x64.size a ≤ S200000x64.size a
  hwx6_5 : ∀ i : grid6.Coords, EltTy.bits .f32 = 32 ∨ (Rect.block (s := S200000x64) S4000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S200000x128.size a
  hwx7_0 : ∀ i : grid7.Coords, EltTy.bits .f32 = 32 ∨ (Rect.block (s := S200000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S200000x128.size a
  hwx7_1 : ∀ i : grid7.Coords, EltTy.bits .f32 = 32 ∨ (Rect.block (s := S200000x128) S4000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x1.size a ≤ S200000x1.size a
  hwx7_2 : ∀ i : grid7.Coords, EltTy.bits .f32 = 32 ∨ (Rect.block (s := S200000x1) S4000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x128.size a ≤ S200000x128.size a
  hwx7_3 : ∀ i : grid7.Coords, EltTy.bits .f32 = 32 ∨ (Rect.block (s := S200000x128) S4000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x128.size a ≤ S200000x128.size a
  hwx7_4 : ∀ i : grid7.Coords, EltTy.bits .f32 = 32 ∨ (Rect.block (s := S200000x128) S4000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x128.size a ≤ S200000x128.size a
  hwx7_5 : ∀ i : grid7.Coords, EltTy.bits .f32 = 32 ∨ (Rect.block (s := S200000x128) S4000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S200000x64.size a
  hwx8_0 : ∀ i : grid8.Coords, EltTy.bits .f32 = 32 ∨ (Rect.block (s := S200000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x1.size a ≤ S200000x1.size a
  hwx8_1 : ∀ i : grid8.Coords, EltTy.bits .f32 = 32 ∨ (Rect.block (s := S200000x1) S4000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x64.size a ≤ S200000x64.size a
  hwx8_2 : ∀ i : grid8.Coords, EltTy.bits .f32 = 32 ∨ (Rect.block (s := S200000x64) S4000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S200000x128.size a
  hwx9_0 : ∀ i : grid9.Coords, EltTy.bits .f32 = 32 ∨ (Rect.block (s := S200000x128) S4000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x1.size a ≤ S200000x1.size a
  hwx9_1 : ∀ i : grid9.Coords, EltTy.bits .f32 = 32 ∨ (Rect.block (s := S200000x1) S4000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x128.size a ≤ S200000x128.size a
  hwx9_2 : ∀ i : grid9.Coords, EltTy.bits .f32 = 32 ∨ (Rect.block (s := S200000x128) S4000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S1000000x64.size a
  hwx10_0 : ∀ i : grid10.Coords, EltTy.bits .f32 = 32 ∨ (Rect.block (s := S1000000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S1000000x64.size a
  hwx10_1 : ∀ i : grid10.Coords, EltTy.bits .f32 = 32 ∨ (Rect.block (s := S1000000x64) S10000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x1.size a ≤ S1000000x1.size a
  hwx10_2 : ∀ i : grid10.Coords, EltTy.bits .f32 = 32 ∨ (Rect.block (s := S1000000x1) S10000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x64.size a ≤ S1000000x64.size a
  hwx10_3 : ∀ i : grid10.Coords, EltTy.bits .f32 = 32 ∨ (Rect.block (s := S1000000x64) S10000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S1000000x128.size a
  hwx11_0 : ∀ i : grid11.Coords, EltTy.bits .f32 = 32 ∨ (Rect.block (s := S1000000x128) S10000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x128.size a ≤ S1000000x128.size a
  hwx11_1 : ∀ i : grid11.Coords, EltTy.bits .f32 = 32 ∨ (Rect.block (s := S1000000x128) S10000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x1.size a ≤ S1000000x1.size a
  hwx11_2 : ∀ i : grid11.Coords, EltTy.bits .f32 = 32 ∨ (Rect.block (s := S1000000x1) S10000x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x128.size a ≤ S1000000x128.size a
  hwx11_3 : ∀ i : grid11.Coords, EltTy.bits .f32 = 32 ∨ (Rect.block (s := S1000000x128) S10000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x64.size a ≤ S200000x64.size a
  hwx12_0 : ∀ i : grid12.Coords, EltTy.bits .f32 = 32 ∨ (Rect.block (s := S200000x64) S4000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4000x64.size a ≤ S200000x64.size a
  hwx12_1 : ∀ i : grid12.Coords, EltTy.bits .f32 = 32 ∨ (Rect.block (s := S200000x64) S4000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4000x1.size a ≤ S200000x1.size a
  hwx12_2 : ∀ i : grid12.Coords, EltTy.bits .f32 = 32 ∨ (Rect.block (s := S200000x1) S4000x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S4000x64.size a ≤ S200000x64.size a
  hwx12_3 : ∀ i : grid12.Coords, EltTy.bits .f32 = 32 ∨ (Rect.block (s := S200000x64) S4000x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S4000x64.size a ≤ S200000x64.size a
  hwx12_4 : ∀ i : grid12.Coords, EltTy.bits .f32 = 32 ∨ (Rect.block (s := S200000x64) S4000x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S4000x64.size a ≤ S200000x64.size a
  hwx12_5 : ∀ i : grid12.Coords, EltTy.bits .f32 = 32 ∨ (Rect.block (s := S200000x64) S4000x64.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S200000x128.size a
  hwx13_0 : ∀ i : grid13.Coords, EltTy.bits .f32 = 32 ∨ (Rect.block (s := S200000x128) S4000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4000x128.size a ≤ S200000x128.size a
  hwx13_1 : ∀ i : grid13.Coords, EltTy.bits .f32 = 32 ∨ (Rect.block (s := S200000x128) S4000x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S4000x1.size a ≤ S200000x1.size a
  hwx13_2 : ∀ i : grid13.Coords, EltTy.bits .f32 = 32 ∨ (Rect.block (s := S200000x1) S4000x1.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4000x128.size a ≤ S200000x128.size a
  hwx13_3 : ∀ i : grid13.Coords, EltTy.bits .f32 = 32 ∨ (Rect.block (s := S200000x128) S4000x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S4000x128.size a ≤ S200000x128.size a
  hwx13_4 : ∀ i : grid13.Coords, EltTy.bits .f32 = 32 ∨ (Rect.block (s := S200000x128) S4000x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S4000x128.size a ≤ S200000x128.size a
  hwx13_5 : ∀ i : grid13.Coords, EltTy.bits .f32 = 32 ∨ (Rect.block (s := S200000x128) S4000x128.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4000x64.size a ≤ S200000x64.size a
  hwx14_0 : ∀ i : grid14.Coords, EltTy.bits .f32 = 32 ∨ (Rect.block (s := S200000x64) S4000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S4000x64.size a ≤ S200000x64.size a
  hwx14_1 : ∀ i : grid14.Coords, EltTy.bits .f32 = 32 ∨ (Rect.block (s := S200000x64) S4000x64.size (cc14_transform_1 i) (hinb14_1 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4000x128.size a ≤ S200000x128.size a
  hwx15_0 : ∀ i : grid15.Coords, EltTy.bits .f32 = 32 ∨ (Rect.block (s := S200000x128) S4000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S4000x128.size a ≤ S200000x128.size a
  hwx15_1 : ∀ i : grid15.Coords, EltTy.bits .f32 = 32 ∨ (Rect.block (s := S200000x128) S4000x128.size (cc15_transform_1 i) (hinb15_1 i)).WholeWords (EltTy.packing .f32)

variable [Facts₀]

def gather_S1000000x128_S1000000x1_S1000000x128_1_0_n_n_0_1_1128 : GatherDims S1000000x128 S1000000x1 S1000000x128 where
  offsetDims := [1]
  collapsedSliceDims := [0]
  operandBatchingDims := []
  startIndicesBatchingDims := []
  startIndexMap := [0]
  indexVectorDim := 1
  sliceSizes := ![1, 128]
  wf := gather_S1000000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def gather_S200000x1_S1000000x1_S1000000x1_1_0_n_n_0_1_11 : GatherDims S200000x1 S1000000x1 S1000000x1 where
  offsetDims := [1]
  collapsedSliceDims := [0]
  operandBatchingDims := []
  startIndicesBatchingDims := []
  startIndexMap := [0]
  indexVectorDim := 1
  sliceSizes := ![1, 1]
  wf := gather_S200000x1_S1000000x1_S1000000x1_1_0_n_n_0_1_11_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S4000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v24) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v36) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v43) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v66) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v25) S4000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg0) S4000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v93_0) S4000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v93_1) S4000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v86) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v25) S4000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v24) S4000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v94_0) S4000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v94_1) S4000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v93_0) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v25) S4000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v95) S4000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v94_0) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v25) S4000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v96) S4000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v103) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v124) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v117) S10000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v132) S10000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v110) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v131) S10000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v117) S10000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v133) S10000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v150) S4000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v156) S4000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v25) S4000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v93_1) S4000x64.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v160_0) S4000x64.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v160_1) S4000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v153) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v159) S4000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v25) S4000x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v94_1) S4000x128.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v161_0) S4000x128.size cc13_transform_4 reads13_4 true false 2 stage13_4 sem13_4
    hrank13 hreads13_4 hinb13_4 nbuf13_4 (Memref.isWhole_whole _) hwx13_4 hstage13_4

abbrev win13_5 : Pipeline.Window sig grid13 :=
  Pipeline.Window.ofSpec (Memref.whole main_v161_1) S4000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v160_1) S4000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v162) S4000x64.size cc14_transform_1 reads14_1 true false 2 stage14_1 sem14_1
    hrank14 hreads14_1 hinb14_1 nbuf14_1 (Memref.isWhole_whole _) hwx14_1 hstage14_1

abbrev win14 : Fin 2 → Pipeline.Window sig grid14 := fun | 0 => win14_0 | 1 => win14_1 | ⟨_ + 2, h⟩ => absurd h (Nat.not_lt.2 (Nat.le_add_left _ _))
abbrev spec14 : Fin 2 → Pipeline.WinSpec sig grid14.rank := fun w => (win14 w).toWinSpec

abbrev win15_0 : Pipeline.Window sig grid15 :=
  Pipeline.Window.ofSpec (Memref.whole main_v161_1) S4000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v163) S4000x128.size cc15_transform_1 reads15_1 true false 2 stage15_1 sem15_1
    hrank15 hreads15_1 hinb15_1 nbuf15_1 (Memref.isWhole_whole _) hwx15_1 hstage15_1

abbrev win15 : Fin 2 → Pipeline.Window sig grid15 := fun | 0 => win15_0 | 1 => win15_1 | ⟨_ + 2, h⟩ => absurd h (Nat.not_lt.2 (Nat.le_add_left _ _))
abbrev spec15 : Fin 2 → Pipeline.WinSpec sig grid15.rank := fun w => (win15 w).toWinSpec

class Facts : Prop extends Facts₀ where

variable [Facts]
-- ==== ReferenceIdeal.lean ====
abbrev S200000x64 : Shape := ⟨2, ![200000, 64]⟩
abbrev S1000000x128 : Shape := ⟨2, ![1000000, 128]⟩
abbrev S50000x192 : Shape := ⟨2, ![50000, 192]⟩
abbrev S1000000 : Shape := ⟨1, ![1000000]⟩
abbrev S_ : Shape := ⟨0, ![]⟩
abbrev S200000 : Shape := ⟨1, ![200000]⟩
abbrev S1000000x1 : Shape := ⟨2, ![1000000, 1]⟩
abbrev S200000x128 : Shape := ⟨2, ![200000, 128]⟩
abbrev S200000x1 : Shape := ⟨2, ![200000, 1]⟩
abbrev S200000x192 : Shape := ⟨2, ![200000, 192]⟩
abbrev S1000000x192 : Shape := ⟨2, ![1000000, 192]⟩

abbrev nBuf : Space → Nat
  | .hbm => 164
  | .vmem => 0
  | .smem => 0
  | _ => 0

abbrev hbmTy0_0 (i : Nat) : BufTy := match i % 128 with
  | 0 => ⟨S200000x64, .f32⟩
  | 1 => ⟨S1000000x128, .f32⟩
  | 2 => ⟨S50000x192, .f32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S_, .f32⟩
  | 9 => ⟨S1000000, .f32⟩
  | 10 => ⟨S_, .f32⟩
  | 11 => ⟨S1000000, .f32⟩
  | 12 => ⟨S_, .f32⟩
  | 13 => ⟨S200000, .f32⟩
  | 14 => ⟨S1000000x1, .i32⟩
  | 15 => ⟨S200000, .f32⟩
  | 16 => ⟨S_, .f32⟩
  | 17 => ⟨S_, .f32⟩
  | 18 => ⟨S200000, .f32⟩
  | 19 => ⟨S200000, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .f32⟩
  | 30 => ⟨S200000x128, .f32⟩
  | 31 => ⟨S1000000x1, .i32⟩
  | 32 => ⟨S200000x128, .f32⟩
  | 33 => ⟨S200000x1, .f32⟩
  | 34 => ⟨S200000x128, .f32⟩
  | 35 => ⟨S200000x128, .f32⟩
  | 36 => ⟨S200000x192, .f32⟩
  | 37 => ⟨S_, .f32⟩
  | 38 => ⟨S200000, .f32⟩
  | 39 => ⟨S1000000x1, .i32⟩
  | 40 => ⟨S200000, .f32⟩
  | 41 => ⟨S_, .f32⟩
  | 42 => ⟨S200000, .f32⟩
  | 43 => ⟨S1000000x1, .i32⟩
  | 44 => ⟨S200000, .f32⟩
  | 45 => ⟨S200000, .f32⟩
  | 46 => ⟨S_, .f32⟩
  | 47 => ⟨S_, .f32⟩
  | 48 => ⟨S200000, .f32⟩
  | 49 => ⟨S200000, .f32⟩
  | 50 => ⟨S200000, .f32⟩
  | 51 => ⟨S_, .f32⟩
  | 52 => ⟨S200000, .f32⟩
  | 53 => ⟨S200000, .f32⟩
  | 54 => ⟨S200000x1, .f32⟩
  | 55 => ⟨S200000x192, .f32⟩
  | 56 => ⟨S200000x192, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x192, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x192, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x1, .f32⟩
  | 84 => ⟨S1000000x192, .f32⟩
  | 85 => ⟨S1000000x192, .f32⟩
  | 86 => ⟨S1000000x192, .f32⟩
  | 87 => ⟨S_, .f32⟩
  | 88 => ⟨S200000x192, .f32⟩
  | 89 => ⟨S1000000x1, .i32⟩
  | 90 => ⟨S200000x192, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x192, .f32⟩
  | 100 => ⟨S_, .f32⟩
  | 101 => ⟨S200000x192, .f32⟩
  | 102 => ⟨S1000000x1, .i32⟩
  | 103 => ⟨S200000x192, .f32⟩
  | 104 => ⟨S200000x192, .f32⟩
  | 105 => ⟨S200000x192, .f32⟩
  | 106 => ⟨S200000x192, .f32⟩
  | 107 => ⟨S200000x192, .f32⟩
  | 108 => ⟨S200000x192, .f32⟩
  | 109 => ⟨S200000x192, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x192, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x192, .f32⟩
  | _ => ⟨S200000x64, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x1, .f32⟩
  | 9 => ⟨S1000000x192, .f32⟩
  | 10 => ⟨S1000000x192, .f32⟩
  | 11 => ⟨S1000000x192, .f32⟩
  | 12 => ⟨S_, .f32⟩
  | 13 => ⟨S200000x192, .f32⟩
  | 14 => ⟨S1000000x1, .i32⟩
  | 15 => ⟨S200000x192, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x192, .f32⟩
  | 25 => ⟨S_, .f32⟩
  | 26 => ⟨S200000x192, .f32⟩
  | 27 => ⟨S1000000x1, .i32⟩
  | 28 => ⟨S200000x192, .f32⟩
  | 29 => ⟨S200000x192, .f32⟩
  | 30 => ⟨S200000x192, .f32⟩
  | 31 => ⟨S200000x192, .f32⟩
  | 32 => ⟨S200000x192, .f32⟩
  | 33 => ⟨S_, .f32⟩
  | 34 => ⟨S200000x192, .f32⟩
  | 35 => ⟨S200000x192, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_11 : Ref sig .tc := ⟨.hbm, 66, rfl⟩
abbrev main_v41 : Ref sig .tc := ⟨.hbm, 67, rfl⟩
abbrev main_v42 : Ref sig .tc := ⟨.hbm, 68, rfl⟩
abbrev main_c_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_c_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_16 : Ref sig .tc := ⟨.hbm, 91, rfl⟩
abbrev main_v61 : Ref sig .tc := ⟨.hbm, 92, rfl⟩
abbrev main_v62 : Ref sig .tc := ⟨.hbm, 93, rfl⟩
abbrev main_c_17 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_21 : Ref sig .tc := ⟨.hbm, 119, rfl⟩
abbrev main_v84 : Ref sig .tc := ⟨.hbm, 120, rfl⟩
abbrev main_v85 : Ref sig .tc := ⟨.hbm, 121, rfl⟩
abbrev main_c_22 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_23 : Ref sig .tc := ⟨.hbm, 128, rfl⟩
abbrev main_v91 : Ref sig .tc := ⟨.hbm, 129, rfl⟩
abbrev main_v92 : Ref sig .tc := ⟨.hbm, 130, rfl⟩
abbrev main_c_24 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_25 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_26 : Ref sig .tc := ⟨.hbm, 144, rfl⟩
abbrev main_v104 : Ref sig .tc := ⟨.hbm, 145, rfl⟩
abbrev main_v105 : Ref sig .tc := ⟨.hbm, 146, rfl⟩
abbrev main_c_27 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_28 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_29 : Ref sig .tc := ⟨.hbm, 161, rfl⟩
abbrev main_v118 : Ref sig .tc := ⟨.hbm, 162, rfl⟩
abbrev main_v119 : Ref sig .tc := ⟨.hbm, 163, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x64_S200000x128_S200000x192_d1 : Shape.Concatenates [S200000x64, S200000x128] S200000x192 1
  bcast_S200000x1_S200000x192_0_1 : S200000x1.BroadcastsInDim S200000x192 (![0, 1] : Fin 2 → Fin S200000x192.rank)
  bcast_S1000000x1_S1000000x192_0_1 : S1000000x1.BroadcastsInDim S1000000x192 (![0, 1] : Fin 2 → Fin S1000000x192.rank)
  bcast_S_S200000x192 : S_.BroadcastsInDim S200000x192 (![] : Fin 0 → Fin S200000x192.rank)
  scatter_S200000_S1000000x1_S1000000_n_0_0_1_wf : ScatterDims.WF S200000 S1000000x1 S1000000 [] [0] [0] 1
  gather_S1000000x128_S1000000x1_S1000000x128_1_0_n_n_0_1_1128_wf : GatherDims.WF S1000000x128 S1000000x1 S1000000x128 [1] [0] [] [0] [] 1 ![1, 128]
  scatter_S200000x128_S1000000x1_S1000000x128_1_0_0_1_wf : ScatterDims.WF S200000x128 S1000000x1 S1000000x128 [1] [0] [0] 1
  gather_S200000x192_S1000000x1_S1000000x192_1_0_n_n_0_1_1192_wf : GatherDims.WF S200000x192 S1000000x1 S1000000x192 [1] [0] [] [0] [] 1 ![1, 192]
  gather_S50000x192_S1000000x1_S1000000x192_1_0_n_n_0_1_1192_wf : GatherDims.WF S50000x192 S1000000x1 S1000000x192 [1] [0] [] [0] [] 1 ![1, 192]
  gather_S200000x1_S1000000x1_S1000000x1_1_0_n_n_0_1_11_wf : GatherDims.WF S200000x1 S1000000x1 S1000000x1 [1] [0] [] [0] [] 1 ![1, 1]
  scatter_S200000x192_S1000000x1_S1000000x192_1_0_0_1_wf : ScatterDims.WF S200000x192 S1000000x1 S1000000x192 [1] [0] [0] 1

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S1000000x128_S1000000x1_S1000000x128_1_0_n_n_0_1_1128 : GatherDims S1000000x128 S1000000x1 S1000000x128 where
  offsetDims := [1]
  collapsedSliceDims := [0]
  operandBatchingDims := []
  startIndicesBatchingDims := []
  startIndexMap := [0]
  indexVectorDim := 1
  sliceSizes := ![1, 128]
  wf := gather_S1000000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def gather_S200000x192_S1000000x1_S1000000x192_1_0_n_n_0_1_1192 : GatherDims S200000x192 S1000000x1 S1000000x192 where
  offsetDims := [1]
  collapsedSliceDims := [0]
  operandBatchingDims := []
  startIndicesBatchingDims := []
  startIndexMap := [0]
  indexVectorDim := 1
  sliceSizes := ![1, 192]
  wf := gather_S200000x192_S1000000x1_S1000000x192_1_0_n_n_0_1_1192_wf
def gather_S50000x192_S1000000x1_S1000000x192_1_0_n_n_0_1_1192 : GatherDims S50000x192 S1000000x1 S1000000x192 where
  offsetDims := [1]
  collapsedSliceDims := [0]
  operandBatchingDims := []
  startIndicesBatchingDims := []
  startIndexMap := [0]
  indexVectorDim := 1
  sliceSizes := ![1, 192]
  wf := gather_S50000x192_S1000000x1_S1000000x192_1_0_n_n_0_1_1192_wf
def gather_S200000x1_S1000000x1_S1000000x1_1_0_n_n_0_1_11 : GatherDims S200000x1 S1000000x1 S1000000x1 where
  offsetDims := [1]
  collapsedSliceDims := [0]
  operandBatchingDims := []
  startIndicesBatchingDims := []
  startIndexMap := [0]
  indexVectorDim := 1
  sliceSizes := ![1, 1]
  wf := gather_S200000x1_S1000000x1_S1000000x1_1_0_n_n_0_1_11_wf
def scatter_S200000x192_S1000000x1_S1000000x192_1_0_0_1 : ScatterDims S200000x192 S1000000x1 S1000000x192 where
  updateWindowDims := [1]
  insertedWindowDims := [0]
  scatterDimsToOperandDims := [0]
  indexVectorDim := 1
  wf := scatter_S200000x192_S1000000x1_S1000000x192_1_0_0_1_wf

class Facts : Prop extends Facts₀ where

variable [Facts]
-- ==== Proof.ColSpec.lean ====
/-
  One column of the message-passing computation, as a function of that column of the inputs.

  Every operation of the computation moves or combines whole ROWS and treats the columns alike: a gather
  `x[idx]` copies row `g e` of `x` to row `e`; a segment sum adds row `e` of the updates into row `s e` of the
  result (dropping the rows that land nowhere); everything else is pointwise, with a factor that depends on
  the row only. So the value at `(r, col)` of every intermediate array is a function of the column `col` of
  the arrays it is computed from, and that function does not depend on how many columns there are beside it.
  This file states that function once, over abstract row maps; nothing here mentions a program.

  Rows: `200000` entities, `1000000` reviews, `50000` queries, `1000000` edges of each kind.
-/
import Idealize.ShloMosaic.PureOps.Ideal

noncomputable section

namespace Cert.Col

open Idealize.ShloMosaic

/-- The programs' literal `1.0`, read at the ideal instance. -/
abbrev one : EReal := Ideal.ofBits .f32 0x3F800000#32
/-- The programs' literal `0.0`, the contents a segment sum starts from. -/
abbrev zero : EReal := Ideal.ofBits .f32 0x00000000#32
/-- The reference's literal `3.0`. -/
abbrev three : EReal := Ideal.ofBits .f32 0x40400000#32

/-- The row maps of the five index arrays: where a gather reads (`g…`, always a row: out-of-range indices are
    clamped) and where a segment sum writes (`s…`, a row or nowhere: out-of-range updates are dropped). -/
structure Rows where
  /-- `review_h[prof_src]`: the review row edge `e` reads. -/
  gP : Fin 1000000 → Fin 1000000
  /-- the entity row a `profiles` edge adds into (`prof_dst`). -/
  sP : Fin 1000000 → Option (Fin 200000)
  /-- `x[pur_src]`: the entity row edge `e` reads. -/
  gS : Fin 1000000 → Fin 200000
  /-- `x[pur_dst]`. -/
  gD : Fin 1000000 → Fin 200000
  /-- the entity row a segment sum over `pur_src` adds into. -/
  sS : Fin 1000000 → Option (Fin 200000)
  /-- the entity row a segment sum over `pur_dst` adds into. -/
  sD : Fin 1000000 → Option (Fin 200000)
  /-- `query_e0[q_id]`: the query row edge `e` reads. -/
  gQ : Fin 1000000 → Fin 50000

/-- A segment sum of one column: the zero it starts from plus the updates of the edges that land on row `r`. -/
def seg (s : Fin 1000000 → Option (Fin 200000)) (u : Fin 1000000 → EReal) (r : Fin 200000) : EReal :=
  zero + ∑ e ∈ Finset.univ.filter (fun e : Fin 1000000 => s e = some r), u e

/-- A column of `entity_h`: the mean of the reviews profiling an entity, the count clamped below by one. -/
def entH (R : Rows) (rh : Fin 1000000 → EReal) (r : Fin 200000) : EReal :=
  Ideal.div (seg R.sP (fun e => rh (R.gP e)) r) (max one (seg R.sP (fun _ => one) r))

/-- The degree normaliser `1 / sqrt (max 1 (out-degree + in-degree))` of an entity. -/
def inv (R : Rows) (r : Fin 200000) : EReal :=
  Ideal.div one (Ideal.sqrt (max one (seg R.sS (fun _ => one) r + seg R.sD (fun _ => one) r)))

/-- One convolution of a column `e` of entity embeddings, `q` the same column of the query embeddings:
    forward messages `e[src] + q[q_id] · inv[src]` summed at `dst`, backward messages `(e · inv)[dst]` summed at
    `src`, the total scaled by `inv`. -/
def step (R : Rows) (q : Fin 50000 → EReal) (e : Fin 200000 → EReal) (r : Fin 200000) : EReal :=
  (seg R.sD (fun i => e (R.gS i) + q (R.gQ i) * inv R (R.gS i)) r
    + seg R.sS (fun i => e (R.gD i) * inv R (R.gD i)) r) * inv R r

/-- The column after the first convolution. -/
def e1 (R : Rows) (q : Fin 50000 → EReal) (e0 : Fin 200000 → EReal) : Fin 200000 → EReal := step R q e0
/-- The running sum after the first convolution. -/
def acc1 (R : Rows) (q : Fin 50000 → EReal) (e0 : Fin 200000 → EReal) (r : Fin 200000) : EReal := e0 r + e1 R q e0 r
/-- The column after the second convolution. -/
def e2 (R : Rows) (q : Fin 50000 → EReal) (e0 : Fin 200000 → EReal) : Fin 200000 → EReal := step R q (e1 R q e0)
/-- The sum of the initial column and the two convolved ones: what is averaged at the end. -/
def acc2 (R : Rows) (q : Fin 50000 → EReal) (e0 : Fin 200000 → EReal) (r : Fin 200000) : EReal := acc1 R q e0 r + e2 R q e0 r

/-- Dividing by the literal three is multiplying by the real third, on every extended real. -/
theorem div_three (x : EReal) : Ideal.div x three = x * ((1 / 3 : ℝ) : EReal) := by
  have h3 : three = ((3 : ℝ) : EReal) := by
    simp [three, Ideal.ofBits, Ideal.ieee, -EReal.coe_mul]; norm_num
  rw [h3]
  exact Ideal.div_coe (by norm_num) x

end Cert.Col

end
-- ==== Proof.KRun.lean ====
import proofs.«137020_j48936857370759_1_alg».proof.Proof.Gen.KernelIdeal.Frame

/-! # The idealized kernel's run, with its result named

Every weakly fair execution of the idealized program's entry function, from any memory with zero counters, ends
without a fault; at the end the result buffer holds the last boundary's contents of the generated fold through the
program's segments, and every argument array is as launched. This is the launch theorem over the generated
segments, whose final thread state pins every unscoped buffer; the post-condition reads the result buffer as well
as the arguments. -/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run at any float instance: termination without a fault, the result buffer at the fold's last boundary, the
    arguments as launched. -/
theorem run_value_any : θ_run defs (onTc (τ := τ) (main (F := F))) ⟨m, fun _ => 0, ρ⟩ (fun r => ∀ c : Dev nD,
      r.2.mem ((c.tc : Thread nD τ).loc main_v164) = Gen.W23 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v164 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c)⟩)

/-- The run at the exact instance (floats are extended reals). -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v164) = Gen.W23 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_value_any (F := Ideal) m ρ

end Cert.KernelIdeal.Run
-- ==== Proof.KWireDefs.lean ====
import proofs.«137020_j48936857370759_1_alg».proof.Proof.Gen.KernelIdeal

/-! # The host stretches' index columns and zero arrays, named once

The host operations between the regions turn each integer index array into the column a gather or a scatter
takes. A gather's index is first normalised: a negative entry is shifted up by the extent of the axis it indexes
(200000 rows for the two edge-endpoint arrays, 50000 for the query ids), and the result becomes a one-column
matrix. A scatter takes the raw array as a one-column matrix. Every scatter-add accumulates into an all-zero
array. These few terms recur in every statement about a buffer a host stretch computes, so each gets a name. -/

noncomputable section

namespace Cert.KernelIdeal.Wire

open Idealize.ShloMosaic
open Cert.KernelIdeal Cert.KernelIdeal.Facts₀ Cert.KernelIdeal.Facts

/-- A length-1000000 integer array as a one-column matrix (what a scatter takes as its index operand). -/
def bcast1 (a : (⟨S1000000, .i32⟩ : BufTy).Contents (Elt Ideal)) : (⟨S1000000x1, .i32⟩ : BufTy).Contents (Elt Ideal) :=
  broadcastInDim S1000000x1 ![0] bcast_S1000000_S1000000x1_0 a

/-- The first edge-endpoint array as a gather index into 200000 rows: a negative entry shifted up by 200000. -/
def nSrc (a5 : (⟨S1000000, .i32⟩ : BufTy).Contents (Elt Ideal)) : (⟨S1000000x1, .i32⟩ : BufTy).Contents (Elt Ideal) :=
  broadcastInDim S1000000x1 ![0] bcast_S1000000_S1000000x1_0
    (select (cmpi .slt a5 (broadcastInDim S1000000 ![] bcast_S_S1000000 (constantI S_ 32 0#32)))
      (addi a5 (broadcastInDim S1000000 ![] bcast_S_S1000000 (constantI S_ 32 200000#32))) a5)

/-- The second edge-endpoint array as a gather index into 200000 rows: a negative entry shifted up by 200000. -/
def nDst (a6 : (⟨S1000000, .i32⟩ : BufTy).Contents (Elt Ideal)) : (⟨S1000000x1, .i32⟩ : BufTy).Contents (Elt Ideal) :=
  broadcastInDim S1000000x1 ![0] bcast_S1000000_S1000000x1_0
    (select (cmpi .slt a6 (broadcastInDim S1000000 ![] bcast_S_S1000000 (constantI S_ 32 0#32)))
      (addi a6 (broadcastInDim S1000000 ![] bcast_S_S1000000 (constantI S_ 32 200000#32))) a6)

/-- The query-id array as a gather index into 50000 rows: a negative entry shifted up by 50000. -/
def nQ (a7 : (⟨S1000000, .i32⟩ : BufTy).Contents (Elt Ideal)) : (⟨S1000000x1, .i32⟩ : BufTy).Contents (Elt Ideal) :=
  broadcastInDim S1000000x1 ![0] bcast_S1000000_S1000000x1_0
    (select (cmpi .slt a7 (broadcastInDim S1000000 ![] bcast_S_S1000000 (constantI S_ 32 0#32)))
      (addi a7 (broadcastInDim S1000000 ![] bcast_S_S1000000 (constantI S_ 32 50000#32))) a7)

/-- The all-zero 200000 × 64 array a scatter-add accumulates into. -/
def zero64 : (⟨S200000x64, .f32⟩ : BufTy).Contents (Elt Ideal) :=
  broadcastInDim S200000x64 ![] bcast_S_S200000x64 (constant (F := Ideal) S_ .f32 0x00000000#32)

/-- The all-zero 200000 × 128 array a scatter-add accumulates into. -/
def zero128 : (⟨S200000x128, .f32⟩ : BufTy).Contents (Elt Ideal) :=
  broadcastInDim S200000x128 ![] bcast_S_S200000x128 (constant (F := Ideal) S_ .f32 0x00000000#32)

/-- The gather index into the 1000000 rows of the first float argument's companion: a negative entry shifted up by 1000000. -/
def nProf (a3 : (⟨S1000000, .i32⟩ : BufTy).Contents (Elt Ideal)) : (⟨S1000000x1, .i32⟩ : BufTy).Contents (Elt Ideal) :=
  broadcastInDim S1000000x1 ![0] bcast_S1000000_S1000000x1_0
    (select (cmpi .slt a3 (broadcastInDim S1000000 ![] bcast_S_S1000000 (constantI S_ 32 0#32)))
      (addi a3 (broadcastInDim S1000000 ![] bcast_S_S1000000 (constantI S_ 32 1000000#32))) a3)

/-- The all-zero vector of 200000 entries a counting scatter-add accumulates into. -/
def zero1 : (⟨S200000, .f32⟩ : BufTy).Contents (Elt Ideal) :=
  broadcastInDim S200000 ![] bcast_S_S200000 (constant (F := Ideal) S_ .f32 0x00000000#32)

/-- The vector of a million ones a counting scatter-add adds up. -/
def ones : (⟨S1000000, .f32⟩ : BufTy).Contents (Elt Ideal) :=
  broadcastInDim S1000000 ![] bcast_S_S1000000 (constant (F := Ideal) S_ .f32 0x3F800000#32)

/-- A vector of 200000 entries as a one-column matrix. -/
def col (a : (⟨S200000, .f32⟩ : BufTy).Contents (Elt Ideal)) : (⟨S200000x1, .f32⟩ : BufTy).Contents (Elt Ideal) :=
  broadcastInDim S200000x1 ![0] bcast_S200000_S200000x1_0 a

/-- Columns `[0, 64)` of a 50000 × 192 matrix. -/
def sliceLo (a : (⟨S50000x192, .f32⟩ : BufTy).Contents (Elt Ideal)) : (⟨S50000x64, .f32⟩ : BufTy).Contents (Elt Ideal) :=
  extractStridedSlice S50000x64 ![0, 0] a slices_S50000x192_S50000x64_0_0

/-- Columns `[64, 192)` of a 50000 × 192 matrix. -/
def sliceHi (a : (⟨S50000x192, .f32⟩ : BufTy).Contents (Elt Ideal)) : (⟨S50000x128, .f32⟩ : BufTy).Contents (Elt Ideal) :=
  extractStridedSlice S50000x128 ![0, 64] a slices_S50000x192_S50000x128_0_64

end Cert.KernelIdeal.Wire

end
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.KColBase.lean ====
/-
  Small reads shared by the kernel's two tracks: the host-side index columns as row maps, and the constant
  arrays, the one-column form of a vector and the two column slices of the query embeddings at an index.
-/
import proofs.«137020_j48936857370759_1_alg».proof.Proof.KWireDefs
import proofs.«137020_j48936857370759_1_alg».proof.Proof.LibRowOps
import proofs.«137020_j48936857370759_1_alg».proof.Proof.ColSpec
import Idealize.ShloMosaic.Lib.ValueIdx
import Idealize.ShloMosaic.Lib.Pipeline.Value

noncomputable section

namespace Cert.KernelIdeal.KCol

open Idealize.ShloMosaic Idealize.ShloMosaic.ValueIdx
open Cert.KernelIdeal Cert.KernelIdeal.Facts₀ Cert.KernelIdeal.Facts Cert.KernelIdeal.Wire Cert.RowOps

/-- The row maps the kernel's host side uses, read off its five index arguments: a gather reads the row its
    normalised, clamped index names; a segment sum writes the row its raw index names, or nowhere. -/
def rows (a3 a4 a5 a6 a7 : (⟨S1000000, .i32⟩ : BufTy).Contents (Elt Ideal)) : Cert.Col.Rows where
  gP := fun e => gatherRow 1000000 (by decide) (nProf a3 (ix2 e (0 : Fin 1)))
  sP := fun e => scatterRow 200000 (bcast1 a4 (ix2 e (0 : Fin 1)))
  gS := fun e => gatherRow 200000 (by decide) (nSrc a5 (ix2 e (0 : Fin 1)))
  gD := fun e => gatherRow 200000 (by decide) (nDst a6 (ix2 e (0 : Fin 1)))
  sS := fun e => scatterRow 200000 (bcast1 a5 (ix2 e (0 : Fin 1)))
  sD := fun e => scatterRow 200000 (bcast1 a6 (ix2 e (0 : Fin 1)))
  gQ := fun e => gatherRow 50000 (by decide) (nQ a7 (ix2 e (0 : Fin 1)))

/-- Every entry of the zero arrays is the literal zero. -/
theorem zero64_apply (i : S200000x64.Idx) : zero64 i = Cert.Col.zero := rfl
theorem zero128_apply (i : S200000x128.Idx) : zero128 i = Cert.Col.zero := rfl
theorem zero1_apply (i : S200000.Idx) : zero1 i = Cert.Col.zero := rfl
/-- Every entry of the vector a count sums is the literal one. -/
theorem ones_apply (i : S1000000.Idx) : ones i = Cert.Col.one := rfl

/-- A vector as a one-column matrix, read at `(r, 0)`. -/
theorem col_apply (a : (⟨S200000, .f32⟩ : BufTy).Contents (Elt Ideal)) (r : Fin 200000) : col a (ix2 r (0 : Fin 1)) = a (ix1 r) := by
  unfold col
  exact broadcastInDim_apply _ bcast_S200000_S200000x1_0 a _ (ix1 r) (fun b => by
    match b with
    | ⟨0, _⟩ => rfl)

/-- The left 64 columns of the query embeddings are its columns `0 … 63`. -/
theorem sliceLo_apply (a : (⟨S50000x192, .f32⟩ : BufTy).Contents (Elt Ideal)) (n : Fin 50000) (q : Fin 64) :
    sliceLo a (ix2 n q) = a (ix2 n ⟨q.val, by omega⟩) := by
  unfold sliceLo
  exact extractStridedSlice_apply _ a slices_S50000x192_S50000x64_0_0 _ _ (fun b => by
    match b with
    | ⟨0, _⟩ => simp [ix2]
    | ⟨1, _⟩ => simp [ix2])

/-- The right 128 columns of the query embeddings are its columns `64 … 191`. -/
theorem sliceHi_apply (a : (⟨S50000x192, .f32⟩ : BufTy).Contents (Elt Ideal)) (n : Fin 50000) (q : Fin 128) :
    sliceHi a (ix2 n q) = a (ix2 n ⟨64 + q.val, by omega⟩) := by
  unfold sliceHi
  exact extractStridedSlice_apply _ a slices_S50000x192_S50000x128_0_64 _ _ (fun b => by
    match b with
    | ⟨0, _⟩ => simp [ix2]
    | ⟨1, _⟩ => simp [ix2])

end Cert.KernelIdeal.KCol

end
-- ==== Proof.KWireHostA.lean ====
import proofs.«137020_j48936857370759_1_alg».proof.Proof.Gen.KernelIdeal.Launch
import proofs.«137020_j48936857370759_1_alg».proof.Proof.KWireDefs
import Idealize.ShloMosaic.Lib.StableHlo.Run

/-! # The host stretches of the first half of the program, read as functions of their entry contents

The idealized program's entry function alternates pipelined regions with stretches of host operations. For the
stretches before region 8 this module states, for any contents `W` of the buffers when the stretch is entered,
(i) that a buffer the stretch does not write holds afterwards what it held before, and (ii) what each buffer a
later region reads holds afterwards: a scatter-add of gathered rows into a zero array, a gather of rows by a
normalised index column, a column slice. -/

noncomputable section

namespace Cert.KernelIdeal.Wire

open Idealize.ShloMosaic Idealize.ShloMosaic.TcCoe
open Cert.KernelIdeal Cert.KernelIdeal.Gen

/-! ## What each stretch leaves alone -/

/-- The references stretch 0 writes. -/
abbrev written0 : List (Ref sig .tc) := [main_cst, main_v0, main_cst_0, main_v1, main_c, main_v2, main_v3, main_c_1, main_v4, main_v5, main_v6, main_v7, main_v8, main_cst_2, main_v9, main_v10, main_v11, main_cst_3, main_v12, main_v13, main_v14, main_v15, main_cst_4, main_v16, main_v17, main_v18, main_v19, main_cst_5, main_v20, main_v21, main_v22, main_v23]
theorem hostOps0_writes : (hostOps0 : List (HloOp τ sig (Elt Ideal))).Forall fun op =>
    op.writes ⊆ (written0.map (Proc.devRef (τ := τ) .tc)).toFinset := by
  simp only [List.Forall]
  simp only [StableHlo.nullary_writes, StableHlo.unary_writes, StableHlo.binary_writes, StableHlo.ternary_writes,
    Finset.singleton_subset_iff, List.mem_toFinset]
  repeat' apply And.intro
  all_goals exact List.mem_map_of_mem (by decide)
/-- A reference stretch 0 does not write keeps its contents across it. -/
theorem keep0 (W : Valuation τ sig (Elt Ideal)) (r : Ref sig .tc) (h : r ∉ written0) :
    StableHlo.after hostOps0 W (Proc.devRef .tc r) = W (Proc.devRef .tc r) :=
  StableHlo.after_of_writes_sub hostOps0 W hostOps0_writes h

/-- The references stretch 2 writes. -/
abbrev written2 : List (Ref sig .tc) := [main_v26, main_v27]
theorem hostOps2_writes : (hostOps2 : List (HloOp τ sig (Elt Ideal))).Forall fun op =>
    op.writes ⊆ (written2.map (Proc.devRef (τ := τ) .tc)).toFinset := by
  simp only [List.Forall]
  simp only [StableHlo.nullary_writes, StableHlo.unary_writes, StableHlo.binary_writes, StableHlo.ternary_writes,
    Finset.singleton_subset_iff, List.mem_toFinset]
  repeat' apply And.intro
  all_goals exact List.mem_map_of_mem (by decide)
/-- A reference stretch 2 does not write keeps its contents across it. -/
theorem keep2 (W : Valuation τ sig (Elt Ideal)) (r : Ref sig .tc) (h : r ∉ written2) :
    StableHlo.after hostOps2 W (Proc.devRef .tc r) = W (Proc.devRef .tc r) :=
  StableHlo.after_of_writes_sub hostOps2 W hostOps2_writes h

/-- The references stretch 4 writes. -/
abbrev written4 : List (Ref sig .tc) := [main_c_6, main_v30, main_v31, main_c_7, main_v32, main_v33, main_v34, main_v35, main_v36, main_c_8, main_v37, main_v38, main_c_9, main_v39, main_v40, main_v41, main_v42, main_v43, main_c_10, main_v44, main_v45, main_c_11, main_v46, main_v47, main_v48, main_v49, main_v50, main_c_12, main_v51, main_v52, main_c_13, main_v53, main_v54, main_v55, main_v56, main_v57, main_c_14, main_v58, main_v59, main_c_15, main_v60, main_v61, main_v62, main_v63, main_v64]
theorem hostOps4_writes : (hostOps4 : List (HloOp τ sig (Elt Ideal))).Forall fun op =>
    op.writes ⊆ (written4.map (Proc.devRef (τ := τ) .tc)).toFinset := by
  simp only [List.Forall]
  simp only [StableHlo.nullary_writes, StableHlo.unary_writes, StableHlo.binary_writes, StableHlo.ternary_writes,
    Finset.singleton_subset_iff, List.mem_toFinset]
  repeat' apply And.intro
  all_goals exact List.mem_map_of_mem (by decide)
/-- A reference stretch 4 does not write keeps its contents across it. -/
theorem keep4 (W : Valuation τ sig (Elt Ideal)) (r : Ref sig .tc) (h : r ∉ written4) :
    StableHlo.after hostOps4 W (Proc.devRef .tc r) = W (Proc.devRef .tc r) :=
  StableHlo.after_of_writes_sub hostOps4 W hostOps4_writes h

/-- The references stretch 6 writes. -/
abbrev written6 : List (Ref sig .tc) := [main_c_16, main_v67, main_v68, main_c_17, main_v69, main_v70, main_v71, main_v72, main_v73, main_c_18, main_v74, main_v75, main_c_19, main_v76, main_v77, main_v78, main_v79, main_v80, main_cst_20, main_v81, main_v82, main_v83, main_cst_21, main_v84, main_v85, main_v86, main_cst_22, main_v87, main_v88, main_v89, main_cst_23, main_v90, main_v91, main_v92]
theorem hostOps6_writes : (hostOps6 : List (HloOp τ sig (Elt Ideal))).Forall fun op =>
    op.writes ⊆ (written6.map (Proc.devRef (τ := τ) .tc)).toFinset := by
  simp only [List.Forall]
  simp only [StableHlo.nullary_writes, StableHlo.unary_writes, StableHlo.binary_writes, StableHlo.ternary_writes,
    Finset.singleton_subset_iff, List.mem_toFinset]
  repeat' apply And.intro
  all_goals exact List.mem_map_of_mem (by decide)
/-- A reference stretch 6 does not write keeps its contents across it. -/
theorem keep6 (W : Valuation τ sig (Elt Ideal)) (r : Ref sig .tc) (h : r ∉ written6) :
    StableHlo.after hostOps6 W (Proc.devRef .tc r) = W (Proc.devRef .tc r) :=
  StableHlo.after_of_writes_sub hostOps6 W hostOps6_writes h

/-! ## What each stretch computes, from any entry contents `W`

Each result buffer of a stretch, as the stretch's operations applied to the entry contents of the buffers they
read: the fold over the stretch's operations, read at the result's reference. -/

set_option maxHeartbeats 1000000 in
theorem host0_v11 (W : Valuation τ sig (Elt Ideal)) :
    StableHlo.after hostOps0 W (Proc.devRef .tc main_v11) =
      (Host.scatterAdd (F := Ideal) (φ := .f32) scatter_S200000x128_S1000000x1_S1000000x128_1_0_0_1 zero128 (bcast1 ((W (Proc.devRef .tc main_arg4) : (⟨S1000000, .i32⟩ : BufTy).Contents (Elt Ideal)))) (Host.gather gather_S1000000x128_S1000000x1_S1000000x128_1_0_n_n_0_1_1128 (W (Proc.devRef .tc main_arg1) : (⟨S1000000x128, .f32⟩ : BufTy).Contents (Elt Ideal)) (nProf ((W (Proc.devRef .tc main_arg3) : (⟨S1000000, .i32⟩ : BufTy).Contents (Elt Ideal))))) : (⟨S200000x128, .f32⟩ : BufTy).Contents (Elt Ideal)) := by
  dsimp only [hostOps0]
  after_results_simp
  rfl

set_option maxHeartbeats 1000000 in
theorem host0_v15 (W : Valuation τ sig (Elt Ideal)) :
    StableHlo.after hostOps0 W (Proc.devRef .tc main_v15) =
      (col (Host.scatterAdd (F := Ideal) (φ := .f32) scatter_S200000_S1000000x1_S1000000_n_0_0_1 zero1 (bcast1 ((W (Proc.devRef .tc main_arg4) : (⟨S1000000, .i32⟩ : BufTy).Contents (Elt Ideal)))) (ones)) : (⟨S200000x1, .f32⟩ : BufTy).Contents (Elt Ideal)) := by
  dsimp only [hostOps0]
  after_results_simp
  rfl

set_option maxHeartbeats 1000000 in
theorem host0_v19 (W : Valuation τ sig (Elt Ideal)) :
    StableHlo.after hostOps0 W (Proc.devRef .tc main_v19) =
      (col (Host.scatterAdd (F := Ideal) (φ := .f32) scatter_S200000_S1000000x1_S1000000_n_0_0_1 zero1 (bcast1 ((W (Proc.devRef .tc main_arg5) : (⟨S1000000, .i32⟩ : BufTy).Contents (Elt Ideal)))) (ones)) : (⟨S200000x1, .f32⟩ : BufTy).Contents (Elt Ideal)) := by
  dsimp only [hostOps0]
  after_results_simp
  rfl

set_option maxHeartbeats 1000000 in
theorem host0_v23 (W : Valuation τ sig (Elt Ideal)) :
    StableHlo.after hostOps0 W (Proc.devRef .tc main_v23) =
      (col (Host.scatterAdd (F := Ideal) (φ := .f32) scatter_S200000_S1000000x1_S1000000_n_0_0_1 zero1 (bcast1 ((W (Proc.devRef .tc main_arg6) : (⟨S1000000, .i32⟩ : BufTy).Contents (Elt Ideal)))) (ones)) : (⟨S200000x1, .f32⟩ : BufTy).Contents (Elt Ideal)) := by
  dsimp only [hostOps0]
  after_results_simp
  rfl

set_option maxHeartbeats 1000000 in
theorem host2_v26 (W : Valuation τ sig (Elt Ideal)) :
    StableHlo.after hostOps2 W (Proc.devRef .tc main_v26) =
      (sliceLo (W (Proc.devRef .tc main_arg2) : (⟨S50000x192, .f32⟩ : BufTy).Contents (Elt Ideal)) : (⟨S50000x64, .f32⟩ : BufTy).Contents (Elt Ideal)) := by
  dsimp only [hostOps2]
  after_results_simp
  rfl

set_option maxHeartbeats 1000000 in
theorem host2_v27 (W : Valuation τ sig (Elt Ideal)) :
    StableHlo.after hostOps2 W (Proc.devRef .tc main_v27) =
      (sliceHi (W (Proc.devRef .tc main_arg2) : (⟨S50000x192, .f32⟩ : BufTy).Contents (Elt Ideal)) : (⟨S50000x128, .f32⟩ : BufTy).Contents (Elt Ideal)) := by
  dsimp only [hostOps2]
  after_results_simp
  rfl

set_option maxHeartbeats 1000000 in
theorem host4_v36 (W : Valuation τ sig (Elt Ideal)) :
    StableHlo.after hostOps4 W (Proc.devRef .tc main_v36) =
      (Host.gather gather_S200000x64_S1000000x1_S1000000x64_1_0_n_n_0_1_164 (W (Proc.devRef .tc main_arg0) : (⟨S200000x64, .f32⟩ : BufTy).Contents (Elt Ideal)) (nSrc ((W (Proc.devRef .tc main_arg5) : (⟨S1000000, .i32⟩ : BufTy).Contents (Elt Ideal)))) : (⟨S1000000x64, .f32⟩ : BufTy).Contents (Elt Ideal)) := by
  dsimp only [hostOps4]
  after_results_simp
  rfl

set_option maxHeartbeats 1000000 in
theorem host4_v43 (W : Valuation τ sig (Elt Ideal)) :
    StableHlo.after hostOps4 W (Proc.devRef .tc main_v43) =
      (Host.gather gather_S200000x128_S1000000x1_S1000000x128_1_0_n_n_0_1_1128 (W (Proc.devRef .tc main_v24) : (⟨S200000x128, .f32⟩ : BufTy).Contents (Elt Ideal)) (nSrc ((W (Proc.devRef .tc main_arg5) : (⟨S1000000, .i32⟩ : BufTy).Contents (Elt Ideal)))) : (⟨S1000000x128, .f32⟩ : BufTy).Contents (Elt Ideal)) := by
  dsimp only [hostOps4]
  after_results_simp
  rfl

set_option maxHeartbeats 1000000 in
theorem host4_v50 (W : Valuation τ sig (Elt Ideal)) :
    StableHlo.after hostOps4 W (Proc.devRef .tc main_v50) =
      (Host.gather gather_S200000x1_S1000000x1_S1000000x1_1_0_n_n_0_1_11 (W (Proc.devRef .tc main_v25) : (⟨S200000x1, .f32⟩ : BufTy).Contents (Elt Ideal)) (nSrc ((W (Proc.devRef .tc main_arg5) : (⟨S1000000, .i32⟩ : BufTy).Contents (Elt Ideal)))) : (⟨S1000000x1, .f32⟩ : BufTy).Contents (Elt Ideal)) := by
  dsimp only [hostOps4]
  after_results_simp
  rfl

set_option maxHeartbeats 1000000 in
theorem host4_v57 (W : Valuation τ sig (Elt Ideal)) :
    StableHlo.after hostOps4 W (Proc.devRef .tc main_v57) =
      (Host.gather gather_S50000x64_S1000000x1_S1000000x64_1_0_n_n_0_1_164 (W (Proc.devRef .tc main_v26) : (⟨S50000x64, .f32⟩ : BufTy).Contents (Elt Ideal)) (nQ ((W (Proc.devRef .tc main_arg7) : (⟨S1000000, .i32⟩ : BufTy).Contents (Elt Ideal)))) : (⟨S1000000x64, .f32⟩ : BufTy).Contents (Elt Ideal)) := by
  dsimp only [hostOps4]
  after_results_simp
  rfl

set_option maxHeartbeats 1000000 in
theorem host4_v64 (W : Valuation τ sig (Elt Ideal)) :
    StableHlo.after hostOps4 W (Proc.devRef .tc main_v64) =
      (Host.gather gather_S50000x128_S1000000x1_S1000000x128_1_0_n_n_0_1_1128 (W (Proc.devRef .tc main_v27) : (⟨S50000x128, .f32⟩ : BufTy).Contents (Elt Ideal)) (nQ ((W (Proc.devRef .tc main_arg7) : (⟨S1000000, .i32⟩ : BufTy).Contents (Elt Ideal)))) : (⟨S1000000x128, .f32⟩ : BufTy).Contents (Elt Ideal)) := by
  dsimp only [hostOps4]
  after_results_simp
  rfl

set_option maxHeartbeats 1000000 in
theorem host6_v83 (W : Valuation τ sig (Elt Ideal)) :
    StableHlo.after hostOps6 W (Proc.devRef .tc main_v83) =
      (Host.scatterAdd (F := Ideal) (φ := .f32) scatter_S200000x64_S1000000x1_S1000000x64_1_0_0_1 zero64 (bcast1 ((W (Proc.devRef .tc main_arg6) : (⟨S1000000, .i32⟩ : BufTy).Contents (Elt Ideal)))) ((W (Proc.devRef .tc main_v65) : (⟨S1000000x64, .f32⟩ : BufTy).Contents (Elt Ideal))) : (⟨S200000x64, .f32⟩ : BufTy).Contents (Elt Ideal)) := by
  dsimp only [hostOps6]
  after_results_simp
  rfl

set_option maxHeartbeats 1000000 in
theorem host6_v86 (W : Valuation τ sig (Elt Ideal)) :
    StableHlo.after hostOps6 W (Proc.devRef .tc main_v86) =
      (Host.scatterAdd (F := Ideal) (φ := .f32) scatter_S200000x128_S1000000x1_S1000000x128_1_0_0_1 zero128 (bcast1 ((W (Proc.devRef .tc main_arg6) : (⟨S1000000, .i32⟩ : BufTy).Contents (Elt Ideal)))) ((W (Proc.devRef .tc main_v66) : (⟨S1000000x128, .f32⟩ : BufTy).Contents (Elt Ideal))) : (⟨S200000x128, .f32⟩ : BufTy).Contents (Elt Ideal)) := by
  dsimp only [hostOps6]
  after_results_simp
  rfl

set_option maxHeartbeats 1000000 in
theorem host6_v89 (W : Valuation τ sig (Elt Ideal)) :
    StableHlo.after hostOps6 W (Proc.devRef .tc main_v89) =
      (Host.scatterAdd (F := Ideal) (φ := .f32) scatter_S200000x64_S1000000x1_S1000000x64_1_0_0_1 zero64 (bcast1 ((W (Proc.devRef .tc main_arg5) : (⟨S1000000, .i32⟩ : BufTy).Contents (Elt Ideal)))) (Host.gather gather_S200000x64_S1000000x1_S1000000x64_1_0_n_n_0_1_164 (W (Proc.devRef .tc main_v28) : (⟨S200000x64, .f32⟩ : BufTy).Contents (Elt Ideal)) (nDst ((W (Proc.devRef .tc main_arg6) : (⟨S1000000, .i32⟩ : BufTy).Contents (Elt Ideal))))) : (⟨S200000x64, .f32⟩ : BufTy).Contents (Elt Ideal)) := by
  dsimp only [hostOps6]
  after_results_simp
  rfl

set_option maxHeartbeats 1000000 in
theorem host6_v92 (W : Valuation τ sig (Elt Ideal)) :
    StableHlo.after hostOps6 W (Proc.devRef .tc main_v92) =
      (Host.scatterAdd (F := Ideal) (φ := .f32) scatter_S200000x128_S1000000x1_S1000000x128_1_0_0_1 zero128 (bcast1 ((W (Proc.devRef .tc main_arg5) : (⟨S1000000, .i32⟩ : BufTy).Contents (Elt Ideal)))) (Host.gather gather_S200000x128_S1000000x1_S1000000x128_1_0_n_n_0_1_1128 (W (Proc.devRef .tc main_v29) : (⟨S200000x128, .f32⟩ : BufTy).Contents (Elt Ideal)) (nDst ((W (Proc.devRef .tc main_arg6) : (⟨S1000000, .i32⟩ : BufTy).Contents (Elt Ideal))))) : (⟨S200000x128, .f32⟩ : BufTy).Contents (Elt Ideal)) := by
  dsimp only [hostOps6]
  after_results_simp
  rfl

end Cert.KernelIdeal.Wire
-- ==== Proof.KWireA.lean ====
import proofs.«137020_j48936857370759_1_alg».proof.Proof.Gen.KernelIdeal.Frame
import proofs.«137020_j48936857370759_1_alg».proof.Proof.KWireHostA

/-! # The data flow of the idealized program up to region 7

The generated frame certificate names the TensorCore's buffer contents at every boundary between the program's
segments (`W0` the launch memory, `W1` after the first stretch of host operations, `W2` after region 0, …) as a
fold from the launch memory. This module reads that fold at the buffers the first eight regions take as input
windows, and gives each its value in closed form: an argument array is the launch memory's; a region's output is
the array its pipeline leaves (`(datK …).arrAt w N`); a buffer a host stretch computes is the stretch's operations
applied to such values. Each buffer is followed boundary by boundary from where it is written to where it is
read (`at<k>_<buffer>`), and the input windows are then instances (`in<region>_<window>`). -/

set_option maxRecDepth 16384

noncomputable section

namespace Cert.KernelIdeal.Wire

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-! ## The arguments and the regions' outputs, boundary by boundary

An argument is written by nothing; a region's output is written once, by that region. From the boundary where a
buffer gets its value, each later boundary is one step: a stretch that does not write it, a region none of whose
arrays it is, or a region that only reads it through an input window (whose array the region leaves as entered). -/

theorem at0_arg0 : W0 m ρ c (Proc.devRef .tc main_arg0) = m ((c : Thread nD τ).loc main_arg0) := rfl
theorem at1_arg0 : W1 m ρ c (Proc.devRef .tc main_arg0) = m ((c : Thread nD τ).loc main_arg0) :=
  (keep0 (W0 m ρ c) main_arg0 (by decide)).trans (at0_arg0 m ρ c)
theorem at2_arg0 : W2 m ρ c (Proc.devRef .tc main_arg0) = m ((c : Thread nD τ).loc main_arg0) :=
  (W2_of_ne m ρ c main_arg0 (by decide)).trans (at1_arg0 m ρ c)
theorem at3_arg0 : W3 m ρ c (Proc.devRef .tc main_arg0) = m ((c : Thread nD τ).loc main_arg0) :=
  (W3_of_ne m ρ c main_arg0 (by decide)).trans (at2_arg0 m ρ c)
theorem at4_arg0 : W4 m ρ c (Proc.devRef .tc main_arg0) = m ((c : Thread nD τ).loc main_arg0) :=
  (keep2 (W3 m ρ c) main_arg0 (by decide)).trans (at3_arg0 m ρ c)
theorem at5_arg0 : W5 m ρ c (Proc.devRef .tc main_arg0) = m ((c : Thread nD τ).loc main_arg0) :=
  ((W5_arr m ρ c 0).trans (((dat2 (V4 m ρ) c).arrAt_in 0 rfl _).trans (A_eq2 (V4 m ρ) c 0))).trans (at4_arg0 m ρ c)
theorem at6_arg0 : W6 m ρ c (Proc.devRef .tc main_arg0) = m ((c : Thread nD τ).loc main_arg0) :=
  (W6_of_ne m ρ c main_arg0 (by decide)).trans (at5_arg0 m ρ c)
theorem at7_arg0 : W7 m ρ c (Proc.devRef .tc main_arg0) = m ((c : Thread nD τ).loc main_arg0) :=
  (keep4 (W6 m ρ c) main_arg0 (by decide)).trans (at6_arg0 m ρ c)
theorem at8_arg0 : W8 m ρ c (Proc.devRef .tc main_arg0) = m ((c : Thread nD τ).loc main_arg0) :=
  (W8_of_ne m ρ c main_arg0 (by decide)).trans (at7_arg0 m ρ c)
theorem at9_arg0 : W9 m ρ c (Proc.devRef .tc main_arg0) = m ((c : Thread nD τ).loc main_arg0) :=
  (W9_of_ne m ρ c main_arg0 (by decide)).trans (at8_arg0 m ρ c)
theorem at10_arg0 : W10 m ρ c (Proc.devRef .tc main_arg0) = m ((c : Thread nD τ).loc main_arg0) :=
  (keep6 (W9 m ρ c) main_arg0 (by decide)).trans (at9_arg0 m ρ c)

theorem at0_arg5 : W0 m ρ c (Proc.devRef .tc main_arg5) = m ((c : Thread nD τ).loc main_arg5) := rfl
theorem at1_arg5 : W1 m ρ c (Proc.devRef .tc main_arg5) = m ((c : Thread nD τ).loc main_arg5) :=
  (keep0 (W0 m ρ c) main_arg5 (by decide)).trans (at0_arg5 m ρ c)
theorem at2_arg5 : W2 m ρ c (Proc.devRef .tc main_arg5) = m ((c : Thread nD τ).loc main_arg5) :=
  (W2_of_ne m ρ c main_arg5 (by decide)).trans (at1_arg5 m ρ c)
theorem at3_arg5 : W3 m ρ c (Proc.devRef .tc main_arg5) = m ((c : Thread nD τ).loc main_arg5) :=
  (W3_of_ne m ρ c main_arg5 (by decide)).trans (at2_arg5 m ρ c)
theorem at4_arg5 : W4 m ρ c (Proc.devRef .tc main_arg5) = m ((c : Thread nD τ).loc main_arg5) :=
  (keep2 (W3 m ρ c) main_arg5 (by decide)).trans (at3_arg5 m ρ c)
theorem at5_arg5 : W5 m ρ c (Proc.devRef .tc main_arg5) = m ((c : Thread nD τ).loc main_arg5) :=
  (W5_of_ne m ρ c main_arg5 (by decide)).trans (at4_arg5 m ρ c)
theorem at6_arg5 : W6 m ρ c (Proc.devRef .tc main_arg5) = m ((c : Thread nD τ).loc main_arg5) :=
  (W6_of_ne m ρ c main_arg5 (by decide)).trans (at5_arg5 m ρ c)
theorem at7_arg5 : W7 m ρ c (Proc.devRef .tc main_arg5) = m ((c : Thread nD τ).loc main_arg5) :=
  (keep4 (W6 m ρ c) main_arg5 (by decide)).trans (at6_arg5 m ρ c)
theorem at8_arg5 : W8 m ρ c (Proc.devRef .tc main_arg5) = m ((c : Thread nD τ).loc main_arg5) :=
  (W8_of_ne m ρ c main_arg5 (by decide)).trans (at7_arg5 m ρ c)
theorem at9_arg5 : W9 m ρ c (Proc.devRef .tc main_arg5) = m ((c : Thread nD τ).loc main_arg5) :=
  (W9_of_ne m ρ c main_arg5 (by decide)).trans (at8_arg5 m ρ c)
theorem at10_arg5 : W10 m ρ c (Proc.devRef .tc main_arg5) = m ((c : Thread nD τ).loc main_arg5) :=
  (keep6 (W9 m ρ c) main_arg5 (by decide)).trans (at9_arg5 m ρ c)

theorem at0_arg6 : W0 m ρ c (Proc.devRef .tc main_arg6) = m ((c : Thread nD τ).loc main_arg6) := rfl
theorem at1_arg6 : W1 m ρ c (Proc.devRef .tc main_arg6) = m ((c : Thread nD τ).loc main_arg6) :=
  (keep0 (W0 m ρ c) main_arg6 (by decide)).trans (at0_arg6 m ρ c)
theorem at2_arg6 : W2 m ρ c (Proc.devRef .tc main_arg6) = m ((c : Thread nD τ).loc main_arg6) :=
  (W2_of_ne m ρ c main_arg6 (by decide)).trans (at1_arg6 m ρ c)
theorem at3_arg6 : W3 m ρ c (Proc.devRef .tc main_arg6) = m ((c : Thread nD τ).loc main_arg6) :=
  (W3_of_ne m ρ c main_arg6 (by decide)).trans (at2_arg6 m ρ c)
theorem at4_arg6 : W4 m ρ c (Proc.devRef .tc main_arg6) = m ((c : Thread nD τ).loc main_arg6) :=
  (keep2 (W3 m ρ c) main_arg6 (by decide)).trans (at3_arg6 m ρ c)
theorem at5_arg6 : W5 m ρ c (Proc.devRef .tc main_arg6) = m ((c : Thread nD τ).loc main_arg6) :=
  (W5_of_ne m ρ c main_arg6 (by decide)).trans (at4_arg6 m ρ c)
theorem at6_arg6 : W6 m ρ c (Proc.devRef .tc main_arg6) = m ((c : Thread nD τ).loc main_arg6) :=
  (W6_of_ne m ρ c main_arg6 (by decide)).trans (at5_arg6 m ρ c)
theorem at7_arg6 : W7 m ρ c (Proc.devRef .tc main_arg6) = m ((c : Thread nD τ).loc main_arg6) :=
  (keep4 (W6 m ρ c) main_arg6 (by decide)).trans (at6_arg6 m ρ c)
theorem at8_arg6 : W8 m ρ c (Proc.devRef .tc main_arg6) = m ((c : Thread nD τ).loc main_arg6) :=
  (W8_of_ne m ρ c main_arg6 (by decide)).trans (at7_arg6 m ρ c)
theorem at9_arg6 : W9 m ρ c (Proc.devRef .tc main_arg6) = m ((c : Thread nD τ).loc main_arg6) :=
  (W9_of_ne m ρ c main_arg6 (by decide)).trans (at8_arg6 m ρ c)
theorem at10_arg6 : W10 m ρ c (Proc.devRef .tc main_arg6) = m ((c : Thread nD τ).loc main_arg6) :=
  (keep6 (W9 m ρ c) main_arg6 (by decide)).trans (at9_arg6 m ρ c)

theorem at0_arg7 : W0 m ρ c (Proc.devRef .tc main_arg7) = m ((c : Thread nD τ).loc main_arg7) := rfl
theorem at1_arg7 : W1 m ρ c (Proc.devRef .tc main_arg7) = m ((c : Thread nD τ).loc main_arg7) :=
  (keep0 (W0 m ρ c) main_arg7 (by decide)).trans (at0_arg7 m ρ c)
theorem at2_arg7 : W2 m ρ c (Proc.devRef .tc main_arg7) = m ((c : Thread nD τ).loc main_arg7) :=
  (W2_of_ne m ρ c main_arg7 (by decide)).trans (at1_arg7 m ρ c)
theorem at3_arg7 : W3 m ρ c (Proc.devRef .tc main_arg7) = m ((c : Thread nD τ).loc main_arg7) :=
  (W3_of_ne m ρ c main_arg7 (by decide)).trans (at2_arg7 m ρ c)
theorem at4_arg7 : W4 m ρ c (Proc.devRef .tc main_arg7) = m ((c : Thread nD τ).loc main_arg7) :=
  (keep2 (W3 m ρ c) main_arg7 (by decide)).trans (at3_arg7 m ρ c)
theorem at5_arg7 : W5 m ρ c (Proc.devRef .tc main_arg7) = m ((c : Thread nD τ).loc main_arg7) :=
  (W5_of_ne m ρ c main_arg7 (by decide)).trans (at4_arg7 m ρ c)
theorem at6_arg7 : W6 m ρ c (Proc.devRef .tc main_arg7) = m ((c : Thread nD τ).loc main_arg7) :=
  (W6_of_ne m ρ c main_arg7 (by decide)).trans (at5_arg7 m ρ c)
theorem at7_arg7 : W7 m ρ c (Proc.devRef .tc main_arg7) = m ((c : Thread nD τ).loc main_arg7) :=
  (keep4 (W6 m ρ c) main_arg7 (by decide)).trans (at6_arg7 m ρ c)
theorem at8_arg7 : W8 m ρ c (Proc.devRef .tc main_arg7) = m ((c : Thread nD τ).loc main_arg7) :=
  (W8_of_ne m ρ c main_arg7 (by decide)).trans (at7_arg7 m ρ c)
theorem at9_arg7 : W9 m ρ c (Proc.devRef .tc main_arg7) = m ((c : Thread nD τ).loc main_arg7) :=
  (W9_of_ne m ρ c main_arg7 (by decide)).trans (at8_arg7 m ρ c)
theorem at10_arg7 : W10 m ρ c (Proc.devRef .tc main_arg7) = m ((c : Thread nD τ).loc main_arg7) :=
  (keep6 (W9 m ρ c) main_arg7 (by decide)).trans (at9_arg7 m ρ c)

theorem at0_arg2 : W0 m ρ c (Proc.devRef .tc main_arg2) = m ((c : Thread nD τ).loc main_arg2) := rfl
theorem at1_arg2 : W1 m ρ c (Proc.devRef .tc main_arg2) = m ((c : Thread nD τ).loc main_arg2) :=
  (keep0 (W0 m ρ c) main_arg2 (by decide)).trans (at0_arg2 m ρ c)
theorem at2_arg2 : W2 m ρ c (Proc.devRef .tc main_arg2) = m ((c : Thread nD τ).loc main_arg2) :=
  (W2_of_ne m ρ c main_arg2 (by decide)).trans (at1_arg2 m ρ c)
theorem at3_arg2 : W3 m ρ c (Proc.devRef .tc main_arg2) = m ((c : Thread nD τ).loc main_arg2) :=
  (W3_of_ne m ρ c main_arg2 (by decide)).trans (at2_arg2 m ρ c)

theorem at0_arg1 : W0 m ρ c (Proc.devRef .tc main_arg1) = m ((c : Thread nD τ).loc main_arg1) := rfl

theorem at0_arg3 : W0 m ρ c (Proc.devRef .tc main_arg3) = m ((c : Thread nD τ).loc main_arg3) := rfl

theorem at0_arg4 : W0 m ρ c (Proc.devRef .tc main_arg4) = m ((c : Thread nD τ).loc main_arg4) := rfl

theorem at2_v24 : W2 m ρ c (Proc.devRef .tc main_v24) = (dat0 (V1 m ρ) c).arrAt 2 cfg0.N := W2_arr m ρ c 2
theorem at3_v24 : W3 m ρ c (Proc.devRef .tc main_v24) = (dat0 (V1 m ρ) c).arrAt 2 cfg0.N :=
  (W3_of_ne m ρ c main_v24 (by decide)).trans (at2_v24 m ρ c)
theorem at4_v24 : W4 m ρ c (Proc.devRef .tc main_v24) = (dat0 (V1 m ρ) c).arrAt 2 cfg0.N :=
  (keep2 (W3 m ρ c) main_v24 (by decide)).trans (at3_v24 m ρ c)
theorem at5_v24 : W5 m ρ c (Proc.devRef .tc main_v24) = (dat0 (V1 m ρ) c).arrAt 2 cfg0.N :=
  (W5_of_ne m ρ c main_v24 (by decide)).trans (at4_v24 m ρ c)
theorem at6_v24 : W6 m ρ c (Proc.devRef .tc main_v24) = (dat0 (V1 m ρ) c).arrAt 2 cfg0.N :=
  ((W6_arr m ρ c 0).trans (((dat3 (V5 m ρ) c).arrAt_in 0 rfl _).trans (A_eq3 (V5 m ρ) c 0))).trans (at5_v24 m ρ c)
theorem at7_v24 : W7 m ρ c (Proc.devRef .tc main_v24) = (dat0 (V1 m ρ) c).arrAt 2 cfg0.N :=
  (keep4 (W6 m ρ c) main_v24 (by decide)).trans (at6_v24 m ρ c)
theorem at8_v24 : W8 m ρ c (Proc.devRef .tc main_v24) = (dat0 (V1 m ρ) c).arrAt 2 cfg0.N :=
  (W8_of_ne m ρ c main_v24 (by decide)).trans (at7_v24 m ρ c)
theorem at9_v24 : W9 m ρ c (Proc.devRef .tc main_v24) = (dat0 (V1 m ρ) c).arrAt 2 cfg0.N :=
  (W9_of_ne m ρ c main_v24 (by decide)).trans (at8_v24 m ρ c)
theorem at10_v24 : W10 m ρ c (Proc.devRef .tc main_v24) = (dat0 (V1 m ρ) c).arrAt 2 cfg0.N :=
  (keep6 (W9 m ρ c) main_v24 (by decide)).trans (at9_v24 m ρ c)
theorem at11_v24 : W11 m ρ c (Proc.devRef .tc main_v24) = (dat0 (V1 m ρ) c).arrAt 2 cfg0.N :=
  (W11_of_ne m ρ c main_v24 (by decide)).trans (at10_v24 m ρ c)

theorem at3_v25 : W3 m ρ c (Proc.devRef .tc main_v25) = (dat1 (V2 m ρ) c).arrAt 2 cfg1.N := W3_arr m ρ c 2
theorem at4_v25 : W4 m ρ c (Proc.devRef .tc main_v25) = (dat1 (V2 m ρ) c).arrAt 2 cfg1.N :=
  (keep2 (W3 m ρ c) main_v25 (by decide)).trans (at3_v25 m ρ c)
theorem at5_v25 : W5 m ρ c (Proc.devRef .tc main_v25) = (dat1 (V2 m ρ) c).arrAt 2 cfg1.N :=
  ((W5_arr m ρ c 1).trans (((dat2 (V4 m ρ) c).arrAt_in 1 rfl _).trans (A_eq2 (V4 m ρ) c 1))).trans (at4_v25 m ρ c)
theorem at6_v25 : W6 m ρ c (Proc.devRef .tc main_v25) = (dat1 (V2 m ρ) c).arrAt 2 cfg1.N :=
  ((W6_arr m ρ c 1).trans (((dat3 (V5 m ρ) c).arrAt_in 1 rfl _).trans (A_eq3 (V5 m ρ) c 1))).trans (at5_v25 m ρ c)
theorem at7_v25 : W7 m ρ c (Proc.devRef .tc main_v25) = (dat1 (V2 m ρ) c).arrAt 2 cfg1.N :=
  (keep4 (W6 m ρ c) main_v25 (by decide)).trans (at6_v25 m ρ c)
theorem at8_v25 : W8 m ρ c (Proc.devRef .tc main_v25) = (dat1 (V2 m ρ) c).arrAt 2 cfg1.N :=
  (W8_of_ne m ρ c main_v25 (by decide)).trans (at7_v25 m ρ c)
theorem at9_v25 : W9 m ρ c (Proc.devRef .tc main_v25) = (dat1 (V2 m ρ) c).arrAt 2 cfg1.N :=
  (W9_of_ne m ρ c main_v25 (by decide)).trans (at8_v25 m ρ c)
theorem at10_v25 : W10 m ρ c (Proc.devRef .tc main_v25) = (dat1 (V2 m ρ) c).arrAt 2 cfg1.N :=
  (keep6 (W9 m ρ c) main_v25 (by decide)).trans (at9_v25 m ρ c)
theorem at11_v25 : W11 m ρ c (Proc.devRef .tc main_v25) = (dat1 (V2 m ρ) c).arrAt 2 cfg1.N :=
  ((W11_arr m ρ c 2).trans (((dat6 (V10 m ρ) c).arrAt_in 2 rfl _).trans (A_eq6 (V10 m ρ) c 2))).trans (at10_v25 m ρ c)

theorem at5_v28 : W5 m ρ c (Proc.devRef .tc main_v28) = (dat2 (V4 m ρ) c).arrAt 2 cfg2.N := W5_arr m ρ c 2
theorem at6_v28 : W6 m ρ c (Proc.devRef .tc main_v28) = (dat2 (V4 m ρ) c).arrAt 2 cfg2.N :=
  (W6_of_ne m ρ c main_v28 (by decide)).trans (at5_v28 m ρ c)
theorem at7_v28 : W7 m ρ c (Proc.devRef .tc main_v28) = (dat2 (V4 m ρ) c).arrAt 2 cfg2.N :=
  (keep4 (W6 m ρ c) main_v28 (by decide)).trans (at6_v28 m ρ c)
theorem at8_v28 : W8 m ρ c (Proc.devRef .tc main_v28) = (dat2 (V4 m ρ) c).arrAt 2 cfg2.N :=
  (W8_of_ne m ρ c main_v28 (by decide)).trans (at7_v28 m ρ c)
theorem at9_v28 : W9 m ρ c (Proc.devRef .tc main_v28) = (dat2 (V4 m ρ) c).arrAt 2 cfg2.N :=
  (W9_of_ne m ρ c main_v28 (by decide)).trans (at8_v28 m ρ c)

theorem at6_v29 : W6 m ρ c (Proc.devRef .tc main_v29) = (dat3 (V5 m ρ) c).arrAt 2 cfg3.N := W6_arr m ρ c 2
theorem at7_v29 : W7 m ρ c (Proc.devRef .tc main_v29) = (dat3 (V5 m ρ) c).arrAt 2 cfg3.N :=
  (keep4 (W6 m ρ c) main_v29 (by decide)).trans (at6_v29 m ρ c)
theorem at8_v29 : W8 m ρ c (Proc.devRef .tc main_v29) = (dat3 (V5 m ρ) c).arrAt 2 cfg3.N :=
  (W8_of_ne m ρ c main_v29 (by decide)).trans (at7_v29 m ρ c)
theorem at9_v29 : W9 m ρ c (Proc.devRef .tc main_v29) = (dat3 (V5 m ρ) c).arrAt 2 cfg3.N :=
  (W9_of_ne m ρ c main_v29 (by decide)).trans (at8_v29 m ρ c)

theorem at8_v65 : W8 m ρ c (Proc.devRef .tc main_v65) = (dat4 (V7 m ρ) c).arrAt 3 cfg4.N := W8_arr m ρ c 3
theorem at9_v65 : W9 m ρ c (Proc.devRef .tc main_v65) = (dat4 (V7 m ρ) c).arrAt 3 cfg4.N :=
  (W9_of_ne m ρ c main_v65 (by decide)).trans (at8_v65 m ρ c)

theorem at9_v66 : W9 m ρ c (Proc.devRef .tc main_v66) = (dat5 (V8 m ρ) c).arrAt 3 cfg5.N := W9_arr m ρ c 3

/-! ## The buffers the stretches compute -/

theorem at1_v11 : W1 m ρ c (Proc.devRef .tc main_v11) = (Host.scatterAdd (F := Ideal) (φ := .f32) scatter_S200000x128_S1000000x1_S1000000x128_1_0_0_1 zero128 (bcast1 ((m ((c : Thread nD τ).loc main_arg4) : (⟨S1000000, .i32⟩ : BufTy).Contents (Elt Ideal)))) (Host.gather gather_S1000000x128_S1000000x1_S1000000x128_1_0_n_n_0_1_1128 (m ((c : Thread nD τ).loc main_arg1) : (⟨S1000000x128, .f32⟩ : BufTy).Contents (Elt Ideal)) (nProf ((m ((c : Thread nD τ).loc main_arg3) : (⟨S1000000, .i32⟩ : BufTy).Contents (Elt Ideal))))) : (⟨S200000x128, .f32⟩ : BufTy).Contents (Elt Ideal)) :=
  (host0_v11 (W0 m ρ c)).trans (by rw [at0_arg4 m ρ c, at0_arg1 m ρ c, at0_arg3 m ρ c])

theorem at1_v15 : W1 m ρ c (Proc.devRef .tc main_v15) = (col (Host.scatterAdd (F := Ideal) (φ := .f32) scatter_S200000_S1000000x1_S1000000_n_0_0_1 zero1 (bcast1 ((m ((c : Thread nD τ).loc main_arg4) : (⟨S1000000, .i32⟩ : BufTy).Contents (Elt Ideal)))) (ones)) : (⟨S200000x1, .f32⟩ : BufTy).Contents (Elt Ideal)) :=
  (host0_v15 (W0 m ρ c)).trans (by rw [at0_arg4 m ρ c])

theorem at1_v19 : W1 m ρ c (Proc.devRef .tc main_v19) = (col (Host.scatterAdd (F := Ideal) (φ := .f32) scatter_S200000_S1000000x1_S1000000_n_0_0_1 zero1 (bcast1 ((m ((c : Thread nD τ).loc main_arg5) : (⟨S1000000, .i32⟩ : BufTy).Contents (Elt Ideal)))) (ones)) : (⟨S200000x1, .f32⟩ : BufTy).Contents (Elt Ideal)) :=
  (host0_v19 (W0 m ρ c)).trans (by rw [at0_arg5 m ρ c])
theorem at2_v19 : W2 m ρ c (Proc.devRef .tc main_v19) = (col (Host.scatterAdd (F := Ideal) (φ := .f32) scatter_S200000_S1000000x1_S1000000_n_0_0_1 zero1 (bcast1 ((m ((c : Thread nD τ).loc main_arg5) : (⟨S1000000, .i32⟩ : BufTy).Contents (Elt Ideal)))) (ones)) : (⟨S200000x1, .f32⟩ : BufTy).Contents (Elt Ideal)) :=
  (W2_of_ne m ρ c main_v19 (by decide)).trans (at1_v19 m ρ c)

theorem at1_v23 : W1 m ρ c (Proc.devRef .tc main_v23) = (col (Host.scatterAdd (F := Ideal) (φ := .f32) scatter_S200000_S1000000x1_S1000000_n_0_0_1 zero1 (bcast1 ((m ((c : Thread nD τ).loc main_arg6) : (⟨S1000000, .i32⟩ : BufTy).Contents (Elt Ideal)))) (ones)) : (⟨S200000x1, .f32⟩ : BufTy).Contents (Elt Ideal)) :=
  (host0_v23 (W0 m ρ c)).trans (by rw [at0_arg6 m ρ c])
theorem at2_v23 : W2 m ρ c (Proc.devRef .tc main_v23) = (col (Host.scatterAdd (F := Ideal) (φ := .f32) scatter_S200000_S1000000x1_S1000000_n_0_0_1 zero1 (bcast1 ((m ((c : Thread nD τ).loc main_arg6) : (⟨S1000000, .i32⟩ : BufTy).Contents (Elt Ideal)))) (ones)) : (⟨S200000x1, .f32⟩ : BufTy).Contents (Elt Ideal)) :=
  (W2_of_ne m ρ c main_v23 (by decide)).trans (at1_v23 m ρ c)

theorem at4_v26 : W4 m ρ c (Proc.devRef .tc main_v26) = (sliceLo (m ((c : Thread nD τ).loc main_arg2) : (⟨S50000x192, .f32⟩ : BufTy).Contents (Elt Ideal)) : (⟨S50000x64, .f32⟩ : BufTy).Contents (Elt Ideal)) :=
  (host2_v26 (W3 m ρ c)).trans (by rw [at3_arg2 m ρ c])
theorem at5_v26 : W5 m ρ c (Proc.devRef .tc main_v26) = (sliceLo (m ((c : Thread nD τ).loc main_arg2) : (⟨S50000x192, .f32⟩ : BufTy).Contents (Elt Ideal)) : (⟨S50000x64, .f32⟩ : BufTy).Contents (Elt Ideal)) :=
  (W5_of_ne m ρ c main_v26 (by decide)).trans (at4_v26 m ρ c)
theorem at6_v26 : W6 m ρ c (Proc.devRef .tc main_v26) = (sliceLo (m ((c : Thread nD τ).loc main_arg2) : (⟨S50000x192, .f32⟩ : BufTy).Contents (Elt Ideal)) : (⟨S50000x64, .f32⟩ : BufTy).Contents (Elt Ideal)) :=
  (W6_of_ne m ρ c main_v26 (by decide)).trans (at5_v26 m ρ c)
theorem at7_v26 : W7 m ρ c (Proc.devRef .tc main_v26) = (sliceLo (m ((c : Thread nD τ).loc main_arg2) : (⟨S50000x192, .f32⟩ : BufTy).Contents (Elt Ideal)) : (⟨S50000x64, .f32⟩ : BufTy).Contents (Elt Ideal)) :=
  (keep4 (W6 m ρ c) main_v26 (by decide)).trans (at6_v26 m ρ c)
theorem at8_v26 : W8 m ρ c (Proc.devRef .tc main_v26) = (sliceLo (m ((c : Thread nD τ).loc main_arg2) : (⟨S50000x192, .f32⟩ : BufTy).Contents (Elt Ideal)) : (⟨S50000x64, .f32⟩ : BufTy).Contents (Elt Ideal)) :=
  (W8_of_ne m ρ c main_v26 (by decide)).trans (at7_v26 m ρ c)
theorem at9_v26 : W9 m ρ c (Proc.devRef .tc main_v26) = (sliceLo (m ((c : Thread nD τ).loc main_arg2) : (⟨S50000x192, .f32⟩ : BufTy).Contents (Elt Ideal)) : (⟨S50000x64, .f32⟩ : BufTy).Contents (Elt Ideal)) :=
  (W9_of_ne m ρ c main_v26 (by decide)).trans (at8_v26 m ρ c)
theorem at10_v26 : W10 m ρ c (Proc.devRef .tc main_v26) = (sliceLo (m ((c : Thread nD τ).loc main_arg2) : (⟨S50000x192, .f32⟩ : BufTy).Contents (Elt Ideal)) : (⟨S50000x64, .f32⟩ : BufTy).Contents (Elt Ideal)) :=
  (keep6 (W9 m ρ c) main_v26 (by decide)).trans (at9_v26 m ρ c)

theorem at4_v27 : W4 m ρ c (Proc.devRef .tc main_v27) = (sliceHi (m ((c : Thread nD τ).loc main_arg2) : (⟨S50000x192, .f32⟩ : BufTy).Contents (Elt Ideal)) : (⟨S50000x128, .f32⟩ : BufTy).Contents (Elt Ideal)) :=
  (host2_v27 (W3 m ρ c)).trans (by rw [at3_arg2 m ρ c])
theorem at5_v27 : W5 m ρ c (Proc.devRef .tc main_v27) = (sliceHi (m ((c : Thread nD τ).loc main_arg2) : (⟨S50000x192, .f32⟩ : BufTy).Contents (Elt Ideal)) : (⟨S50000x128, .f32⟩ : BufTy).Contents (Elt Ideal)) :=
  (W5_of_ne m ρ c main_v27 (by decide)).trans (at4_v27 m ρ c)
theorem at6_v27 : W6 m ρ c (Proc.devRef .tc main_v27) = (sliceHi (m ((c : Thread nD τ).loc main_arg2) : (⟨S50000x192, .f32⟩ : BufTy).Contents (Elt Ideal)) : (⟨S50000x128, .f32⟩ : BufTy).Contents (Elt Ideal)) :=
  (W6_of_ne m ρ c main_v27 (by decide)).trans (at5_v27 m ρ c)
theorem at7_v27 : W7 m ρ c (Proc.devRef .tc main_v27) = (sliceHi (m ((c : Thread nD τ).loc main_arg2) : (⟨S50000x192, .f32⟩ : BufTy).Contents (Elt Ideal)) : (⟨S50000x128, .f32⟩ : BufTy).Contents (Elt Ideal)) :=
  (keep4 (W6 m ρ c) main_v27 (by decide)).trans (at6_v27 m ρ c)
theorem at8_v27 : W8 m ρ c (Proc.devRef .tc main_v27) = (sliceHi (m ((c : Thread nD τ).loc main_arg2) : (⟨S50000x192, .f32⟩ : BufTy).Contents (Elt Ideal)) : (⟨S50000x128, .f32⟩ : BufTy).Contents (Elt Ideal)) :=
  (W8_of_ne m ρ c main_v27 (by decide)).trans (at7_v27 m ρ c)
theorem at9_v27 : W9 m ρ c (Proc.devRef .tc main_v27) = (sliceHi (m ((c : Thread nD τ).loc main_arg2) : (⟨S50000x192, .f32⟩ : BufTy).Contents (Elt Ideal)) : (⟨S50000x128, .f32⟩ : BufTy).Contents (Elt Ideal)) :=
  (W9_of_ne m ρ c main_v27 (by decide)).trans (at8_v27 m ρ c)
theorem at10_v27 : W10 m ρ c (Proc.devRef .tc main_v27) = (sliceHi (m ((c : Thread nD τ).loc main_arg2) : (⟨S50000x192, .f32⟩ : BufTy).Contents (Elt Ideal)) : (⟨S50000x128, .f32⟩ : BufTy).Contents (Elt Ideal)) :=
  (keep6 (W9 m ρ c) main_v27 (by decide)).trans (at9_v27 m ρ c)

theorem at7_v36 : W7 m ρ c (Proc.devRef .tc main_v36) = (Host.gather gather_S200000x64_S1000000x1_S1000000x64_1_0_n_n_0_1_164 (m ((c : Thread nD τ).loc main_arg0) : (⟨S200000x64, .f32⟩ : BufTy).Contents (Elt Ideal)) (nSrc ((m ((c : Thread nD τ).loc main_arg5) : (⟨S1000000, .i32⟩ : BufTy).Contents (Elt Ideal)))) : (⟨S1000000x64, .f32⟩ : BufTy).Contents (Elt Ideal)) :=
  (host4_v36 (W6 m ρ c)).trans (by rw [at6_arg0 m ρ c, at6_arg5 m ρ c])

theorem at7_v57 : W7 m ρ c (Proc.devRef .tc main_v57) = (Host.gather gather_S50000x64_S1000000x1_S1000000x64_1_0_n_n_0_1_164 (sliceLo (m ((c : Thread nD τ).loc main_arg2) : (⟨S50000x192, .f32⟩ : BufTy).Contents (Elt Ideal)) : (⟨S50000x64, .f32⟩ : BufTy).Contents (Elt Ideal)) (nQ ((m ((c : Thread nD τ).loc main_arg7) : (⟨S1000000, .i32⟩ : BufTy).Contents (Elt Ideal)))) : (⟨S1000000x64, .f32⟩ : BufTy).Contents (Elt Ideal)) :=
  (host4_v57 (W6 m ρ c)).trans (by rw [at6_v26 m ρ c, at6_arg7 m ρ c])

theorem at7_v50 : W7 m ρ c (Proc.devRef .tc main_v50) = (Host.gather gather_S200000x1_S1000000x1_S1000000x1_1_0_n_n_0_1_11 ((dat1 (V2 m ρ) c).arrAt 2 cfg1.N : (⟨S200000x1, .f32⟩ : BufTy).Contents (Elt Ideal)) (nSrc ((m ((c : Thread nD τ).loc main_arg5) : (⟨S1000000, .i32⟩ : BufTy).Contents (Elt Ideal)))) : (⟨S1000000x1, .f32⟩ : BufTy).Contents (Elt Ideal)) :=
  (host4_v50 (W6 m ρ c)).trans (by rw [at6_v25 m ρ c, at6_arg5 m ρ c])
theorem at8_v50 : W8 m ρ c (Proc.devRef .tc main_v50) = (Host.gather gather_S200000x1_S1000000x1_S1000000x1_1_0_n_n_0_1_11 ((dat1 (V2 m ρ) c).arrAt 2 cfg1.N : (⟨S200000x1, .f32⟩ : BufTy).Contents (Elt Ideal)) (nSrc ((m ((c : Thread nD τ).loc main_arg5) : (⟨S1000000, .i32⟩ : BufTy).Contents (Elt Ideal)))) : (⟨S1000000x1, .f32⟩ : BufTy).Contents (Elt Ideal)) :=
  ((W8_arr m ρ c 2).trans (((dat4 (V7 m ρ) c).arrAt_in 2 rfl _).trans (A_eq4 (V7 m ρ) c 2))).trans (at7_v50 m ρ c)

theorem at7_v43 : W7 m ρ c (Proc.devRef .tc main_v43) = (Host.gather gather_S200000x128_S1000000x1_S1000000x128_1_0_n_n_0_1_1128 ((dat0 (V1 m ρ) c).arrAt 2 cfg0.N : (⟨S200000x128, .f32⟩ : BufTy).Contents (Elt Ideal)) (nSrc ((m ((c : Thread nD τ).loc main_arg5) : (⟨S1000000, .i32⟩ : BufTy).Contents (Elt Ideal)))) : (⟨S1000000x128, .f32⟩ : BufTy).Contents (Elt Ideal)) :=
  (host4_v43 (W6 m ρ c)).trans (by rw [at6_v24 m ρ c, at6_arg5 m ρ c])
theorem at8_v43 : W8 m ρ c (Proc.devRef .tc main_v43) = (Host.gather gather_S200000x128_S1000000x1_S1000000x128_1_0_n_n_0_1_1128 ((dat0 (V1 m ρ) c).arrAt 2 cfg0.N : (⟨S200000x128, .f32⟩ : BufTy).Contents (Elt Ideal)) (nSrc ((m ((c : Thread nD τ).loc main_arg5) : (⟨S1000000, .i32⟩ : BufTy).Contents (Elt Ideal)))) : (⟨S1000000x128, .f32⟩ : BufTy).Contents (Elt Ideal)) :=
  (W8_of_ne m ρ c main_v43 (by decide)).trans (at7_v43 m ρ c)

theorem at7_v64 : W7 m ρ c (Proc.devRef .tc main_v64) = (Host.gather gather_S50000x128_S1000000x1_S1000000x128_1_0_n_n_0_1_1128 (sliceHi (m ((c : Thread nD τ).loc main_arg2) : (⟨S50000x192, .f32⟩ : BufTy).Contents (Elt Ideal)) : (⟨S50000x128, .f32⟩ : BufTy).Contents (Elt Ideal)) (nQ ((m ((c : Thread nD τ).loc main_arg7) : (⟨S1000000, .i32⟩ : BufTy).Contents (Elt Ideal)))) : (⟨S1000000x128, .f32⟩ : BufTy).Contents (Elt Ideal)) :=
  (host4_v64 (W6 m ρ c)).trans (by rw [at6_v27 m ρ c, at6_arg7 m ρ c])
theorem at8_v64 : W8 m ρ c (Proc.devRef .tc main_v64) = (Host.gather gather_S50000x128_S1000000x1_S1000000x128_1_0_n_n_0_1_1128 (sliceHi (m ((c : Thread nD τ).loc main_arg2) : (⟨S50000x192, .f32⟩ : BufTy).Contents (Elt Ideal)) : (⟨S50000x128, .f32⟩ : BufTy).Contents (Elt Ideal)) (nQ ((m ((c : Thread nD τ).loc main_arg7) : (⟨S1000000, .i32⟩ : BufTy).Contents (Elt Ideal)))) : (⟨S1000000x128, .f32⟩ : BufTy).Contents (Elt Ideal)) :=
  (W8_of_ne m ρ c main_v64 (by decide)).trans (at7_v64 m ρ c)

theorem at10_v83 : W10 m ρ c (Proc.devRef .tc main_v83) = (Host.scatterAdd (F := Ideal) (φ := .f32) scatter_S200000x64_S1000000x1_S1000000x64_1_0_0_1 zero64 (bcast1 ((m ((c : Thread nD τ).loc main_arg6) : (⟨S1000000, .i32⟩ : BufTy).Contents (Elt Ideal)))) (((dat4 (V7 m ρ) c).arrAt 3 cfg4.N : (⟨S1000000x64, .f32⟩ : BufTy).Contents (Elt Ideal))) : (⟨S200000x64, .f32⟩ : BufTy).Contents (Elt Ideal)) :=
  (host6_v83 (W9 m ρ c)).trans (by rw [at9_arg6 m ρ c, at9_v65 m ρ c])

theorem at10_v89 : W10 m ρ c (Proc.devRef .tc main_v89) = (Host.scatterAdd (F := Ideal) (φ := .f32) scatter_S200000x64_S1000000x1_S1000000x64_1_0_0_1 zero64 (bcast1 ((m ((c : Thread nD τ).loc main_arg5) : (⟨S1000000, .i32⟩ : BufTy).Contents (Elt Ideal)))) (Host.gather gather_S200000x64_S1000000x1_S1000000x64_1_0_n_n_0_1_164 ((dat2 (V4 m ρ) c).arrAt 2 cfg2.N : (⟨S200000x64, .f32⟩ : BufTy).Contents (Elt Ideal)) (nDst ((m ((c : Thread nD τ).loc main_arg6) : (⟨S1000000, .i32⟩ : BufTy).Contents (Elt Ideal))))) : (⟨S200000x64, .f32⟩ : BufTy).Contents (Elt Ideal)) :=
  (host6_v89 (W9 m ρ c)).trans (by rw [at9_arg5 m ρ c, at9_v28 m ρ c, at9_arg6 m ρ c])

theorem at10_v86 : W10 m ρ c (Proc.devRef .tc main_v86) = (Host.scatterAdd (F := Ideal) (φ := .f32) scatter_S200000x128_S1000000x1_S1000000x128_1_0_0_1 zero128 (bcast1 ((m ((c : Thread nD τ).loc main_arg6) : (⟨S1000000, .i32⟩ : BufTy).Contents (Elt Ideal)))) (((dat5 (V8 m ρ) c).arrAt 3 cfg5.N : (⟨S1000000x128, .f32⟩ : BufTy).Contents (Elt Ideal))) : (⟨S200000x128, .f32⟩ : BufTy).Contents (Elt Ideal)) :=
  (host6_v86 (W9 m ρ c)).trans (by rw [at9_arg6 m ρ c, at9_v66 m ρ c])
theorem at11_v86 : W11 m ρ c (Proc.devRef .tc main_v86) = (Host.scatterAdd (F := Ideal) (φ := .f32) scatter_S200000x128_S1000000x1_S1000000x128_1_0_0_1 zero128 (bcast1 ((m ((c : Thread nD τ).loc main_arg6) : (⟨S1000000, .i32⟩ : BufTy).Contents (Elt Ideal)))) (((dat5 (V8 m ρ) c).arrAt 3 cfg5.N : (⟨S1000000x128, .f32⟩ : BufTy).Contents (Elt Ideal))) : (⟨S200000x128, .f32⟩ : BufTy).Contents (Elt Ideal)) :=
  (W11_of_ne m ρ c main_v86 (by decide)).trans (at10_v86 m ρ c)

theorem at10_v92 : W10 m ρ c (Proc.devRef .tc main_v92) = (Host.scatterAdd (F := Ideal) (φ := .f32) scatter_S200000x128_S1000000x1_S1000000x128_1_0_0_1 zero128 (bcast1 ((m ((c : Thread nD τ).loc main_arg5) : (⟨S1000000, .i32⟩ : BufTy).Contents (Elt Ideal)))) (Host.gather gather_S200000x128_S1000000x1_S1000000x128_1_0_n_n_0_1_1128 ((dat3 (V5 m ρ) c).arrAt 2 cfg3.N : (⟨S200000x128, .f32⟩ : BufTy).Contents (Elt Ideal)) (nDst ((m ((c : Thread nD τ).loc main_arg6) : (⟨S1000000, .i32⟩ : BufTy).Contents (Elt Ideal))))) : (⟨S200000x128, .f32⟩ : BufTy).Contents (Elt Ideal)) :=
  (host6_v92 (W9 m ρ c)).trans (by rw [at9_arg5 m ρ c, at9_v29 m ρ c, at9_arg6 m ρ c])
theorem at11_v92 : W11 m ρ c (Proc.devRef .tc main_v92) = (Host.scatterAdd (F := Ideal) (φ := .f32) scatter_S200000x128_S1000000x1_S1000000x128_1_0_0_1 zero128 (bcast1 ((m ((c : Thread nD τ).loc main_arg5) : (⟨S1000000, .i32⟩ : BufTy).Contents (Elt Ideal)))) (Host.gather gather_S200000x128_S1000000x1_S1000000x128_1_0_n_n_0_1_1128 ((dat3 (V5 m ρ) c).arrAt 2 cfg3.N : (⟨S200000x128, .f32⟩ : BufTy).Contents (Elt Ideal)) (nDst ((m ((c : Thread nD τ).loc main_arg6) : (⟨S1000000, .i32⟩ : BufTy).Contents (Elt Ideal))))) : (⟨S200000x128, .f32⟩ : BufTy).Contents (Elt Ideal)) :=
  (W11_of_ne m ρ c main_v92 (by decide)).trans (at10_v92 m ρ c)

/-! ## What every input window of regions 0 to 7 stages -/

/-- Region 0, input window 0. -/
theorem in0_0 : V1 m ρ c (Pipeline.arrRef spec0 0) = (Host.scatterAdd (F := Ideal) (φ := .f32) scatter_S200000x128_S1000000x1_S1000000x128_1_0_0_1 zero128 (bcast1 ((m ((c : Thread nD τ).loc main_arg4) : (⟨S1000000, .i32⟩ : BufTy).Contents (Elt Ideal)))) (Host.gather gather_S1000000x128_S1000000x1_S1000000x128_1_0_n_n_0_1_1128 (m ((c : Thread nD τ).loc main_arg1) : (⟨S1000000x128, .f32⟩ : BufTy).Contents (Elt Ideal)) (nProf ((m ((c : Thread nD τ).loc main_arg3) : (⟨S1000000, .i32⟩ : BufTy).Contents (Elt Ideal))))) : (⟨S200000x128, .f32⟩ : BufTy).Contents (Elt Ideal)) := at1_v11 m ρ c
/-- Region 0, input window 1. -/
theorem in0_1 : V1 m ρ c (Pipeline.arrRef spec0 1) = (col (Host.scatterAdd (F := Ideal) (φ := .f32) scatter_S200000_S1000000x1_S1000000_n_0_0_1 zero1 (bcast1 ((m ((c : Thread nD τ).loc main_arg4) : (⟨S1000000, .i32⟩ : BufTy).Contents (Elt Ideal)))) (ones)) : (⟨S200000x1, .f32⟩ : BufTy).Contents (Elt Ideal)) := at1_v15 m ρ c
/-- Region 1, input window 0. -/
theorem in1_0 : V2 m ρ c (Pipeline.arrRef spec1 0) = (col (Host.scatterAdd (F := Ideal) (φ := .f32) scatter_S200000_S1000000x1_S1000000_n_0_0_1 zero1 (bcast1 ((m ((c : Thread nD τ).loc main_arg5) : (⟨S1000000, .i32⟩ : BufTy).Contents (Elt Ideal)))) (ones)) : (⟨S200000x1, .f32⟩ : BufTy).Contents (Elt Ideal)) := at2_v19 m ρ c
/-- Region 1, input window 1. -/
theorem in1_1 : V2 m ρ c (Pipeline.arrRef spec1 1) = (col (Host.scatterAdd (F := Ideal) (φ := .f32) scatter_S200000_S1000000x1_S1000000_n_0_0_1 zero1 (bcast1 ((m ((c : Thread nD τ).loc main_arg6) : (⟨S1000000, .i32⟩ : BufTy).Contents (Elt Ideal)))) (ones)) : (⟨S200000x1, .f32⟩ : BufTy).Contents (Elt Ideal)) := at2_v23 m ρ c
/-- Region 2, input window 0. -/
theorem in2_0 : V4 m ρ c (Pipeline.arrRef spec2 0) = m ((c : Thread nD τ).loc main_arg0) := at4_arg0 m ρ c
/-- Region 2, input window 1. -/
theorem in2_1 : V4 m ρ c (Pipeline.arrRef spec2 1) = (dat1 (V2 m ρ) c).arrAt 2 cfg1.N := at4_v25 m ρ c
/-- Region 3, input window 0. -/
theorem in3_0 : V5 m ρ c (Pipeline.arrRef spec3 0) = (dat0 (V1 m ρ) c).arrAt 2 cfg0.N := at5_v24 m ρ c
/-- Region 3, input window 1. -/
theorem in3_1 : V5 m ρ c (Pipeline.arrRef spec3 1) = (dat1 (V2 m ρ) c).arrAt 2 cfg1.N := at5_v25 m ρ c
/-- Region 4, input window 0. -/
theorem in4_0 : V7 m ρ c (Pipeline.arrRef spec4 0) = (Host.gather gather_S200000x64_S1000000x1_S1000000x64_1_0_n_n_0_1_164 (m ((c : Thread nD τ).loc main_arg0) : (⟨S200000x64, .f32⟩ : BufTy).Contents (Elt Ideal)) (nSrc ((m ((c : Thread nD τ).loc main_arg5) : (⟨S1000000, .i32⟩ : BufTy).Contents (Elt Ideal)))) : (⟨S1000000x64, .f32⟩ : BufTy).Contents (Elt Ideal)) := at7_v36 m ρ c
/-- Region 4, input window 1. -/
theorem in4_1 : V7 m ρ c (Pipeline.arrRef spec4 1) = (Host.gather gather_S50000x64_S1000000x1_S1000000x64_1_0_n_n_0_1_164 (sliceLo (m ((c : Thread nD τ).loc main_arg2) : (⟨S50000x192, .f32⟩ : BufTy).Contents (Elt Ideal)) : (⟨S50000x64, .f32⟩ : BufTy).Contents (Elt Ideal)) (nQ ((m ((c : Thread nD τ).loc main_arg7) : (⟨S1000000, .i32⟩ : BufTy).Contents (Elt Ideal)))) : (⟨S1000000x64, .f32⟩ : BufTy).Contents (Elt Ideal)) := at7_v57 m ρ c
/-- Region 4, input window 2. -/
theorem in4_2 : V7 m ρ c (Pipeline.arrRef spec4 2) = (Host.gather gather_S200000x1_S1000000x1_S1000000x1_1_0_n_n_0_1_11 ((dat1 (V2 m ρ) c).arrAt 2 cfg1.N : (⟨S200000x1, .f32⟩ : BufTy).Contents (Elt Ideal)) (nSrc ((m ((c : Thread nD τ).loc main_arg5) : (⟨S1000000, .i32⟩ : BufTy).Contents (Elt Ideal)))) : (⟨S1000000x1, .f32⟩ : BufTy).Contents (Elt Ideal)) := at7_v50 m ρ c
/-- Region 5, input window 0. -/
theorem in5_0 : V8 m ρ c (Pipeline.arrRef spec5 0) = (Host.gather gather_S200000x128_S1000000x1_S1000000x128_1_0_n_n_0_1_1128 ((dat0 (V1 m ρ) c).arrAt 2 cfg0.N : (⟨S200000x128, .f32⟩ : BufTy).Contents (Elt Ideal)) (nSrc ((m ((c : Thread nD τ).loc main_arg5) : (⟨S1000000, .i32⟩ : BufTy).Contents (Elt Ideal)))) : (⟨S1000000x128, .f32⟩ : BufTy).Contents (Elt Ideal)) := at8_v43 m ρ c
/-- Region 5, input window 1. -/
theorem in5_1 : V8 m ρ c (Pipeline.arrRef spec5 1) = (Host.gather gather_S50000x128_S1000000x1_S1000000x128_1_0_n_n_0_1_1128 (sliceHi (m ((c : Thread nD τ).loc main_arg2) : (⟨S50000x192, .f32⟩ : BufTy).Contents (Elt Ideal)) : (⟨S50000x128, .f32⟩ : BufTy).Contents (Elt Ideal)) (nQ ((m ((c : Thread nD τ).loc main_arg7) : (⟨S1000000, .i32⟩ : BufTy).Contents (Elt Ideal)))) : (⟨S1000000x128, .f32⟩ : BufTy).Contents (Elt Ideal)) := at8_v64 m ρ c
/-- Region 5, input window 2. -/
theorem in5_2 : V8 m ρ c (Pipeline.arrRef spec5 2) = (Host.gather gather_S200000x1_S1000000x1_S1000000x1_1_0_n_n_0_1_11 ((dat1 (V2 m ρ) c).arrAt 2 cfg1.N : (⟨S200000x1, .f32⟩ : BufTy).Contents (Elt Ideal)) (nSrc ((m ((c : Thread nD τ).loc main_arg5) : (⟨S1000000, .i32⟩ : BufTy).Contents (Elt Ideal)))) : (⟨S1000000x1, .f32⟩ : BufTy).Contents (Elt Ideal)) := at8_v50 m ρ c
/-- Region 6, input window 0. -/
theorem in6_0 : V10 m ρ c (Pipeline.arrRef spec6 0) = (Host.scatterAdd (F := Ideal) (φ := .f32) scatter_S200000x64_S1000000x1_S1000000x64_1_0_0_1 zero64 (bcast1 ((m ((c : Thread nD τ).loc main_arg6) : (⟨S1000000, .i32⟩ : BufTy).Contents (Elt Ideal)))) (((dat4 (V7 m ρ) c).arrAt 3 cfg4.N : (⟨S1000000x64, .f32⟩ : BufTy).Contents (Elt Ideal))) : (⟨S200000x64, .f32⟩ : BufTy).Contents (Elt Ideal)) := at10_v83 m ρ c
/-- Region 6, input window 1. -/
theorem in6_1 : V10 m ρ c (Pipeline.arrRef spec6 1) = (Host.scatterAdd (F := Ideal) (φ := .f32) scatter_S200000x64_S1000000x1_S1000000x64_1_0_0_1 zero64 (bcast1 ((m ((c : Thread nD τ).loc main_arg5) : (⟨S1000000, .i32⟩ : BufTy).Contents (Elt Ideal)))) (Host.gather gather_S200000x64_S1000000x1_S1000000x64_1_0_n_n_0_1_164 ((dat2 (V4 m ρ) c).arrAt 2 cfg2.N : (⟨S200000x64, .f32⟩ : BufTy).Contents (Elt Ideal)) (nDst ((m ((c : Thread nD τ).loc main_arg6) : (⟨S1000000, .i32⟩ : BufTy).Contents (Elt Ideal))))) : (⟨S200000x64, .f32⟩ : BufTy).Contents (Elt Ideal)) := at10_v89 m ρ c
/-- Region 6, input window 2. -/
theorem in6_2 : V10 m ρ c (Pipeline.arrRef spec6 2) = (dat1 (V2 m ρ) c).arrAt 2 cfg1.N := at10_v25 m ρ c
/-- Region 6, input window 3. -/
theorem in6_3 : V10 m ρ c (Pipeline.arrRef spec6 3) = m ((c : Thread nD τ).loc main_arg0) := at10_arg0 m ρ c
/-- Region 7, input window 0. -/
theorem in7_0 : V11 m ρ c (Pipeline.arrRef spec7 0) = (Host.scatterAdd (F := Ideal) (φ := .f32) scatter_S200000x128_S1000000x1_S1000000x128_1_0_0_1 zero128 (bcast1 ((m ((c : Thread nD τ).loc main_arg6) : (⟨S1000000, .i32⟩ : BufTy).Contents (Elt Ideal)))) (((dat5 (V8 m ρ) c).arrAt 3 cfg5.N : (⟨S1000000x128, .f32⟩ : BufTy).Contents (Elt Ideal))) : (⟨S200000x128, .f32⟩ : BufTy).Contents (Elt Ideal)) := at11_v86 m ρ c
/-- Region 7, input window 1. -/
theorem in7_1 : V11 m ρ c (Pipeline.arrRef spec7 1) = (Host.scatterAdd (F := Ideal) (φ := .f32) scatter_S200000x128_S1000000x1_S1000000x128_1_0_0_1 zero128 (bcast1 ((m ((c : Thread nD τ).loc main_arg5) : (⟨S1000000, .i32⟩ : BufTy).Contents (Elt Ideal)))) (Host.gather gather_S200000x128_S1000000x1_S1000000x128_1_0_n_n_0_1_1128 ((dat3 (V5 m ρ) c).arrAt 2 cfg3.N : (⟨S200000x128, .f32⟩ : BufTy).Contents (Elt Ideal)) (nDst ((m ((c : Thread nD τ).loc main_arg6) : (⟨S1000000, .i32⟩ : BufTy).Contents (Elt Ideal))))) : (⟨S200000x128, .f32⟩ : BufTy).Contents (Elt Ideal)) := at11_v92 m ρ c
/-- Region 7, input window 2. -/
theorem in7_2 : V11 m ρ c (Pipeline.arrRef spec7 2) = (dat1 (V2 m ρ) c).arrAt 2 cfg1.N := at11_v25 m ρ c
/-- Region 7, input window 3. -/
theorem in7_3 : V11 m ρ c (Pipeline.arrRef spec7 3) = (dat0 (V1 m ρ) c).arrAt 2 cfg0.N := at11_v24 m ρ c

end Cert.KernelIdeal.Wire
-- ==== Proof.Reg1.lean ====
/- Region 1 (the inverse square root of the degree): the whole output array as one function of the
   two input arrays.

   The region walks 50 row blocks of 4000 rows of three one-column arrays.  At each block the body adds
   the two input blocks entry by entry, takes the larger of one and the sum, its square root, and one
   over that.  So the output array at (r, 0) is  1 / sqrt (max 1 (a (r, 0) + b (r, 0))) : the block a
   point writes back is the restriction of this one function to the point's rows, and the 50 blocks
   tile the 200000 rows. -/
import proofs.«137020_j48936857370759_1_alg».proof.Proof.Gen.KernelIdeal.Frame
import Idealize.ShloMosaic.Lib.Pipeline.Value
import Idealize.ShloMosaic.Lib.ValueIdx
import Idealize.ShloMosaic.Lib.ValueIdxCoords

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- One over the square root of the larger of one and the sum of the two entries of the row. -/
def G1_2 (x0 x1 : Vec Ideal S200000x1 .f32) : Vec Ideal S200000x1 .f32 :=
  fun i => Ideal.div (Ideal.ofBits .f32 0x3F800000#32) (Ideal.sqrt (max (Ideal.ofBits .f32 0x3F800000#32) (x0 i + x1 i)))

theorem G1_2_apply (x0 x1 : Vec Ideal S200000x1 .f32) (r : Fin 200000) (q : Fin 1) :
    G1_2 x0 x1 (ix2 r q)
      = Ideal.div (Ideal.ofBits .f32 0x3F800000#32) (Ideal.sqrt (max (Ideal.ofBits .f32 0x3F800000#32) (x0 (ix2 r q) + x1 (ix2 r q)))) := rfl

/-- The formula with its two entries read at indices equal to i is the function at i. -/
theorem G1_2_of (x0 x1 : Vec Ideal S200000x1 .f32) (i i0 i1 : S200000x1.Idx) (h0 : i0 = i) (h1 : i1 = i) :
    Ideal.div (Ideal.ofBits .f32 0x3F800000#32) (Ideal.sqrt (max (Ideal.ofBits .f32 0x3F800000#32) (x0 i0 + x1 i1))) = G1_2 x0 x1 i := by
  subst h0 h1; rfl

/-! ## The body at one entry of a block -/

theorem hz1 : (![0, 0] : Fin 2 → Nat) = fun _ => 0 := funext fun a => by fin_cases a <;> rfl

/-- Entry j of what the body stores: one over the square root of the larger of one and the sum of the
    two blocks' entries. -/
theorem pay1_apply (v0 : Vec Ideal S4000x1 .f32) (v2 : Vec Ideal S4000x1 .f32) (j : S4000x1.Idx) :
    Gen.k1_pay1 v0 v2 j
      = Ideal.div (Ideal.ofBits .f32 0x3F800000#32) (Ideal.sqrt (max (Ideal.ofBits .f32 0x3F800000#32) (v0 j + v2 j))) := by
  unfold Gen.k1_pay1
  simp only [shapeCast_self]
  rfl

/-! ## From blocks to the array -/

variable (V : (c : Dev nD) → (b : Ref sig .tc) → Buf (Elt Ideal) ((c : Thread nD τ).loc b))

/-- The index maps, decided over the 50 points: each window's block at point t is block row t,
    block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of G1_2 of the two input arrays as the region finds them. -/
theorem flushed1_2_eq (c : Dev nD) (t : Fin cfg1.N) :
    (dat1 (F := Ideal) V c).flushed 2 t
      = ((cfg1.win 2).blk t).view.read (Elt Ideal)
          (G1_2 (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero hz1]
  simp only [View.ld_unit_zero (S := S4000x1) hz1]
  obtain ⟨e00, e01, e10, e11, e20, e21⟩ := idx_facts1 t
  refine funext fun (j : S4000x1.Idx) => ?_
  show Gen.k1_pay1 (iblk1 V c 0 t) (iblk1 V c 1 t) j
    = G1_2 (V c (Pipeline.arrRef spec1 0)) (V c (Pipeline.arrRef spec1 1)) (((cfg1.win 2).blk t).view.emb j)
  refine (pay1_apply (iblk1 V c 0 t) (iblk1 V c 1 t) j).trans ?_
  have hj0 : (j 0).val < 4000 := idx2_lt0 j
  have hj1 : (j 1).val < 1 := idx2_lt1 j
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 1 + 1 * (j 1).val = win1_2.index t (1 : Fin 2) * 1 + 1 * (j 1).val; omega
  have h1 : ((cfg1.win 1).blk t).view.emb j = ((cfg1.win 2).blk t).view.emb j := by
    funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 1 + 1 * (j 1).val = win1_2.index t (1 : Fin 2) * 1 + 1 * (j 1).val; omega
  exact G1_2_of (V c (Pipeline.arrRef spec1 0)) (V c (Pipeline.arrRef spec1 1)) (((cfg1.win 2).blk t).view.emb j)
    (((cfg1.win 0).blk t).view.emb j) (((cfg1.win 1).blk t).view.emb j) h0 h1

/-- An index of the array is in point t's block iff each coordinate is in the block's range on its axis. -/
theorem mem_blk1_2 (t : Fin cfg1.N) (i : S200000x1.Idx) :
    i ∈ ((cfg1.win 2).blk t).view.set ↔ ∀ a : Fin 2, win1_2.index t a * S4000x1.size a ≤ (i a).val
      ∧ (i a).val < win1_2.index t a * S4000x1.size a + S4000x1.size a := by
  show i ∈ ((View.whole main_v25).slice (win1_2.rect t)).set ↔ _
  rw [View.set_slice_whole, Rect.mem_set_unit]
  exact Iff.rfl

/-- Every row belongs to the block of the point numbered by the row divided by 4000. -/
theorem covered1_2 (i : S200000x1.Idx) :
    ∃ t : Fin cfg1.N, (cfg1.win 2).flush t = true ∧ i ∈ ((cfg1.win 2).blk t).view.set := by
  have hi0 : (i 0).val < 200000 := idx2_lt0 i
  have hi1 : (i 1).val < 1 := idx2_lt1 i
  have hN : (i 0).val / 4000 < cfg1.N := by
    show _ < grid1.N
    rw [N_1]; omega
  obtain ⟨-, -, -, -, eo0, eo1⟩ := idx_facts1 ⟨(i 0).val / 4000, hN⟩
  refine ⟨⟨(i 0).val / 4000, hN⟩, flush1_2 _, ?_⟩
  rw [mem_blk1_2]
  intro a
  match a with
  | ⟨0, _⟩ =>
    show win1_2.index ⟨(i 0).val / 4000, hN⟩ (0 : Fin 2) * 4000 ≤ (i 0).val
      ∧ (i 0).val < win1_2.index ⟨(i 0).val / 4000, hN⟩ (0 : Fin 2) * 4000 + 4000
    rw [eo0]
    show (i 0).val / 4000 * 4000 ≤ (i 0).val ∧ (i 0).val < (i 0).val / 4000 * 4000 + 4000
    omega
  | ⟨1, _⟩ =>
    show win1_2.index ⟨(i 0).val / 4000, hN⟩ (1 : Fin 2) * 1 ≤ (i 1).val
      ∧ (i 1).val < win1_2.index ⟨(i 0).val / 4000, hN⟩ (1 : Fin 2) * 1 + 1
    rw [eo1]
    omega

/-- The output array after the region: G1_2 of the input arrays as the region finds them. -/
theorem final1_2 (c : Dev nD) :
    (Gen.dat1 (F := Ideal) V c).arrAt 2 cfg1.N
      = G1_2 (V c (Pipeline.arrRef spec1 0)) (V c (Pipeline.arrRef spec1 1)) :=
  (dat1 (F := Ideal) V c).arrAt_eq_of_cover 2 (G1_2 (V c (Pipeline.arrRef spec1 0)) (V c (Pipeline.arrRef spec1 1)))
    (fun t _ => flushed1_2_eq V c t) covered1_2

end Cert.KernelIdeal.Reg

end
-- ==== Proof.KColInv.lean ====
/-
  The degree normaliser as the kernel computes it: two counts (a segment sum of ones over each endpoint array)
  enter the second tiled call as one-column matrices, and its output column holds `1 / sqrt (max 1 (a + b))`.
-/
import proofs.«137020_j48936857370759_1_alg».proof.Proof.KColBase
import proofs.«137020_j48936857370759_1_alg».proof.Proof.KWireA
import proofs.«137020_j48936857370759_1_alg».proof.Proof.Reg1

noncomputable section

namespace Cert.KernelIdeal.KCol

open Idealize.ShloMosaic Idealize.ShloMosaic.TcCoe Idealize.ShloMosaic.ValueIdx Idealize.SL.Sem
open Cert.KernelIdeal Cert.KernelIdeal.Facts₀ Cert.KernelIdeal.Facts Cert.KernelIdeal.Gen Cert.KernelIdeal.Wire Cert.RowOps

/-- A count: the segment sum of ones, entry `r`. -/
theorem cnt_apply (a : (⟨S1000000, .i32⟩ : BufTy).Contents (Elt Ideal)) (r : Fin 200000) :
    Host.scatterAdd (F := Ideal) (φ := .f32) scatter_S200000_S1000000x1_S1000000_n_0_0_1 zero1 (bcast1 a) ones (ix1 r)
      = Cert.Col.seg (fun e => scatterRow 200000 (bcast1 a (ix2 e (0 : Fin 1)))) (fun _ => Cert.Col.one) r := by
  rw [scatterAdd_vec_apply scatter_S200000_S1000000x1_S1000000_n_0_0_1 rfl rfl rfl rfl]
  rfl

variable (m : (ℓ : Loc nD τ sig) → Buf (Elt Ideal) ℓ) (ρ : Dev nD → PrngReg) (c : Dev nD)

/-- The kernel's row maps at the launch memory's index arguments. -/
abbrev R : Cert.Col.Rows :=
  rows (m ((c : Thread nD τ).loc main_arg3)) (m ((c : Thread nD τ).loc main_arg4)) (m ((c : Thread nD τ).loc main_arg5))
    (m ((c : Thread nD τ).loc main_arg6)) (m ((c : Thread nD τ).loc main_arg7))

/-- The second call's output column is the degree normaliser. -/
theorem inv_apply (r : Fin 200000) :
    (dat1 (F := Ideal) (V2 m ρ) c).arrAt 2 cfg1.N (ix2 r (0 : Fin 1)) = Cert.Col.inv (R m c) r := by
  rw [Reg.final1_2 (V2 m ρ) c, in1_0 m ρ c, in1_1 m ρ c, Reg.G1_2_apply, col_apply, col_apply, cnt_apply, cnt_apply]
  rfl

end Cert.KernelIdeal.KCol

end
-- ==== Proof.KWireHostB.lean ====
import proofs.«137020_j48936857370759_1_alg».proof.Proof.Gen.KernelIdeal.Launch
import proofs.«137020_j48936857370759_1_alg».proof.Proof.KWireDefs
import Idealize.ShloMosaic.Lib.StableHlo.Run

/-! # The host stretches of the second half of the program, read as functions of their entry contents

After region 9 the idealized program has three more stretches of host operations: one gathers, for every edge, the
rows of two region outputs and of a column at the edge's first endpoint and the rows of the two column blocks of the
query table at the edge's query id; one sums region outputs over the edges into the rows of an endpoint, directly
or after gathering at the other endpoint; the last puts two region outputs side by side. For any contents `W` of
the buffers when a stretch is entered this module states (i) that a buffer the stretch does not write holds
afterwards what it held before, and (ii) what each buffer a later region (or the caller) reads holds afterwards. -/

noncomputable section

namespace Cert.KernelIdeal.Wire

open Idealize.ShloMosaic Idealize.ShloMosaic.TcCoe
open Cert.KernelIdeal Cert.KernelIdeal.Gen

/-! ## What each stretch leaves alone -/

/-- The references stretch 10 writes. -/
abbrev written10 : List (Ref sig .tc) := [main_c_24, main_v97, main_v98, main_c_25, main_v99, main_v100, main_v101, main_v102, main_v103, main_c_26, main_v104, main_v105, main_c_27, main_v106, main_v107, main_v108, main_v109, main_v110, main_c_28, main_v111, main_v112, main_c_29, main_v113, main_v114, main_v115, main_v116, main_v117, main_c_30, main_v118, main_v119, main_c_31, main_v120, main_v121, main_v122, main_v123, main_v124, main_c_32, main_v125, main_v126, main_c_33, main_v127, main_v128, main_v129, main_v130, main_v131]
theorem hostOps10_writes : (hostOps10 : List (HloOp τ sig (Elt Ideal))).Forall fun op =>
    op.writes ⊆ (written10.map (Proc.devRef (τ := τ) .tc)).toFinset := by
  simp only [List.Forall]
  simp only [StableHlo.nullary_writes, StableHlo.unary_writes, StableHlo.binary_writes, StableHlo.ternary_writes,
    Finset.singleton_subset_iff, List.mem_toFinset]
  repeat' apply And.intro
  all_goals exact List.mem_map_of_mem (by decide)
/-- A reference stretch 10 does not write keeps its contents across it. -/
theorem keep10 (W : Valuation τ sig (Elt Ideal)) (r : Ref sig .tc) (h : r ∉ written10) :
    StableHlo.after hostOps10 W (Proc.devRef .tc r) = W (Proc.devRef .tc r) :=
  StableHlo.after_of_writes_sub hostOps10 W hostOps10_writes h

/-- The references stretch 12 writes. -/
abbrev written12 : List (Ref sig .tc) := [main_c_34, main_v134, main_v135, main_c_35, main_v136, main_v137, main_v138, main_v139, main_v140, main_c_36, main_v141, main_v142, main_c_37, main_v143, main_v144, main_v145, main_v146, main_v147, main_cst_38, main_v148, main_v149, main_v150, main_cst_39, main_v151, main_v152, main_v153, main_cst_40, main_v154, main_v155, main_v156, main_cst_41, main_v157, main_v158, main_v159]
theorem hostOps12_writes : (hostOps12 : List (HloOp τ sig (Elt Ideal))).Forall fun op =>
    op.writes ⊆ (written12.map (Proc.devRef (τ := τ) .tc)).toFinset := by
  simp only [List.Forall]
  simp only [StableHlo.nullary_writes, StableHlo.unary_writes, StableHlo.binary_writes, StableHlo.ternary_writes,
    Finset.singleton_subset_iff, List.mem_toFinset]
  repeat' apply And.intro
  all_goals exact List.mem_map_of_mem (by decide)
/-- A reference stretch 12 does not write keeps its contents across it. -/
theorem keep12 (W : Valuation τ sig (Elt Ideal)) (r : Ref sig .tc) (h : r ∉ written12) :
    StableHlo.after hostOps12 W (Proc.devRef .tc r) = W (Proc.devRef .tc r) :=
  StableHlo.after_of_writes_sub hostOps12 W hostOps12_writes h

/-- The references stretch 16 writes. -/
abbrev written16 : List (Ref sig .tc) := [main_v164]
theorem hostOps16_writes : (hostOps16 : List (HloOp τ sig (Elt Ideal))).Forall fun op =>
    op.writes ⊆ (written16.map (Proc.devRef (τ := τ) .tc)).toFinset := by
  simp only [List.Forall]
  simp only [StableHlo.nullary_writes, StableHlo.unary_writes, StableHlo.binary_writes, StableHlo.ternary_writes,
    Finset.singleton_subset_iff, List.mem_toFinset]
  repeat' apply And.intro
  all_goals exact List.mem_map_of_mem (by decide)
/-- A reference stretch 16 does not write keeps its contents across it. -/
theorem keep16 (W : Valuation τ sig (Elt Ideal)) (r : Ref sig .tc) (h : r ∉ written16) :
    StableHlo.after hostOps16 W (Proc.devRef .tc r) = W (Proc.devRef .tc r) :=
  StableHlo.after_of_writes_sub hostOps16 W hostOps16_writes h

/-! ## What each stretch computes, from any entry contents `W` -/

set_option maxHeartbeats 1000000 in
/-- The rows of `main_v93_0` at the first endpoints. -/
theorem host10_v103 (W : Valuation τ sig (Elt Ideal)) :
    StableHlo.after hostOps10 W (Proc.devRef .tc main_v103) =
      (Host.gather gather_S200000x64_S1000000x1_S1000000x64_1_0_n_n_0_1_164 (W (Proc.devRef .tc main_v93_0) : (⟨S200000x64, .f32⟩ : BufTy).Contents (Elt Ideal)) (nSrc (W (Proc.devRef .tc main_arg5) : (⟨S1000000, .i32⟩ : BufTy).Contents (Elt Ideal))) : (⟨S1000000x64, .f32⟩ : BufTy).Contents (Elt Ideal)) := by
  dsimp only [hostOps10]
  after_results_simp
  rfl

set_option maxHeartbeats 1000000 in
/-- The rows of `main_v94_0` at the first endpoints. -/
theorem host10_v110 (W : Valuation τ sig (Elt Ideal)) :
    StableHlo.after hostOps10 W (Proc.devRef .tc main_v110) =
      (Host.gather gather_S200000x128_S1000000x1_S1000000x128_1_0_n_n_0_1_1128 (W (Proc.devRef .tc main_v94_0) : (⟨S200000x128, .f32⟩ : BufTy).Contents (Elt Ideal)) (nSrc (W (Proc.devRef .tc main_arg5) : (⟨S1000000, .i32⟩ : BufTy).Contents (Elt Ideal))) : (⟨S1000000x128, .f32⟩ : BufTy).Contents (Elt Ideal)) := by
  dsimp only [hostOps10]
  after_results_simp
  rfl

set_option maxHeartbeats 1000000 in
/-- The entries of `main_v25` at the first endpoints. -/
theorem host10_v117 (W : Valuation τ sig (Elt Ideal)) :
    StableHlo.after hostOps10 W (Proc.devRef .tc main_v117) =
      (Host.gather gather_S200000x1_S1000000x1_S1000000x1_1_0_n_n_0_1_11 (W (Proc.devRef .tc main_v25) : (⟨S200000x1, .f32⟩ : BufTy).Contents (Elt Ideal)) (nSrc (W (Proc.devRef .tc main_arg5) : (⟨S1000000, .i32⟩ : BufTy).Contents (Elt Ideal))) : (⟨S1000000x1, .f32⟩ : BufTy).Contents (Elt Ideal)) := by
  dsimp only [hostOps10]
  after_results_simp
  rfl

set_option maxHeartbeats 1000000 in
/-- The rows of `main_v26` at the query ids. -/
theorem host10_v124 (W : Valuation τ sig (Elt Ideal)) :
    StableHlo.after hostOps10 W (Proc.devRef .tc main_v124) =
      (Host.gather gather_S50000x64_S1000000x1_S1000000x64_1_0_n_n_0_1_164 (W (Proc.devRef .tc main_v26) : (⟨S50000x64, .f32⟩ : BufTy).Contents (Elt Ideal)) (nQ (W (Proc.devRef .tc main_arg7) : (⟨S1000000, .i32⟩ : BufTy).Contents (Elt Ideal))) : (⟨S1000000x64, .f32⟩ : BufTy).Contents (Elt Ideal)) := by
  dsimp only [hostOps10]
  after_results_simp
  rfl

set_option maxHeartbeats 1000000 in
/-- The rows of `main_v27` at the query ids. -/
theorem host10_v131 (W : Valuation τ sig (Elt Ideal)) :
    StableHlo.after hostOps10 W (Proc.devRef .tc main_v131) =
      (Host.gather gather_S50000x128_S1000000x1_S1000000x128_1_0_n_n_0_1_1128 (W (Proc.devRef .tc main_v27) : (⟨S50000x128, .f32⟩ : BufTy).Contents (Elt Ideal)) (nQ (W (Proc.devRef .tc main_arg7) : (⟨S1000000, .i32⟩ : BufTy).Contents (Elt Ideal))) : (⟨S1000000x128, .f32⟩ : BufTy).Contents (Elt Ideal)) := by
  dsimp only [hostOps10]
  after_results_simp
  rfl

set_option maxHeartbeats 1000000 in
/-- `main_v132` summed over the edges into the rows of their second endpoints. -/
theorem host12_v150 (W : Valuation τ sig (Elt Ideal)) :
    StableHlo.after hostOps12 W (Proc.devRef .tc main_v150) =
      (Host.scatterAdd (F := Ideal) (φ := .f32) scatter_S200000x64_S1000000x1_S1000000x64_1_0_0_1 zero64 (bcast1 (W (Proc.devRef .tc main_arg6) : (⟨S1000000, .i32⟩ : BufTy).Contents (Elt Ideal))) (W (Proc.devRef .tc main_v132) : (⟨S1000000x64, .f32⟩ : BufTy).Contents (Elt Ideal)) : (⟨S200000x64, .f32⟩ : BufTy).Contents (Elt Ideal)) := by
  dsimp only [hostOps12]
  after_results_simp
  rfl

set_option maxHeartbeats 1000000 in
/-- `main_v133` summed over the edges into the rows of their second endpoints. -/
theorem host12_v153 (W : Valuation τ sig (Elt Ideal)) :
    StableHlo.after hostOps12 W (Proc.devRef .tc main_v153) =
      (Host.scatterAdd (F := Ideal) (φ := .f32) scatter_S200000x128_S1000000x1_S1000000x128_1_0_0_1 zero128 (bcast1 (W (Proc.devRef .tc main_arg6) : (⟨S1000000, .i32⟩ : BufTy).Contents (Elt Ideal))) (W (Proc.devRef .tc main_v133) : (⟨S1000000x128, .f32⟩ : BufTy).Contents (Elt Ideal)) : (⟨S200000x128, .f32⟩ : BufTy).Contents (Elt Ideal)) := by
  dsimp only [hostOps12]
  after_results_simp
  rfl

set_option maxHeartbeats 1000000 in
/-- The rows of `main_v95` at the second endpoints, summed into the rows of the first endpoints. -/
theorem host12_v156 (W : Valuation τ sig (Elt Ideal)) :
    StableHlo.after hostOps12 W (Proc.devRef .tc main_v156) =
      (Host.scatterAdd (F := Ideal) (φ := .f32) scatter_S200000x64_S1000000x1_S1000000x64_1_0_0_1 zero64 (bcast1 (W (Proc.devRef .tc main_arg5) : (⟨S1000000, .i32⟩ : BufTy).Contents (Elt Ideal))) (Host.gather gather_S200000x64_S1000000x1_S1000000x64_1_0_n_n_0_1_164 (W (Proc.devRef .tc main_v95) : (⟨S200000x64, .f32⟩ : BufTy).Contents (Elt Ideal)) (nDst (W (Proc.devRef .tc main_arg6) : (⟨S1000000, .i32⟩ : BufTy).Contents (Elt Ideal)))) : (⟨S200000x64, .f32⟩ : BufTy).Contents (Elt Ideal)) := by
  dsimp only [hostOps12]
  after_results_simp
  rfl

set_option maxHeartbeats 1000000 in
/-- The rows of `main_v96` at the second endpoints, summed into the rows of the first endpoints. -/
theorem host12_v159 (W : Valuation τ sig (Elt Ideal)) :
    StableHlo.after hostOps12 W (Proc.devRef .tc main_v159) =
      (Host.scatterAdd (F := Ideal) (φ := .f32) scatter_S200000x128_S1000000x1_S1000000x128_1_0_0_1 zero128 (bcast1 (W (Proc.devRef .tc main_arg5) : (⟨S1000000, .i32⟩ : BufTy).Contents (Elt Ideal))) (Host.gather gather_S200000x128_S1000000x1_S1000000x128_1_0_n_n_0_1_1128 (W (Proc.devRef .tc main_v96) : (⟨S200000x128, .f32⟩ : BufTy).Contents (Elt Ideal)) (nDst (W (Proc.devRef .tc main_arg6) : (⟨S1000000, .i32⟩ : BufTy).Contents (Elt Ideal)))) : (⟨S200000x128, .f32⟩ : BufTy).Contents (Elt Ideal)) := by
  dsimp only [hostOps12]
  after_results_simp
  rfl

set_option maxHeartbeats 1000000 in
/-- `main_v162` and `main_v163` side by side. -/
theorem host16_v164 (W : Valuation τ sig (Elt Ideal)) :
    StableHlo.after hostOps16 W (Proc.devRef .tc main_v164) =
      (concatenate S200000x192 1 [⟨S200000x64, (W (Proc.devRef .tc main_v162) : (⟨S200000x64, .f32⟩ : BufTy).Contents (Elt Ideal))⟩, ⟨S200000x128, (W (Proc.devRef .tc main_v163) : (⟨S200000x128, .f32⟩ : BufTy).Contents (Elt Ideal))⟩] concatenates_S200000x64_S200000x128_S200000x192_d1 : (⟨S200000x192, .f32⟩ : BufTy).Contents (Elt Ideal)) := by
  dsimp only [hostOps16]
  after_results_simp

end Cert.KernelIdeal.Wire

end
-- ==== Proof.KWireB.lean ====
import proofs.«137020_j48936857370759_1_alg».proof.Proof.Gen.KernelIdeal.Frame
import proofs.«137020_j48936857370759_1_alg».proof.Proof.KWireHostB
import proofs.«137020_j48936857370759_1_alg».proof.Proof.KWireA

/-! # What regions 8 to 15 read, and the result

The idealized program is sixteen regions among stretches of host operations, and the generated frame names the
buffer contents at every boundary between two segments as a fold from the launch memory. This module follows each
buffer that the second half of the program reads from the boundary where it is read back to the boundary where it
was written: a region leaves every buffer that is not one of its arrays as it found it, leaves the array of an input
window as it found it, and leaves the array of an output window at the fold of its write-backs; a host stretch
leaves every buffer none of its operations writes as it found it. Walking back step by step, every region input
that an earlier region produced is that region's folded output, every argument is the launch memory's, and the
program's result is the concatenation, along the columns, of the last two regions' outputs. -/

set_option maxRecDepth 16384

noncomputable section

namespace Cert.KernelIdeal.Wire

open Idealize.ShloMosaic Idealize.ShloMosaic.TcCoe Idealize.ShloMosaic.Tactic
open Idealize.SL.Sem
open Idealize.ShloMosaic.Pipeline (Dat Cfg Window)
open Cert.KernelIdeal Cert.KernelIdeal.Facts₀ Cert.KernelIdeal.Facts

variable (m : (ℓ : Loc nD τ sig) → Buf (Elt Ideal) ℓ) (ρ : Dev nD → PrngReg) (c : Dev nD)

/-! ## Buffers written before region 6 -/

theorem at11_arg5 : Gen.W11 m ρ c (Proc.devRef .tc main_arg5) = m ((c : Thread nD τ).loc main_arg5) :=
  (show Gen.W11 m ρ c (Proc.devRef .tc main_arg5) = Gen.W10 m ρ c (Proc.devRef .tc main_arg5) from
    Gen.W11_of_ne m ρ c main_arg5 (by decide)).trans (at10_arg5 m ρ c)
theorem at12_arg5 : Gen.W12 m ρ c (Proc.devRef .tc main_arg5) = m ((c : Thread nD τ).loc main_arg5) :=
  (show Gen.W12 m ρ c (Proc.devRef .tc main_arg5) = Gen.W11 m ρ c (Proc.devRef .tc main_arg5) from
    Gen.W12_of_ne m ρ c main_arg5 (by decide)).trans (at11_arg5 m ρ c)
theorem at13_arg5 : Gen.W13 m ρ c (Proc.devRef .tc main_arg5) = m ((c : Thread nD τ).loc main_arg5) :=
  (show Gen.W13 m ρ c (Proc.devRef .tc main_arg5) = Gen.W12 m ρ c (Proc.devRef .tc main_arg5) from
    Gen.W13_of_ne m ρ c main_arg5 (by decide)).trans (at12_arg5 m ρ c)
theorem at14_arg5 : Gen.W14 m ρ c (Proc.devRef .tc main_arg5) = m ((c : Thread nD τ).loc main_arg5) :=
  (show Gen.W14 m ρ c (Proc.devRef .tc main_arg5) = Gen.W13 m ρ c (Proc.devRef .tc main_arg5) from
    Gen.W14_of_ne m ρ c main_arg5 (by decide)).trans (at13_arg5 m ρ c)
theorem at15_arg5 : Gen.W15 m ρ c (Proc.devRef .tc main_arg5) = m ((c : Thread nD τ).loc main_arg5) :=
  (show Gen.W15 m ρ c (Proc.devRef .tc main_arg5) = Gen.W14 m ρ c (Proc.devRef .tc main_arg5) from
    keep10 (Gen.W14 m ρ c) main_arg5 (by decide)).trans (at14_arg5 m ρ c)
theorem at16_arg5 : Gen.W16 m ρ c (Proc.devRef .tc main_arg5) = m ((c : Thread nD τ).loc main_arg5) :=
  (show Gen.W16 m ρ c (Proc.devRef .tc main_arg5) = Gen.W15 m ρ c (Proc.devRef .tc main_arg5) from
    Gen.W16_of_ne m ρ c main_arg5 (by decide)).trans (at15_arg5 m ρ c)
theorem at17_arg5 : Gen.W17 m ρ c (Proc.devRef .tc main_arg5) = m ((c : Thread nD τ).loc main_arg5) :=
  (show Gen.W17 m ρ c (Proc.devRef .tc main_arg5) = Gen.W16 m ρ c (Proc.devRef .tc main_arg5) from
    Gen.W17_of_ne m ρ c main_arg5 (by decide)).trans (at16_arg5 m ρ c)

theorem at11_arg6 : Gen.W11 m ρ c (Proc.devRef .tc main_arg6) = m ((c : Thread nD τ).loc main_arg6) :=
  (show Gen.W11 m ρ c (Proc.devRef .tc main_arg6) = Gen.W10 m ρ c (Proc.devRef .tc main_arg6) from
    Gen.W11_of_ne m ρ c main_arg6 (by decide)).trans (at10_arg6 m ρ c)
theorem at12_arg6 : Gen.W12 m ρ c (Proc.devRef .tc main_arg6) = m ((c : Thread nD τ).loc main_arg6) :=
  (show Gen.W12 m ρ c (Proc.devRef .tc main_arg6) = Gen.W11 m ρ c (Proc.devRef .tc main_arg6) from
    Gen.W12_of_ne m ρ c main_arg6 (by decide)).trans (at11_arg6 m ρ c)
theorem at13_arg6 : Gen.W13 m ρ c (Proc.devRef .tc main_arg6) = m ((c : Thread nD τ).loc main_arg6) :=
  (show Gen.W13 m ρ c (Proc.devRef .tc main_arg6) = Gen.W12 m ρ c (Proc.devRef .tc main_arg6) from
    Gen.W13_of_ne m ρ c main_arg6 (by decide)).trans (at12_arg6 m ρ c)
theorem at14_arg6 : Gen.W14 m ρ c (Proc.devRef .tc main_arg6) = m ((c : Thread nD τ).loc main_arg6) :=
  (show Gen.W14 m ρ c (Proc.devRef .tc main_arg6) = Gen.W13 m ρ c (Proc.devRef .tc main_arg6) from
    Gen.W14_of_ne m ρ c main_arg6 (by decide)).trans (at13_arg6 m ρ c)
theorem at15_arg6 : Gen.W15 m ρ c (Proc.devRef .tc main_arg6) = m ((c : Thread nD τ).loc main_arg6) :=
  (show Gen.W15 m ρ c (Proc.devRef .tc main_arg6) = Gen.W14 m ρ c (Proc.devRef .tc main_arg6) from
    keep10 (Gen.W14 m ρ c) main_arg6 (by decide)).trans (at14_arg6 m ρ c)
theorem at16_arg6 : Gen.W16 m ρ c (Proc.devRef .tc main_arg6) = m ((c : Thread nD τ).loc main_arg6) :=
  (show Gen.W16 m ρ c (Proc.devRef .tc main_arg6) = Gen.W15 m ρ c (Proc.devRef .tc main_arg6) from
    Gen.W16_of_ne m ρ c main_arg6 (by decide)).trans (at15_arg6 m ρ c)
theorem at17_arg6 : Gen.W17 m ρ c (Proc.devRef .tc main_arg6) = m ((c : Thread nD τ).loc main_arg6) :=
  (show Gen.W17 m ρ c (Proc.devRef .tc main_arg6) = Gen.W16 m ρ c (Proc.devRef .tc main_arg6) from
    Gen.W17_of_ne m ρ c main_arg6 (by decide)).trans (at16_arg6 m ρ c)

theorem at11_arg7 : Gen.W11 m ρ c (Proc.devRef .tc main_arg7) = m ((c : Thread nD τ).loc main_arg7) :=
  (show Gen.W11 m ρ c (Proc.devRef .tc main_arg7) = Gen.W10 m ρ c (Proc.devRef .tc main_arg7) from
    Gen.W11_of_ne m ρ c main_arg7 (by decide)).trans (at10_arg7 m ρ c)
theorem at12_arg7 : Gen.W12 m ρ c (Proc.devRef .tc main_arg7) = m ((c : Thread nD τ).loc main_arg7) :=
  (show Gen.W12 m ρ c (Proc.devRef .tc main_arg7) = Gen.W11 m ρ c (Proc.devRef .tc main_arg7) from
    Gen.W12_of_ne m ρ c main_arg7 (by decide)).trans (at11_arg7 m ρ c)
theorem at13_arg7 : Gen.W13 m ρ c (Proc.devRef .tc main_arg7) = m ((c : Thread nD τ).loc main_arg7) :=
  (show Gen.W13 m ρ c (Proc.devRef .tc main_arg7) = Gen.W12 m ρ c (Proc.devRef .tc main_arg7) from
    Gen.W13_of_ne m ρ c main_arg7 (by decide)).trans (at12_arg7 m ρ c)
theorem at14_arg7 : Gen.W14 m ρ c (Proc.devRef .tc main_arg7) = m ((c : Thread nD τ).loc main_arg7) :=
  (show Gen.W14 m ρ c (Proc.devRef .tc main_arg7) = Gen.W13 m ρ c (Proc.devRef .tc main_arg7) from
    Gen.W14_of_ne m ρ c main_arg7 (by decide)).trans (at13_arg7 m ρ c)

theorem at11_v26 : Gen.W11 m ρ c (Proc.devRef .tc main_v26) = sliceLo (m ((c : Thread nD τ).loc main_arg2)) :=
  (show Gen.W11 m ρ c (Proc.devRef .tc main_v26) = Gen.W10 m ρ c (Proc.devRef .tc main_v26) from
    Gen.W11_of_ne m ρ c main_v26 (by decide)).trans (at10_v26 m ρ c)
theorem at12_v26 : Gen.W12 m ρ c (Proc.devRef .tc main_v26) = sliceLo (m ((c : Thread nD τ).loc main_arg2)) :=
  (show Gen.W12 m ρ c (Proc.devRef .tc main_v26) = Gen.W11 m ρ c (Proc.devRef .tc main_v26) from
    Gen.W12_of_ne m ρ c main_v26 (by decide)).trans (at11_v26 m ρ c)
theorem at13_v26 : Gen.W13 m ρ c (Proc.devRef .tc main_v26) = sliceLo (m ((c : Thread nD τ).loc main_arg2)) :=
  (show Gen.W13 m ρ c (Proc.devRef .tc main_v26) = Gen.W12 m ρ c (Proc.devRef .tc main_v26) from
    Gen.W13_of_ne m ρ c main_v26 (by decide)).trans (at12_v26 m ρ c)
theorem at14_v26 : Gen.W14 m ρ c (Proc.devRef .tc main_v26) = sliceLo (m ((c : Thread nD τ).loc main_arg2)) :=
  (show Gen.W14 m ρ c (Proc.devRef .tc main_v26) = Gen.W13 m ρ c (Proc.devRef .tc main_v26) from
    Gen.W14_of_ne m ρ c main_v26 (by decide)).trans (at13_v26 m ρ c)

theorem at11_v27 : Gen.W11 m ρ c (Proc.devRef .tc main_v27) = sliceHi (m ((c : Thread nD τ).loc main_arg2)) :=
  (show Gen.W11 m ρ c (Proc.devRef .tc main_v27) = Gen.W10 m ρ c (Proc.devRef .tc main_v27) from
    Gen.W11_of_ne m ρ c main_v27 (by decide)).trans (at10_v27 m ρ c)
theorem at12_v27 : Gen.W12 m ρ c (Proc.devRef .tc main_v27) = sliceHi (m ((c : Thread nD τ).loc main_arg2)) :=
  (show Gen.W12 m ρ c (Proc.devRef .tc main_v27) = Gen.W11 m ρ c (Proc.devRef .tc main_v27) from
    Gen.W12_of_ne m ρ c main_v27 (by decide)).trans (at11_v27 m ρ c)
theorem at13_v27 : Gen.W13 m ρ c (Proc.devRef .tc main_v27) = sliceHi (m ((c : Thread nD τ).loc main_arg2)) :=
  (show Gen.W13 m ρ c (Proc.devRef .tc main_v27) = Gen.W12 m ρ c (Proc.devRef .tc main_v27) from
    Gen.W13_of_ne m ρ c main_v27 (by decide)).trans (at12_v27 m ρ c)
theorem at14_v27 : Gen.W14 m ρ c (Proc.devRef .tc main_v27) = sliceHi (m ((c : Thread nD τ).loc main_arg2)) :=
  (show Gen.W14 m ρ c (Proc.devRef .tc main_v27) = Gen.W13 m ρ c (Proc.devRef .tc main_v27) from
    Gen.W14_of_ne m ρ c main_v27 (by decide)).trans (at13_v27 m ρ c)

theorem at12_v25 : Gen.W12 m ρ c (Proc.devRef .tc main_v25) = (Gen.dat1 (Gen.V2 m ρ) c).arrAt 2 cfg1.N :=
  (show Gen.W12 m ρ c (Proc.devRef .tc main_v25) = Gen.W11 m ρ c (Proc.devRef .tc main_v25) from
    (Gen.W12_arr m ρ c 2).trans (((Gen.dat7 (Gen.V11 m ρ) c).arrAt_in 2 rfl _).trans (Gen.A_eq7 (Gen.V11 m ρ) c 2))).trans (at11_v25 m ρ c)
theorem at13_v25 : Gen.W13 m ρ c (Proc.devRef .tc main_v25) = (Gen.dat1 (Gen.V2 m ρ) c).arrAt 2 cfg1.N :=
  (show Gen.W13 m ρ c (Proc.devRef .tc main_v25) = Gen.W12 m ρ c (Proc.devRef .tc main_v25) from
    (Gen.W13_arr m ρ c 1).trans (((Gen.dat8 (Gen.V12 m ρ) c).arrAt_in 1 rfl _).trans (Gen.A_eq8 (Gen.V12 m ρ) c 1))).trans (at12_v25 m ρ c)
theorem at14_v25 : Gen.W14 m ρ c (Proc.devRef .tc main_v25) = (Gen.dat1 (Gen.V2 m ρ) c).arrAt 2 cfg1.N :=
  (show Gen.W14 m ρ c (Proc.devRef .tc main_v25) = Gen.W13 m ρ c (Proc.devRef .tc main_v25) from
    (Gen.W14_arr m ρ c 1).trans (((Gen.dat9 (Gen.V13 m ρ) c).arrAt_in 1 rfl _).trans (Gen.A_eq9 (Gen.V13 m ρ) c 1))).trans (at13_v25 m ρ c)
theorem at15_v25 : Gen.W15 m ρ c (Proc.devRef .tc main_v25) = (Gen.dat1 (Gen.V2 m ρ) c).arrAt 2 cfg1.N :=
  (show Gen.W15 m ρ c (Proc.devRef .tc main_v25) = Gen.W14 m ρ c (Proc.devRef .tc main_v25) from
    keep10 (Gen.W14 m ρ c) main_v25 (by decide)).trans (at14_v25 m ρ c)
theorem at16_v25 : Gen.W16 m ρ c (Proc.devRef .tc main_v25) = (Gen.dat1 (Gen.V2 m ρ) c).arrAt 2 cfg1.N :=
  (show Gen.W16 m ρ c (Proc.devRef .tc main_v25) = Gen.W15 m ρ c (Proc.devRef .tc main_v25) from
    Gen.W16_of_ne m ρ c main_v25 (by decide)).trans (at15_v25 m ρ c)
theorem at17_v25 : Gen.W17 m ρ c (Proc.devRef .tc main_v25) = (Gen.dat1 (Gen.V2 m ρ) c).arrAt 2 cfg1.N :=
  (show Gen.W17 m ρ c (Proc.devRef .tc main_v25) = Gen.W16 m ρ c (Proc.devRef .tc main_v25) from
    Gen.W17_of_ne m ρ c main_v25 (by decide)).trans (at16_v25 m ρ c)
theorem at18_v25 : Gen.W18 m ρ c (Proc.devRef .tc main_v25) = (Gen.dat1 (Gen.V2 m ρ) c).arrAt 2 cfg1.N :=
  (show Gen.W18 m ρ c (Proc.devRef .tc main_v25) = Gen.W17 m ρ c (Proc.devRef .tc main_v25) from
    keep12 (Gen.W17 m ρ c) main_v25 (by decide)).trans (at17_v25 m ρ c)
theorem at19_v25 : Gen.W19 m ρ c (Proc.devRef .tc main_v25) = (Gen.dat1 (Gen.V2 m ρ) c).arrAt 2 cfg1.N :=
  (show Gen.W19 m ρ c (Proc.devRef .tc main_v25) = Gen.W18 m ρ c (Proc.devRef .tc main_v25) from
    (Gen.W19_arr m ρ c 2).trans (((Gen.dat12 (Gen.V18 m ρ) c).arrAt_in 2 rfl _).trans (Gen.A_eq12 (Gen.V18 m ρ) c 2))).trans (at18_v25 m ρ c)

/-! ## The outputs of regions 6 to 11 -/

theorem at11_v93_0 : Gen.W11 m ρ c (Proc.devRef .tc main_v93_0) = (Gen.dat6 (Gen.V10 m ρ) c).arrAt 4 cfg6.N :=
  Gen.W11_arr m ρ c 4
theorem at12_v93_0 : Gen.W12 m ρ c (Proc.devRef .tc main_v93_0) = (Gen.dat6 (Gen.V10 m ρ) c).arrAt 4 cfg6.N :=
  (show Gen.W12 m ρ c (Proc.devRef .tc main_v93_0) = Gen.W11 m ρ c (Proc.devRef .tc main_v93_0) from
    Gen.W12_of_ne m ρ c main_v93_0 (by decide)).trans (at11_v93_0 m ρ c)
theorem at13_v93_0 : Gen.W13 m ρ c (Proc.devRef .tc main_v93_0) = (Gen.dat6 (Gen.V10 m ρ) c).arrAt 4 cfg6.N :=
  (show Gen.W13 m ρ c (Proc.devRef .tc main_v93_0) = Gen.W12 m ρ c (Proc.devRef .tc main_v93_0) from
    (Gen.W13_arr m ρ c 0).trans (((Gen.dat8 (Gen.V12 m ρ) c).arrAt_in 0 rfl _).trans (Gen.A_eq8 (Gen.V12 m ρ) c 0))).trans (at12_v93_0 m ρ c)
theorem at14_v93_0 : Gen.W14 m ρ c (Proc.devRef .tc main_v93_0) = (Gen.dat6 (Gen.V10 m ρ) c).arrAt 4 cfg6.N :=
  (show Gen.W14 m ρ c (Proc.devRef .tc main_v93_0) = Gen.W13 m ρ c (Proc.devRef .tc main_v93_0) from
    Gen.W14_of_ne m ρ c main_v93_0 (by decide)).trans (at13_v93_0 m ρ c)

theorem at12_v94_0 : Gen.W12 m ρ c (Proc.devRef .tc main_v94_0) = (Gen.dat7 (Gen.V11 m ρ) c).arrAt 4 cfg7.N :=
  Gen.W12_arr m ρ c 4
theorem at13_v94_0 : Gen.W13 m ρ c (Proc.devRef .tc main_v94_0) = (Gen.dat7 (Gen.V11 m ρ) c).arrAt 4 cfg7.N :=
  (show Gen.W13 m ρ c (Proc.devRef .tc main_v94_0) = Gen.W12 m ρ c (Proc.devRef .tc main_v94_0) from
    Gen.W13_of_ne m ρ c main_v94_0 (by decide)).trans (at12_v94_0 m ρ c)
theorem at14_v94_0 : Gen.W14 m ρ c (Proc.devRef .tc main_v94_0) = (Gen.dat7 (Gen.V11 m ρ) c).arrAt 4 cfg7.N :=
  (show Gen.W14 m ρ c (Proc.devRef .tc main_v94_0) = Gen.W13 m ρ c (Proc.devRef .tc main_v94_0) from
    (Gen.W14_arr m ρ c 0).trans (((Gen.dat9 (Gen.V13 m ρ) c).arrAt_in 0 rfl _).trans (Gen.A_eq9 (Gen.V13 m ρ) c 0))).trans (at13_v94_0 m ρ c)

theorem at11_v93_1 : Gen.W11 m ρ c (Proc.devRef .tc main_v93_1) = (Gen.dat6 (Gen.V10 m ρ) c).arrAt 5 cfg6.N :=
  Gen.W11_arr m ρ c 5
theorem at12_v93_1 : Gen.W12 m ρ c (Proc.devRef .tc main_v93_1) = (Gen.dat6 (Gen.V10 m ρ) c).arrAt 5 cfg6.N :=
  (show Gen.W12 m ρ c (Proc.devRef .tc main_v93_1) = Gen.W11 m ρ c (Proc.devRef .tc main_v93_1) from
    Gen.W12_of_ne m ρ c main_v93_1 (by decide)).trans (at11_v93_1 m ρ c)
theorem at13_v93_1 : Gen.W13 m ρ c (Proc.devRef .tc main_v93_1) = (Gen.dat6 (Gen.V10 m ρ) c).arrAt 5 cfg6.N :=
  (show Gen.W13 m ρ c (Proc.devRef .tc main_v93_1) = Gen.W12 m ρ c (Proc.devRef .tc main_v93_1) from
    Gen.W13_of_ne m ρ c main_v93_1 (by decide)).trans (at12_v93_1 m ρ c)
theorem at14_v93_1 : Gen.W14 m ρ c (Proc.devRef .tc main_v93_1) = (Gen.dat6 (Gen.V10 m ρ) c).arrAt 5 cfg6.N :=
  (show Gen.W14 m ρ c (Proc.devRef .tc main_v93_1) = Gen.W13 m ρ c (Proc.devRef .tc main_v93_1) from
    Gen.W14_of_ne m ρ c main_v93_1 (by decide)).trans (at13_v93_1 m ρ c)
theorem at15_v93_1 : Gen.W15 m ρ c (Proc.devRef .tc main_v93_1) = (Gen.dat6 (Gen.V10 m ρ) c).arrAt 5 cfg6.N :=
  (show Gen.W15 m ρ c (Proc.devRef .tc main_v93_1) = Gen.W14 m ρ c (Proc.devRef .tc main_v93_1) from
    keep10 (Gen.W14 m ρ c) main_v93_1 (by decide)).trans (at14_v93_1 m ρ c)
theorem at16_v93_1 : Gen.W16 m ρ c (Proc.devRef .tc main_v93_1) = (Gen.dat6 (Gen.V10 m ρ) c).arrAt 5 cfg6.N :=
  (show Gen.W16 m ρ c (Proc.devRef .tc main_v93_1) = Gen.W15 m ρ c (Proc.devRef .tc main_v93_1) from
    Gen.W16_of_ne m ρ c main_v93_1 (by decide)).trans (at15_v93_1 m ρ c)
theorem at17_v93_1 : Gen.W17 m ρ c (Proc.devRef .tc main_v93_1) = (Gen.dat6 (Gen.V10 m ρ) c).arrAt 5 cfg6.N :=
  (show Gen.W17 m ρ c (Proc.devRef .tc main_v93_1) = Gen.W16 m ρ c (Proc.devRef .tc main_v93_1) from
    Gen.W17_of_ne m ρ c main_v93_1 (by decide)).trans (at16_v93_1 m ρ c)
theorem at18_v93_1 : Gen.W18 m ρ c (Proc.devRef .tc main_v93_1) = (Gen.dat6 (Gen.V10 m ρ) c).arrAt 5 cfg6.N :=
  (show Gen.W18 m ρ c (Proc.devRef .tc main_v93_1) = Gen.W17 m ρ c (Proc.devRef .tc main_v93_1) from
    keep12 (Gen.W17 m ρ c) main_v93_1 (by decide)).trans (at17_v93_1 m ρ c)

theorem at12_v94_1 : Gen.W12 m ρ c (Proc.devRef .tc main_v94_1) = (Gen.dat7 (Gen.V11 m ρ) c).arrAt 5 cfg7.N :=
  Gen.W12_arr m ρ c 5
theorem at13_v94_1 : Gen.W13 m ρ c (Proc.devRef .tc main_v94_1) = (Gen.dat7 (Gen.V11 m ρ) c).arrAt 5 cfg7.N :=
  (show Gen.W13 m ρ c (Proc.devRef .tc main_v94_1) = Gen.W12 m ρ c (Proc.devRef .tc main_v94_1) from
    Gen.W13_of_ne m ρ c main_v94_1 (by decide)).trans (at12_v94_1 m ρ c)
theorem at14_v94_1 : Gen.W14 m ρ c (Proc.devRef .tc main_v94_1) = (Gen.dat7 (Gen.V11 m ρ) c).arrAt 5 cfg7.N :=
  (show Gen.W14 m ρ c (Proc.devRef .tc main_v94_1) = Gen.W13 m ρ c (Proc.devRef .tc main_v94_1) from
    Gen.W14_of_ne m ρ c main_v94_1 (by decide)).trans (at13_v94_1 m ρ c)
theorem at15_v94_1 : Gen.W15 m ρ c (Proc.devRef .tc main_v94_1) = (Gen.dat7 (Gen.V11 m ρ) c).arrAt 5 cfg7.N :=
  (show Gen.W15 m ρ c (Proc.devRef .tc main_v94_1) = Gen.W14 m ρ c (Proc.devRef .tc main_v94_1) from
    keep10 (Gen.W14 m ρ c) main_v94_1 (by decide)).trans (at14_v94_1 m ρ c)
theorem at16_v94_1 : Gen.W16 m ρ c (Proc.devRef .tc main_v94_1) = (Gen.dat7 (Gen.V11 m ρ) c).arrAt 5 cfg7.N :=
  (show Gen.W16 m ρ c (Proc.devRef .tc main_v94_1) = Gen.W15 m ρ c (Proc.devRef .tc main_v94_1) from
    Gen.W16_of_ne m ρ c main_v94_1 (by decide)).trans (at15_v94_1 m ρ c)
theorem at17_v94_1 : Gen.W17 m ρ c (Proc.devRef .tc main_v94_1) = (Gen.dat7 (Gen.V11 m ρ) c).arrAt 5 cfg7.N :=
  (show Gen.W17 m ρ c (Proc.devRef .tc main_v94_1) = Gen.W16 m ρ c (Proc.devRef .tc main_v94_1) from
    Gen.W17_of_ne m ρ c main_v94_1 (by decide)).trans (at16_v94_1 m ρ c)
theorem at18_v94_1 : Gen.W18 m ρ c (Proc.devRef .tc main_v94_1) = (Gen.dat7 (Gen.V11 m ρ) c).arrAt 5 cfg7.N :=
  (show Gen.W18 m ρ c (Proc.devRef .tc main_v94_1) = Gen.W17 m ρ c (Proc.devRef .tc main_v94_1) from
    keep12 (Gen.W17 m ρ c) main_v94_1 (by decide)).trans (at17_v94_1 m ρ c)
theorem at19_v94_1 : Gen.W19 m ρ c (Proc.devRef .tc main_v94_1) = (Gen.dat7 (Gen.V11 m ρ) c).arrAt 5 cfg7.N :=
  (show Gen.W19 m ρ c (Proc.devRef .tc main_v94_1) = Gen.W18 m ρ c (Proc.devRef .tc main_v94_1) from
    Gen.W19_of_ne m ρ c main_v94_1 (by decide)).trans (at18_v94_1 m ρ c)

theorem at13_v95 : Gen.W13 m ρ c (Proc.devRef .tc main_v95) = (Gen.dat8 (Gen.V12 m ρ) c).arrAt 2 cfg8.N :=
  Gen.W13_arr m ρ c 2
theorem at14_v95 : Gen.W14 m ρ c (Proc.devRef .tc main_v95) = (Gen.dat8 (Gen.V12 m ρ) c).arrAt 2 cfg8.N :=
  (show Gen.W14 m ρ c (Proc.devRef .tc main_v95) = Gen.W13 m ρ c (Proc.devRef .tc main_v95) from
    Gen.W14_of_ne m ρ c main_v95 (by decide)).trans (at13_v95 m ρ c)
theorem at15_v95 : Gen.W15 m ρ c (Proc.devRef .tc main_v95) = (Gen.dat8 (Gen.V12 m ρ) c).arrAt 2 cfg8.N :=
  (show Gen.W15 m ρ c (Proc.devRef .tc main_v95) = Gen.W14 m ρ c (Proc.devRef .tc main_v95) from
    keep10 (Gen.W14 m ρ c) main_v95 (by decide)).trans (at14_v95 m ρ c)
theorem at16_v95 : Gen.W16 m ρ c (Proc.devRef .tc main_v95) = (Gen.dat8 (Gen.V12 m ρ) c).arrAt 2 cfg8.N :=
  (show Gen.W16 m ρ c (Proc.devRef .tc main_v95) = Gen.W15 m ρ c (Proc.devRef .tc main_v95) from
    Gen.W16_of_ne m ρ c main_v95 (by decide)).trans (at15_v95 m ρ c)
theorem at17_v95 : Gen.W17 m ρ c (Proc.devRef .tc main_v95) = (Gen.dat8 (Gen.V12 m ρ) c).arrAt 2 cfg8.N :=
  (show Gen.W17 m ρ c (Proc.devRef .tc main_v95) = Gen.W16 m ρ c (Proc.devRef .tc main_v95) from
    Gen.W17_of_ne m ρ c main_v95 (by decide)).trans (at16_v95 m ρ c)

theorem at14_v96 : Gen.W14 m ρ c (Proc.devRef .tc main_v96) = (Gen.dat9 (Gen.V13 m ρ) c).arrAt 2 cfg9.N :=
  Gen.W14_arr m ρ c 2
theorem at15_v96 : Gen.W15 m ρ c (Proc.devRef .tc main_v96) = (Gen.dat9 (Gen.V13 m ρ) c).arrAt 2 cfg9.N :=
  (show Gen.W15 m ρ c (Proc.devRef .tc main_v96) = Gen.W14 m ρ c (Proc.devRef .tc main_v96) from
    keep10 (Gen.W14 m ρ c) main_v96 (by decide)).trans (at14_v96 m ρ c)
theorem at16_v96 : Gen.W16 m ρ c (Proc.devRef .tc main_v96) = (Gen.dat9 (Gen.V13 m ρ) c).arrAt 2 cfg9.N :=
  (show Gen.W16 m ρ c (Proc.devRef .tc main_v96) = Gen.W15 m ρ c (Proc.devRef .tc main_v96) from
    Gen.W16_of_ne m ρ c main_v96 (by decide)).trans (at15_v96 m ρ c)
theorem at17_v96 : Gen.W17 m ρ c (Proc.devRef .tc main_v96) = (Gen.dat9 (Gen.V13 m ρ) c).arrAt 2 cfg9.N :=
  (show Gen.W17 m ρ c (Proc.devRef .tc main_v96) = Gen.W16 m ρ c (Proc.devRef .tc main_v96) from
    Gen.W17_of_ne m ρ c main_v96 (by decide)).trans (at16_v96 m ρ c)

theorem at16_v132 : Gen.W16 m ρ c (Proc.devRef .tc main_v132) = (Gen.dat10 (Gen.V15 m ρ) c).arrAt 3 cfg10.N :=
  Gen.W16_arr m ρ c 3
theorem at17_v132 : Gen.W17 m ρ c (Proc.devRef .tc main_v132) = (Gen.dat10 (Gen.V15 m ρ) c).arrAt 3 cfg10.N :=
  (show Gen.W17 m ρ c (Proc.devRef .tc main_v132) = Gen.W16 m ρ c (Proc.devRef .tc main_v132) from
    Gen.W17_of_ne m ρ c main_v132 (by decide)).trans (at16_v132 m ρ c)

theorem at17_v133 : Gen.W17 m ρ c (Proc.devRef .tc main_v133) = (Gen.dat11 (Gen.V16 m ρ) c).arrAt 3 cfg11.N :=
  Gen.W17_arr m ρ c 3

/-! ## What the stretch between regions 9 and 10 gathers -/

/-- The rows of region 6's first output at the first endpoints. -/
theorem at15_v103 : Gen.W15 m ρ c (Proc.devRef .tc main_v103) = Host.gather gather_S200000x64_S1000000x1_S1000000x64_1_0_n_n_0_1_164 ((Gen.dat6 (Gen.V10 m ρ) c).arrAt 4 cfg6.N) (nSrc (m ((c : Thread nD τ).loc main_arg5))) := by
  have e := host10_v103 (Gen.W14 m ρ c)
  rw [at14_v93_0 m ρ c, at14_arg5 m ρ c] at e
  exact e

/-- The rows of region 7's first output at the first endpoints. -/
theorem at15_v110 : Gen.W15 m ρ c (Proc.devRef .tc main_v110) = Host.gather gather_S200000x128_S1000000x1_S1000000x128_1_0_n_n_0_1_1128 ((Gen.dat7 (Gen.V11 m ρ) c).arrAt 4 cfg7.N) (nSrc (m ((c : Thread nD τ).loc main_arg5))) := by
  have e := host10_v110 (Gen.W14 m ρ c)
  rw [at14_v94_0 m ρ c, at14_arg5 m ρ c] at e
  exact e

/-- The entries of region 1's output at the first endpoints. -/
theorem at15_v117 : Gen.W15 m ρ c (Proc.devRef .tc main_v117) = Host.gather gather_S200000x1_S1000000x1_S1000000x1_1_0_n_n_0_1_11 ((Gen.dat1 (Gen.V2 m ρ) c).arrAt 2 cfg1.N) (nSrc (m ((c : Thread nD τ).loc main_arg5))) := by
  have e := host10_v117 (Gen.W14 m ρ c)
  rw [at14_v25 m ρ c, at14_arg5 m ρ c] at e
  exact e

/-- The rows of the low columns of the query table at the query ids. -/
theorem at15_v124 : Gen.W15 m ρ c (Proc.devRef .tc main_v124) = Host.gather gather_S50000x64_S1000000x1_S1000000x64_1_0_n_n_0_1_164 (sliceLo (m ((c : Thread nD τ).loc main_arg2))) (nQ (m ((c : Thread nD τ).loc main_arg7))) := by
  have e := host10_v124 (Gen.W14 m ρ c)
  rw [at14_v26 m ρ c, at14_arg7 m ρ c] at e
  exact e

/-- The rows of the high columns of the query table at the query ids. -/
theorem at15_v131 : Gen.W15 m ρ c (Proc.devRef .tc main_v131) = Host.gather gather_S50000x128_S1000000x1_S1000000x128_1_0_n_n_0_1_1128 (sliceHi (m ((c : Thread nD τ).loc main_arg2))) (nQ (m ((c : Thread nD τ).loc main_arg7))) := by
  have e := host10_v131 (Gen.W14 m ρ c)
  rw [at14_v27 m ρ c, at14_arg7 m ρ c] at e
  exact e

theorem at16_v117 : Gen.W16 m ρ c (Proc.devRef .tc main_v117) = Host.gather gather_S200000x1_S1000000x1_S1000000x1_1_0_n_n_0_1_11 ((Gen.dat1 (Gen.V2 m ρ) c).arrAt 2 cfg1.N) (nSrc (m ((c : Thread nD τ).loc main_arg5))) :=
  (show Gen.W16 m ρ c (Proc.devRef .tc main_v117) = Gen.W15 m ρ c (Proc.devRef .tc main_v117) from
    (Gen.W16_arr m ρ c 2).trans (((Gen.dat10 (Gen.V15 m ρ) c).arrAt_in 2 rfl _).trans (Gen.A_eq10 (Gen.V15 m ρ) c 2))).trans (at15_v117 m ρ c)

theorem at16_v110 : Gen.W16 m ρ c (Proc.devRef .tc main_v110) = Host.gather gather_S200000x128_S1000000x1_S1000000x128_1_0_n_n_0_1_1128 ((Gen.dat7 (Gen.V11 m ρ) c).arrAt 4 cfg7.N) (nSrc (m ((c : Thread nD τ).loc main_arg5))) :=
  (show Gen.W16 m ρ c (Proc.devRef .tc main_v110) = Gen.W15 m ρ c (Proc.devRef .tc main_v110) from
    Gen.W16_of_ne m ρ c main_v110 (by decide)).trans (at15_v110 m ρ c)

theorem at16_v131 : Gen.W16 m ρ c (Proc.devRef .tc main_v131) = Host.gather gather_S50000x128_S1000000x1_S1000000x128_1_0_n_n_0_1_1128 (sliceHi (m ((c : Thread nD τ).loc main_arg2))) (nQ (m ((c : Thread nD τ).loc main_arg7))) :=
  (show Gen.W16 m ρ c (Proc.devRef .tc main_v131) = Gen.W15 m ρ c (Proc.devRef .tc main_v131) from
    Gen.W16_of_ne m ρ c main_v131 (by decide)).trans (at15_v131 m ρ c)

/-! ## What the stretch between regions 11 and 12 sums -/

/-- Region 10's output summed over the edges into the rows of their second endpoints. -/
theorem at18_v150 : Gen.W18 m ρ c (Proc.devRef .tc main_v150) = (Host.scatterAdd (F := Ideal) (φ := .f32) scatter_S200000x64_S1000000x1_S1000000x64_1_0_0_1 zero64 (bcast1 (m ((c : Thread nD τ).loc main_arg6))) ((Gen.dat10 (Gen.V15 m ρ) c).arrAt 3 cfg10.N : (⟨S1000000x64, .f32⟩ : BufTy).Contents (Elt Ideal)) : (⟨S200000x64, .f32⟩ : BufTy).Contents (Elt Ideal)) := by
  have e := host12_v150 (Gen.W17 m ρ c)
  rw [at17_arg6 m ρ c, at17_v132 m ρ c] at e
  exact e

/-- Region 11's output summed over the edges into the rows of their second endpoints. -/
theorem at18_v153 : Gen.W18 m ρ c (Proc.devRef .tc main_v153) = (Host.scatterAdd (F := Ideal) (φ := .f32) scatter_S200000x128_S1000000x1_S1000000x128_1_0_0_1 zero128 (bcast1 (m ((c : Thread nD τ).loc main_arg6))) ((Gen.dat11 (Gen.V16 m ρ) c).arrAt 3 cfg11.N : (⟨S1000000x128, .f32⟩ : BufTy).Contents (Elt Ideal)) : (⟨S200000x128, .f32⟩ : BufTy).Contents (Elt Ideal)) := by
  have e := host12_v153 (Gen.W17 m ρ c)
  rw [at17_arg6 m ρ c, at17_v133 m ρ c] at e
  exact e

/-- Region 8's output at the second endpoints, summed into the rows of the first endpoints. -/
theorem at18_v156 : Gen.W18 m ρ c (Proc.devRef .tc main_v156) = (Host.scatterAdd (F := Ideal) (φ := .f32) scatter_S200000x64_S1000000x1_S1000000x64_1_0_0_1 zero64 (bcast1 (m ((c : Thread nD τ).loc main_arg5))) (Host.gather gather_S200000x64_S1000000x1_S1000000x64_1_0_n_n_0_1_164 ((Gen.dat8 (Gen.V12 m ρ) c).arrAt 2 cfg8.N : (⟨S200000x64, .f32⟩ : BufTy).Contents (Elt Ideal)) (nDst (m ((c : Thread nD τ).loc main_arg6)))) : (⟨S200000x64, .f32⟩ : BufTy).Contents (Elt Ideal)) := by
  have e := host12_v156 (Gen.W17 m ρ c)
  rw [at17_arg5 m ρ c, at17_v95 m ρ c, at17_arg6 m ρ c] at e
  exact e

/-- Region 9's output at the second endpoints, summed into the rows of the first endpoints. -/
theorem at18_v159 : Gen.W18 m ρ c (Proc.devRef .tc main_v159) = (Host.scatterAdd (F := Ideal) (φ := .f32) scatter_S200000x128_S1000000x1_S1000000x128_1_0_0_1 zero128 (bcast1 (m ((c : Thread nD τ).loc main_arg5))) (Host.gather gather_S200000x128_S1000000x1_S1000000x128_1_0_n_n_0_1_1128 ((Gen.dat9 (Gen.V13 m ρ) c).arrAt 2 cfg9.N : (⟨S200000x128, .f32⟩ : BufTy).Contents (Elt Ideal)) (nDst (m ((c : Thread nD τ).loc main_arg6)))) : (⟨S200000x128, .f32⟩ : BufTy).Contents (Elt Ideal)) := by
  have e := host12_v159 (Gen.W17 m ρ c)
  rw [at17_arg5 m ρ c, at17_v96 m ρ c, at17_arg6 m ρ c] at e
  exact e

theorem at19_v153 : Gen.W19 m ρ c (Proc.devRef .tc main_v153) = (Host.scatterAdd (F := Ideal) (φ := .f32) scatter_S200000x128_S1000000x1_S1000000x128_1_0_0_1 zero128 (bcast1 (m ((c : Thread nD τ).loc main_arg6))) ((Gen.dat11 (Gen.V16 m ρ) c).arrAt 3 cfg11.N : (⟨S1000000x128, .f32⟩ : BufTy).Contents (Elt Ideal)) : (⟨S200000x128, .f32⟩ : BufTy).Contents (Elt Ideal)) :=
  (show Gen.W19 m ρ c (Proc.devRef .tc main_v153) = Gen.W18 m ρ c (Proc.devRef .tc main_v153) from
    Gen.W19_of_ne m ρ c main_v153 (by decide)).trans (at18_v153 m ρ c)

theorem at19_v159 : Gen.W19 m ρ c (Proc.devRef .tc main_v159) = (Host.scatterAdd (F := Ideal) (φ := .f32) scatter_S200000x128_S1000000x1_S1000000x128_1_0_0_1 zero128 (bcast1 (m ((c : Thread nD τ).loc main_arg5))) (Host.gather gather_S200000x128_S1000000x1_S1000000x128_1_0_n_n_0_1_1128 ((Gen.dat9 (Gen.V13 m ρ) c).arrAt 2 cfg9.N : (⟨S200000x128, .f32⟩ : BufTy).Contents (Elt Ideal)) (nDst (m ((c : Thread nD τ).loc main_arg6)))) : (⟨S200000x128, .f32⟩ : BufTy).Contents (Elt Ideal)) :=
  (show Gen.W19 m ρ c (Proc.devRef .tc main_v159) = Gen.W18 m ρ c (Proc.devRef .tc main_v159) from
    Gen.W19_of_ne m ρ c main_v159 (by decide)).trans (at18_v159 m ρ c)

/-! ## The outputs of regions 12 to 15 -/

theorem at19_v160_1 : Gen.W19 m ρ c (Proc.devRef .tc main_v160_1) = (Gen.dat12 (Gen.V18 m ρ) c).arrAt 5 cfg12.N :=
  Gen.W19_arr m ρ c 5
theorem at20_v160_1 : Gen.W20 m ρ c (Proc.devRef .tc main_v160_1) = (Gen.dat12 (Gen.V18 m ρ) c).arrAt 5 cfg12.N :=
  (show Gen.W20 m ρ c (Proc.devRef .tc main_v160_1) = Gen.W19 m ρ c (Proc.devRef .tc main_v160_1) from
    Gen.W20_of_ne m ρ c main_v160_1 (by decide)).trans (at19_v160_1 m ρ c)

theorem at20_v161_1 : Gen.W20 m ρ c (Proc.devRef .tc main_v161_1) = (Gen.dat13 (Gen.V19 m ρ) c).arrAt 5 cfg13.N :=
  Gen.W20_arr m ρ c 5
theorem at21_v161_1 : Gen.W21 m ρ c (Proc.devRef .tc main_v161_1) = (Gen.dat13 (Gen.V19 m ρ) c).arrAt 5 cfg13.N :=
  (show Gen.W21 m ρ c (Proc.devRef .tc main_v161_1) = Gen.W20 m ρ c (Proc.devRef .tc main_v161_1) from
    Gen.W21_of_ne m ρ c main_v161_1 (by decide)).trans (at20_v161_1 m ρ c)

theorem at21_v162 : Gen.W21 m ρ c (Proc.devRef .tc main_v162) = (Gen.dat14 (Gen.V20 m ρ) c).arrAt 1 cfg14.N :=
  Gen.W21_arr m ρ c 1
theorem at22_v162 : Gen.W22 m ρ c (Proc.devRef .tc main_v162) = (Gen.dat14 (Gen.V20 m ρ) c).arrAt 1 cfg14.N :=
  (show Gen.W22 m ρ c (Proc.devRef .tc main_v162) = Gen.W21 m ρ c (Proc.devRef .tc main_v162) from
    Gen.W22_of_ne m ρ c main_v162 (by decide)).trans (at21_v162 m ρ c)

theorem at22_v163 : Gen.W22 m ρ c (Proc.devRef .tc main_v163) = (Gen.dat15 (Gen.V21 m ρ) c).arrAt 1 cfg15.N :=
  Gen.W22_arr m ρ c 1

/-! ## The regions' inputs and the result -/

/-- Region 8's input window 0 stages `main_v93_0`. -/
theorem in8_0 : Gen.V12 m ρ c (Pipeline.arrRef spec8 0) = (Gen.dat6 (Gen.V10 m ρ) c).arrAt 4 cfg6.N :=
  at12_v93_0 m ρ c

/-- Region 8's input window 1 stages `main_v25`. -/
theorem in8_1 : Gen.V12 m ρ c (Pipeline.arrRef spec8 1) = (Gen.dat1 (Gen.V2 m ρ) c).arrAt 2 cfg1.N :=
  at12_v25 m ρ c

/-- Region 9's input window 0 stages `main_v94_0`. -/
theorem in9_0 : Gen.V13 m ρ c (Pipeline.arrRef spec9 0) = (Gen.dat7 (Gen.V11 m ρ) c).arrAt 4 cfg7.N :=
  at13_v94_0 m ρ c

/-- Region 9's input window 1 stages `main_v25`. -/
theorem in9_1 : Gen.V13 m ρ c (Pipeline.arrRef spec9 1) = (Gen.dat1 (Gen.V2 m ρ) c).arrAt 2 cfg1.N :=
  at13_v25 m ρ c

/-- Region 10's input window 0 stages `main_v103`. -/
theorem in10_0 : Gen.V15 m ρ c (Pipeline.arrRef spec10 0) = Host.gather gather_S200000x64_S1000000x1_S1000000x64_1_0_n_n_0_1_164 ((Gen.dat6 (Gen.V10 m ρ) c).arrAt 4 cfg6.N) (nSrc (m ((c : Thread nD τ).loc main_arg5))) :=
  at15_v103 m ρ c

/-- Region 10's input window 1 stages `main_v124`. -/
theorem in10_1 : Gen.V15 m ρ c (Pipeline.arrRef spec10 1) = Host.gather gather_S50000x64_S1000000x1_S1000000x64_1_0_n_n_0_1_164 (sliceLo (m ((c : Thread nD τ).loc main_arg2))) (nQ (m ((c : Thread nD τ).loc main_arg7))) :=
  at15_v124 m ρ c

/-- Region 10's input window 2 stages `main_v117`. -/
theorem in10_2 : Gen.V15 m ρ c (Pipeline.arrRef spec10 2) = Host.gather gather_S200000x1_S1000000x1_S1000000x1_1_0_n_n_0_1_11 ((Gen.dat1 (Gen.V2 m ρ) c).arrAt 2 cfg1.N) (nSrc (m ((c : Thread nD τ).loc main_arg5))) :=
  at15_v117 m ρ c

/-- Region 11's input window 0 stages `main_v110`. -/
theorem in11_0 : Gen.V16 m ρ c (Pipeline.arrRef spec11 0) = Host.gather gather_S200000x128_S1000000x1_S1000000x128_1_0_n_n_0_1_1128 ((Gen.dat7 (Gen.V11 m ρ) c).arrAt 4 cfg7.N) (nSrc (m ((c : Thread nD τ).loc main_arg5))) :=
  at16_v110 m ρ c

/-- Region 11's input window 1 stages `main_v131`. -/
theorem in11_1 : Gen.V16 m ρ c (Pipeline.arrRef spec11 1) = Host.gather gather_S50000x128_S1000000x1_S1000000x128_1_0_n_n_0_1_1128 (sliceHi (m ((c : Thread nD τ).loc main_arg2))) (nQ (m ((c : Thread nD τ).loc main_arg7))) :=
  at16_v131 m ρ c

/-- Region 11's input window 2 stages `main_v117`. -/
theorem in11_2 : Gen.V16 m ρ c (Pipeline.arrRef spec11 2) = Host.gather gather_S200000x1_S1000000x1_S1000000x1_1_0_n_n_0_1_11 ((Gen.dat1 (Gen.V2 m ρ) c).arrAt 2 cfg1.N) (nSrc (m ((c : Thread nD τ).loc main_arg5))) :=
  at16_v117 m ρ c

/-- Region 12's input window 0 stages `main_v150`. -/
theorem in12_0 : Gen.V18 m ρ c (Pipeline.arrRef spec12 0) = (Host.scatterAdd (F := Ideal) (φ := .f32) scatter_S200000x64_S1000000x1_S1000000x64_1_0_0_1 zero64 (bcast1 (m ((c : Thread nD τ).loc main_arg6))) ((Gen.dat10 (Gen.V15 m ρ) c).arrAt 3 cfg10.N : (⟨S1000000x64, .f32⟩ : BufTy).Contents (Elt Ideal)) : (⟨S200000x64, .f32⟩ : BufTy).Contents (Elt Ideal)) :=
  at18_v150 m ρ c

/-- Region 12's input window 1 stages `main_v156`. -/
theorem in12_1 : Gen.V18 m ρ c (Pipeline.arrRef spec12 1) = (Host.scatterAdd (F := Ideal) (φ := .f32) scatter_S200000x64_S1000000x1_S1000000x64_1_0_0_1 zero64 (bcast1 (m ((c : Thread nD τ).loc main_arg5))) (Host.gather gather_S200000x64_S1000000x1_S1000000x64_1_0_n_n_0_1_164 ((Gen.dat8 (Gen.V12 m ρ) c).arrAt 2 cfg8.N : (⟨S200000x64, .f32⟩ : BufTy).Contents (Elt Ideal)) (nDst (m ((c : Thread nD τ).loc main_arg6)))) : (⟨S200000x64, .f32⟩ : BufTy).Contents (Elt Ideal)) :=
  at18_v156 m ρ c

/-- Region 12's input window 2 stages `main_v25`. -/
theorem in12_2 : Gen.V18 m ρ c (Pipeline.arrRef spec12 2) = (Gen.dat1 (Gen.V2 m ρ) c).arrAt 2 cfg1.N :=
  at18_v25 m ρ c

/-- Region 12's input window 3 stages `main_v93_1`. -/
theorem in12_3 : Gen.V18 m ρ c (Pipeline.arrRef spec12 3) = (Gen.dat6 (Gen.V10 m ρ) c).arrAt 5 cfg6.N :=
  at18_v93_1 m ρ c

/-- Region 13's input window 0 stages `main_v153`. -/
theorem in13_0 : Gen.V19 m ρ c (Pipeline.arrRef spec13 0) = (Host.scatterAdd (F := Ideal) (φ := .f32) scatter_S200000x128_S1000000x1_S1000000x128_1_0_0_1 zero128 (bcast1 (m ((c : Thread nD τ).loc main_arg6))) ((Gen.dat11 (Gen.V16 m ρ) c).arrAt 3 cfg11.N : (⟨S1000000x128, .f32⟩ : BufTy).Contents (Elt Ideal)) : (⟨S200000x128, .f32⟩ : BufTy).Contents (Elt Ideal)) :=
  at19_v153 m ρ c

/-- Region 13's input window 1 stages `main_v159`. -/
theorem in13_1 : Gen.V19 m ρ c (Pipeline.arrRef spec13 1) = (Host.scatterAdd (F := Ideal) (φ := .f32) scatter_S200000x128_S1000000x1_S1000000x128_1_0_0_1 zero128 (bcast1 (m ((c : Thread nD τ).loc main_arg5))) (Host.gather gather_S200000x128_S1000000x1_S1000000x128_1_0_n_n_0_1_1128 ((Gen.dat9 (Gen.V13 m ρ) c).arrAt 2 cfg9.N : (⟨S200000x128, .f32⟩ : BufTy).Contents (Elt Ideal)) (nDst (m ((c : Thread nD τ).loc main_arg6)))) : (⟨S200000x128, .f32⟩ : BufTy).Contents (Elt Ideal)) :=
  at19_v159 m ρ c

/-- Region 13's input window 2 stages `main_v25`. -/
theorem in13_2 : Gen.V19 m ρ c (Pipeline.arrRef spec13 2) = (Gen.dat1 (Gen.V2 m ρ) c).arrAt 2 cfg1.N :=
  at19_v25 m ρ c

/-- Region 13's input window 3 stages `main_v94_1`. -/
theorem in13_3 : Gen.V19 m ρ c (Pipeline.arrRef spec13 3) = (Gen.dat7 (Gen.V11 m ρ) c).arrAt 5 cfg7.N :=
  at19_v94_1 m ρ c

/-- Region 14's input window 0 stages `main_v160_1`. -/
theorem in14_0 : Gen.V20 m ρ c (Pipeline.arrRef spec14 0) = (Gen.dat12 (Gen.V18 m ρ) c).arrAt 5 cfg12.N :=
  at20_v160_1 m ρ c

/-- Region 15's input window 0 stages `main_v161_1`. -/
theorem in15_0 : Gen.V21 m ρ c (Pipeline.arrRef spec15 0) = (Gen.dat13 (Gen.V19 m ρ) c).arrAt 5 cfg13.N :=
  at21_v161_1 m ρ c

/-- The result: the last host operation puts regions 14's and 15's outputs side by side. -/
theorem result_eq : Gen.W23 m ρ c (Proc.devRef .tc main_v164) =
    concatenate S200000x192 1 [⟨S200000x64, (Gen.dat14 (Gen.V20 m ρ) c).arrAt 1 cfg14.N⟩,
      ⟨S200000x128, (Gen.dat15 (Gen.V21 m ρ) c).arrAt 1 cfg15.N⟩] concatenates_S200000x64_S200000x128_S200000x192_d1 := by
  have e := host16_v164 (Gen.W22 m ρ c)
  rw [at22_v162 m ρ c, at22_v163 m ρ c] at e
  exact e

end Cert.KernelIdeal.Wire

end
-- ==== Proof.Reg2.lean ====
/- Region 2 (a row scaling): the whole output array as one function of the two input arrays.

   The region walks 50 row blocks of 4000 rows.  At each block the body multiplies every entry of the
   64-column block by the factor of its row, read from a one-column block.  So the output array at
   (r, q) is  x (r, q) * s (r, 0) : the block a point writes back is the restriction of this one function
   to the point's rows, and the 50 blocks tile the 200000 rows. -/
import proofs.«137020_j48936857370759_1_alg».proof.Proof.Gen.KernelIdeal.Frame
import Idealize.ShloMosaic.Lib.Pipeline.Value
import Idealize.ShloMosaic.Lib.ValueIdx
import Idealize.ShloMosaic.Lib.ValueIdxCoords

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- Row r at column q, scaled by the factor of row r. -/
def G2_2 (x0 : Vec Ideal S200000x64 .f32) (x1 : Vec Ideal S200000x1 .f32) : Vec Ideal S200000x64 .f32 :=
  fun i => x0 i * x1 (ix2 (⟨(i 0).val, idx2_lt0 i⟩ : Fin 200000) (0 : Fin 1))

theorem G2_2_apply (x0 : Vec Ideal S200000x64 .f32) (x1 : Vec Ideal S200000x1 .f32) (r : Fin 200000) (q : Fin 64) :
    G2_2 x0 x1 (ix2 r q) = x0 (ix2 r q) * x1 (ix2 r 0) := rfl

/-- The same, with the factor read at any index of the one-column array that sits in the same row. -/
theorem G2_2_at (x0 : Vec Ideal S200000x64 .f32) (x1 : Vec Ideal S200000x1 .f32) (i : S200000x64.Idx)
    (i1 : S200000x1.Idx) (h : (i1 0).val = (i 0).val) :
    G2_2 x0 x1 i = x0 i * x1 i1 := by
  have e : i1 = ix2 (⟨(i 0).val, idx2_lt0 i⟩ : Fin 200000) (0 : Fin 1) := by
    funext a
    match a with
    | ⟨0, _⟩ => exact Fin.ext h
    | ⟨1, _⟩ => exact Subsingleton.elim (α := Fin 1) _ _
  rw [e]; rfl

/-! ## The body at one entry of a block -/

theorem hz2 : (![0, 0] : Fin 2 → Nat) = fun _ => 0 := funext fun a => by fin_cases a <;> rfl

/-- Entry (p, q) of what the body stores: the block's entry times the factor of row p. -/
theorem pay2_apply (v0 : Vec Ideal S4000x64 .f32) (v1 : Vec Ideal S4000x1 .f32) (p : Fin 4000) (q : Fin 64) :
    Gen.k2_pay1 v0 v1 (ix2 p q) = v0 (ix2 p q) * v1 (ix2 p 0) := by
  unfold Gen.k2_pay1
  simp only [shapeCast_self]
  refine congrArg (fun z => v0 (ix2 p q) * z) ?_
  exact broadcastTo_apply _ _ (ix2 p q) (ix2 p 0) (fun a => by
    match a with
    | ⟨0, _⟩ => rfl
    | ⟨1, _⟩ => rfl)

/-! ## From blocks to the array -/

variable (V : (c : Dev nD) → (b : Ref sig .tc) → Buf (Elt Ideal) ((c : Thread nD τ).loc b))

/-- The index maps, decided over the 50 points: each window's block at point t is block row t,
    block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of G2_2 of the two input arrays as the region finds them. -/
theorem flushed2_2_eq (c : Dev nD) (t : Fin cfg2.N) :
    (dat2 (F := Ideal) V c).flushed 2 t
      = ((cfg2.win 2).blk t).view.read (Elt Ideal)
          (G2_2 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz2]
  simp only [View.ld_unit_zero (S := S4000x64) hz2, View.ld_unit_zero (S := S4000x1) hz2]
  obtain ⟨e00, e01, e10, e11, e20, e21⟩ := idx_facts2 t
  refine funext fun (j : S4000x64.Idx) => ?_
  obtain ⟨p, q, rfl⟩ : ∃ (p : Fin 4000) (q : Fin 64), j = ix2 p q := ⟨j 0, j 1, eq_ix2 j⟩
  show Gen.k2_pay1 (iblk2 V c 0 t) (iblk2 V c 1 t) (ix2 p q)
    = G2_2 (V c (Pipeline.arrRef spec2 0)) (V c (Pipeline.arrRef spec2 1)) (((cfg2.win 2).blk t).view.emb (ix2 p q))
  refine (pay2_apply (iblk2 V c 0 t) (iblk2 V c 1 t) p q).trans ?_
  refine ((G2_2_at (V c (Pipeline.arrRef spec2 0)) (V c (Pipeline.arrRef spec2 1)) (((cfg2.win 2).blk t).view.emb (ix2 p q))
    (((cfg2.win 1).blk t).view.emb (ix2 p 0)) ?_).trans ?_).symm
  · show win2_1.index t (0 : Fin 2) * 4000 + 1 * p.val = win2_2.index t (0 : Fin 2) * 4000 + 1 * p.val
    omega
  · have h0 : ((cfg2.win 2).blk t).view.emb (ix2 p q) = ((cfg2.win 0).blk t).view.emb (ix2 p q) := by
      funext a; apply Fin.ext
      match a with
      | ⟨0, _⟩ => show win2_2.index t (0 : Fin 2) * 4000 + 1 * p.val = win2_0.index t (0 : Fin 2) * 4000 + 1 * p.val; omega
      | ⟨1, _⟩ => show win2_2.index t (1 : Fin 2) * 64 + 1 * q.val = win2_0.index t (1 : Fin 2) * 64 + 1 * q.val; omega
    rw [h0]
    rfl

/-- An index of the array is in point t's block iff each coordinate is in the block's range on its axis. -/
theorem mem_blk2_2 (t : Fin cfg2.N) (i : S200000x64.Idx) :
    i ∈ ((cfg2.win 2).blk t).view.set ↔ ∀ a : Fin 2, win2_2.index t a * S4000x64.size a ≤ (i a).val
      ∧ (i a).val < win2_2.index t a * S4000x64.size a + S4000x64.size a := by
  show i ∈ ((View.whole main_v28).slice (win2_2.rect t)).set ↔ _
  rw [View.set_slice_whole, Rect.mem_set_unit]
  exact Iff.rfl

/-- Every row belongs to the block of the point numbered by the row divided by 4000. -/
theorem covered2_2 (i : S200000x64.Idx) :
    ∃ t : Fin cfg2.N, (cfg2.win 2).flush t = true ∧ i ∈ ((cfg2.win 2).blk t).view.set := by
  have hi0 : (i 0).val < 200000 := idx2_lt0 i
  have hi1 : (i 1).val < 64 := idx2_lt1 i
  have hN : (i 0).val / 4000 < cfg2.N := by
    show _ < grid2.N
    rw [N_2]; omega
  obtain ⟨-, -, -, -, eo0, eo1⟩ := idx_facts2 ⟨(i 0).val / 4000, hN⟩
  refine ⟨⟨(i 0).val / 4000, hN⟩, flush2_2 _, ?_⟩
  rw [mem_blk2_2]
  intro a
  match a with
  | ⟨0, _⟩ =>
    show win2_2.index ⟨(i 0).val / 4000, hN⟩ (0 : Fin 2) * 4000 ≤ (i 0).val
      ∧ (i 0).val < win2_2.index ⟨(i 0).val / 4000, hN⟩ (0 : Fin 2) * 4000 + 4000
    rw [eo0]
    show (i 0).val / 4000 * 4000 ≤ (i 0).val ∧ (i 0).val < (i 0).val / 4000 * 4000 + 4000
    omega
  | ⟨1, _⟩ =>
    show win2_2.index ⟨(i 0).val / 4000, hN⟩ (1 : Fin 2) * 64 ≤ (i 1).val
      ∧ (i 1).val < win2_2.index ⟨(i 0).val / 4000, hN⟩ (1 : Fin 2) * 64 + 64
    rw [eo1]
    omega

/-- The output array after the region: G2_2 of the input arrays as the region finds them. -/
theorem final2_2 (c : Dev nD) :
    (Gen.dat2 (F := Ideal) V c).arrAt 2 cfg2.N
      = G2_2 (V c (Pipeline.arrRef spec2 0)) (V c (Pipeline.arrRef spec2 1)) :=
  (dat2 (F := Ideal) V c).arrAt_eq_of_cover 2 (G2_2 (V c (Pipeline.arrRef spec2 0)) (V c (Pipeline.arrRef spec2 1)))
    (fun t _ => flushed2_2_eq V c t) covered2_2

end Cert.KernelIdeal.Reg

end
-- ==== Proof.Reg4.lean ====
/- Region 4, a multiply-add over the one million edge rows (64 columns): the array the region leaves in its
   output window, as ONE function of the three arrays it reads, index by index.

   The grid has 100 points. Point t stages rows 10000·t … 10000·t + 9999 of every window (all 64 columns of the two
   wide operands, the single column of the per-row factor) and writes back the same rows of the output. On one block
   the body is pointwise: entry (p, q) of the stored block is x0 (p, q) + x1 (p, q) · x2 (p, 0). Entry (p, q) of a
   block at point t is entry (10000·t + p, q) of its array, so what point t writes back is block t of the function
   (e, q) ↦ x0 (e, q) + x1 (e, q) · x2 (e, 0) of the whole arrays. Row e lies in the block of point e / 10000, so the
   100 blocks cover the output, which therefore ends as that function. No law of arithmetic is used: the operations
   stay in the order the body applies them. -/
import proofs.«137020_j48936857370759_1_alg».proof.Proof.Gen.KernelIdeal.Frame
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-- The multiply-add of region 4 on whole arrays: entry (e, q) is x0 (e, q) + x1 (e, q) · x2 (e, 0). -/
def G4_3 (x0 x1 : S1000000x64.Idx → Elt Ideal .f32) (x2 : S1000000x1.Idx → Elt Ideal .f32) :
    S1000000x64.Idx → Elt Ideal .f32 :=
  fun i => x0 i + x1 i * x2 (ix2 (n0 := 1000000) (n1 := 1) (i 0) 0)

/-- The function at row r, column q, in the extended reals' own operations. -/
theorem G4_3_apply (x0 x1 : S1000000x64.Idx → Elt Ideal .f32) (x2 : S1000000x1.Idx → Elt Ideal .f32)
    (r : Fin 1000000) (q : Fin 64) :
    G4_3 x0 x1 x2 (ix2 r q) = x0 (ix2 r q) + x1 (ix2 r q) * x2 (ix2 r 0) := rfl

/-! ## One block: the body's stored value at an entry -/

theorem hz4 : (![0, 0] : Fin 2 → Nat) = fun _ => 0 := funext fun a => by fin_cases a <;> rfl

/-- The per-row factor spread over the 64 columns reads, at (p, q), the factor's entry (p, 0). -/
theorem spread4_apply (v : Vec Ideal S10000x1 .f32) (p : Fin 10000) (q : Fin 64) :
    broadcastTo S10000x64 v broadcasts_S10000x1_S10000x64 (ix2 p q) = v (ix2 p 0) :=
  broadcastTo_apply v broadcasts_S10000x1_S10000x64 (ix2 p q) (ix2 p 0) (fun a => by
    match a with
    | ⟨0, _⟩ => rfl
    | ⟨1, _⟩ => rfl)

/-- The stored block at entry (p, q): x0 (p, q) + x1 (p, q) · x2 (p, 0) of the three loaded blocks. -/
theorem k4_pay1_apply (v0 v2 : Vec Ideal S10000x64 .f32) (v4 : Vec Ideal S10000x1 .f32) (p : Fin 10000) (q : Fin 64) :
    k4_pay1 v0 v2 v4 (ix2 p q) = v0 (ix2 p q) + v2 (ix2 p q) * v4 (ix2 p 0) := by
  unfold k4_pay1
  show shapeCast S10000x64 v0 shapeCasts_S10000x64_S10000x64 (ix2 p q)
      + shapeCast S10000x64 v2 shapeCasts_S10000x64_S10000x64 (ix2 p q)
        * broadcastTo S10000x64 (shapeCast S10000x1 v4 shapeCasts_S10000x1_S10000x1) broadcasts_S10000x1_S10000x64 (ix2 p q) = _
  rw [shapeCast_self, shapeCast_self, shapeCast_self, spread4_apply]

/-- So the stored block IS a given function g of the block's index as soon as g agrees with it entry by entry. -/
theorem k4_pay1_eq (v0 v2 : Vec Ideal S10000x64 .f32) (v4 : Vec Ideal S10000x1 .f32) (g : S10000x64.Idx → Elt Ideal .f32)
    (h : ∀ (p : Fin 10000) (q : Fin 64), v0 (ix2 p q) + v2 (ix2 p q) * v4 (ix2 p 0) = g (ix2 p q)) :
    k4_pay1 v0 v2 v4 = g := by
  funext j
  obtain ⟨p, q, rfl⟩ : ∃ (p : Fin 10000) (q : Fin 64), j = ix2 p q := ⟨j 0, j 1, eq_ix2 j⟩
  rw [k4_pay1_apply]; exact h p q

/-! ## The index maps: point t names block (t, 0) of every window -/

theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-! ## A block's entry (p, q) at point t is the array's entry (10000·t + p, q) -/

theorem blk4_0_read (t : Fin cfg4.N) (g : S1000000x64.Idx → Elt Ideal .f32) (x : S10000x64.Idx) (k : S1000000x64.Idx)
    (hk0 : (k 0).val = 10000 * t.val + (x 0).val) (hk1 : (k 1).val = (x 1).val) :
    (((cfg4.win 0).blk t).view.read (Elt Ideal) g : Vec Ideal S10000x64 .f32) x = g k := by
  obtain ⟨e0, e1, -⟩ := idx4 t
  rw [View.read_apply]
  show g _ = g k
  refine congrArg g ?_
  funext a
  apply Fin.ext
  match a with
  | ⟨0, _⟩ => show win4_0.index t 0 * 10000 + 1 * (x 0).val = (k 0).val; rw [e0, hk0]; omega
  | ⟨1, _⟩ => show win4_0.index t 1 * 64 + 1 * (x 1).val = (k 1).val; rw [e1, hk1]; omega

theorem blk4_1_read (t : Fin cfg4.N) (g : S1000000x64.Idx → Elt Ideal .f32) (x : S10000x64.Idx) (k : S1000000x64.Idx)
    (hk0 : (k 0).val = 10000 * t.val + (x 0).val) (hk1 : (k 1).val = (x 1).val) :
    (((cfg4.win 1).blk t).view.read (Elt Ideal) g : Vec Ideal S10000x64 .f32) x = g k := by
  obtain ⟨-, -, e0, e1, -⟩ := idx4 t
  rw [View.read_apply]
  show g _ = g k
  refine congrArg g ?_
  funext a
  apply Fin.ext
  match a with
  | ⟨0, _⟩ => show win4_1.index t 0 * 10000 + 1 * (x 0).val = (k 0).val; rw [e0, hk0]; omega
  | ⟨1, _⟩ => show win4_1.index t 1 * 64 + 1 * (x 1).val = (k 1).val; rw [e1, hk1]; omega

theorem blk4_2_read (t : Fin cfg4.N) (g : S1000000x1.Idx → Elt Ideal .f32) (x : S10000x1.Idx) (k : S1000000x1.Idx)
    (hk0 : (k 0).val = 10000 * t.val + (x 0).val) (hk1 : (k 1).val = (x 1).val) :
    (((cfg4.win 2).blk t).view.read (Elt Ideal) g : Vec Ideal S10000x1 .f32) x = g k := by
  obtain ⟨-, -, -, -, e0, e1, -⟩ := idx4 t
  rw [View.read_apply]
  show g _ = g k
  refine congrArg g ?_
  funext a
  apply Fin.ext
  match a with
  | ⟨0, _⟩ => show win4_2.index t 0 * 10000 + 1 * (x 0).val = (k 0).val; rw [e0, hk0]; omega
  | ⟨1, _⟩ => show win4_2.index t 1 * 1 + 1 * (x 1).val = (k 1).val; rw [e1, hk1]; omega

theorem blk4_3_read (t : Fin cfg4.N) (g : S1000000x64.Idx → Elt Ideal .f32) (x : S10000x64.Idx) (k : S1000000x64.Idx)
    (hk0 : (k 0).val = 10000 * t.val + (x 0).val) (hk1 : (k 1).val = (x 1).val) :
    (((cfg4.win 3).blk t).view.read (Elt Ideal) g : Vec Ideal S10000x64 .f32) x = g k := by
  obtain ⟨-, -, -, -, -, -, e0, e1⟩ := idx4 t
  rw [View.read_apply]
  show g _ = g k
  refine congrArg g ?_
  funext a
  apply Fin.ext
  match a with
  | ⟨0, _⟩ => show win4_3.index t 0 * 10000 + 1 * (x 0).val = (k 0).val; rw [e0, hk0]; omega
  | ⟨1, _⟩ => show win4_3.index t 1 * 64 + 1 * (x 1).val = (k 1).val; rw [e1, hk1]; omega

/-- What the body stores at point t, from the three staged blocks, is block t of the whole-array function. -/
theorem block4_3_eq (a0 a1 : S1000000x64.Idx → Elt Ideal .f32) (a2 : S1000000x1.Idx → Elt Ideal .f32) (t : Fin cfg4.N) :
    k4_pay1 (((cfg4.win 0).blk t).view.read (Elt Ideal) a0) (((cfg4.win 1).blk t).view.read (Elt Ideal) a1)
        (((cfg4.win 2).blk t).view.read (Elt Ideal) a2)
      = ((cfg4.win 3).blk t).view.read (Elt Ideal) (G4_3 a0 a1 a2) := by
  refine k4_pay1_eq _ _ _ _ (fun p q => ?_)
  have ht : t.val < 100 := lt_of_lt_of_eq t.isLt N_4
  have hp : 10000 * t.val + p.val < 1000000 := by have := p.isLt; omega
  rw [blk4_0_read t a0 (ix2 p q) (ix2 ⟨10000 * t.val + p.val, hp⟩ q) rfl rfl,
    blk4_1_read t a1 (ix2 p q) (ix2 ⟨10000 * t.val + p.val, hp⟩ q) rfl rfl,
    blk4_2_read t a2 (ix2 p 0) (ix2 ⟨10000 * t.val + p.val, hp⟩ 0) rfl rfl,
    blk4_3_read t (G4_3 a0 a1 a2) (ix2 p q) (ix2 ⟨10000 * t.val + p.val, hp⟩ q) rfl rfl, G4_3_apply]

/-! ## The 100 blocks cover the output array -/

/-- An index of the output array is in point t's block iff each coordinate is in the block's range on its axis. -/
theorem mem_blk4_3 (t : Fin cfg4.N) (i : S1000000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v65).slice (win4_3.rect t)).set ↔ _
  rw [View.set_slice_whole, Rect.mem_set_unit]
  exact Iff.rfl

/-- Row e lies in the block of point e / 10000. -/
theorem rows_covered4_3 (i : S1000000x64.Idx) :
    ∃ t : Fin cfg4.N, (cfg4.win 3).flush t = true ∧ i ∈ ((cfg4.win 3).blk t).view.set := by
  have hi0 : (i 0).val < 1000000 := (i 0).isLt
  have hi1 : (i 1).val < 64 := (i 1).isLt
  have hlt : (i 0).val / 10000 < cfg4.N := by rw [show cfg4.N = 100 from N_4]; omega
  obtain ⟨-, -, -, -, -, -, e0, e1⟩ := idx4 ⟨(i 0).val / 10000, hlt⟩
  refine ⟨⟨(i 0).val / 10000, hlt⟩, flush4_3 _, ?_⟩
  rw [mem_blk4_3]
  intro a
  match a with
  | ⟨0, _⟩ =>
    show win4_3.index ⟨(i 0).val / 10000, hlt⟩ (0 : Fin 2) * 10000 ≤ (i 0).val
      ∧ (i 0).val < win4_3.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win4_3.index ⟨(i 0).val / 10000, hlt⟩ (1 : Fin 2) * 64 ≤ (i 1).val
      ∧ (i 1).val < win4_3.index ⟨(i 0).val / 10000, hlt⟩ (1 : Fin 2) * 64 + 64
    rw [e1]
    omega

/-! ## What a point writes back, and the array after the last point -/

variable (V : (c : Dev nD) → (b : Ref sig .tc) → Buf (Elt Ideal) ((c : Thread nD τ).loc b))

/-- Point t writes back block t of the multiply-add of the arrays as the region finds them. -/
theorem flushed4_3_eq (c : Dev nD) (t : Fin cfg4.N) :
    (dat4 (F := Ideal) V c).flushed 3 t = ((cfg4.win 3).blk t).view.read (Elt Ideal)
      (G4_3 (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz4]
  simp only [View.ld_unit_zero (S := S10000x64) hz4, View.ld_unit_zero (S := S10000x1) hz4]
  unfold iblk4
  exact block4_3_eq _ _ _ t

/-- The output array after the region: the multiply-add of the three input arrays, everywhere. -/
theorem final4_3 (c : Dev nD) :
    (dat4 (F := Ideal) V c).arrAt 3 cfg4.N
      = G4_3 (V c (Pipeline.arrRef spec4 0)) (V c (Pipeline.arrRef spec4 1)) (V c (Pipeline.arrRef spec4 2)) :=
  (dat4 V c).arrAt_eq_of_cover 3
    (G4_3 (V c (Pipeline.arrRef spec4 0)) (V c (Pipeline.arrRef spec4 1)) (V c (Pipeline.arrRef spec4 2)))
    (fun t _ => flushed4_3_eq V c t) rows_covered4_3

end Cert.KernelIdeal.Reg

end
-- ==== Proof.Reg6.lean ====
/- Region 6, a state update over the two hundred thousand node rows (64 columns): the two arrays the region
   leaves in its output windows, each as ONE function of the arrays it reads, index by index.

   The grid has 50 points. Point t stages rows 4000·t … 4000·t + 3999 of every window (all 64 columns of the three wide
   operands, the single column of the per-row factor) and writes back the same rows of both outputs. On one block
   the body is pointwise: entry (p, q) of the first stored block is (x0 (p, q) + x1 (p, q)) · x2 (p, 0), and of the
   second x3 (p, q) plus that. Entry (p, q) of a block at point t is entry (4000·t + p, q) of its array, so what point
   t writes back is block t of the same two functions of the whole arrays. Row r lies in the block of point r / 4000,
   so the 50 blocks cover each output, which therefore ends as its function. No law of arithmetic is used: the
   operations stay in the order the body applies them. -/
import proofs.«137020_j48936857370759_1_alg».proof.Proof.Gen.KernelIdeal.Frame
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-- The scaled sum of region 6 on whole arrays: entry (r, q) is (x0 (r, q) + x1 (r, q)) · x2 (r, 0). -/
def G6_4 (x0 x1 : S200000x64.Idx → Elt Ideal .f32) (x2 : S200000x1.Idx → Elt Ideal .f32) :
    S200000x64.Idx → Elt Ideal .f32 :=
  fun i => (x0 i + x1 i) * x2 (ix2 (n0 := 200000) (n1 := 1) (i 0) 0)

/-- The updated state of region 6 on whole arrays: entry (r, q) is x3 (r, q) + (x0 (r, q) + x1 (r, q)) · x2 (r, 0). -/
def G6_5 (x0 x1 : S200000x64.Idx → Elt Ideal .f32) (x2 : S200000x1.Idx → Elt Ideal .f32) (x3 : S200000x64.Idx → Elt Ideal .f32) :
    S200000x64.Idx → Elt Ideal .f32 :=
  fun i => x3 i + (x0 i + x1 i) * x2 (ix2 (n0 := 200000) (n1 := 1) (i 0) 0)

/-- The scaled sum at row r, column q, in the extended reals' own operations. -/
theorem G6_4_apply (x0 x1 : S200000x64.Idx → Elt Ideal .f32) (x2 : S200000x1.Idx → Elt Ideal .f32)
    (r : Fin 200000) (q : Fin 64) :
    G6_4 x0 x1 x2 (ix2 r q) = (x0 (ix2 r q) + x1 (ix2 r q)) * x2 (ix2 r 0) := rfl

/-- The updated state at row r, column q. -/
theorem G6_5_apply (x0 x1 : S200000x64.Idx → Elt Ideal .f32) (x2 : S200000x1.Idx → Elt Ideal .f32) (x3 : S200000x64.Idx → Elt Ideal .f32)
    (r : Fin 200000) (q : Fin 64) :
    G6_5 x0 x1 x2 x3 (ix2 r q) = x3 (ix2 r q) + (x0 (ix2 r q) + x1 (ix2 r q)) * x2 (ix2 r 0) := rfl

/-! ## One block: the body's two stored values at an entry -/

theorem hz6 : (![0, 0] : Fin 2 → Nat) = fun _ => 0 := funext fun a => by fin_cases a <;> rfl

/-- The per-row factor spread over the 64 columns reads, at (p, q), the factor's entry (p, 0). -/
theorem spread6_apply (v : Vec Ideal S4000x1 .f32) (p : Fin 4000) (q : Fin 64) :
    broadcastTo S4000x64 v broadcasts_S4000x1_S4000x64 (ix2 p q) = v (ix2 p 0) :=
  broadcastTo_apply v broadcasts_S4000x1_S4000x64 (ix2 p q) (ix2 p 0) (fun a => by
    match a with
    | ⟨0, _⟩ => rfl
    | ⟨1, _⟩ => rfl)

/-- The first stored block at entry (p, q): (x0 (p, q) + x1 (p, q)) · x2 (p, 0) of the loaded blocks. -/
theorem k6_pay1_apply (v0 v2 : Vec Ideal S4000x64 .f32) (v5 : Vec Ideal S4000x1 .f32) (p : Fin 4000) (q : Fin 64) :
    k6_pay1 v0 v2 v5 (ix2 p q) = (v0 (ix2 p q) + v2 (ix2 p q)) * v5 (ix2 p 0) := by
  unfold k6_pay1
  show (shapeCast S4000x64 v0 shapeCasts_S4000x64_S4000x64 (ix2 p q)
      + shapeCast S4000x64 v2 shapeCasts_S4000x64_S4000x64 (ix2 p q))
        * broadcastTo S4000x64 (shapeCast S4000x1 v5 shapeCasts_S4000x1_S4000x1) broadcasts_S4000x1_S4000x64 (ix2 p q) = _
  rw [shapeCast_self, shapeCast_self, shapeCast_self, spread6_apply]

/-- The second stored block at entry (p, q): the fourth loaded block's entry plus the first stored block's. -/
theorem k6_pay2_apply (v0 v2 : Vec Ideal S4000x64 .f32) (v5 : Vec Ideal S4000x1 .f32) (v10 : Vec Ideal S4000x64 .f32)
    (p : Fin 4000) (q : Fin 64) :
    k6_pay2 v0 v2 v5 v10 (ix2 p q) = v10 (ix2 p q) + (v0 (ix2 p q) + v2 (ix2 p q)) * v5 (ix2 p 0) := by
  unfold k6_pay2
  show v10 (ix2 p q) + k6_pay1 v0 v2 v5 (ix2 p q) = _
  rw [k6_pay1_apply]

/-- So each stored block IS a given function g of the block's index as soon as g agrees with it entry by entry. -/
theorem k6_pay1_eq (v0 v2 : Vec Ideal S4000x64 .f32) (v5 : Vec Ideal S4000x1 .f32) (g : S4000x64.Idx → Elt Ideal .f32)
    (h : ∀ (p : Fin 4000) (q : Fin 64), (v0 (ix2 p q) + v2 (ix2 p q)) * v5 (ix2 p 0) = g (ix2 p q)) :
    k6_pay1 v0 v2 v5 = g := by
  funext j
  obtain ⟨p, q, rfl⟩ : ∃ (p : Fin 4000) (q : Fin 64), j = ix2 p q := ⟨j 0, j 1, eq_ix2 j⟩
  rw [k6_pay1_apply]; exact h p q

theorem k6_pay2_eq (v0 v2 : Vec Ideal S4000x64 .f32) (v5 : Vec Ideal S4000x1 .f32) (v10 : Vec Ideal S4000x64 .f32)
    (g : S4000x64.Idx → Elt Ideal .f32)
    (h : ∀ (p : Fin 4000) (q : Fin 64), v10 (ix2 p q) + (v0 (ix2 p q) + v2 (ix2 p q)) * v5 (ix2 p 0) = g (ix2 p q)) :
    k6_pay2 v0 v2 v5 v10 = g := by
  funext j
  obtain ⟨p, q, rfl⟩ : ∃ (p : Fin 4000) (q : Fin 64), j = ix2 p q := ⟨j 0, j 1, eq_ix2 j⟩
  rw [k6_pay2_apply]; exact h p q

/-! ## The index maps: point t names block (t, 0) of every window -/

theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-! ## A block's entry (p, q) at point t is the array's entry (4000·t + p, q) -/

theorem blk6_0_read (t : Fin cfg6.N) (g : S200000x64.Idx → Elt Ideal .f32) (x : S4000x64.Idx) (k : S200000x64.Idx)
    (hk0 : (k 0).val = 4000 * t.val + (x 0).val) (hk1 : (k 1).val = (x 1).val) :
    (((cfg6.win 0).blk t).view.read (Elt Ideal) g : Vec Ideal S4000x64 .f32) x = g k := by
  obtain ⟨e0, e1, -⟩ := idx6 t
  rw [View.read_apply]
  show g _ = g k
  refine congrArg g ?_
  funext a
  apply Fin.ext
  match a with
  | ⟨0, _⟩ => show win6_0.index t 0 * 4000 + 1 * (x 0).val = (k 0).val; rw [e0, hk0]; omega
  | ⟨1, _⟩ => show win6_0.index t 1 * 64 + 1 * (x 1).val = (k 1).val; rw [e1, hk1]; omega

theorem blk6_1_read (t : Fin cfg6.N) (g : S200000x64.Idx → Elt Ideal .f32) (x : S4000x64.Idx) (k : S200000x64.Idx)
    (hk0 : (k 0).val = 4000 * t.val + (x 0).val) (hk1 : (k 1).val = (x 1).val) :
    (((cfg6.win 1).blk t).view.read (Elt Ideal) g : Vec Ideal S4000x64 .f32) x = g k := by
  obtain ⟨-, -, e0, e1, -⟩ := idx6 t
  rw [View.read_apply]
  show g _ = g k
  refine congrArg g ?_
  funext a
  apply Fin.ext
  match a with
  | ⟨0, _⟩ => show win6_1.index t 0 * 4000 + 1 * (x 0).val = (k 0).val; rw [e0, hk0]; omega
  | ⟨1, _⟩ => show win6_1.index t 1 * 64 + 1 * (x 1).val = (k 1).val; rw [e1, hk1]; omega

theorem blk6_2_read (t : Fin cfg6.N) (g : S200000x1.Idx → Elt Ideal .f32) (x : S4000x1.Idx) (k : S200000x1.Idx)
    (hk0 : (k 0).val = 4000 * t.val + (x 0).val) (hk1 : (k 1).val = (x 1).val) :
    (((cfg6.win 2).blk t).view.read (Elt Ideal) g : Vec Ideal S4000x1 .f32) x = g k := by
  obtain ⟨-, -, -, -, e0, e1, -⟩ := idx6 t
  rw [View.read_apply]
  show g _ = g k
  refine congrArg g ?_
  funext a
  apply Fin.ext
  match a with
  | ⟨0, _⟩ => show win6_2.index t 0 * 4000 + 1 * (x 0).val = (k 0).val; rw [e0, hk0]; omega
  | ⟨1, _⟩ => show win6_2.index t 1 * 1 + 1 * (x 1).val = (k 1).val; rw [e1, hk1]; omega

theorem blk6_3_read (t : Fin cfg6.N) (g : S200000x64.Idx → Elt Ideal .f32) (x : S4000x64.Idx) (k : S200000x64.Idx)
    (hk0 : (k 0).val = 4000 * t.val + (x 0).val) (hk1 : (k 1).val = (x 1).val) :
    (((cfg6.win 3).blk t).view.read (Elt Ideal) g : Vec Ideal S4000x64 .f32) x = g k := by
  obtain ⟨-, -, -, -, -, -, e0, e1, -⟩ := idx6 t
  rw [View.read_apply]
  show g _ = g k
  refine congrArg g ?_
  funext a
  apply Fin.ext
  match a with
  | ⟨0, _⟩ => show win6_3.index t 0 * 4000 + 1 * (x 0).val = (k 0).val; rw [e0, hk0]; omega
  | ⟨1, _⟩ => show win6_3.index t 1 * 64 + 1 * (x 1).val = (k 1).val; rw [e1, hk1]; omega

theorem blk6_4_read (t : Fin cfg6.N) (g : S200000x64.Idx → Elt Ideal .f32) (x : S4000x64.Idx) (k : S200000x64.Idx)
    (hk0 : (k 0).val = 4000 * t.val + (x 0).val) (hk1 : (k 1).val = (x 1).val) :
    (((cfg6.win 4).blk t).view.read (Elt Ideal) g : Vec Ideal S4000x64 .f32) x = g k := by
  obtain ⟨-, -, -, -, -, -, -, -, e0, e1, -⟩ := idx6 t
  rw [View.read_apply]
  show g _ = g k
  refine congrArg g ?_
  funext a
  apply Fin.ext
  match a with
  | ⟨0, _⟩ => show win6_4.index t 0 * 4000 + 1 * (x 0).val = (k 0).val; rw [e0, hk0]; omega
  | ⟨1, _⟩ => show win6_4.index t 1 * 64 + 1 * (x 1).val = (k 1).val; rw [e1, hk1]; omega

theorem blk6_5_read (t : Fin cfg6.N) (g : S200000x64.Idx → Elt Ideal .f32) (x : S4000x64.Idx) (k : S200000x64.Idx)
    (hk0 : (k 0).val = 4000 * t.val + (x 0).val) (hk1 : (k 1).val = (x 1).val) :
    (((cfg6.win 5).blk t).view.read (Elt Ideal) g : Vec Ideal S4000x64 .f32) x = g k := by
  obtain ⟨-, -, -, -, -, -, -, -, -, -, e0, e1⟩ := idx6 t
  rw [View.read_apply]
  show g _ = g k
  refine congrArg g ?_
  funext a
  apply Fin.ext
  match a with
  | ⟨0, _⟩ => show win6_5.index t 0 * 4000 + 1 * (x 0).val = (k 0).val; rw [e0, hk0]; omega
  | ⟨1, _⟩ => show win6_5.index t 1 * 64 + 1 * (x 1).val = (k 1).val; rw [e1, hk1]; omega

/-- What the body stores into the first output at point t is block t of the scaled sum of the whole arrays. -/
theorem block6_4_eq (a0 a1 : S200000x64.Idx → Elt Ideal .f32) (a2 : S200000x1.Idx → Elt Ideal .f32) (t : Fin cfg6.N) :
    k6_pay1 (((cfg6.win 0).blk t).view.read (Elt Ideal) a0) (((cfg6.win 1).blk t).view.read (Elt Ideal) a1)
        (((cfg6.win 2).blk t).view.read (Elt Ideal) a2)
      = ((cfg6.win 4).blk t).view.read (Elt Ideal) (G6_4 a0 a1 a2) := by
  refine k6_pay1_eq _ _ _ _ (fun p q => ?_)
  have ht : t.val < 50 := lt_of_lt_of_eq t.isLt N_6
  have hp : 4000 * t.val + p.val < 200000 := by have := p.isLt; omega
  rw [blk6_0_read t a0 (ix2 p q) (ix2 ⟨4000 * t.val + p.val, hp⟩ q) rfl rfl,
    blk6_1_read t a1 (ix2 p q) (ix2 ⟨4000 * t.val + p.val, hp⟩ q) rfl rfl,
    blk6_2_read t a2 (ix2 p 0) (ix2 ⟨4000 * t.val + p.val, hp⟩ 0) rfl rfl,
    blk6_4_read t (G6_4 a0 a1 a2) (ix2 p q) (ix2 ⟨4000 * t.val + p.val, hp⟩ q) rfl rfl, G6_4_apply]

/-- What the body stores into the second output at point t is block t of the updated state of the whole arrays. -/
theorem block6_5_eq (a0 a1 : S200000x64.Idx → Elt Ideal .f32) (a2 : S200000x1.Idx → Elt Ideal .f32) (a3 : S200000x64.Idx → Elt Ideal .f32)
    (t : Fin cfg6.N) :
    k6_pay2 (((cfg6.win 0).blk t).view.read (Elt Ideal) a0) (((cfg6.win 1).blk t).view.read (Elt Ideal) a1)
        (((cfg6.win 2).blk t).view.read (Elt Ideal) a2) (((cfg6.win 3).blk t).view.read (Elt Ideal) a3)
      = ((cfg6.win 5).blk t).view.read (Elt Ideal) (G6_5 a0 a1 a2 a3) := by
  refine k6_pay2_eq _ _ _ _ _ (fun p q => ?_)
  have ht : t.val < 50 := lt_of_lt_of_eq t.isLt N_6
  have hp : 4000 * t.val + p.val < 200000 := by have := p.isLt; omega
  rw [blk6_0_read t a0 (ix2 p q) (ix2 ⟨4000 * t.val + p.val, hp⟩ q) rfl rfl,
    blk6_1_read t a1 (ix2 p q) (ix2 ⟨4000 * t.val + p.val, hp⟩ q) rfl rfl,
    blk6_2_read t a2 (ix2 p 0) (ix2 ⟨4000 * t.val + p.val, hp⟩ 0) rfl rfl,
    blk6_3_read t a3 (ix2 p q) (ix2 ⟨4000 * t.val + p.val, hp⟩ q) rfl rfl,
    blk6_5_read t (G6_5 a0 a1 a2 a3) (ix2 p q) (ix2 ⟨4000 * t.val + p.val, hp⟩ q) rfl rfl, G6_5_apply]

/-! ## The 50 blocks cover each output array -/

/-- An index of output window 4's array is in point t's block iff each coordinate is in the block's range on its axis. -/
theorem mem_blk6_4 (t : Fin cfg6.N) (i : S200000x64.Idx) :
    i ∈ ((cfg6.win 4).blk t).view.set ↔ ∀ a : Fin 2, win6_4.index t a * S4000x64.size a ≤ (i a).val
      ∧ (i a).val < win6_4.index t a * S4000x64.size a + S4000x64.size a := by
  show i ∈ ((View.whole main_v93_0).slice (win6_4.rect t)).set ↔ _
  rw [View.set_slice_whole, Rect.mem_set_unit]
  exact Iff.rfl

/-- Row r lies in the block of point r / 4000. -/
theorem rows_covered6_4 (i : S200000x64.Idx) :
    ∃ t : Fin cfg6.N, (cfg6.win 4).flush t = true ∧ i ∈ ((cfg6.win 4).blk t).view.set := by
  have hi0 : (i 0).val < 200000 := (i 0).isLt
  have hi1 : (i 1).val < 64 := (i 1).isLt
  have hlt : (i 0).val / 4000 < cfg6.N := by rw [show cfg6.N = 50 from N_6]; omega
  obtain ⟨-, -, -, -, -, -, -, -, e0, e1, -⟩ := idx6 ⟨(i 0).val / 4000, hlt⟩
  refine ⟨⟨(i 0).val / 4000, hlt⟩, flush6_4 _, ?_⟩
  rw [mem_blk6_4]
  intro a
  match a with
  | ⟨0, _⟩ =>
    show win6_4.index ⟨(i 0).val / 4000, hlt⟩ (0 : Fin 2) * 4000 ≤ (i 0).val
      ∧ (i 0).val < win6_4.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win6_4.index ⟨(i 0).val / 4000, hlt⟩ (1 : Fin 2) * 64 ≤ (i 1).val
      ∧ (i 1).val < win6_4.index ⟨(i 0).val / 4000, hlt⟩ (1 : Fin 2) * 64 + 64
    rw [e1]
    omega

/-- An index of output window 5's array is in point t's block iff each coordinate is in the block's range on its axis. -/
theorem mem_blk6_5 (t : Fin cfg6.N) (i : S200000x64.Idx) :
    i ∈ ((cfg6.win 5).blk t).view.set ↔ ∀ a : Fin 2, win6_5.index t a * S4000x64.size a ≤ (i a).val
      ∧ (i a).val < win6_5.index t a * S4000x64.size a + S4000x64.size a := by
  show i ∈ ((View.whole main_v93_1).slice (win6_5.rect t)).set ↔ _
  rw [View.set_slice_whole, Rect.mem_set_unit]
  exact Iff.rfl

/-- Row r lies in the block of point r / 4000. -/
theorem rows_covered6_5 (i : S200000x64.Idx) :
    ∃ t : Fin cfg6.N, (cfg6.win 5).flush t = true ∧ i ∈ ((cfg6.win 5).blk t).view.set := by
  have hi0 : (i 0).val < 200000 := (i 0).isLt
  have hi1 : (i 1).val < 64 := (i 1).isLt
  have hlt : (i 0).val / 4000 < cfg6.N := by rw [show cfg6.N = 50 from N_6]; omega
  obtain ⟨-, -, -, -, -, -, -, -, -, -, e0, e1⟩ := idx6 ⟨(i 0).val / 4000, hlt⟩
  refine ⟨⟨(i 0).val / 4000, hlt⟩, flush6_5 _, ?_⟩
  rw [mem_blk6_5]
  intro a
  match a with
  | ⟨0, _⟩ =>
    show win6_5.index ⟨(i 0).val / 4000, hlt⟩ (0 : Fin 2) * 4000 ≤ (i 0).val
      ∧ (i 0).val < win6_5.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win6_5.index ⟨(i 0).val / 4000, hlt⟩ (1 : Fin 2) * 64 ≤ (i 1).val
      ∧ (i 1).val < win6_5.index ⟨(i 0).val / 4000, hlt⟩ (1 : Fin 2) * 64 + 64
    rw [e1]
    omega

/-! ## What a point writes back, and the arrays after the last point -/

variable (V : (c : Dev nD) → (b : Ref sig .tc) → Buf (Elt Ideal) ((c : Thread nD τ).loc b))

/-- Point t writes back, to output window 4, block t of its function of the arrays as the region finds them. -/
theorem flushed6_4_eq (c : Dev nD) (t : Fin cfg6.N) :
    (dat6 (F := Ideal) V c).flushed 4 t = ((cfg6.win 4).blk t).view.read (Elt Ideal)
      (G6_4 (V c (Pipeline.arrRef spec6 0)) (V c (Pipeline.arrRef spec6 1)) (V c (Pipeline.arrRef spec6 2))) := by
  show (cfg6.win 4).cut (grid6.coords t) ((dat6 V c).after 4 t) = _
  rw [after6_4]
  unfold out6_4
  rw [View.canon_unit_zero hz6]
  simp only [View.ld_unit_zero (S := S4000x64) hz6, View.ld_unit_zero (S := S4000x1) hz6]
  unfold iblk6
  exact block6_4_eq _ _ _ t

/-- Output window 4's array after the region: its function of the input arrays, everywhere. -/
theorem final6_4 (c : Dev nD) :
    (dat6 (F := Ideal) V c).arrAt 4 cfg6.N
      = G6_4 (V c (Pipeline.arrRef spec6 0)) (V c (Pipeline.arrRef spec6 1)) (V c (Pipeline.arrRef spec6 2)) :=
  (dat6 V c).arrAt_eq_of_cover 4
    (G6_4 (V c (Pipeline.arrRef spec6 0)) (V c (Pipeline.arrRef spec6 1)) (V c (Pipeline.arrRef spec6 2)))
    (fun t _ => flushed6_4_eq V c t) rows_covered6_4

/-- Point t writes back, to output window 5, block t of its function of the arrays as the region finds them. -/
theorem flushed6_5_eq (c : Dev nD) (t : Fin cfg6.N) :
    (dat6 (F := Ideal) V c).flushed 5 t = ((cfg6.win 5).blk t).view.read (Elt Ideal)
      (G6_5 (V c (Pipeline.arrRef spec6 0)) (V c (Pipeline.arrRef spec6 1)) (V c (Pipeline.arrRef spec6 2)) (V c (Pipeline.arrRef spec6 3))) := by
  show (cfg6.win 5).cut (grid6.coords t) ((dat6 V c).after 5 t) = _
  rw [after6_5]
  unfold out6_5
  rw [View.canon_unit_zero hz6]
  simp only [View.ld_unit_zero (S := S4000x64) hz6, View.ld_unit_zero (S := S4000x1) hz6]
  unfold iblk6
  exact block6_5_eq _ _ _ _ t

/-- Output window 5's array after the region: its function of the input arrays, everywhere. -/
theorem final6_5 (c : Dev nD) :
    (dat6 (F := Ideal) V c).arrAt 5 cfg6.N
      = G6_5 (V c (Pipeline.arrRef spec6 0)) (V c (Pipeline.arrRef spec6 1)) (V c (Pipeline.arrRef spec6 2)) (V c (Pipeline.arrRef spec6 3)) :=
  (dat6 V c).arrAt_eq_of_cover 5
    (G6_5 (V c (Pipeline.arrRef spec6 0)) (V c (Pipeline.arrRef spec6 1)) (V c (Pipeline.arrRef spec6 2)) (V c (Pipeline.arrRef spec6 3)))
    (fun t _ => flushed6_5_eq V c t) rows_covered6_5

end Cert.KernelIdeal.Reg

end
-- ==== Proof.Reg8.lean ====
/- Region 8 (a row scaling): the whole output array as one function of the two input arrays.

   The region walks 50 row blocks of 4000 rows.  At each block the body multiplies every entry of the
   64-column block by the factor of its row, read from a one-column block.  So the output array at
   (r, q) is  x (r, q) * s (r, 0) : the block a point writes back is the restriction of this one function
   to the point's rows, and the 50 blocks tile the 200000 rows. -/
import proofs.«137020_j48936857370759_1_alg».proof.Proof.Gen.KernelIdeal.Frame
import Idealize.ShloMosaic.Lib.Pipeline.Value
import Idealize.ShloMosaic.Lib.ValueIdx
import Idealize.ShloMosaic.Lib.ValueIdxCoords

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- Row r at column q, scaled by the factor of row r. -/
def G8_2 (x0 : Vec Ideal S200000x64 .f32) (x1 : Vec Ideal S200000x1 .f32) : Vec Ideal S200000x64 .f32 :=
  fun i => x0 i * x1 (ix2 (⟨(i 0).val, idx2_lt0 i⟩ : Fin 200000) (0 : Fin 1))

theorem G8_2_apply (x0 : Vec Ideal S200000x64 .f32) (x1 : Vec Ideal S200000x1 .f32) (r : Fin 200000) (q : Fin 64) :
    G8_2 x0 x1 (ix2 r q) = x0 (ix2 r q) * x1 (ix2 r 0) := rfl

/-- The same, with the factor read at any index of the one-column array that sits in the same row. -/
theorem G8_2_at (x0 : Vec Ideal S200000x64 .f32) (x1 : Vec Ideal S200000x1 .f32) (i : S200000x64.Idx)
    (i1 : S200000x1.Idx) (h : (i1 0).val = (i 0).val) :
    G8_2 x0 x1 i = x0 i * x1 i1 := by
  have e : i1 = ix2 (⟨(i 0).val, idx2_lt0 i⟩ : Fin 200000) (0 : Fin 1) := by
    funext a
    match a with
    | ⟨0, _⟩ => exact Fin.ext h
    | ⟨1, _⟩ => exact Subsingleton.elim (α := Fin 1) _ _
  rw [e]; rfl

/-! ## The body at one entry of a block -/

theorem hz8 : (![0, 0] : Fin 2 → Nat) = fun _ => 0 := funext fun a => by fin_cases a <;> rfl

/-- Entry (p, q) of what the body stores: the block's entry times the factor of row p. -/
theorem pay8_apply (v0 : Vec Ideal S4000x64 .f32) (v1 : Vec Ideal S4000x1 .f32) (p : Fin 4000) (q : Fin 64) :
    Gen.k8_pay1 v0 v1 (ix2 p q) = v0 (ix2 p q) * v1 (ix2 p 0) := by
  unfold Gen.k8_pay1
  simp only [shapeCast_self]
  refine congrArg (fun z => v0 (ix2 p q) * z) ?_
  exact broadcastTo_apply _ _ (ix2 p q) (ix2 p 0) (fun a => by
    match a with
    | ⟨0, _⟩ => rfl
    | ⟨1, _⟩ => rfl)

/-! ## From blocks to the array -/

variable (V : (c : Dev nD) → (b : Ref sig .tc) → Buf (Elt Ideal) ((c : Thread nD τ).loc b))

/-- The index maps, decided over the 50 points: each window's block at point t is block row t,
    block column 0. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point t writes back is block t of G8_2 of the two input arrays as the region finds them. -/
theorem flushed8_2_eq (c : Dev nD) (t : Fin cfg8.N) :
    (dat8 (F := Ideal) V c).flushed 2 t
      = ((cfg8.win 2).blk t).view.read (Elt Ideal)
          (G8_2 (V c (Pipeline.arrRef spec8 0)) (V c (Pipeline.arrRef spec8 1))) := by
  show (cfg8.win 2).cut (grid8.coords t) ((dat8 (F := Ideal) V c).after 2 t) = _
  rw [after8_2]
  unfold out8_2
  rw [View.canon_unit_zero hz8]
  simp only [View.ld_unit_zero (S := S4000x64) hz8, View.ld_unit_zero (S := S4000x1) hz8]
  obtain ⟨e00, e01, e10, e11, e20, e21⟩ := idx_facts8 t
  refine funext fun (j : S4000x64.Idx) => ?_
  obtain ⟨p, q, rfl⟩ : ∃ (p : Fin 4000) (q : Fin 64), j = ix2 p q := ⟨j 0, j 1, eq_ix2 j⟩
  show Gen.k8_pay1 (iblk8 V c 0 t) (iblk8 V c 1 t) (ix2 p q)
    = G8_2 (V c (Pipeline.arrRef spec8 0)) (V c (Pipeline.arrRef spec8 1)) (((cfg8.win 2).blk t).view.emb (ix2 p q))
  refine (pay8_apply (iblk8 V c 0 t) (iblk8 V c 1 t) p q).trans ?_
  refine ((G8_2_at (V c (Pipeline.arrRef spec8 0)) (V c (Pipeline.arrRef spec8 1)) (((cfg8.win 2).blk t).view.emb (ix2 p q))
    (((cfg8.win 1).blk t).view.emb (ix2 p 0)) ?_).trans ?_).symm
  · show win8_1.index t (0 : Fin 2) * 4000 + 1 * p.val = win8_2.index t (0 : Fin 2) * 4000 + 1 * p.val
    omega
  · have h0 : ((cfg8.win 2).blk t).view.emb (ix2 p q) = ((cfg8.win 0).blk t).view.emb (ix2 p q) := by
      funext a; apply Fin.ext
      match a with
      | ⟨0, _⟩ => show win8_2.index t (0 : Fin 2) * 4000 + 1 * p.val = win8_0.index t (0 : Fin 2) * 4000 + 1 * p.val; omega
      | ⟨1, _⟩ => show win8_2.index t (1 : Fin 2) * 64 + 1 * q.val = win8_0.index t (1 : Fin 2) * 64 + 1 * q.val; omega
    rw [h0]
    rfl

/-- An index of the array is in point t's block iff each coordinate is in the block's range on its axis. -/
theorem mem_blk8_2 (t : Fin cfg8.N) (i : S200000x64.Idx) :
    i ∈ ((cfg8.win 2).blk t).view.set ↔ ∀ a : Fin 2, win8_2.index t a * S4000x64.size a ≤ (i a).val
      ∧ (i a).val < win8_2.index t a * S4000x64.size a + S4000x64.size a := by
  show i ∈ ((View.whole main_v95).slice (win8_2.rect t)).set ↔ _
  rw [View.set_slice_whole, Rect.mem_set_unit]
  exact Iff.rfl

/-- Every row belongs to the block of the point numbered by the row divided by 4000. -/
theorem covered8_2 (i : S200000x64.Idx) :
    ∃ t : Fin cfg8.N, (cfg8.win 2).flush t = true ∧ i ∈ ((cfg8.win 2).blk t).view.set := by
  have hi0 : (i 0).val < 200000 := idx2_lt0 i
  have hi1 : (i 1).val < 64 := idx2_lt1 i
  have hN : (i 0).val / 4000 < cfg8.N := by
    show _ < grid8.N
    rw [N_8]; omega
  obtain ⟨-, -, -, -, eo0, eo1⟩ := idx_facts8 ⟨(i 0).val / 4000, hN⟩
  refine ⟨⟨(i 0).val / 4000, hN⟩, flush8_2 _, ?_⟩
  rw [mem_blk8_2]
  intro a
  match a with
  | ⟨0, _⟩ =>
    show win8_2.index ⟨(i 0).val / 4000, hN⟩ (0 : Fin 2) * 4000 ≤ (i 0).val
      ∧ (i 0).val < win8_2.index ⟨(i 0).val / 4000, hN⟩ (0 : Fin 2) * 4000 + 4000
    rw [eo0]
    show (i 0).val / 4000 * 4000 ≤ (i 0).val ∧ (i 0).val < (i 0).val / 4000 * 4000 + 4000
    omega
  | ⟨1, _⟩ =>
    show win8_2.index ⟨(i 0).val / 4000, hN⟩ (1 : Fin 2) * 64 ≤ (i 1).val
      ∧ (i 1).val < win8_2.index ⟨(i 0).val / 4000, hN⟩ (1 : Fin 2) * 64 + 64
    rw [eo1]
    omega

/-- The output array after the region: G8_2 of the input arrays as the region finds them. -/
theorem final8_2 (c : Dev nD) :
    (Gen.dat8 (F := Ideal) V c).arrAt 2 cfg8.N
      = G8_2 (V c (Pipeline.arrRef spec8 0)) (V c (Pipeline.arrRef spec8 1)) :=
  (dat8 (F := Ideal) V c).arrAt_eq_of_cover 2 (G8_2 (V c (Pipeline.arrRef spec8 0)) (V c (Pipeline.arrRef spec8 1)))
    (fun t _ => flushed8_2_eq V c t) covered8_2

end Cert.KernelIdeal.Reg

end
-- ==== Proof.Reg10.lean ====
/- Region 10, a multiply-add over the one million edge rows (64 columns): the array the region leaves in its
   output window, as ONE function of the three arrays it reads, index by index.

   The grid has 100 points. Point t stages rows 10000·t … 10000·t + 9999 of every window (all 64 columns of the two
   wide operands, the single column of the per-row factor) and writes back the same rows of the output. On one block
   the body is pointwise: entry (p, q) of the stored block is x0 (p, q) + x1 (p, q) · x2 (p, 0). Entry (p, q) of a
   block at point t is entry (10000·t + p, q) of its array, so what point t writes back is block t of the function
   (e, q) ↦ x0 (e, q) + x1 (e, q) · x2 (e, 0) of the whole arrays. Row e lies in the block of point e / 10000, so the
   100 blocks cover the output, which therefore ends as that function. No law of arithmetic is used: the operations
   stay in the order the body applies them. -/
import proofs.«137020_j48936857370759_1_alg».proof.Proof.Gen.KernelIdeal.Frame
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-- The multiply-add of region 10 on whole arrays: entry (e, q) is x0 (e, q) + x1 (e, q) · x2 (e, 0). -/
def G10_3 (x0 x1 : S1000000x64.Idx → Elt Ideal .f32) (x2 : S1000000x1.Idx → Elt Ideal .f32) :
    S1000000x64.Idx → Elt Ideal .f32 :=
  fun i => x0 i + x1 i * x2 (ix2 (n0 := 1000000) (n1 := 1) (i 0) 0)

/-- The function at row r, column q, in the extended reals' own operations. -/
theorem G10_3_apply (x0 x1 : S1000000x64.Idx → Elt Ideal .f32) (x2 : S1000000x1.Idx → Elt Ideal .f32)
    (r : Fin 1000000) (q : Fin 64) :
    G10_3 x0 x1 x2 (ix2 r q) = x0 (ix2 r q) + x1 (ix2 r q) * x2 (ix2 r 0) := rfl

/-! ## One block: the body's stored value at an entry -/

theorem hz10 : (![0, 0] : Fin 2 → Nat) = fun _ => 0 := funext fun a => by fin_cases a <;> rfl

/-- The per-row factor spread over the 64 columns reads, at (p, q), the factor's entry (p, 0). -/
theorem spread10_apply (v : Vec Ideal S10000x1 .f32) (p : Fin 10000) (q : Fin 64) :
    broadcastTo S10000x64 v broadcasts_S10000x1_S10000x64 (ix2 p q) = v (ix2 p 0) :=
  broadcastTo_apply v broadcasts_S10000x1_S10000x64 (ix2 p q) (ix2 p 0) (fun a => by
    match a with
    | ⟨0, _⟩ => rfl
    | ⟨1, _⟩ => rfl)

/-- The stored block at entry (p, q): x0 (p, q) + x1 (p, q) · x2 (p, 0) of the three loaded blocks. -/
theorem k10_pay1_apply (v0 v2 : Vec Ideal S10000x64 .f32) (v4 : Vec Ideal S10000x1 .f32) (p : Fin 10000) (q : Fin 64) :
    k10_pay1 v0 v2 v4 (ix2 p q) = v0 (ix2 p q) + v2 (ix2 p q) * v4 (ix2 p 0) := by
  unfold k10_pay1
  show shapeCast S10000x64 v0 shapeCasts_S10000x64_S10000x64 (ix2 p q)
      + shapeCast S10000x64 v2 shapeCasts_S10000x64_S10000x64 (ix2 p q)
        * broadcastTo S10000x64 (shapeCast S10000x1 v4 shapeCasts_S10000x1_S10000x1) broadcasts_S10000x1_S10000x64 (ix2 p q) = _
  rw [shapeCast_self, shapeCast_self, shapeCast_self, spread10_apply]

/-- So the stored block IS a given function g of the block's index as soon as g agrees with it entry by entry. -/
theorem k10_pay1_eq (v0 v2 : Vec Ideal S10000x64 .f32) (v4 : Vec Ideal S10000x1 .f32) (g : S10000x64.Idx → Elt Ideal .f32)
    (h : ∀ (p : Fin 10000) (q : Fin 64), v0 (ix2 p q) + v2 (ix2 p q) * v4 (ix2 p 0) = g (ix2 p q)) :
    k10_pay1 v0 v2 v4 = g := by
  funext j
  obtain ⟨p, q, rfl⟩ : ∃ (p : Fin 10000) (q : Fin 64), j = ix2 p q := ⟨j 0, j 1, eq_ix2 j⟩
  rw [k10_pay1_apply]; exact h p q

/-! ## The index maps: point t names block (t, 0) of every window -/

theorem idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0 :=
  (by decide +kernel : ∀ t : Fin grid10.N, _)

/-! ## A block's entry (p, q) at point t is the array's entry (10000·t + p, q) -/

theorem blk10_0_read (t : Fin cfg10.N) (g : S1000000x64.Idx → Elt Ideal .f32) (x : S10000x64.Idx) (k : S1000000x64.Idx)
    (hk0 : (k 0).val = 10000 * t.val + (x 0).val) (hk1 : (k 1).val = (x 1).val) :
    (((cfg10.win 0).blk t).view.read (Elt Ideal) g : Vec Ideal S10000x64 .f32) x = g k := by
  obtain ⟨e0, e1, -⟩ := idx10 t
  rw [View.read_apply]
  show g _ = g k
  refine congrArg g ?_
  funext a
  apply Fin.ext
  match a with
  | ⟨0, _⟩ => show win10_0.index t 0 * 10000 + 1 * (x 0).val = (k 0).val; rw [e0, hk0]; omega
  | ⟨1, _⟩ => show win10_0.index t 1 * 64 + 1 * (x 1).val = (k 1).val; rw [e1, hk1]; omega

theorem blk10_1_read (t : Fin cfg10.N) (g : S1000000x64.Idx → Elt Ideal .f32) (x : S10000x64.Idx) (k : S1000000x64.Idx)
    (hk0 : (k 0).val = 10000 * t.val + (x 0).val) (hk1 : (k 1).val = (x 1).val) :
    (((cfg10.win 1).blk t).view.read (Elt Ideal) g : Vec Ideal S10000x64 .f32) x = g k := by
  obtain ⟨-, -, e0, e1, -⟩ := idx10 t
  rw [View.read_apply]
  show g _ = g k
  refine congrArg g ?_
  funext a
  apply Fin.ext
  match a with
  | ⟨0, _⟩ => show win10_1.index t 0 * 10000 + 1 * (x 0).val = (k 0).val; rw [e0, hk0]; omega
  | ⟨1, _⟩ => show win10_1.index t 1 * 64 + 1 * (x 1).val = (k 1).val; rw [e1, hk1]; omega

theorem blk10_2_read (t : Fin cfg10.N) (g : S1000000x1.Idx → Elt Ideal .f32) (x : S10000x1.Idx) (k : S1000000x1.Idx)
    (hk0 : (k 0).val = 10000 * t.val + (x 0).val) (hk1 : (k 1).val = (x 1).val) :
    (((cfg10.win 2).blk t).view.read (Elt Ideal) g : Vec Ideal S10000x1 .f32) x = g k := by
  obtain ⟨-, -, -, -, e0, e1, -⟩ := idx10 t
  rw [View.read_apply]
  show g _ = g k
  refine congrArg g ?_
  funext a
  apply Fin.ext
  match a with
  | ⟨0, _⟩ => show win10_2.index t 0 * 10000 + 1 * (x 0).val = (k 0).val; rw [e0, hk0]; omega
  | ⟨1, _⟩ => show win10_2.index t 1 * 1 + 1 * (x 1).val = (k 1).val; rw [e1, hk1]; omega

theorem blk10_3_read (t : Fin cfg10.N) (g : S1000000x64.Idx → Elt Ideal .f32) (x : S10000x64.Idx) (k : S1000000x64.Idx)
    (hk0 : (k 0).val = 10000 * t.val + (x 0).val) (hk1 : (k 1).val = (x 1).val) :
    (((cfg10.win 3).blk t).view.read (Elt Ideal) g : Vec Ideal S10000x64 .f32) x = g k := by
  obtain ⟨-, -, -, -, -, -, e0, e1⟩ := idx10 t
  rw [View.read_apply]
  show g _ = g k
  refine congrArg g ?_
  funext a
  apply Fin.ext
  match a with
  | ⟨0, _⟩ => show win10_3.index t 0 * 10000 + 1 * (x 0).val = (k 0).val; rw [e0, hk0]; omega
  | ⟨1, _⟩ => show win10_3.index t 1 * 64 + 1 * (x 1).val = (k 1).val; rw [e1, hk1]; omega

/-- What the body stores at point t, from the three staged blocks, is block t of the whole-array function. -/
theorem block10_3_eq (a0 a1 : S1000000x64.Idx → Elt Ideal .f32) (a2 : S1000000x1.Idx → Elt Ideal .f32) (t : Fin cfg10.N) :
    k10_pay1 (((cfg10.win 0).blk t).view.read (Elt Ideal) a0) (((cfg10.win 1).blk t).view.read (Elt Ideal) a1)
        (((cfg10.win 2).blk t).view.read (Elt Ideal) a2)
      = ((cfg10.win 3).blk t).view.read (Elt Ideal) (G10_3 a0 a1 a2) := by
  refine k10_pay1_eq _ _ _ _ (fun p q => ?_)
  have ht : t.val < 100 := lt_of_lt_of_eq t.isLt N_10
  have hp : 10000 * t.val + p.val < 1000000 := by have := p.isLt; omega
  rw [blk10_0_read t a0 (ix2 p q) (ix2 ⟨10000 * t.val + p.val, hp⟩ q) rfl rfl,
    blk10_1_read t a1 (ix2 p q) (ix2 ⟨10000 * t.val + p.val, hp⟩ q) rfl rfl,
    blk10_2_read t a2 (ix2 p 0) (ix2 ⟨10000 * t.val + p.val, hp⟩ 0) rfl rfl,
    blk10_3_read t (G10_3 a0 a1 a2) (ix2 p q) (ix2 ⟨10000 * t.val + p.val, hp⟩ q) rfl rfl, G10_3_apply]

/-! ## The 100 blocks cover the output array -/

/-- An index of the output array is in point t's block iff each coordinate is in the block's range on its axis. -/
theorem mem_blk10_3 (t : Fin cfg10.N) (i : S1000000x64.Idx) :
    i ∈ ((cfg10.win 3).blk t).view.set ↔ ∀ a : Fin 2, win10_3.index t a * S10000x64.size a ≤ (i a).val
      ∧ (i a).val < win10_3.index t a * S10000x64.size a + S10000x64.size a := by
  show i ∈ ((View.whole main_v132).slice (win10_3.rect t)).set ↔ _
  rw [View.set_slice_whole, Rect.mem_set_unit]
  exact Iff.rfl

/-- Row e lies in the block of point e / 10000. -/
theorem rows_covered10_3 (i : S1000000x64.Idx) :
    ∃ t : Fin cfg10.N, (cfg10.win 3).flush t = true ∧ i ∈ ((cfg10.win 3).blk t).view.set := by
  have hi0 : (i 0).val < 1000000 := (i 0).isLt
  have hi1 : (i 1).val < 64 := (i 1).isLt
  have hlt : (i 0).val / 10000 < cfg10.N := by rw [show cfg10.N = 100 from N_10]; omega
  obtain ⟨-, -, -, -, -, -, e0, e1⟩ := idx10 ⟨(i 0).val / 10000, hlt⟩
  refine ⟨⟨(i 0).val / 10000, hlt⟩, flush10_3 _, ?_⟩
  rw [mem_blk10_3]
  intro a
  match a with
  | ⟨0, _⟩ =>
    show win10_3.index ⟨(i 0).val / 10000, hlt⟩ (0 : Fin 2) * 10000 ≤ (i 0).val
      ∧ (i 0).val < win10_3.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win10_3.index ⟨(i 0).val / 10000, hlt⟩ (1 : Fin 2) * 64 ≤ (i 1).val
      ∧ (i 1).val < win10_3.index ⟨(i 0).val / 10000, hlt⟩ (1 : Fin 2) * 64 + 64
    rw [e1]
    omega

/-! ## What a point writes back, and the array after the last point -/

variable (V : (c : Dev nD) → (b : Ref sig .tc) → Buf (Elt Ideal) ((c : Thread nD τ).loc b))

/-- Point t writes back block t of the multiply-add of the arrays as the region finds them. -/
theorem flushed10_3_eq (c : Dev nD) (t : Fin cfg10.N) :
    (dat10 (F := Ideal) V c).flushed 3 t = ((cfg10.win 3).blk t).view.read (Elt Ideal)
      (G10_3 (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz10]
  simp only [View.ld_unit_zero (S := S10000x64) hz10, View.ld_unit_zero (S := S10000x1) hz10]
  unfold iblk10
  exact block10_3_eq _ _ _ t

/-- The output array after the region: the multiply-add of the three input arrays, everywhere. -/
theorem final10_3 (c : Dev nD) :
    (dat10 (F := Ideal) V c).arrAt 3 cfg10.N
      = G10_3 (V c (Pipeline.arrRef spec10 0)) (V c (Pipeline.arrRef spec10 1)) (V c (Pipeline.arrRef spec10 2)) :=
  (dat10 V c).arrAt_eq_of_cover 3
    (G10_3 (V c (Pipeline.arrRef spec10 0)) (V c (Pipeline.arrRef spec10 1)) (V c (Pipeline.arrRef spec10 2)))
    (fun t _ => flushed10_3_eq V c t) rows_covered10_3

end Cert.KernelIdeal.Reg

end
-- ==== Proof.Reg12.lean ====
/- Region 12, a state update over the two hundred thousand node rows (64 columns): the two arrays the region
   leaves in its output windows, each as ONE function of the arrays it reads, index by index.

   The grid has 50 points. Point t stages rows 4000·t … 4000·t + 3999 of every window (all 64 columns of the three wide
   operands, the single column of the per-row factor) and writes back the same rows of both outputs. On one block
   the body is pointwise: entry (p, q) of the first stored block is (x0 (p, q) + x1 (p, q)) · x2 (p, 0), and of the
   second x3 (p, q) plus that. Entry (p, q) of a block at point t is entry (4000·t + p, q) of its array, so what point
   t writes back is block t of the same two functions of the whole arrays. Row r lies in the block of point r / 4000,
   so the 50 blocks cover each output, which therefore ends as its function. No law of arithmetic is used: the
   operations stay in the order the body applies them. -/
import proofs.«137020_j48936857370759_1_alg».proof.Proof.Gen.KernelIdeal.Frame
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-- The scaled sum of region 12 on whole arrays: entry (r, q) is (x0 (r, q) + x1 (r, q)) · x2 (r, 0). -/
def G12_4 (x0 x1 : S200000x64.Idx → Elt Ideal .f32) (x2 : S200000x1.Idx → Elt Ideal .f32) :
    S200000x64.Idx → Elt Ideal .f32 :=
  fun i => (x0 i + x1 i) * x2 (ix2 (n0 := 200000) (n1 := 1) (i 0) 0)

/-- The updated state of region 12 on whole arrays: entry (r, q) is x3 (r, q) + (x0 (r, q) + x1 (r, q)) · x2 (r, 0). -/
def G12_5 (x0 x1 : S200000x64.Idx → Elt Ideal .f32) (x2 : S200000x1.Idx → Elt Ideal .f32) (x3 : S200000x64.Idx → Elt Ideal .f32) :
    S200000x64.Idx → Elt Ideal .f32 :=
  fun i => x3 i + (x0 i + x1 i) * x2 (ix2 (n0 := 200000) (n1 := 1) (i 0) 0)

/-- The scaled sum at row r, column q, in the extended reals' own operations. -/
theorem G12_4_apply (x0 x1 : S200000x64.Idx → Elt Ideal .f32) (x2 : S200000x1.Idx → Elt Ideal .f32)
    (r : Fin 200000) (q : Fin 64) :
    G12_4 x0 x1 x2 (ix2 r q) = (x0 (ix2 r q) + x1 (ix2 r q)) * x2 (ix2 r 0) := rfl

/-- The updated state at row r, column q. -/
theorem G12_5_apply (x0 x1 : S200000x64.Idx → Elt Ideal .f32) (x2 : S200000x1.Idx → Elt Ideal .f32) (x3 : S200000x64.Idx → Elt Ideal .f32)
    (r : Fin 200000) (q : Fin 64) :
    G12_5 x0 x1 x2 x3 (ix2 r q) = x3 (ix2 r q) + (x0 (ix2 r q) + x1 (ix2 r q)) * x2 (ix2 r 0) := rfl

/-! ## One block: the body's two stored values at an entry -/

theorem hz12 : (![0, 0] : Fin 2 → Nat) = fun _ => 0 := funext fun a => by fin_cases a <;> rfl

/-- The per-row factor spread over the 64 columns reads, at (p, q), the factor's entry (p, 0). -/
theorem spread12_apply (v : Vec Ideal S4000x1 .f32) (p : Fin 4000) (q : Fin 64) :
    broadcastTo S4000x64 v broadcasts_S4000x1_S4000x64 (ix2 p q) = v (ix2 p 0) :=
  broadcastTo_apply v broadcasts_S4000x1_S4000x64 (ix2 p q) (ix2 p 0) (fun a => by
    match a with
    | ⟨0, _⟩ => rfl
    | ⟨1, _⟩ => rfl)

/-- The first stored block at entry (p, q): (x0 (p, q) + x1 (p, q)) · x2 (p, 0) of the loaded blocks. -/
theorem k12_pay1_apply (v0 v2 : Vec Ideal S4000x64 .f32) (v5 : Vec Ideal S4000x1 .f32) (p : Fin 4000) (q : Fin 64) :
    k12_pay1 v0 v2 v5 (ix2 p q) = (v0 (ix2 p q) + v2 (ix2 p q)) * v5 (ix2 p 0) := by
  unfold k12_pay1
  show (shapeCast S4000x64 v0 shapeCasts_S4000x64_S4000x64 (ix2 p q)
      + shapeCast S4000x64 v2 shapeCasts_S4000x64_S4000x64 (ix2 p q))
        * broadcastTo S4000x64 (shapeCast S4000x1 v5 shapeCasts_S4000x1_S4000x1) broadcasts_S4000x1_S4000x64 (ix2 p q) = _
  rw [shapeCast_self, shapeCast_self, shapeCast_self, spread12_apply]

/-- The second stored block at entry (p, q): the fourth loaded block's entry plus the first stored block's. -/
theorem k12_pay2_apply (v0 v2 : Vec Ideal S4000x64 .f32) (v5 : Vec Ideal S4000x1 .f32) (v10 : Vec Ideal S4000x64 .f32)
    (p : Fin 4000) (q : Fin 64) :
    k12_pay2 v0 v2 v5 v10 (ix2 p q) = v10 (ix2 p q) + (v0 (ix2 p q) + v2 (ix2 p q)) * v5 (ix2 p 0) := by
  unfold k12_pay2
  show shapeCast S4000x64 v10 shapeCasts_S4000x64_S4000x64 (ix2 p q) + k12_pay1 v0 v2 v5 (ix2 p q) = _
  rw [shapeCast_self, k12_pay1_apply]

/-- So each stored block IS a given function g of the block's index as soon as g agrees with it entry by entry. -/
theorem k12_pay1_eq (v0 v2 : Vec Ideal S4000x64 .f32) (v5 : Vec Ideal S4000x1 .f32) (g : S4000x64.Idx → Elt Ideal .f32)
    (h : ∀ (p : Fin 4000) (q : Fin 64), (v0 (ix2 p q) + v2 (ix2 p q)) * v5 (ix2 p 0) = g (ix2 p q)) :
    k12_pay1 v0 v2 v5 = g := by
  funext j
  obtain ⟨p, q, rfl⟩ : ∃ (p : Fin 4000) (q : Fin 64), j = ix2 p q := ⟨j 0, j 1, eq_ix2 j⟩
  rw [k12_pay1_apply]; exact h p q

theorem k12_pay2_eq (v0 v2 : Vec Ideal S4000x64 .f32) (v5 : Vec Ideal S4000x1 .f32) (v10 : Vec Ideal S4000x64 .f32)
    (g : S4000x64.Idx → Elt Ideal .f32)
    (h : ∀ (p : Fin 4000) (q : Fin 64), v10 (ix2 p q) + (v0 (ix2 p q) + v2 (ix2 p q)) * v5 (ix2 p 0) = g (ix2 p q)) :
    k12_pay2 v0 v2 v5 v10 = g := by
  funext j
  obtain ⟨p, q, rfl⟩ : ∃ (p : Fin 4000) (q : Fin 64), j = ix2 p q := ⟨j 0, j 1, eq_ix2 j⟩
  rw [k12_pay2_apply]; exact h p q

/-! ## The index maps: point t names block (t, 0) of every window -/

theorem idx12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0
    ∧ win12_5.index t (0 : Fin 2) = t.val ∧ win12_5.index t (1 : Fin 2) = 0 :=
  (by decide +kernel : ∀ t : Fin grid12.N, _)

/-! ## A block's entry (p, q) at point t is the array's entry (4000·t + p, q) -/

theorem blk12_0_read (t : Fin cfg12.N) (g : S200000x64.Idx → Elt Ideal .f32) (x : S4000x64.Idx) (k : S200000x64.Idx)
    (hk0 : (k 0).val = 4000 * t.val + (x 0).val) (hk1 : (k 1).val = (x 1).val) :
    (((cfg12.win 0).blk t).view.read (Elt Ideal) g : Vec Ideal S4000x64 .f32) x = g k := by
  obtain ⟨e0, e1, -⟩ := idx12 t
  rw [View.read_apply]
  show g _ = g k
  refine congrArg g ?_
  funext a
  apply Fin.ext
  match a with
  | ⟨0, _⟩ => show win12_0.index t 0 * 4000 + 1 * (x 0).val = (k 0).val; rw [e0, hk0]; omega
  | ⟨1, _⟩ => show win12_0.index t 1 * 64 + 1 * (x 1).val = (k 1).val; rw [e1, hk1]; omega

theorem blk12_1_read (t : Fin cfg12.N) (g : S200000x64.Idx → Elt Ideal .f32) (x : S4000x64.Idx) (k : S200000x64.Idx)
    (hk0 : (k 0).val = 4000 * t.val + (x 0).val) (hk1 : (k 1).val = (x 1).val) :
    (((cfg12.win 1).blk t).view.read (Elt Ideal) g : Vec Ideal S4000x64 .f32) x = g k := by
  obtain ⟨-, -, e0, e1, -⟩ := idx12 t
  rw [View.read_apply]
  show g _ = g k
  refine congrArg g ?_
  funext a
  apply Fin.ext
  match a with
  | ⟨0, _⟩ => show win12_1.index t 0 * 4000 + 1 * (x 0).val = (k 0).val; rw [e0, hk0]; omega
  | ⟨1, _⟩ => show win12_1.index t 1 * 64 + 1 * (x 1).val = (k 1).val; rw [e1, hk1]; omega

theorem blk12_2_read (t : Fin cfg12.N) (g : S200000x1.Idx → Elt Ideal .f32) (x : S4000x1.Idx) (k : S200000x1.Idx)
    (hk0 : (k 0).val = 4000 * t.val + (x 0).val) (hk1 : (k 1).val = (x 1).val) :
    (((cfg12.win 2).blk t).view.read (Elt Ideal) g : Vec Ideal S4000x1 .f32) x = g k := by
  obtain ⟨-, -, -, -, e0, e1, -⟩ := idx12 t
  rw [View.read_apply]
  show g _ = g k
  refine congrArg g ?_
  funext a
  apply Fin.ext
  match a with
  | ⟨0, _⟩ => show win12_2.index t 0 * 4000 + 1 * (x 0).val = (k 0).val; rw [e0, hk0]; omega
  | ⟨1, _⟩ => show win12_2.index t 1 * 1 + 1 * (x 1).val = (k 1).val; rw [e1, hk1]; omega

theorem blk12_3_read (t : Fin cfg12.N) (g : S200000x64.Idx → Elt Ideal .f32) (x : S4000x64.Idx) (k : S200000x64.Idx)
    (hk0 : (k 0).val = 4000 * t.val + (x 0).val) (hk1 : (k 1).val = (x 1).val) :
    (((cfg12.win 3).blk t).view.read (Elt Ideal) g : Vec Ideal S4000x64 .f32) x = g k := by
  obtain ⟨-, -, -, -, -, -, e0, e1, -⟩ := idx12 t
  rw [View.read_apply]
  show g _ = g k
  refine congrArg g ?_
  funext a
  apply Fin.ext
  match a with
  | ⟨0, _⟩ => show win12_3.index t 0 * 4000 + 1 * (x 0).val = (k 0).val; rw [e0, hk0]; omega
  | ⟨1, _⟩ => show win12_3.index t 1 * 64 + 1 * (x 1).val = (k 1).val; rw [e1, hk1]; omega

theorem blk12_4_read (t : Fin cfg12.N) (g : S200000x64.Idx → Elt Ideal .f32) (x : S4000x64.Idx) (k : S200000x64.Idx)
    (hk0 : (k 0).val = 4000 * t.val + (x 0).val) (hk1 : (k 1).val = (x 1).val) :
    (((cfg12.win 4).blk t).view.read (Elt Ideal) g : Vec Ideal S4000x64 .f32) x = g k := by
  obtain ⟨-, -, -, -, -, -, -, -, e0, e1, -⟩ := idx12 t
  rw [View.read_apply]
  show g _ = g k
  refine congrArg g ?_
  funext a
  apply Fin.ext
  match a with
  | ⟨0, _⟩ => show win12_4.index t 0 * 4000 + 1 * (x 0).val = (k 0).val; rw [e0, hk0]; omega
  | ⟨1, _⟩ => show win12_4.index t 1 * 64 + 1 * (x 1).val = (k 1).val; rw [e1, hk1]; omega

theorem blk12_5_read (t : Fin cfg12.N) (g : S200000x64.Idx → Elt Ideal .f32) (x : S4000x64.Idx) (k : S200000x64.Idx)
    (hk0 : (k 0).val = 4000 * t.val + (x 0).val) (hk1 : (k 1).val = (x 1).val) :
    (((cfg12.win 5).blk t).view.read (Elt Ideal) g : Vec Ideal S4000x64 .f32) x = g k := by
  obtain ⟨-, -, -, -, -, -, -, -, -, -, e0, e1⟩ := idx12 t
  rw [View.read_apply]
  show g _ = g k
  refine congrArg g ?_
  funext a
  apply Fin.ext
  match a with
  | ⟨0, _⟩ => show win12_5.index t 0 * 4000 + 1 * (x 0).val = (k 0).val; rw [e0, hk0]; omega
  | ⟨1, _⟩ => show win12_5.index t 1 * 64 + 1 * (x 1).val = (k 1).val; rw [e1, hk1]; omega

/-- What the body stores into the first output at point t is block t of the scaled sum of the whole arrays. -/
theorem block12_4_eq (a0 a1 : S200000x64.Idx → Elt Ideal .f32) (a2 : S200000x1.Idx → Elt Ideal .f32) (t : Fin cfg12.N) :
    k12_pay1 (((cfg12.win 0).blk t).view.read (Elt Ideal) a0) (((cfg12.win 1).blk t).view.read (Elt Ideal) a1)
        (((cfg12.win 2).blk t).view.read (Elt Ideal) a2)
      = ((cfg12.win 4).blk t).view.read (Elt Ideal) (G12_4 a0 a1 a2) := by
  refine k12_pay1_eq _ _ _ _ (fun p q => ?_)
  have ht : t.val < 50 := lt_of_lt_of_eq t.isLt N_12
  have hp : 4000 * t.val + p.val < 200000 := by have := p.isLt; omega
  rw [blk12_0_read t a0 (ix2 p q) (ix2 ⟨4000 * t.val + p.val, hp⟩ q) rfl rfl,
    blk12_1_read t a1 (ix2 p q) (ix2 ⟨4000 * t.val + p.val, hp⟩ q) rfl rfl,
    blk12_2_read t a2 (ix2 p 0) (ix2 ⟨4000 * t.val + p.val, hp⟩ 0) rfl rfl,
    blk12_4_read t (G12_4 a0 a1 a2) (ix2 p q) (ix2 ⟨4000 * t.val + p.val, hp⟩ q) rfl rfl, G12_4_apply]

/-- What the body stores into the second output at point t is block t of the updated state of the whole arrays. -/
theorem block12_5_eq (a0 a1 : S200000x64.Idx → Elt Ideal .f32) (a2 : S200000x1.Idx → Elt Ideal .f32) (a3 : S200000x64.Idx → Elt Ideal .f32)
    (t : Fin cfg12.N) :
    k12_pay2 (((cfg12.win 0).blk t).view.read (Elt Ideal) a0) (((cfg12.win 1).blk t).view.read (Elt Ideal) a1)
        (((cfg12.win 2).blk t).view.read (Elt Ideal) a2) (((cfg12.win 3).blk t).view.read (Elt Ideal) a3)
      = ((cfg12.win 5).blk t).view.read (Elt Ideal) (G12_5 a0 a1 a2 a3) := by
  refine k12_pay2_eq _ _ _ _ _ (fun p q => ?_)
  have ht : t.val < 50 := lt_of_lt_of_eq t.isLt N_12
  have hp : 4000 * t.val + p.val < 200000 := by have := p.isLt; omega
  rw [blk12_0_read t a0 (ix2 p q) (ix2 ⟨4000 * t.val + p.val, hp⟩ q) rfl rfl,
    blk12_1_read t a1 (ix2 p q) (ix2 ⟨4000 * t.val + p.val, hp⟩ q) rfl rfl,
    blk12_2_read t a2 (ix2 p 0) (ix2 ⟨4000 * t.val + p.val, hp⟩ 0) rfl rfl,
    blk12_3_read t a3 (ix2 p q) (ix2 ⟨4000 * t.val + p.val, hp⟩ q) rfl rfl,
    blk12_5_read t (G12_5 a0 a1 a2 a3) (ix2 p q) (ix2 ⟨4000 * t.val + p.val, hp⟩ q) rfl rfl, G12_5_apply]

/-! ## The 50 blocks cover each output array -/

/-- An index of output window 4's array is in point t's block iff each coordinate is in the block's range on its axis. -/
theorem mem_blk12_4 (t : Fin cfg12.N) (i : S200000x64.Idx) :
    i ∈ ((cfg12.win 4).blk t).view.set ↔ ∀ a : Fin 2, win12_4.index t a * S4000x64.size a ≤ (i a).val
      ∧ (i a).val < win12_4.index t a * S4000x64.size a + S4000x64.size a := by
  show i ∈ ((View.whole main_v160_0).slice (win12_4.rect t)).set ↔ _
  rw [View.set_slice_whole, Rect.mem_set_unit]
  exact Iff.rfl

/-- Row r lies in the block of point r / 4000. -/
theorem rows_covered12_4 (i : S200000x64.Idx) :
    ∃ t : Fin cfg12.N, (cfg12.win 4).flush t = true ∧ i ∈ ((cfg12.win 4).blk t).view.set := by
  have hi0 : (i 0).val < 200000 := (i 0).isLt
  have hi1 : (i 1).val < 64 := (i 1).isLt
  have hlt : (i 0).val / 4000 < cfg12.N := by rw [show cfg12.N = 50 from N_12]; omega
  obtain ⟨-, -, -, -, -, -, -, -, e0, e1, -⟩ := idx12 ⟨(i 0).val / 4000, hlt⟩
  refine ⟨⟨(i 0).val / 4000, hlt⟩, flush12_4 _, ?_⟩
  rw [mem_blk12_4]
  intro a
  match a with
  | ⟨0, _⟩ =>
    show win12_4.index ⟨(i 0).val / 4000, hlt⟩ (0 : Fin 2) * 4000 ≤ (i 0).val
      ∧ (i 0).val < win12_4.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win12_4.index ⟨(i 0).val / 4000, hlt⟩ (1 : Fin 2) * 64 ≤ (i 1).val
      ∧ (i 1).val < win12_4.index ⟨(i 0).val / 4000, hlt⟩ (1 : Fin 2) * 64 + 64
    rw [e1]
    omega

/-- An index of output window 5's array is in point t's block iff each coordinate is in the block's range on its axis. -/
theorem mem_blk12_5 (t : Fin cfg12.N) (i : S200000x64.Idx) :
    i ∈ ((cfg12.win 5).blk t).view.set ↔ ∀ a : Fin 2, win12_5.index t a * S4000x64.size a ≤ (i a).val
      ∧ (i a).val < win12_5.index t a * S4000x64.size a + S4000x64.size a := by
  show i ∈ ((View.whole main_v160_1).slice (win12_5.rect t)).set ↔ _
  rw [View.set_slice_whole, Rect.mem_set_unit]
  exact Iff.rfl

/-- Row r lies in the block of point r / 4000. -/
theorem rows_covered12_5 (i : S200000x64.Idx) :
    ∃ t : Fin cfg12.N, (cfg12.win 5).flush t = true ∧ i ∈ ((cfg12.win 5).blk t).view.set := by
  have hi0 : (i 0).val < 200000 := (i 0).isLt
  have hi1 : (i 1).val < 64 := (i 1).isLt
  have hlt : (i 0).val / 4000 < cfg12.N := by rw [show cfg12.N = 50 from N_12]; omega
  obtain ⟨-, -, -, -, -, -, -, -, -, -, e0, e1⟩ := idx12 ⟨(i 0).val / 4000, hlt⟩
  refine ⟨⟨(i 0).val / 4000, hlt⟩, flush12_5 _, ?_⟩
  rw [mem_blk12_5]
  intro a
  match a with
  | ⟨0, _⟩ =>
    show win12_5.index ⟨(i 0).val / 4000, hlt⟩ (0 : Fin 2) * 4000 ≤ (i 0).val
      ∧ (i 0).val < win12_5.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win12_5.index ⟨(i 0).val / 4000, hlt⟩ (1 : Fin 2) * 64 ≤ (i 1).val
      ∧ (i 1).val < win12_5.index ⟨(i 0).val / 4000, hlt⟩ (1 : Fin 2) * 64 + 64
    rw [e1]
    omega

/-! ## What a point writes back, and the arrays after the last point -/

variable (V : (c : Dev nD) → (b : Ref sig .tc) → Buf (Elt Ideal) ((c : Thread nD τ).loc b))

/-- Point t writes back, to output window 4, block t of its function of the arrays as the region finds them. -/
theorem flushed12_4_eq (c : Dev nD) (t : Fin cfg12.N) :
    (dat12 (F := Ideal) V c).flushed 4 t = ((cfg12.win 4).blk t).view.read (Elt Ideal)
      (G12_4 (V c (Pipeline.arrRef spec12 0)) (V c (Pipeline.arrRef spec12 1)) (V c (Pipeline.arrRef spec12 2))) := by
  show (cfg12.win 4).cut (grid12.coords t) ((dat12 V c).after 4 t) = _
  rw [after12_4]
  unfold out12_4
  rw [View.canon_unit_zero hz12]
  simp only [View.ld_unit_zero (S := S4000x64) hz12, View.ld_unit_zero (S := S4000x1) hz12]
  unfold iblk12
  exact block12_4_eq _ _ _ t

/-- Output window 4's array after the region: its function of the input arrays, everywhere. -/
theorem final12_4 (c : Dev nD) :
    (dat12 (F := Ideal) V c).arrAt 4 cfg12.N
      = G12_4 (V c (Pipeline.arrRef spec12 0)) (V c (Pipeline.arrRef spec12 1)) (V c (Pipeline.arrRef spec12 2)) :=
  (dat12 V c).arrAt_eq_of_cover 4
    (G12_4 (V c (Pipeline.arrRef spec12 0)) (V c (Pipeline.arrRef spec12 1)) (V c (Pipeline.arrRef spec12 2)))
    (fun t _ => flushed12_4_eq V c t) rows_covered12_4

/-- Point t writes back, to output window 5, block t of its function of the arrays as the region finds them. -/
theorem flushed12_5_eq (c : Dev nD) (t : Fin cfg12.N) :
    (dat12 (F := Ideal) V c).flushed 5 t = ((cfg12.win 5).blk t).view.read (Elt Ideal)
      (G12_5 (V c (Pipeline.arrRef spec12 0)) (V c (Pipeline.arrRef spec12 1)) (V c (Pipeline.arrRef spec12 2)) (V c (Pipeline.arrRef spec12 3))) := by
  show (cfg12.win 5).cut (grid12.coords t) ((dat12 V c).after 5 t) = _
  rw [after12_5]
  unfold out12_5
  rw [View.canon_unit_zero hz12]
  simp only [View.ld_unit_zero (S := S4000x64) hz12, View.ld_unit_zero (S := S4000x1) hz12]
  unfold iblk12
  exact block12_5_eq _ _ _ _ t

/-- Output window 5's array after the region: its function of the input arrays, everywhere. -/
theorem final12_5 (c : Dev nD) :
    (dat12 (F := Ideal) V c).arrAt 5 cfg12.N
      = G12_5 (V c (Pipeline.arrRef spec12 0)) (V c (Pipeline.arrRef spec12 1)) (V c (Pipeline.arrRef spec12 2)) (V c (Pipeline.arrRef spec12 3)) :=
  (dat12 V c).arrAt_eq_of_cover 5
    (G12_5 (V c (Pipeline.arrRef spec12 0)) (V c (Pipeline.arrRef spec12 1)) (V c (Pipeline.arrRef spec12 2)) (V c (Pipeline.arrRef spec12 3)))
    (fun t _ => flushed12_5_eq V c t) rows_covered12_5

end Cert.KernelIdeal.Reg

end
-- ==== Proof.Reg14.lean ====
/- Region 14 (scaling by a constant): the whole output array as one function of the input array.

   The region walks 50 row blocks of 4000 rows.  At each block the body multiplies every entry of the
   64-column block by the named constant one third.  So the output array at (r, q) is  x (r, q) * (1/3) :
   the block a point writes back is the restriction of this one function to the point's rows, and the
   50 blocks tile the 200000 rows. -/
import proofs.«137020_j48936857370759_1_alg».proof.Proof.Gen.KernelIdeal.Frame
import Idealize.ShloMosaic.Lib.Pipeline.Value
import Idealize.ShloMosaic.Lib.ValueIdx
import Idealize.ShloMosaic.Lib.ValueIdxCoords

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- Every entry times the named constant. -/
def G14_1 (x0 : Vec Ideal S200000x64 .f32) : Vec Ideal S200000x64 .f32 :=
  fun i => x0 i * Named.named (F := Ideal) Cert.KernelIdeal.κ "inv_3" (φ := .f32) 0x3EAAAAAB#32

theorem G14_1_apply (x0 : Vec Ideal S200000x64 .f32) (r : Fin 200000) (q : Fin 64) :
    G14_1 x0 (ix2 r q) = x0 (ix2 r q) * Named.named (F := Ideal) Cert.KernelIdeal.κ "inv_3" (φ := .f32) 0x3EAAAAAB#32 := rfl

/-- The product with the entry read at an index equal to i is the function at i. -/
theorem G14_1_of (x0 : Vec Ideal S200000x64 .f32) (i i0 : S200000x64.Idx) (h0 : i0 = i) :
    x0 i0 * Named.named (F := Ideal) Cert.KernelIdeal.κ "inv_3" (φ := .f32) 0x3EAAAAAB#32 = G14_1 x0 i := by
  subst h0; rfl

/-! ## The body at one entry of a block -/

theorem hz14 : (![0, 0] : Fin 2 → Nat) = fun _ => 0 := funext fun a => by fin_cases a <;> rfl

/-- Entry j of what the body stores: the block's entry times the constant. -/
theorem pay14_apply (v0 : Vec Ideal S4000x64 .f32) (j : S4000x64.Idx) :
    Gen.k14_pay1 v0 j = v0 j * Named.named (F := Ideal) Cert.KernelIdeal.κ "inv_3" (φ := .f32) 0x3EAAAAAB#32 := by
  unfold Gen.k14_pay1
  simp only [shapeCast_self]
  rfl

/-! ## From blocks to the array -/

variable (V : (c : Dev nD) → (b : Ref sig .tc) → Buf (Elt Ideal) ((c : Thread nD τ).loc b))

/-- The index maps, decided over the 50 points: each window's block at point t is block row t,
    block column 0. -/
theorem idx_facts14 : ∀ t : Fin cfg14.N, win14_0.index t (0 : Fin 2) = t.val ∧ win14_0.index t (1 : Fin 2) = 0
    ∧ win14_1.index t (0 : Fin 2) = t.val ∧ win14_1.index t (1 : Fin 2) = 0 :=
  (by decide +kernel : ∀ t : Fin grid14.N, _)

/-- What point t writes back is block t of G14_1 of the input array as the region finds it. -/
theorem flushed14_1_eq (c : Dev nD) (t : Fin cfg14.N) :
    (dat14 (F := Ideal) V c).flushed 1 t
      = ((cfg14.win 1).blk t).view.read (Elt Ideal)
          (G14_1 (V c (Pipeline.arrRef spec14 0))) := by
  show (cfg14.win 1).cut (grid14.coords t) ((dat14 (F := Ideal) V c).after 1 t) = _
  rw [after14_1]
  unfold out14_1
  rw [View.canon_unit_zero hz14]
  simp only [View.ld_unit_zero (S := S4000x64) hz14]
  obtain ⟨e00, e01, e10, e11⟩ := idx_facts14 t
  refine funext fun (j : S4000x64.Idx) => ?_
  show Gen.k14_pay1 (iblk14 V c 0 t) j
    = G14_1 (V c (Pipeline.arrRef spec14 0)) (((cfg14.win 1).blk t).view.emb j)
  refine (pay14_apply (iblk14 V c 0 t) j).trans ?_
  have hj0 : (j 0).val < 4000 := idx2_lt0 j
  have hj1 : (j 1).val < 64 := idx2_lt1 j
  have h0 : ((cfg14.win 0).blk t).view.emb j = ((cfg14.win 1).blk t).view.emb j := by
    funext a; apply Fin.ext
    match a with
    | ⟨0, _⟩ => show win14_0.index t (0 : Fin 2) * 4000 + 1 * (j 0).val = win14_1.index t (0 : Fin 2) * 4000 + 1 * (j 0).val; omega
    | ⟨1, _⟩ => show win14_0.index t (1 : Fin 2) * 64 + 1 * (j 1).val = win14_1.index t (1 : Fin 2) * 64 + 1 * (j 1).val; omega
  exact G14_1_of (V c (Pipeline.arrRef spec14 0)) (((cfg14.win 1).blk t).view.emb j)
    (((cfg14.win 0).blk t).view.emb j) h0

/-- An index of the array is in point t's block iff each coordinate is in the block's range on its axis. -/
theorem mem_blk14_1 (t : Fin cfg14.N) (i : S200000x64.Idx) :
    i ∈ ((cfg14.win 1).blk t).view.set ↔ ∀ a : Fin 2, win14_1.index t a * S4000x64.size a ≤ (i a).val
      ∧ (i a).val < win14_1.index t a * S4000x64.size a + S4000x64.size a := by
  show i ∈ ((View.whole main_v162).slice (win14_1.rect t)).set ↔ _
  rw [View.set_slice_whole, Rect.mem_set_unit]
  exact Iff.rfl

/-- Every row belongs to the block of the point numbered by the row divided by 4000. -/
theorem covered14_1 (i : S200000x64.Idx) :
    ∃ t : Fin cfg14.N, (cfg14.win 1).flush t = true ∧ i ∈ ((cfg14.win 1).blk t).view.set := by
  have hi0 : (i 0).val < 200000 := idx2_lt0 i
  have hi1 : (i 1).val < 64 := idx2_lt1 i
  have hN : (i 0).val / 4000 < cfg14.N := by
    show _ < grid14.N
    rw [N_14]; omega
  obtain ⟨-, -, eo0, eo1⟩ := idx_facts14 ⟨(i 0).val / 4000, hN⟩
  refine ⟨⟨(i 0).val / 4000, hN⟩, flush14_1 _, ?_⟩
  rw [mem_blk14_1]
  intro a
  match a with
  | ⟨0, _⟩ =>
    show win14_1.index ⟨(i 0).val / 4000, hN⟩ (0 : Fin 2) * 4000 ≤ (i 0).val
      ∧ (i 0).val < win14_1.index ⟨(i 0).val / 4000, hN⟩ (0 : Fin 2) * 4000 + 4000
    rw [eo0]
    show (i 0).val / 4000 * 4000 ≤ (i 0).val ∧ (i 0).val < (i 0).val / 4000 * 4000 + 4000
    omega
  | ⟨1, _⟩ =>
    show win14_1.index ⟨(i 0).val / 4000, hN⟩ (1 : Fin 2) * 64 ≤ (i 1).val
      ∧ (i 1).val < win14_1.index ⟨(i 0).val / 4000, hN⟩ (1 : Fin 2) * 64 + 64
    rw [eo1]
    omega

/-- The output array after the region: G14_1 of the input arrays as the region finds them. -/
theorem final14_1 (c : Dev nD) :
    (Gen.dat14 (F := Ideal) V c).arrAt 1 cfg14.N
      = G14_1 (V c (Pipeline.arrRef spec14 0)) :=
  (dat14 (F := Ideal) V c).arrAt_eq_of_cover 1 (G14_1 (V c (Pipeline.arrRef spec14 0)))
    (fun t _ => flushed14_1_eq V c t) covered14_1

end Cert.KernelIdeal.Reg

end
-- ==== Proof.KColL.lean ====
/-
  The left track of the kernel (64 columns: entity_l) at an index, as the column
  specification. Column `q` of the track is column `q` of the 192; its initial embedding is the argument entity_l itself.
  Each tiled call's output is read through its whole-array form, each host gather and segment sum through the
  row lemmas, in the order the program runs them: scale, message, the two segment sums, update — twice — and the
  final scaling.
-/
import proofs.«137020_j48936857370759_1_alg».proof.Proof.KColInv
import proofs.«137020_j48936857370759_1_alg».proof.Proof.KWireA
import proofs.«137020_j48936857370759_1_alg».proof.Proof.KWireB
import proofs.«137020_j48936857370759_1_alg».proof.Proof.Reg2
import proofs.«137020_j48936857370759_1_alg».proof.Proof.Reg4
import proofs.«137020_j48936857370759_1_alg».proof.Proof.Reg6
import proofs.«137020_j48936857370759_1_alg».proof.Proof.Reg8
import proofs.«137020_j48936857370759_1_alg».proof.Proof.Reg10
import proofs.«137020_j48936857370759_1_alg».proof.Proof.Reg12
import proofs.«137020_j48936857370759_1_alg».proof.Proof.Reg14

noncomputable section

namespace Cert.KernelIdeal.KCol

open Idealize.ShloMosaic Idealize.ShloMosaic.TcCoe Idealize.ShloMosaic.ValueIdx Idealize.SL.Sem
open Cert.KernelIdeal Cert.KernelIdeal.Facts₀ Cert.KernelIdeal.Facts Cert.KernelIdeal.Gen Cert.KernelIdeal.Wire Cert.RowOps

/-- Column `q` of the track's share of the query embeddings. -/
abbrev qL (m : (ℓ : Loc nD τ sig) → Buf (Elt Ideal) ℓ) (c : Dev nD) (q : Fin 64) : Fin 50000 → EReal :=
  fun n => m ((c : Thread nD τ).loc main_arg2) (ix2 n ⟨q.val, by omega⟩)

/-- Column `q` of the track's initial embedding: the argument `entity_l`. -/
abbrev e0L (m : (ℓ : Loc nD τ sig) → Buf (Elt Ideal) ℓ) (_ρ : Dev nD → PrngReg) (c : Dev nD) (q : Fin 64) : Fin 200000 → EReal :=
  fun r => m ((c : Thread nD τ).loc main_arg0) (ix2 r q)

variable (m : (ℓ : Loc nD τ sig) → Buf (Elt Ideal) ℓ) (ρ : Dev nD → PrngReg) (c : Dev nD)

/-- The scaled embedding `e · inv` of the first convolution (call 2). -/
theorem scaled1L (q : Fin 64) (r : Fin 200000) :
    (dat2 (F := Ideal) (V4 m ρ) c).arrAt 2 cfg2.N (ix2 r q) = e0L m ρ c q r * Cert.Col.inv (R m c) r := by
  rw [Reg.final2_2 (V4 m ρ) c, in2_0 m ρ c, in2_1 m ρ c, Reg.G2_2_apply, inv_apply]

/-- The forward message of the first convolution on edge `e` (call 4). -/
theorem msg1L (q : Fin 64) (e : Fin 1000000) :
    (dat4 (F := Ideal) (V7 m ρ) c).arrAt 3 cfg4.N (ix2 e q)
      = e0L m ρ c q ((R m c).gS e) + qL m c q ((R m c).gQ e) * Cert.Col.inv (R m c) ((R m c).gS e) := by
  rw [Reg.final4_3 (V7 m ρ) c, in4_0 m ρ c, in4_1 m ρ c, in4_2 m ρ c, Reg.G4_3_apply,
    gather_rows_apply (by decide) gather_S200000x64_S1000000x1_S1000000x64_1_0_n_n_0_1_164 rfl rfl rfl rfl rfl rfl rfl,
    gather_rows_apply (by decide) gather_S50000x64_S1000000x1_S1000000x64_1_0_n_n_0_1_164 rfl rfl rfl rfl rfl rfl rfl,
    gather_rows_apply (by decide) gather_S200000x1_S1000000x1_S1000000x1_1_0_n_n_0_1_11 rfl rfl rfl rfl rfl rfl rfl,
    sliceLo_apply, inv_apply]
  rfl

/-- The first convolution's output (call 6, first result): the column after one step. -/
theorem conv1L (q : Fin 64) (r : Fin 200000) :
    (dat6 (F := Ideal) (V10 m ρ) c).arrAt 4 cfg6.N (ix2 r q) = Cert.Col.e1 (R m c) (qL m c q) (e0L m ρ c q) r := by
  rw [Reg.final6_4 (V10 m ρ) c, in6_0 m ρ c, in6_1 m ρ c, in6_2 m ρ c, Reg.G6_4_apply,
    scatterAdd_rows_apply scatter_S200000x64_S1000000x1_S1000000x64_1_0_0_1 rfl rfl rfl rfl, scatterAdd_rows_apply scatter_S200000x64_S1000000x1_S1000000x64_1_0_0_1 rfl rfl rfl rfl, inv_apply]
  simp only [gather_rows_apply (by decide) gather_S200000x64_S1000000x1_S1000000x64_1_0_n_n_0_1_164 rfl rfl rfl rfl rfl rfl rfl, msg1L, scaled1L, zero64_apply]
  rfl

/-- The running sum after the first convolution (call 6, second result). -/
theorem sum1L (q : Fin 64) (r : Fin 200000) :
    (dat6 (F := Ideal) (V10 m ρ) c).arrAt 5 cfg6.N (ix2 r q) = Cert.Col.acc1 (R m c) (qL m c q) (e0L m ρ c q) r := by
  rw [Reg.final6_5 (V10 m ρ) c, in6_0 m ρ c, in6_1 m ρ c, in6_2 m ρ c, in6_3 m ρ c, Reg.G6_5_apply,
    scatterAdd_rows_apply scatter_S200000x64_S1000000x1_S1000000x64_1_0_0_1 rfl rfl rfl rfl, scatterAdd_rows_apply scatter_S200000x64_S1000000x1_S1000000x64_1_0_0_1 rfl rfl rfl rfl, inv_apply]
  simp only [gather_rows_apply (by decide) gather_S200000x64_S1000000x1_S1000000x64_1_0_n_n_0_1_164 rfl rfl rfl rfl rfl rfl rfl, msg1L, scaled1L, zero64_apply]
  rfl

/-- The scaled embedding of the second convolution (call 8). -/
theorem scaled2L (q : Fin 64) (r : Fin 200000) :
    (dat8 (F := Ideal) (V12 m ρ) c).arrAt 2 cfg8.N (ix2 r q)
      = Cert.Col.e1 (R m c) (qL m c q) (e0L m ρ c q) r * Cert.Col.inv (R m c) r := by
  rw [Reg.final8_2 (V12 m ρ) c, in8_0 m ρ c, in8_1 m ρ c, Reg.G8_2_apply, inv_apply, conv1L]

/-- The forward message of the second convolution on edge `e` (call 10). -/
theorem msg2L (q : Fin 64) (e : Fin 1000000) :
    (dat10 (F := Ideal) (V15 m ρ) c).arrAt 3 cfg10.N (ix2 e q)
      = Cert.Col.e1 (R m c) (qL m c q) (e0L m ρ c q) ((R m c).gS e) + qL m c q ((R m c).gQ e) * Cert.Col.inv (R m c) ((R m c).gS e) := by
  rw [Reg.final10_3 (V15 m ρ) c, in10_0 m ρ c, in10_1 m ρ c, in10_2 m ρ c, Reg.G10_3_apply,
    gather_rows_apply (by decide) gather_S200000x64_S1000000x1_S1000000x64_1_0_n_n_0_1_164 rfl rfl rfl rfl rfl rfl rfl,
    gather_rows_apply (by decide) gather_S50000x64_S1000000x1_S1000000x64_1_0_n_n_0_1_164 rfl rfl rfl rfl rfl rfl rfl,
    gather_rows_apply (by decide) gather_S200000x1_S1000000x1_S1000000x1_1_0_n_n_0_1_11 rfl rfl rfl rfl rfl rfl rfl,
    sliceLo_apply, inv_apply, conv1L]
  rfl

/-- The running sum after the second convolution (call 12, second result): what is averaged. -/
theorem sum2L (q : Fin 64) (r : Fin 200000) :
    (dat12 (F := Ideal) (V18 m ρ) c).arrAt 5 cfg12.N (ix2 r q) = Cert.Col.acc2 (R m c) (qL m c q) (e0L m ρ c q) r := by
  rw [Reg.final12_5 (V18 m ρ) c, in12_0 m ρ c, in12_1 m ρ c, in12_2 m ρ c, in12_3 m ρ c, Reg.G12_5_apply,
    scatterAdd_rows_apply scatter_S200000x64_S1000000x1_S1000000x64_1_0_0_1 rfl rfl rfl rfl, scatterAdd_rows_apply scatter_S200000x64_S1000000x1_S1000000x64_1_0_0_1 rfl rfl rfl rfl, inv_apply, sum1L]
  simp only [gather_rows_apply (by decide) gather_S200000x64_S1000000x1_S1000000x64_1_0_n_n_0_1_164 rfl rfl rfl rfl rfl rfl rfl, msg2L, scaled2L, zero64_apply]
  rfl

/-- The track's result (call 14): the sum scaled by the named third. -/
theorem outL (q : Fin 64) (r : Fin 200000) :
    (dat14 (F := Ideal) (V20 m ρ) c).arrAt 1 cfg14.N (ix2 r q)
      = Cert.Col.acc2 (R m c) (qL m c q) (e0L m ρ c q) r * Named.named (F := Ideal) Cert.KernelIdeal.κ "inv_3" (φ := .f32) 0x3EAAAAAB#32 := by
  rw [Reg.final14_1 (V20 m ρ) c, in14_0 m ρ c, Reg.G14_1_apply, sum2L]

end Cert.KernelIdeal.KCol

end
-- ==== Proof.Reg0.lean ====
/- Region 0 (the row mean): the whole output array as one function of the two input arrays.

   The region walks 50 row blocks of 4000 rows.  At each block the body divides every entry of the
   block of sums by the larger of one and the count of its row, the count read from a one-column block.
   So the output array at (r, q) is  sums (r, q) / max 1 (counts (r, 0)) : the block a point writes back
   is the restriction of this one function to the point's rows, and the 50 blocks tile the 200000 rows. -/
import proofs.«137020_j48936857370759_1_alg».proof.Proof.Gen.KernelIdeal.Frame
import Idealize.ShloMosaic.Lib.Pipeline.Value
import Idealize.ShloMosaic.Lib.ValueIdx
import Idealize.ShloMosaic.Lib.ValueIdxCoords

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- The mean of row r at column q: the sum divided by the count, the count taken as at least one. -/
def G0_2 (x0 : Vec Ideal S200000x128 .f32) (x1 : Vec Ideal S200000x1 .f32) : Vec Ideal S200000x128 .f32 :=
  fun i => Ideal.div (x0 i)
    (max (Ideal.ofBits .f32 0x3F800000#32) (x1 (ix2 (⟨(i 0).val, idx2_lt0 i⟩ : Fin 200000) (0 : Fin 1))))

theorem G0_2_apply (x0 : Vec Ideal S200000x128 .f32) (x1 : Vec Ideal S200000x1 .f32) (r : Fin 200000) (q : Fin 128) :
    G0_2 x0 x1 (ix2 r q) = Ideal.div (x0 (ix2 r q)) (max (Ideal.ofBits .f32 0x3F800000#32) (x1 (ix2 r 0))) := rfl

/-- The same, with the count read at any index of the one-column array that sits in the same row. -/
theorem G0_2_at (x0 : Vec Ideal S200000x128 .f32) (x1 : Vec Ideal S200000x1 .f32) (i : S200000x128.Idx)
    (i1 : S200000x1.Idx) (h : (i1 0).val = (i 0).val) :
    G0_2 x0 x1 i = Ideal.div (x0 i) (max (Ideal.ofBits .f32 0x3F800000#32) (x1 i1)) := by
  have e : i1 = ix2 (⟨(i 0).val, idx2_lt0 i⟩ : Fin 200000) (0 : Fin 1) := by
    funext a
    match a with
    | ⟨0, _⟩ => exact Fin.ext h
    | ⟨1, _⟩ => exact Subsingleton.elim (α := Fin 1) _ _
  rw [e]; rfl

/-! ## The body at one entry of a block -/

theorem hz0 : (![0, 0] : Fin 2 → Nat) = fun _ => 0 := funext fun a => by fin_cases a <;> rfl

/-- Entry (p, q) of what the body stores: the sums block's entry over the larger of one and the
    counts block's entry of row p. -/
theorem pay0_apply (v0 : Vec Ideal S4000x1 .f32) (v4 : Vec Ideal S4000x128 .f32) (p : Fin 4000) (q : Fin 128) :
    Gen.k0_pay1 v0 v4 (ix2 p q)
      = Ideal.div (v4 (ix2 p q)) (max (Ideal.ofBits .f32 0x3F800000#32) (v0 (ix2 p 0))) := by
  unfold Gen.k0_pay1
  simp only [shapeCast_self]
  refine congrArg (Ideal.div (v4 (ix2 p q))) ?_
  exact broadcastTo_apply _ _ (ix2 p q) (ix2 p 0) (fun a => by
    match a with
    | ⟨0, _⟩ => rfl
    | ⟨1, _⟩ => rfl)

/-! ## From blocks to the array -/

variable (V : (c : Dev nD) → (b : Ref sig .tc) → Buf (Elt Ideal) ((c : Thread nD τ).loc b))

/-- The three index maps, decided over the 50 points: each window's block at point t is block row t,
    block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of G0_2 of the two input arrays as the region finds them. -/
theorem flushed0_2_eq (c : Dev nD) (t : Fin cfg0.N) :
    (dat0 (F := Ideal) V c).flushed 2 t
      = ((cfg0.win 2).blk t).view.read (Elt Ideal)
          (G0_2 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S4000x128) hz0, View.ld_unit_zero (S := S4000x1) hz0]
  obtain ⟨e00, e01, e10, e11, e20, e21⟩ := idx_facts0 t
  refine funext fun (j : S4000x128.Idx) => ?_
  obtain ⟨p, q, rfl⟩ : ∃ (p : Fin 4000) (q : Fin 128), j = ix2 p q := ⟨j 0, j 1, eq_ix2 j⟩
  show Gen.k0_pay1 (iblk0 V c 1 t) (iblk0 V c 0 t) (ix2 p q)
    = G0_2 (V c (Pipeline.arrRef spec0 0)) (V c (Pipeline.arrRef spec0 1)) (((cfg0.win 2).blk t).view.emb (ix2 p q))
  refine (pay0_apply (iblk0 V c 1 t) (iblk0 V c 0 t) p q).trans ?_
  refine ((G0_2_at (V c (Pipeline.arrRef spec0 0)) (V c (Pipeline.arrRef spec0 1)) (((cfg0.win 2).blk t).view.emb (ix2 p q))
    (((cfg0.win 1).blk t).view.emb (ix2 p 0)) ?_).trans ?_).symm
  · show win0_1.index t (0 : Fin 2) * 4000 + 1 * p.val = win0_2.index t (0 : Fin 2) * 4000 + 1 * p.val
    omega
  · have h0 : ((cfg0.win 2).blk t).view.emb (ix2 p q) = ((cfg0.win 0).blk t).view.emb (ix2 p q) := by
      funext a; apply Fin.ext
      match a with
      | ⟨0, _⟩ => show win0_2.index t (0 : Fin 2) * 4000 + 1 * p.val = win0_0.index t (0 : Fin 2) * 4000 + 1 * p.val; omega
      | ⟨1, _⟩ => show win0_2.index t (1 : Fin 2) * 128 + 1 * q.val = win0_0.index t (1 : Fin 2) * 128 + 1 * q.val; omega
    rw [h0]
    rfl

/-- An index of the array is in point t's block iff each coordinate is in the block's range on its axis. -/
theorem mem_blk0_2 (t : Fin cfg0.N) (i : S200000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v24).slice (win0_2.rect t)).set ↔ _
  rw [View.set_slice_whole, Rect.mem_set_unit]
  exact Iff.rfl

/-- Every row belongs to the block of the point numbered by the row divided by 4000. -/
theorem covered0_2 (i : S200000x128.Idx) :
    ∃ t : Fin cfg0.N, (cfg0.win 2).flush t = true ∧ i ∈ ((cfg0.win 2).blk t).view.set := by
  have hi0 : (i 0).val < 200000 := idx2_lt0 i
  have hi1 : (i 1).val < 128 := idx2_lt1 i
  have hN : (i 0).val / 4000 < cfg0.N := by
    show _ < grid0.N
    rw [N_0]; omega
  obtain ⟨-, -, -, -, e20, e21⟩ := idx_facts0 ⟨(i 0).val / 4000, hN⟩
  refine ⟨⟨(i 0).val / 4000, hN⟩, flush0_2 _, ?_⟩
  rw [mem_blk0_2]
  intro a
  match a with
  | ⟨0, _⟩ =>
    show win0_2.index ⟨(i 0).val / 4000, hN⟩ (0 : Fin 2) * 4000 ≤ (i 0).val
      ∧ (i 0).val < win0_2.index ⟨(i 0).val / 4000, hN⟩ (0 : Fin 2) * 4000 + 4000
    rw [e20]
    show (i 0).val / 4000 * 4000 ≤ (i 0).val ∧ (i 0).val < (i 0).val / 4000 * 4000 + 4000
    omega
  | ⟨1, _⟩ =>
    show win0_2.index ⟨(i 0).val / 4000, hN⟩ (1 : Fin 2) * 128 ≤ (i 1).val
      ∧ (i 1).val < win0_2.index ⟨(i 0).val / 4000, hN⟩ (1 : Fin 2) * 128 + 128
    rw [e21]
    omega

/-- The output array after the region: G0_2 of the two input arrays as the region finds them. -/
theorem final0_2 (c : Dev nD) :
    (Gen.dat0 (F := Ideal) V c).arrAt 2 cfg0.N
      = G0_2 (V c (Pipeline.arrRef spec0 0)) (V c (Pipeline.arrRef spec0 1)) :=
  (dat0 (F := Ideal) V c).arrAt_eq_of_cover 2 (G0_2 (V c (Pipeline.arrRef spec0 0)) (V c (Pipeline.arrRef spec0 1)))
    (fun t _ => flushed0_2_eq V c t) covered0_2

end Cert.KernelIdeal.Reg

end
-- ==== Proof.Reg3.lean ====
/- Region 3 (a row scaling): the whole output array as one function of the two input arrays.

   The region walks 50 row blocks of 4000 rows.  At each block the body multiplies every entry of the
   128-column block by the factor of its row, read from a one-column block.  So the output array at
   (r, q) is  x (r, q) * s (r, 0) : the block a point writes back is the restriction of this one function
   to the point's rows, and the 50 blocks tile the 200000 rows. -/
import proofs.«137020_j48936857370759_1_alg».proof.Proof.Gen.KernelIdeal.Frame
import Idealize.ShloMosaic.Lib.Pipeline.Value
import Idealize.ShloMosaic.Lib.ValueIdx
import Idealize.ShloMosaic.Lib.ValueIdxCoords

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- Row r at column q, scaled by the factor of row r. -/
def G3_2 (x0 : Vec Ideal S200000x128 .f32) (x1 : Vec Ideal S200000x1 .f32) : Vec Ideal S200000x128 .f32 :=
  fun i => x0 i * x1 (ix2 (⟨(i 0).val, idx2_lt0 i⟩ : Fin 200000) (0 : Fin 1))

theorem G3_2_apply (x0 : Vec Ideal S200000x128 .f32) (x1 : Vec Ideal S200000x1 .f32) (r : Fin 200000) (q : Fin 128) :
    G3_2 x0 x1 (ix2 r q) = x0 (ix2 r q) * x1 (ix2 r 0) := rfl

/-- The same, with the factor read at any index of the one-column array that sits in the same row. -/
theorem G3_2_at (x0 : Vec Ideal S200000x128 .f32) (x1 : Vec Ideal S200000x1 .f32) (i : S200000x128.Idx)
    (i1 : S200000x1.Idx) (h : (i1 0).val = (i 0).val) :
    G3_2 x0 x1 i = x0 i * x1 i1 := by
  have e : i1 = ix2 (⟨(i 0).val, idx2_lt0 i⟩ : Fin 200000) (0 : Fin 1) := by
    funext a
    match a with
    | ⟨0, _⟩ => exact Fin.ext h
    | ⟨1, _⟩ => exact Subsingleton.elim (α := Fin 1) _ _
  rw [e]; rfl

/-! ## The body at one entry of a block -/

theorem hz3 : (![0, 0] : Fin 2 → Nat) = fun _ => 0 := funext fun a => by fin_cases a <;> rfl

/-- Entry (p, q) of what the body stores: the block's entry times the factor of row p. -/
theorem pay3_apply (v0 : Vec Ideal S4000x128 .f32) (v1 : Vec Ideal S4000x1 .f32) (p : Fin 4000) (q : Fin 128) :
    Gen.k3_pay1 v0 v1 (ix2 p q) = v0 (ix2 p q) * v1 (ix2 p 0) := by
  unfold Gen.k3_pay1
  simp only [shapeCast_self]
  refine congrArg (fun z => v0 (ix2 p q) * z) ?_
  exact broadcastTo_apply _ _ (ix2 p q) (ix2 p 0) (fun a => by
    match a with
    | ⟨0, _⟩ => rfl
    | ⟨1, _⟩ => rfl)

/-! ## From blocks to the array -/

variable (V : (c : Dev nD) → (b : Ref sig .tc) → Buf (Elt Ideal) ((c : Thread nD τ).loc b))

/-- The index maps, decided over the 50 points: each window's block at point t is block row t,
    block column 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of G3_2 of the two input arrays as the region finds them. -/
theorem flushed3_2_eq (c : Dev nD) (t : Fin cfg3.N) :
    (dat3 (F := Ideal) V c).flushed 2 t
      = ((cfg3.win 2).blk t).view.read (Elt Ideal)
          (G3_2 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S4000x128) hz3, View.ld_unit_zero (S := S4000x1) hz3]
  obtain ⟨e00, e01, e10, e11, e20, e21⟩ := idx_facts3 t
  refine funext fun (j : S4000x128.Idx) => ?_
  obtain ⟨p, q, rfl⟩ : ∃ (p : Fin 4000) (q : Fin 128), j = ix2 p q := ⟨j 0, j 1, eq_ix2 j⟩
  show Gen.k3_pay1 (iblk3 V c 0 t) (iblk3 V c 1 t) (ix2 p q)
    = G3_2 (V c (Pipeline.arrRef spec3 0)) (V c (Pipeline.arrRef spec3 1)) (((cfg3.win 2).blk t).view.emb (ix2 p q))
  refine (pay3_apply (iblk3 V c 0 t) (iblk3 V c 1 t) p q).trans ?_
  refine ((G3_2_at (V c (Pipeline.arrRef spec3 0)) (V c (Pipeline.arrRef spec3 1)) (((cfg3.win 2).blk t).view.emb (ix2 p q))
    (((cfg3.win 1).blk t).view.emb (ix2 p 0)) ?_).trans ?_).symm
  · show win3_1.index t (0 : Fin 2) * 4000 + 1 * p.val = win3_2.index t (0 : Fin 2) * 4000 + 1 * p.val
    omega
  · have h0 : ((cfg3.win 2).blk t).view.emb (ix2 p q) = ((cfg3.win 0).blk t).view.emb (ix2 p q) := by
      funext a; apply Fin.ext
      match a with
      | ⟨0, _⟩ => show win3_2.index t (0 : Fin 2) * 4000 + 1 * p.val = win3_0.index t (0 : Fin 2) * 4000 + 1 * p.val; omega
      | ⟨1, _⟩ => show win3_2.index t (1 : Fin 2) * 128 + 1 * q.val = win3_0.index t (1 : Fin 2) * 128 + 1 * q.val; omega
    rw [h0]
    rfl

/-- An index of the array is in point t's block iff each coordinate is in the block's range on its axis. -/
theorem mem_blk3_2 (t : Fin cfg3.N) (i : S200000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v29).slice (win3_2.rect t)).set ↔ _
  rw [View.set_slice_whole, Rect.mem_set_unit]
  exact Iff.rfl

/-- Every row belongs to the block of the point numbered by the row divided by 4000. -/
theorem covered3_2 (i : S200000x128.Idx) :
    ∃ t : Fin cfg3.N, (cfg3.win 2).flush t = true ∧ i ∈ ((cfg3.win 2).blk t).view.set := by
  have hi0 : (i 0).val < 200000 := idx2_lt0 i
  have hi1 : (i 1).val < 128 := idx2_lt1 i
  have hN : (i 0).val / 4000 < cfg3.N := by
    show _ < grid3.N
    rw [N_3]; omega
  obtain ⟨-, -, -, -, eo0, eo1⟩ := idx_facts3 ⟨(i 0).val / 4000, hN⟩
  refine ⟨⟨(i 0).val / 4000, hN⟩, flush3_2 _, ?_⟩
  rw [mem_blk3_2]
  intro a
  match a with
  | ⟨0, _⟩ =>
    show win3_2.index ⟨(i 0).val / 4000, hN⟩ (0 : Fin 2) * 4000 ≤ (i 0).val
      ∧ (i 0).val < win3_2.index ⟨(i 0).val / 4000, hN⟩ (0 : Fin 2) * 4000 + 4000
    rw [eo0]
    show (i 0).val / 4000 * 4000 ≤ (i 0).val ∧ (i 0).val < (i 0).val / 4000 * 4000 + 4000
    omega
  | ⟨1, _⟩ =>
    show win3_2.index ⟨(i 0).val / 4000, hN⟩ (1 : Fin 2) * 128 ≤ (i 1).val
      ∧ (i 1).val < win3_2.index ⟨(i 0).val / 4000, hN⟩ (1 : Fin 2) * 128 + 128
    rw [eo1]
    omega

/-- The output array after the region: G3_2 of the input arrays as the region finds them. -/
theorem final3_2 (c : Dev nD) :
    (Gen.dat3 (F := Ideal) V c).arrAt 2 cfg3.N
      = G3_2 (V c (Pipeline.arrRef spec3 0)) (V c (Pipeline.arrRef spec3 1)) :=
  (dat3 (F := Ideal) V c).arrAt_eq_of_cover 2 (G3_2 (V c (Pipeline.arrRef spec3 0)) (V c (Pipeline.arrRef spec3 1)))
    (fun t _ => flushed3_2_eq V c t) covered3_2

end Cert.KernelIdeal.Reg

end
-- ==== Proof.Reg5.lean ====
/- Region 5, a multiply-add over the one million edge rows (128 columns): the array the region leaves in its
   output window, as ONE function of the three arrays it reads, index by index.

   The grid has 100 points. Point t stages rows 10000·t … 10000·t + 9999 of every window (all 128 columns of the two
   wide operands, the single column of the per-row factor) and writes back the same rows of the output. On one block
   the body is pointwise: entry (p, q) of the stored block is x0 (p, q) + x1 (p, q) · x2 (p, 0). Entry (p, q) of a
   block at point t is entry (10000·t + p, q) of its array, so what point t writes back is block t of the function
   (e, q) ↦ x0 (e, q) + x1 (e, q) · x2 (e, 0) of the whole arrays. Row e lies in the block of point e / 10000, so the
   100 blocks cover the output, which therefore ends as that function. No law of arithmetic is used: the operations
   stay in the order the body applies them. -/
import proofs.«137020_j48936857370759_1_alg».proof.Proof.Gen.KernelIdeal.Frame
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-- The multiply-add of region 5 on whole arrays: entry (e, q) is x0 (e, q) + x1 (e, q) · x2 (e, 0). -/
def G5_3 (x0 x1 : S1000000x128.Idx → Elt Ideal .f32) (x2 : S1000000x1.Idx → Elt Ideal .f32) :
    S1000000x128.Idx → Elt Ideal .f32 :=
  fun i => x0 i + x1 i * x2 (ix2 (n0 := 1000000) (n1 := 1) (i 0) 0)

/-- The function at row r, column q, in the extended reals' own operations. -/
theorem G5_3_apply (x0 x1 : S1000000x128.Idx → Elt Ideal .f32) (x2 : S1000000x1.Idx → Elt Ideal .f32)
    (r : Fin 1000000) (q : Fin 128) :
    G5_3 x0 x1 x2 (ix2 r q) = x0 (ix2 r q) + x1 (ix2 r q) * x2 (ix2 r 0) := rfl

/-! ## One block: the body's stored value at an entry -/

theorem hz5 : (![0, 0] : Fin 2 → Nat) = fun _ => 0 := funext fun a => by fin_cases a <;> rfl

/-- The per-row factor spread over the 128 columns reads, at (p, q), the factor's entry (p, 0). -/
theorem spread5_apply (v : Vec Ideal S10000x1 .f32) (p : Fin 10000) (q : Fin 128) :
    broadcastTo S10000x128 v broadcasts_S10000x1_S10000x128 (ix2 p q) = v (ix2 p 0) :=
  broadcastTo_apply v broadcasts_S10000x1_S10000x128 (ix2 p q) (ix2 p 0) (fun a => by
    match a with
    | ⟨0, _⟩ => rfl
    | ⟨1, _⟩ => rfl)

/-- The stored block at entry (p, q): x0 (p, q) + x1 (p, q) · x2 (p, 0) of the three loaded blocks. -/
theorem k5_pay1_apply (v0 v2 : Vec Ideal S10000x128 .f32) (v4 : Vec Ideal S10000x1 .f32) (p : Fin 10000) (q : Fin 128) :
    k5_pay1 v0 v2 v4 (ix2 p q) = v0 (ix2 p q) + v2 (ix2 p q) * v4 (ix2 p 0) := by
  unfold k5_pay1
  show shapeCast S10000x128 v0 shapeCasts_S10000x128_S10000x128 (ix2 p q)
      + shapeCast S10000x128 v2 shapeCasts_S10000x128_S10000x128 (ix2 p q)
        * broadcastTo S10000x128 (shapeCast S10000x1 v4 shapeCasts_S10000x1_S10000x1) broadcasts_S10000x1_S10000x128 (ix2 p q) = _
  rw [shapeCast_self, shapeCast_self, shapeCast_self, spread5_apply]

/-- So the stored block IS a given function g of the block's index as soon as g agrees with it entry by entry. -/
theorem k5_pay1_eq (v0 v2 : Vec Ideal S10000x128 .f32) (v4 : Vec Ideal S10000x1 .f32) (g : S10000x128.Idx → Elt Ideal .f32)
    (h : ∀ (p : Fin 10000) (q : Fin 128), v0 (ix2 p q) + v2 (ix2 p q) * v4 (ix2 p 0) = g (ix2 p q)) :
    k5_pay1 v0 v2 v4 = g := by
  funext j
  obtain ⟨p, q, rfl⟩ : ∃ (p : Fin 10000) (q : Fin 128), j = ix2 p q := ⟨j 0, j 1, eq_ix2 j⟩
  rw [k5_pay1_apply]; exact h p q

/-! ## The index maps: point t names block (t, 0) of every window -/

theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-! ## A block's entry (p, q) at point t is the array's entry (10000·t + p, q) -/

theorem blk5_0_read (t : Fin cfg5.N) (g : S1000000x128.Idx → Elt Ideal .f32) (x : S10000x128.Idx) (k : S1000000x128.Idx)
    (hk0 : (k 0).val = 10000 * t.val + (x 0).val) (hk1 : (k 1).val = (x 1).val) :
    (((cfg5.win 0).blk t).view.read (Elt Ideal) g : Vec Ideal S10000x128 .f32) x = g k := by
  obtain ⟨e0, e1, -⟩ := idx5 t
  rw [View.read_apply]
  show g _ = g k
  refine congrArg g ?_
  funext a
  apply Fin.ext
  match a with
  | ⟨0, _⟩ => show win5_0.index t 0 * 10000 + 1 * (x 0).val = (k 0).val; rw [e0, hk0]; omega
  | ⟨1, _⟩ => show win5_0.index t 1 * 128 + 1 * (x 1).val = (k 1).val; rw [e1, hk1]; omega

theorem blk5_1_read (t : Fin cfg5.N) (g : S1000000x128.Idx → Elt Ideal .f32) (x : S10000x128.Idx) (k : S1000000x128.Idx)
    (hk0 : (k 0).val = 10000 * t.val + (x 0).val) (hk1 : (k 1).val = (x 1).val) :
    (((cfg5.win 1).blk t).view.read (Elt Ideal) g : Vec Ideal S10000x128 .f32) x = g k := by
  obtain ⟨-, -, e0, e1, -⟩ := idx5 t
  rw [View.read_apply]
  show g _ = g k
  refine congrArg g ?_
  funext a
  apply Fin.ext
  match a with
  | ⟨0, _⟩ => show win5_1.index t 0 * 10000 + 1 * (x 0).val = (k 0).val; rw [e0, hk0]; omega
  | ⟨1, _⟩ => show win5_1.index t 1 * 128 + 1 * (x 1).val = (k 1).val; rw [e1, hk1]; omega

theorem blk5_2_read (t : Fin cfg5.N) (g : S1000000x1.Idx → Elt Ideal .f32) (x : S10000x1.Idx) (k : S1000000x1.Idx)
    (hk0 : (k 0).val = 10000 * t.val + (x 0).val) (hk1 : (k 1).val = (x 1).val) :
    (((cfg5.win 2).blk t).view.read (Elt Ideal) g : Vec Ideal S10000x1 .f32) x = g k := by
  obtain ⟨-, -, -, -, e0, e1, -⟩ := idx5 t
  rw [View.read_apply]
  show g _ = g k
  refine congrArg g ?_
  funext a
  apply Fin.ext
  match a with
  | ⟨0, _⟩ => show win5_2.index t 0 * 10000 + 1 * (x 0).val = (k 0).val; rw [e0, hk0]; omega
  | ⟨1, _⟩ => show win5_2.index t 1 * 1 + 1 * (x 1).val = (k 1).val; rw [e1, hk1]; omega

theorem blk5_3_read (t : Fin cfg5.N) (g : S1000000x128.Idx → Elt Ideal .f32) (x : S10000x128.Idx) (k : S1000000x128.Idx)
    (hk0 : (k 0).val = 10000 * t.val + (x 0).val) (hk1 : (k 1).val = (x 1).val) :
    (((cfg5.win 3).blk t).view.read (Elt Ideal) g : Vec Ideal S10000x128 .f32) x = g k := by
  obtain ⟨-, -, -, -, -, -, e0, e1⟩ := idx5 t
  rw [View.read_apply]
  show g _ = g k
  refine congrArg g ?_
  funext a
  apply Fin.ext
  match a with
  | ⟨0, _⟩ => show win5_3.index t 0 * 10000 + 1 * (x 0).val = (k 0).val; rw [e0, hk0]; omega
  | ⟨1, _⟩ => show win5_3.index t 1 * 128 + 1 * (x 1).val = (k 1).val; rw [e1, hk1]; omega

/-- What the body stores at point t, from the three staged blocks, is block t of the whole-array function. -/
theorem block5_3_eq (a0 a1 : S1000000x128.Idx → Elt Ideal .f32) (a2 : S1000000x1.Idx → Elt Ideal .f32) (t : Fin cfg5.N) :
    k5_pay1 (((cfg5.win 0).blk t).view.read (Elt Ideal) a0) (((cfg5.win 1).blk t).view.read (Elt Ideal) a1)
        (((cfg5.win 2).blk t).view.read (Elt Ideal) a2)
      = ((cfg5.win 3).blk t).view.read (Elt Ideal) (G5_3 a0 a1 a2) := by
  refine k5_pay1_eq _ _ _ _ (fun p q => ?_)
  have ht : t.val < 100 := lt_of_lt_of_eq t.isLt N_5
  have hp : 10000 * t.val + p.val < 1000000 := by have := p.isLt; omega
  rw [blk5_0_read t a0 (ix2 p q) (ix2 ⟨10000 * t.val + p.val, hp⟩ q) rfl rfl,
    blk5_1_read t a1 (ix2 p q) (ix2 ⟨10000 * t.val + p.val, hp⟩ q) rfl rfl,
    blk5_2_read t a2 (ix2 p 0) (ix2 ⟨10000 * t.val + p.val, hp⟩ 0) rfl rfl,
    blk5_3_read t (G5_3 a0 a1 a2) (ix2 p q) (ix2 ⟨10000 * t.val + p.val, hp⟩ q) rfl rfl, G5_3_apply]

/-! ## The 100 blocks cover the output array -/

/-- An index of the output array is in point t's block iff each coordinate is in the block's range on its axis. -/
theorem mem_blk5_3 (t : Fin cfg5.N) (i : S1000000x128.Idx) :
    i ∈ ((cfg5.win 3).blk t).view.set ↔ ∀ a : Fin 2, win5_3.index t a * S10000x128.size a ≤ (i a).val
      ∧ (i a).val < win5_3.index t a * S10000x128.size a + S10000x128.size a := by
  show i ∈ ((View.whole main_v66).slice (win5_3.rect t)).set ↔ _
  rw [View.set_slice_whole, Rect.mem_set_unit]
  exact Iff.rfl

/-- Row e lies in the block of point e / 10000. -/
theorem rows_covered5_3 (i : S1000000x128.Idx) :
    ∃ t : Fin cfg5.N, (cfg5.win 3).flush t = true ∧ i ∈ ((cfg5.win 3).blk t).view.set := by
  have hi0 : (i 0).val < 1000000 := (i 0).isLt
  have hi1 : (i 1).val < 128 := (i 1).isLt
  have hlt : (i 0).val / 10000 < cfg5.N := by rw [show cfg5.N = 100 from N_5]; omega
  obtain ⟨-, -, -, -, -, -, e0, e1⟩ := idx5 ⟨(i 0).val / 10000, hlt⟩
  refine ⟨⟨(i 0).val / 10000, hlt⟩, flush5_3 _, ?_⟩
  rw [mem_blk5_3]
  intro a
  match a with
  | ⟨0, _⟩ =>
    show win5_3.index ⟨(i 0).val / 10000, hlt⟩ (0 : Fin 2) * 10000 ≤ (i 0).val
      ∧ (i 0).val < win5_3.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win5_3.index ⟨(i 0).val / 10000, hlt⟩ (1 : Fin 2) * 128 ≤ (i 1).val
      ∧ (i 1).val < win5_3.index ⟨(i 0).val / 10000, hlt⟩ (1 : Fin 2) * 128 + 128
    rw [e1]
    omega

/-! ## What a point writes back, and the array after the last point -/

variable (V : (c : Dev nD) → (b : Ref sig .tc) → Buf (Elt Ideal) ((c : Thread nD τ).loc b))

/-- Point t writes back block t of the multiply-add of the arrays as the region finds them. -/
theorem flushed5_3_eq (c : Dev nD) (t : Fin cfg5.N) :
    (dat5 (F := Ideal) V c).flushed 3 t = ((cfg5.win 3).blk t).view.read (Elt Ideal)
      (G5_3 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S10000x128) hz5, View.ld_unit_zero (S := S10000x1) hz5]
  unfold iblk5
  exact block5_3_eq _ _ _ t

/-- The output array after the region: the multiply-add of the three input arrays, everywhere. -/
theorem final5_3 (c : Dev nD) :
    (dat5 (F := Ideal) V c).arrAt 3 cfg5.N
      = G5_3 (V c (Pipeline.arrRef spec5 0)) (V c (Pipeline.arrRef spec5 1)) (V c (Pipeline.arrRef spec5 2)) :=
  (dat5 V c).arrAt_eq_of_cover 3
    (G5_3 (V c (Pipeline.arrRef spec5 0)) (V c (Pipeline.arrRef spec5 1)) (V c (Pipeline.arrRef spec5 2)))
    (fun t _ => flushed5_3_eq V c t) rows_covered5_3

end Cert.KernelIdeal.Reg

end
-- ==== Proof.Reg7.lean ====
/- Region 7, a state update over the two hundred thousand node rows (128 columns): the two arrays the region
   leaves in its output windows, each as ONE function of the arrays it reads, index by index.

   The grid has 50 points. Point t stages rows 4000·t … 4000·t + 3999 of every window (all 128 columns of the three wide
   operands, the single column of the per-row factor) and writes back the same rows of both outputs. On one block
   the body is pointwise: entry (p, q) of the first stored block is (x0 (p, q) + x1 (p, q)) · x2 (p, 0), and of the
   second x3 (p, q) plus that. Entry (p, q) of a block at point t is entry (4000·t + p, q) of its array, so what point
   t writes back is block t of the same two functions of the whole arrays. Row r lies in the block of point r / 4000,
   so the 50 blocks cover each output, which therefore ends as its function. No law of arithmetic is used: the
   operations stay in the order the body applies them. -/
import proofs.«137020_j48936857370759_1_alg».proof.Proof.Gen.KernelIdeal.Frame
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-- The scaled sum of region 7 on whole arrays: entry (r, q) is (x0 (r, q) + x1 (r, q)) · x2 (r, 0). -/
def G7_4 (x0 x1 : S200000x128.Idx → Elt Ideal .f32) (x2 : S200000x1.Idx → Elt Ideal .f32) :
    S200000x128.Idx → Elt Ideal .f32 :=
  fun i => (x0 i + x1 i) * x2 (ix2 (n0 := 200000) (n1 := 1) (i 0) 0)

/-- The updated state of region 7 on whole arrays: entry (r, q) is x3 (r, q) + (x0 (r, q) + x1 (r, q)) · x2 (r, 0). -/
def G7_5 (x0 x1 : S200000x128.Idx → Elt Ideal .f32) (x2 : S200000x1.Idx → Elt Ideal .f32) (x3 : S200000x128.Idx → Elt Ideal .f32) :
    S200000x128.Idx → Elt Ideal .f32 :=
  fun i => x3 i + (x0 i + x1 i) * x2 (ix2 (n0 := 200000) (n1 := 1) (i 0) 0)

/-- The scaled sum at row r, column q, in the extended reals' own operations. -/
theorem G7_4_apply (x0 x1 : S200000x128.Idx → Elt Ideal .f32) (x2 : S200000x1.Idx → Elt Ideal .f32)
    (r : Fin 200000) (q : Fin 128) :
    G7_4 x0 x1 x2 (ix2 r q) = (x0 (ix2 r q) + x1 (ix2 r q)) * x2 (ix2 r 0) := rfl

/-- The updated state at row r, column q. -/
theorem G7_5_apply (x0 x1 : S200000x128.Idx → Elt Ideal .f32) (x2 : S200000x1.Idx → Elt Ideal .f32) (x3 : S200000x128.Idx → Elt Ideal .f32)
    (r : Fin 200000) (q : Fin 128) :
    G7_5 x0 x1 x2 x3 (ix2 r q) = x3 (ix2 r q) + (x0 (ix2 r q) + x1 (ix2 r q)) * x2 (ix2 r 0) := rfl

/-! ## One block: the body's two stored values at an entry -/

theorem hz7 : (![0, 0] : Fin 2 → Nat) = fun _ => 0 := funext fun a => by fin_cases a <;> rfl

/-- The per-row factor spread over the 128 columns reads, at (p, q), the factor's entry (p, 0). -/
theorem spread7_apply (v : Vec Ideal S4000x1 .f32) (p : Fin 4000) (q : Fin 128) :
    broadcastTo S4000x128 v broadcasts_S4000x1_S4000x128 (ix2 p q) = v (ix2 p 0) :=
  broadcastTo_apply v broadcasts_S4000x1_S4000x128 (ix2 p q) (ix2 p 0) (fun a => by
    match a with
    | ⟨0, _⟩ => rfl
    | ⟨1, _⟩ => rfl)

/-- The first stored block at entry (p, q): (x0 (p, q) + x1 (p, q)) · x2 (p, 0) of the loaded blocks. -/
theorem k7_pay1_apply (v0 v2 : Vec Ideal S4000x128 .f32) (v5 : Vec Ideal S4000x1 .f32) (p : Fin 4000) (q : Fin 128) :
    k7_pay1 v0 v2 v5 (ix2 p q) = (v0 (ix2 p q) + v2 (ix2 p q)) * v5 (ix2 p 0) := by
  unfold k7_pay1
  show (shapeCast S4000x128 v0 shapeCasts_S4000x128_S4000x128 (ix2 p q)
      + shapeCast S4000x128 v2 shapeCasts_S4000x128_S4000x128 (ix2 p q))
        * broadcastTo S4000x128 (shapeCast S4000x1 v5 shapeCasts_S4000x1_S4000x1) broadcasts_S4000x1_S4000x128 (ix2 p q) = _
  rw [shapeCast_self, shapeCast_self, shapeCast_self, spread7_apply]

/-- The second stored block at entry (p, q): the fourth loaded block's entry plus the first stored block's. -/
theorem k7_pay2_apply (v0 v2 : Vec Ideal S4000x128 .f32) (v5 : Vec Ideal S4000x1 .f32) (v10 : Vec Ideal S4000x128 .f32)
    (p : Fin 4000) (q : Fin 128) :
    k7_pay2 v0 v2 v5 v10 (ix2 p q) = v10 (ix2 p q) + (v0 (ix2 p q) + v2 (ix2 p q)) * v5 (ix2 p 0) := by
  unfold k7_pay2
  show shapeCast S4000x128 v10 shapeCasts_S4000x128_S4000x128 (ix2 p q) + k7_pay1 v0 v2 v5 (ix2 p q) = _
  rw [shapeCast_self, k7_pay1_apply]

/-- So each stored block IS a given function g of the block's index as soon as g agrees with it entry by entry. -/
theorem k7_pay1_eq (v0 v2 : Vec Ideal S4000x128 .f32) (v5 : Vec Ideal S4000x1 .f32) (g : S4000x128.Idx → Elt Ideal .f32)
    (h : ∀ (p : Fin 4000) (q : Fin 128), (v0 (ix2 p q) + v2 (ix2 p q)) * v5 (ix2 p 0) = g (ix2 p q)) :
    k7_pay1 v0 v2 v5 = g := by
  funext j
  obtain ⟨p, q, rfl⟩ : ∃ (p : Fin 4000) (q : Fin 128), j = ix2 p q := ⟨j 0, j 1, eq_ix2 j⟩
  rw [k7_pay1_apply]; exact h p q

theorem k7_pay2_eq (v0 v2 : Vec Ideal S4000x128 .f32) (v5 : Vec Ideal S4000x1 .f32) (v10 : Vec Ideal S4000x128 .f32)
    (g : S4000x128.Idx → Elt Ideal .f32)
    (h : ∀ (p : Fin 4000) (q : Fin 128), v10 (ix2 p q) + (v0 (ix2 p q) + v2 (ix2 p q)) * v5 (ix2 p 0) = g (ix2 p q)) :
    k7_pay2 v0 v2 v5 v10 = g := by
  funext j
  obtain ⟨p, q, rfl⟩ : ∃ (p : Fin 4000) (q : Fin 128), j = ix2 p q := ⟨j 0, j 1, eq_ix2 j⟩
  rw [k7_pay2_apply]; exact h p q

/-! ## The index maps: point t names block (t, 0) of every window -/

theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-! ## A block's entry (p, q) at point t is the array's entry (4000·t + p, q) -/

theorem blk7_0_read (t : Fin cfg7.N) (g : S200000x128.Idx → Elt Ideal .f32) (x : S4000x128.Idx) (k : S200000x128.Idx)
    (hk0 : (k 0).val = 4000 * t.val + (x 0).val) (hk1 : (k 1).val = (x 1).val) :
    (((cfg7.win 0).blk t).view.read (Elt Ideal) g : Vec Ideal S4000x128 .f32) x = g k := by
  obtain ⟨e0, e1, -⟩ := idx7 t
  rw [View.read_apply]
  show g _ = g k
  refine congrArg g ?_
  funext a
  apply Fin.ext
  match a with
  | ⟨0, _⟩ => show win7_0.index t 0 * 4000 + 1 * (x 0).val = (k 0).val; rw [e0, hk0]; omega
  | ⟨1, _⟩ => show win7_0.index t 1 * 128 + 1 * (x 1).val = (k 1).val; rw [e1, hk1]; omega

theorem blk7_1_read (t : Fin cfg7.N) (g : S200000x128.Idx → Elt Ideal .f32) (x : S4000x128.Idx) (k : S200000x128.Idx)
    (hk0 : (k 0).val = 4000 * t.val + (x 0).val) (hk1 : (k 1).val = (x 1).val) :
    (((cfg7.win 1).blk t).view.read (Elt Ideal) g : Vec Ideal S4000x128 .f32) x = g k := by
  obtain ⟨-, -, e0, e1, -⟩ := idx7 t
  rw [View.read_apply]
  show g _ = g k
  refine congrArg g ?_
  funext a
  apply Fin.ext
  match a with
  | ⟨0, _⟩ => show win7_1.index t 0 * 4000 + 1 * (x 0).val = (k 0).val; rw [e0, hk0]; omega
  | ⟨1, _⟩ => show win7_1.index t 1 * 128 + 1 * (x 1).val = (k 1).val; rw [e1, hk1]; omega

theorem blk7_2_read (t : Fin cfg7.N) (g : S200000x1.Idx → Elt Ideal .f32) (x : S4000x1.Idx) (k : S200000x1.Idx)
    (hk0 : (k 0).val = 4000 * t.val + (x 0).val) (hk1 : (k 1).val = (x 1).val) :
    (((cfg7.win 2).blk t).view.read (Elt Ideal) g : Vec Ideal S4000x1 .f32) x = g k := by
  obtain ⟨-, -, -, -, e0, e1, -⟩ := idx7 t
  rw [View.read_apply]
  show g _ = g k
  refine congrArg g ?_
  funext a
  apply Fin.ext
  match a with
  | ⟨0, _⟩ => show win7_2.index t 0 * 4000 + 1 * (x 0).val = (k 0).val; rw [e0, hk0]; omega
  | ⟨1, _⟩ => show win7_2.index t 1 * 1 + 1 * (x 1).val = (k 1).val; rw [e1, hk1]; omega

theorem blk7_3_read (t : Fin cfg7.N) (g : S200000x128.Idx → Elt Ideal .f32) (x : S4000x128.Idx) (k : S200000x128.Idx)
    (hk0 : (k 0).val = 4000 * t.val + (x 0).val) (hk1 : (k 1).val = (x 1).val) :
    (((cfg7.win 3).blk t).view.read (Elt Ideal) g : Vec Ideal S4000x128 .f32) x = g k := by
  obtain ⟨-, -, -, -, -, -, e0, e1, -⟩ := idx7 t
  rw [View.read_apply]
  show g _ = g k
  refine congrArg g ?_
  funext a
  apply Fin.ext
  match a with
  | ⟨0, _⟩ => show win7_3.index t 0 * 4000 + 1 * (x 0).val = (k 0).val; rw [e0, hk0]; omega
  | ⟨1, _⟩ => show win7_3.index t 1 * 128 + 1 * (x 1).val = (k 1).val; rw [e1, hk1]; omega

theorem blk7_4_read (t : Fin cfg7.N) (g : S200000x128.Idx → Elt Ideal .f32) (x : S4000x128.Idx) (k : S200000x128.Idx)
    (hk0 : (k 0).val = 4000 * t.val + (x 0).val) (hk1 : (k 1).val = (x 1).val) :
    (((cfg7.win 4).blk t).view.read (Elt Ideal) g : Vec Ideal S4000x128 .f32) x = g k := by
  obtain ⟨-, -, -, -, -, -, -, -, e0, e1, -⟩ := idx7 t
  rw [View.read_apply]
  show g _ = g k
  refine congrArg g ?_
  funext a
  apply Fin.ext
  match a with
  | ⟨0, _⟩ => show win7_4.index t 0 * 4000 + 1 * (x 0).val = (k 0).val; rw [e0, hk0]; omega
  | ⟨1, _⟩ => show win7_4.index t 1 * 128 + 1 * (x 1).val = (k 1).val; rw [e1, hk1]; omega

theorem blk7_5_read (t : Fin cfg7.N) (g : S200000x128.Idx → Elt Ideal .f32) (x : S4000x128.Idx) (k : S200000x128.Idx)
    (hk0 : (k 0).val = 4000 * t.val + (x 0).val) (hk1 : (k 1).val = (x 1).val) :
    (((cfg7.win 5).blk t).view.read (Elt Ideal) g : Vec Ideal S4000x128 .f32) x = g k := by
  obtain ⟨-, -, -, -, -, -, -, -, -, -, e0, e1⟩ := idx7 t
  rw [View.read_apply]
  show g _ = g k
  refine congrArg g ?_
  funext a
  apply Fin.ext
  match a with
  | ⟨0, _⟩ => show win7_5.index t 0 * 4000 + 1 * (x 0).val = (k 0).val; rw [e0, hk0]; omega
  | ⟨1, _⟩ => show win7_5.index t 1 * 128 + 1 * (x 1).val = (k 1).val; rw [e1, hk1]; omega

/-- What the body stores into the first output at point t is block t of the scaled sum of the whole arrays. -/
theorem block7_4_eq (a0 a1 : S200000x128.Idx → Elt Ideal .f32) (a2 : S200000x1.Idx → Elt Ideal .f32) (t : Fin cfg7.N) :
    k7_pay1 (((cfg7.win 0).blk t).view.read (Elt Ideal) a0) (((cfg7.win 1).blk t).view.read (Elt Ideal) a1)
        (((cfg7.win 2).blk t).view.read (Elt Ideal) a2)
      = ((cfg7.win 4).blk t).view.read (Elt Ideal) (G7_4 a0 a1 a2) := by
  refine k7_pay1_eq _ _ _ _ (fun p q => ?_)
  have ht : t.val < 50 := lt_of_lt_of_eq t.isLt N_7
  have hp : 4000 * t.val + p.val < 200000 := by have := p.isLt; omega
  rw [blk7_0_read t a0 (ix2 p q) (ix2 ⟨4000 * t.val + p.val, hp⟩ q) rfl rfl,
    blk7_1_read t a1 (ix2 p q) (ix2 ⟨4000 * t.val + p.val, hp⟩ q) rfl rfl,
    blk7_2_read t a2 (ix2 p 0) (ix2 ⟨4000 * t.val + p.val, hp⟩ 0) rfl rfl,
    blk7_4_read t (G7_4 a0 a1 a2) (ix2 p q) (ix2 ⟨4000 * t.val + p.val, hp⟩ q) rfl rfl, G7_4_apply]

/-- What the body stores into the second output at point t is block t of the updated state of the whole arrays. -/
theorem block7_5_eq (a0 a1 : S200000x128.Idx → Elt Ideal .f32) (a2 : S200000x1.Idx → Elt Ideal .f32) (a3 : S200000x128.Idx → Elt Ideal .f32)
    (t : Fin cfg7.N) :
    k7_pay2 (((cfg7.win 0).blk t).view.read (Elt Ideal) a0) (((cfg7.win 1).blk t).view.read (Elt Ideal) a1)
        (((cfg7.win 2).blk t).view.read (Elt Ideal) a2) (((cfg7.win 3).blk t).view.read (Elt Ideal) a3)
      = ((cfg7.win 5).blk t).view.read (Elt Ideal) (G7_5 a0 a1 a2 a3) := by
  refine k7_pay2_eq _ _ _ _ _ (fun p q => ?_)
  have ht : t.val < 50 := lt_of_lt_of_eq t.isLt N_7
  have hp : 4000 * t.val + p.val < 200000 := by have := p.isLt; omega
  rw [blk7_0_read t a0 (ix2 p q) (ix2 ⟨4000 * t.val + p.val, hp⟩ q) rfl rfl,
    blk7_1_read t a1 (ix2 p q) (ix2 ⟨4000 * t.val + p.val, hp⟩ q) rfl rfl,
    blk7_2_read t a2 (ix2 p 0) (ix2 ⟨4000 * t.val + p.val, hp⟩ 0) rfl rfl,
    blk7_3_read t a3 (ix2 p q) (ix2 ⟨4000 * t.val + p.val, hp⟩ q) rfl rfl,
    blk7_5_read t (G7_5 a0 a1 a2 a3) (ix2 p q) (ix2 ⟨4000 * t.val + p.val, hp⟩ q) rfl rfl, G7_5_apply]

/-! ## The 50 blocks cover each output array -/

/-- An index of output window 4's array is in point t's block iff each coordinate is in the block's range on its axis. -/
theorem mem_blk7_4 (t : Fin cfg7.N) (i : S200000x128.Idx) :
    i ∈ ((cfg7.win 4).blk t).view.set ↔ ∀ a : Fin 2, win7_4.index t a * S4000x128.size a ≤ (i a).val
      ∧ (i a).val < win7_4.index t a * S4000x128.size a + S4000x128.size a := by
  show i ∈ ((View.whole main_v94_0).slice (win7_4.rect t)).set ↔ _
  rw [View.set_slice_whole, Rect.mem_set_unit]
  exact Iff.rfl

/-- Row r lies in the block of point r / 4000. -/
theorem rows_covered7_4 (i : S200000x128.Idx) :
    ∃ t : Fin cfg7.N, (cfg7.win 4).flush t = true ∧ i ∈ ((cfg7.win 4).blk t).view.set := by
  have hi0 : (i 0).val < 200000 := (i 0).isLt
  have hi1 : (i 1).val < 128 := (i 1).isLt
  have hlt : (i 0).val / 4000 < cfg7.N := by rw [show cfg7.N = 50 from N_7]; omega
  obtain ⟨-, -, -, -, -, -, -, -, e0, e1, -⟩ := idx7 ⟨(i 0).val / 4000, hlt⟩
  refine ⟨⟨(i 0).val / 4000, hlt⟩, flush7_4 _, ?_⟩
  rw [mem_blk7_4]
  intro a
  match a with
  | ⟨0, _⟩ =>
    show win7_4.index ⟨(i 0).val / 4000, hlt⟩ (0 : Fin 2) * 4000 ≤ (i 0).val
      ∧ (i 0).val < win7_4.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win7_4.index ⟨(i 0).val / 4000, hlt⟩ (1 : Fin 2) * 128 ≤ (i 1).val
      ∧ (i 1).val < win7_4.index ⟨(i 0).val / 4000, hlt⟩ (1 : Fin 2) * 128 + 128
    rw [e1]
    omega

/-- An index of output window 5's array is in point t's block iff each coordinate is in the block's range on its axis. -/
theorem mem_blk7_5 (t : Fin cfg7.N) (i : S200000x128.Idx) :
    i ∈ ((cfg7.win 5).blk t).view.set ↔ ∀ a : Fin 2, win7_5.index t a * S4000x128.size a ≤ (i a).val
      ∧ (i a).val < win7_5.index t a * S4000x128.size a + S4000x128.size a := by
  show i ∈ ((View.whole main_v94_1).slice (win7_5.rect t)).set ↔ _
  rw [View.set_slice_whole, Rect.mem_set_unit]
  exact Iff.rfl

/-- Row r lies in the block of point r / 4000. -/
theorem rows_covered7_5 (i : S200000x128.Idx) :
    ∃ t : Fin cfg7.N, (cfg7.win 5).flush t = true ∧ i ∈ ((cfg7.win 5).blk t).view.set := by
  have hi0 : (i 0).val < 200000 := (i 0).isLt
  have hi1 : (i 1).val < 128 := (i 1).isLt
  have hlt : (i 0).val / 4000 < cfg7.N := by rw [show cfg7.N = 50 from N_7]; omega
  obtain ⟨-, -, -, -, -, -, -, -, -, -, e0, e1⟩ := idx7 ⟨(i 0).val / 4000, hlt⟩
  refine ⟨⟨(i 0).val / 4000, hlt⟩, flush7_5 _, ?_⟩
  rw [mem_blk7_5]
  intro a
  match a with
  | ⟨0, _⟩ =>
    show win7_5.index ⟨(i 0).val / 4000, hlt⟩ (0 : Fin 2) * 4000 ≤ (i 0).val
      ∧ (i 0).val < win7_5.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win7_5.index ⟨(i 0).val / 4000, hlt⟩ (1 : Fin 2) * 128 ≤ (i 1).val
      ∧ (i 1).val < win7_5.index ⟨(i 0).val / 4000, hlt⟩ (1 : Fin 2) * 128 + 128
    rw [e1]
    omega

/-! ## What a point writes back, and the arrays after the last point -/

variable (V : (c : Dev nD) → (b : Ref sig .tc) → Buf (Elt Ideal) ((c : Thread nD τ).loc b))

/-- Point t writes back, to output window 4, block t of its function of the arrays as the region finds them. -/
theorem flushed7_4_eq (c : Dev nD) (t : Fin cfg7.N) :
    (dat7 (F := Ideal) V c).flushed 4 t = ((cfg7.win 4).blk t).view.read (Elt Ideal)
      (G7_4 (V c (Pipeline.arrRef spec7 0)) (V c (Pipeline.arrRef spec7 1)) (V c (Pipeline.arrRef spec7 2))) := by
  show (cfg7.win 4).cut (grid7.coords t) ((dat7 V c).after 4 t) = _
  rw [after7_4]
  unfold out7_4
  rw [View.canon_unit_zero hz7]
  simp only [View.ld_unit_zero (S := S4000x128) hz7, View.ld_unit_zero (S := S4000x1) hz7]
  unfold iblk7
  exact block7_4_eq _ _ _ t

/-- Output window 4's array after the region: its function of the input arrays, everywhere. -/
theorem final7_4 (c : Dev nD) :
    (dat7 (F := Ideal) V c).arrAt 4 cfg7.N
      = G7_4 (V c (Pipeline.arrRef spec7 0)) (V c (Pipeline.arrRef spec7 1)) (V c (Pipeline.arrRef spec7 2)) :=
  (dat7 V c).arrAt_eq_of_cover 4
    (G7_4 (V c (Pipeline.arrRef spec7 0)) (V c (Pipeline.arrRef spec7 1)) (V c (Pipeline.arrRef spec7 2)))
    (fun t _ => flushed7_4_eq V c t) rows_covered7_4

/-- Point t writes back, to output window 5, block t of its function of the arrays as the region finds them. -/
theorem flushed7_5_eq (c : Dev nD) (t : Fin cfg7.N) :
    (dat7 (F := Ideal) V c).flushed 5 t = ((cfg7.win 5).blk t).view.read (Elt Ideal)
      (G7_5 (V c (Pipeline.arrRef spec7 0)) (V c (Pipeline.arrRef spec7 1)) (V c (Pipeline.arrRef spec7 2)) (V c (Pipeline.arrRef spec7 3))) := by
  show (cfg7.win 5).cut (grid7.coords t) ((dat7 V c).after 5 t) = _
  rw [after7_5]
  unfold out7_5
  rw [View.canon_unit_zero hz7]
  simp only [View.ld_unit_zero (S := S4000x128) hz7, View.ld_unit_zero (S := S4000x1) hz7]
  unfold iblk7
  exact block7_5_eq _ _ _ _ t

/-- Output window 5's array after the region: its function of the input arrays, everywhere. -/
theorem final7_5 (c : Dev nD) :
    (dat7 (F := Ideal) V c).arrAt 5 cfg7.N
      = G7_5 (V c (Pipeline.arrRef spec7 0)) (V c (Pipeline.arrRef spec7 1)) (V c (Pipeline.arrRef spec7 2)) (V c (Pipeline.arrRef spec7 3)) :=
  (dat7 V c).arrAt_eq_of_cover 5
    (G7_5 (V c (Pipeline.arrRef spec7 0)) (V c (Pipeline.arrRef spec7 1)) (V c (Pipeline.arrRef spec7 2)) (V c (Pipeline.arrRef spec7 3)))
    (fun t _ => flushed7_5_eq V c t) rows_covered7_5

end Cert.KernelIdeal.Reg

end
-- ==== Proof.Reg9.lean ====
/- Region 9 (a row scaling): the whole output array as one function of the two input arrays.

   The region walks 50 row blocks of 4000 rows.  At each block the body multiplies every entry of the
   128-column block by the factor of its row, read from a one-column block.  So the output array at
   (r, q) is  x (r, q) * s (r, 0) : the block a point writes back is the restriction of this one function
   to the point's rows, and the 50 blocks tile the 200000 rows. -/
import proofs.«137020_j48936857370759_1_alg».proof.Proof.Gen.KernelIdeal.Frame
import Idealize.ShloMosaic.Lib.Pipeline.Value
import Idealize.ShloMosaic.Lib.ValueIdx
import Idealize.ShloMosaic.Lib.ValueIdxCoords

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- Row r at column q, scaled by the factor of row r. -/
def G9_2 (x0 : Vec Ideal S200000x128 .f32) (x1 : Vec Ideal S200000x1 .f32) : Vec Ideal S200000x128 .f32 :=
  fun i => x0 i * x1 (ix2 (⟨(i 0).val, idx2_lt0 i⟩ : Fin 200000) (0 : Fin 1))

theorem G9_2_apply (x0 : Vec Ideal S200000x128 .f32) (x1 : Vec Ideal S200000x1 .f32) (r : Fin 200000) (q : Fin 128) :
    G9_2 x0 x1 (ix2 r q) = x0 (ix2 r q) * x1 (ix2 r 0) := rfl

/-- The same, with the factor read at any index of the one-column array that sits in the same row. -/
theorem G9_2_at (x0 : Vec Ideal S200000x128 .f32) (x1 : Vec Ideal S200000x1 .f32) (i : S200000x128.Idx)
    (i1 : S200000x1.Idx) (h : (i1 0).val = (i 0).val) :
    G9_2 x0 x1 i = x0 i * x1 i1 := by
  have e : i1 = ix2 (⟨(i 0).val, idx2_lt0 i⟩ : Fin 200000) (0 : Fin 1) := by
    funext a
    match a with
    | ⟨0, _⟩ => exact Fin.ext h
    | ⟨1, _⟩ => exact Subsingleton.elim (α := Fin 1) _ _
  rw [e]; rfl

/-! ## The body at one entry of a block -/

theorem hz9 : (![0, 0] : Fin 2 → Nat) = fun _ => 0 := funext fun a => by fin_cases a <;> rfl

/-- Entry (p, q) of what the body stores: the block's entry times the factor of row p. -/
theorem pay9_apply (v0 : Vec Ideal S4000x128 .f32) (v1 : Vec Ideal S4000x1 .f32) (p : Fin 4000) (q : Fin 128) :
    Gen.k9_pay1 v0 v1 (ix2 p q) = v0 (ix2 p q) * v1 (ix2 p 0) := by
  unfold Gen.k9_pay1
  simp only [shapeCast_self]
  refine congrArg (fun z => v0 (ix2 p q) * z) ?_
  exact broadcastTo_apply _ _ (ix2 p q) (ix2 p 0) (fun a => by
    match a with
    | ⟨0, _⟩ => rfl
    | ⟨1, _⟩ => rfl)

/-! ## From blocks to the array -/

variable (V : (c : Dev nD) → (b : Ref sig .tc) → Buf (Elt Ideal) ((c : Thread nD τ).loc b))

/-- The index maps, decided over the 50 points: each window's block at point t is block row t,
    block column 0. -/
theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- What point t writes back is block t of G9_2 of the two input arrays as the region finds them. -/
theorem flushed9_2_eq (c : Dev nD) (t : Fin cfg9.N) :
    (dat9 (F := Ideal) V c).flushed 2 t
      = ((cfg9.win 2).blk t).view.read (Elt Ideal)
          (G9_2 (V c (Pipeline.arrRef spec9 0)) (V c (Pipeline.arrRef spec9 1))) := by
  show (cfg9.win 2).cut (grid9.coords t) ((dat9 (F := Ideal) V c).after 2 t) = _
  rw [after9_2]
  unfold out9_2
  rw [View.canon_unit_zero hz9]
  simp only [View.ld_unit_zero (S := S4000x128) hz9, View.ld_unit_zero (S := S4000x1) hz9]
  obtain ⟨e00, e01, e10, e11, e20, e21⟩ := idx_facts9 t
  refine funext fun (j : S4000x128.Idx) => ?_
  obtain ⟨p, q, rfl⟩ : ∃ (p : Fin 4000) (q : Fin 128), j = ix2 p q := ⟨j 0, j 1, eq_ix2 j⟩
  show Gen.k9_pay1 (iblk9 V c 0 t) (iblk9 V c 1 t) (ix2 p q)
    = G9_2 (V c (Pipeline.arrRef spec9 0)) (V c (Pipeline.arrRef spec9 1)) (((cfg9.win 2).blk t).view.emb (ix2 p q))
  refine (pay9_apply (iblk9 V c 0 t) (iblk9 V c 1 t) p q).trans ?_
  refine ((G9_2_at (V c (Pipeline.arrRef spec9 0)) (V c (Pipeline.arrRef spec9 1)) (((cfg9.win 2).blk t).view.emb (ix2 p q))
    (((cfg9.win 1).blk t).view.emb (ix2 p 0)) ?_).trans ?_).symm
  · show win9_1.index t (0 : Fin 2) * 4000 + 1 * p.val = win9_2.index t (0 : Fin 2) * 4000 + 1 * p.val
    omega
  · have h0 : ((cfg9.win 2).blk t).view.emb (ix2 p q) = ((cfg9.win 0).blk t).view.emb (ix2 p q) := by
      funext a; apply Fin.ext
      match a with
      | ⟨0, _⟩ => show win9_2.index t (0 : Fin 2) * 4000 + 1 * p.val = win9_0.index t (0 : Fin 2) * 4000 + 1 * p.val; omega
      | ⟨1, _⟩ => show win9_2.index t (1 : Fin 2) * 128 + 1 * q.val = win9_0.index t (1 : Fin 2) * 128 + 1 * q.val; omega
    rw [h0]
    rfl

/-- An index of the array is in point t's block iff each coordinate is in the block's range on its axis. -/
theorem mem_blk9_2 (t : Fin cfg9.N) (i : S200000x128.Idx) :
    i ∈ ((cfg9.win 2).blk t).view.set ↔ ∀ a : Fin 2, win9_2.index t a * S4000x128.size a ≤ (i a).val
      ∧ (i a).val < win9_2.index t a * S4000x128.size a + S4000x128.size a := by
  show i ∈ ((View.whole main_v96).slice (win9_2.rect t)).set ↔ _
  rw [View.set_slice_whole, Rect.mem_set_unit]
  exact Iff.rfl

/-- Every row belongs to the block of the point numbered by the row divided by 4000. -/
theorem covered9_2 (i : S200000x128.Idx) :
    ∃ t : Fin cfg9.N, (cfg9.win 2).flush t = true ∧ i ∈ ((cfg9.win 2).blk t).view.set := by
  have hi0 : (i 0).val < 200000 := idx2_lt0 i
  have hi1 : (i 1).val < 128 := idx2_lt1 i
  have hN : (i 0).val / 4000 < cfg9.N := by
    show _ < grid9.N
    rw [N_9]; omega
  obtain ⟨-, -, -, -, eo0, eo1⟩ := idx_facts9 ⟨(i 0).val / 4000, hN⟩
  refine ⟨⟨(i 0).val / 4000, hN⟩, flush9_2 _, ?_⟩
  rw [mem_blk9_2]
  intro a
  match a with
  | ⟨0, _⟩ =>
    show win9_2.index ⟨(i 0).val / 4000, hN⟩ (0 : Fin 2) * 4000 ≤ (i 0).val
      ∧ (i 0).val < win9_2.index ⟨(i 0).val / 4000, hN⟩ (0 : Fin 2) * 4000 + 4000
    rw [eo0]
    show (i 0).val / 4000 * 4000 ≤ (i 0).val ∧ (i 0).val < (i 0).val / 4000 * 4000 + 4000
    omega
  | ⟨1, _⟩ =>
    show win9_2.index ⟨(i 0).val / 4000, hN⟩ (1 : Fin 2) * 128 ≤ (i 1).val
      ∧ (i 1).val < win9_2.index ⟨(i 0).val / 4000, hN⟩ (1 : Fin 2) * 128 + 128
    rw [eo1]
    omega

/-- The output array after the region: G9_2 of the input arrays as the region finds them. -/
theorem final9_2 (c : Dev nD) :
    (Gen.dat9 (F := Ideal) V c).arrAt 2 cfg9.N
      = G9_2 (V c (Pipeline.arrRef spec9 0)) (V c (Pipeline.arrRef spec9 1)) :=
  (dat9 (F := Ideal) V c).arrAt_eq_of_cover 2 (G9_2 (V c (Pipeline.arrRef spec9 0)) (V c (Pipeline.arrRef spec9 1)))
    (fun t _ => flushed9_2_eq V c t) covered9_2

end Cert.KernelIdeal.Reg

end
-- ==== Proof.Reg11.lean ====
/- Region 11, a multiply-add over the one million edge rows (128 columns): the array the region leaves in its
   output window, as ONE function of the three arrays it reads, index by index.

   The grid has 100 points. Point t stages rows 10000·t … 10000·t + 9999 of every window (all 128 columns of the two
   wide operands, the single column of the per-row factor) and writes back the same rows of the output. On one block
   the body is pointwise: entry (p, q) of the stored block is x0 (p, q) + x1 (p, q) · x2 (p, 0). Entry (p, q) of a
   block at point t is entry (10000·t + p, q) of its array, so what point t writes back is block t of the function
   (e, q) ↦ x0 (e, q) + x1 (e, q) · x2 (e, 0) of the whole arrays. Row e lies in the block of point e / 10000, so the
   100 blocks cover the output, which therefore ends as that function. No law of arithmetic is used: the operations
   stay in the order the body applies them. -/
import proofs.«137020_j48936857370759_1_alg».proof.Proof.Gen.KernelIdeal.Frame
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-- The multiply-add of region 11 on whole arrays: entry (e, q) is x0 (e, q) + x1 (e, q) · x2 (e, 0). -/
def G11_3 (x0 x1 : S1000000x128.Idx → Elt Ideal .f32) (x2 : S1000000x1.Idx → Elt Ideal .f32) :
    S1000000x128.Idx → Elt Ideal .f32 :=
  fun i => x0 i + x1 i * x2 (ix2 (n0 := 1000000) (n1 := 1) (i 0) 0)

/-- The function at row r, column q, in the extended reals' own operations. -/
theorem G11_3_apply (x0 x1 : S1000000x128.Idx → Elt Ideal .f32) (x2 : S1000000x1.Idx → Elt Ideal .f32)
    (r : Fin 1000000) (q : Fin 128) :
    G11_3 x0 x1 x2 (ix2 r q) = x0 (ix2 r q) + x1 (ix2 r q) * x2 (ix2 r 0) := rfl

/-! ## One block: the body's stored value at an entry -/

theorem hz11 : (![0, 0] : Fin 2 → Nat) = fun _ => 0 := funext fun a => by fin_cases a <;> rfl

/-- The per-row factor spread over the 128 columns reads, at (p, q), the factor's entry (p, 0). -/
theorem spread11_apply (v : Vec Ideal S10000x1 .f32) (p : Fin 10000) (q : Fin 128) :
    broadcastTo S10000x128 v broadcasts_S10000x1_S10000x128 (ix2 p q) = v (ix2 p 0) :=
  broadcastTo_apply v broadcasts_S10000x1_S10000x128 (ix2 p q) (ix2 p 0) (fun a => by
    match a with
    | ⟨0, _⟩ => rfl
    | ⟨1, _⟩ => rfl)

/-- The stored block at entry (p, q): x0 (p, q) + x1 (p, q) · x2 (p, 0) of the three loaded blocks. -/
theorem k11_pay1_apply (v0 v2 : Vec Ideal S10000x128 .f32) (v4 : Vec Ideal S10000x1 .f32) (p : Fin 10000) (q : Fin 128) :
    k11_pay1 v0 v2 v4 (ix2 p q) = v0 (ix2 p q) + v2 (ix2 p q) * v4 (ix2 p 0) := by
  unfold k11_pay1
  show shapeCast S10000x128 v0 shapeCasts_S10000x128_S10000x128 (ix2 p q)
      + shapeCast S10000x128 v2 shapeCasts_S10000x128_S10000x128 (ix2 p q)
        * broadcastTo S10000x128 (shapeCast S10000x1 v4 shapeCasts_S10000x1_S10000x1) broadcasts_S10000x1_S10000x128 (ix2 p q) = _
  rw [shapeCast_self, shapeCast_self, shapeCast_self, spread11_apply]

/-- So the stored block IS a given function g of the block's index as soon as g agrees with it entry by entry. -/
theorem k11_pay1_eq (v0 v2 : Vec Ideal S10000x128 .f32) (v4 : Vec Ideal S10000x1 .f32) (g : S10000x128.Idx → Elt Ideal .f32)
    (h : ∀ (p : Fin 10000) (q : Fin 128), v0 (ix2 p q) + v2 (ix2 p q) * v4 (ix2 p 0) = g (ix2 p q)) :
    k11_pay1 v0 v2 v4 = g := by
  funext j
  obtain ⟨p, q, rfl⟩ : ∃ (p : Fin 10000) (q : Fin 128), j = ix2 p q := ⟨j 0, j 1, eq_ix2 j⟩
  rw [k11_pay1_apply]; exact h p q

/-! ## The index maps: point t names block (t, 0) of every window -/

theorem idx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0 :=
  (by decide +kernel : ∀ t : Fin grid11.N, _)

/-! ## A block's entry (p, q) at point t is the array's entry (10000·t + p, q) -/

theorem blk11_0_read (t : Fin cfg11.N) (g : S1000000x128.Idx → Elt Ideal .f32) (x : S10000x128.Idx) (k : S1000000x128.Idx)
    (hk0 : (k 0).val = 10000 * t.val + (x 0).val) (hk1 : (k 1).val = (x 1).val) :
    (((cfg11.win 0).blk t).view.read (Elt Ideal) g : Vec Ideal S10000x128 .f32) x = g k := by
  obtain ⟨e0, e1, -⟩ := idx11 t
  rw [View.read_apply]
  show g _ = g k
  refine congrArg g ?_
  funext a
  apply Fin.ext
  match a with
  | ⟨0, _⟩ => show win11_0.index t 0 * 10000 + 1 * (x 0).val = (k 0).val; rw [e0, hk0]; omega
  | ⟨1, _⟩ => show win11_0.index t 1 * 128 + 1 * (x 1).val = (k 1).val; rw [e1, hk1]; omega

theorem blk11_1_read (t : Fin cfg11.N) (g : S1000000x128.Idx → Elt Ideal .f32) (x : S10000x128.Idx) (k : S1000000x128.Idx)
    (hk0 : (k 0).val = 10000 * t.val + (x 0).val) (hk1 : (k 1).val = (x 1).val) :
    (((cfg11.win 1).blk t).view.read (Elt Ideal) g : Vec Ideal S10000x128 .f32) x = g k := by
  obtain ⟨-, -, e0, e1, -⟩ := idx11 t
  rw [View.read_apply]
  show g _ = g k
  refine congrArg g ?_
  funext a
  apply Fin.ext
  match a with
  | ⟨0, _⟩ => show win11_1.index t 0 * 10000 + 1 * (x 0).val = (k 0).val; rw [e0, hk0]; omega
  | ⟨1, _⟩ => show win11_1.index t 1 * 128 + 1 * (x 1).val = (k 1).val; rw [e1, hk1]; omega

theorem blk11_2_read (t : Fin cfg11.N) (g : S1000000x1.Idx → Elt Ideal .f32) (x : S10000x1.Idx) (k : S1000000x1.Idx)
    (hk0 : (k 0).val = 10000 * t.val + (x 0).val) (hk1 : (k 1).val = (x 1).val) :
    (((cfg11.win 2).blk t).view.read (Elt Ideal) g : Vec Ideal S10000x1 .f32) x = g k := by
  obtain ⟨-, -, -, -, e0, e1, -⟩ := idx11 t
  rw [View.read_apply]
  show g _ = g k
  refine congrArg g ?_
  funext a
  apply Fin.ext
  match a with
  | ⟨0, _⟩ => show win11_2.index t 0 * 10000 + 1 * (x 0).val = (k 0).val; rw [e0, hk0]; omega
  | ⟨1, _⟩ => show win11_2.index t 1 * 1 + 1 * (x 1).val = (k 1).val; rw [e1, hk1]; omega

theorem blk11_3_read (t : Fin cfg11.N) (g : S1000000x128.Idx → Elt Ideal .f32) (x : S10000x128.Idx) (k : S1000000x128.Idx)
    (hk0 : (k 0).val = 10000 * t.val + (x 0).val) (hk1 : (k 1).val = (x 1).val) :
    (((cfg11.win 3).blk t).view.read (Elt Ideal) g : Vec Ideal S10000x128 .f32) x = g k := by
  obtain ⟨-, -, -, -, -, -, e0, e1⟩ := idx11 t
  rw [View.read_apply]
  show g _ = g k
  refine congrArg g ?_
  funext a
  apply Fin.ext
  match a with
  | ⟨0, _⟩ => show win11_3.index t 0 * 10000 + 1 * (x 0).val = (k 0).val; rw [e0, hk0]; omega
  | ⟨1, _⟩ => show win11_3.index t 1 * 128 + 1 * (x 1).val = (k 1).val; rw [e1, hk1]; omega

/-- What the body stores at point t, from the three staged blocks, is block t of the whole-array function. -/
theorem block11_3_eq (a0 a1 : S1000000x128.Idx → Elt Ideal .f32) (a2 : S1000000x1.Idx → Elt Ideal .f32) (t : Fin cfg11.N) :
    k11_pay1 (((cfg11.win 0).blk t).view.read (Elt Ideal) a0) (((cfg11.win 1).blk t).view.read (Elt Ideal) a1)
        (((cfg11.win 2).blk t).view.read (Elt Ideal) a2)
      = ((cfg11.win 3).blk t).view.read (Elt Ideal) (G11_3 a0 a1 a2) := by
  refine k11_pay1_eq _ _ _ _ (fun p q => ?_)
  have ht : t.val < 100 := lt_of_lt_of_eq t.isLt N_11
  have hp : 10000 * t.val + p.val < 1000000 := by have := p.isLt; omega
  rw [blk11_0_read t a0 (ix2 p q) (ix2 ⟨10000 * t.val + p.val, hp⟩ q) rfl rfl,
    blk11_1_read t a1 (ix2 p q) (ix2 ⟨10000 * t.val + p.val, hp⟩ q) rfl rfl,
    blk11_2_read t a2 (ix2 p 0) (ix2 ⟨10000 * t.val + p.val, hp⟩ 0) rfl rfl,
    blk11_3_read t (G11_3 a0 a1 a2) (ix2 p q) (ix2 ⟨10000 * t.val + p.val, hp⟩ q) rfl rfl, G11_3_apply]

/-! ## The 100 blocks cover the output array -/

/-- An index of the output array is in point t's block iff each coordinate is in the block's range on its axis. -/
theorem mem_blk11_3 (t : Fin cfg11.N) (i : S1000000x128.Idx) :
    i ∈ ((cfg11.win 3).blk t).view.set ↔ ∀ a : Fin 2, win11_3.index t a * S10000x128.size a ≤ (i a).val
      ∧ (i a).val < win11_3.index t a * S10000x128.size a + S10000x128.size a := by
  show i ∈ ((View.whole main_v133).slice (win11_3.rect t)).set ↔ _
  rw [View.set_slice_whole, Rect.mem_set_unit]
  exact Iff.rfl

/-- Row e lies in the block of point e / 10000. -/
theorem rows_covered11_3 (i : S1000000x128.Idx) :
    ∃ t : Fin cfg11.N, (cfg11.win 3).flush t = true ∧ i ∈ ((cfg11.win 3).blk t).view.set := by
  have hi0 : (i 0).val < 1000000 := (i 0).isLt
  have hi1 : (i 1).val < 128 := (i 1).isLt
  have hlt : (i 0).val / 10000 < cfg11.N := by rw [show cfg11.N = 100 from N_11]; omega
  obtain ⟨-, -, -, -, -, -, e0, e1⟩ := idx11 ⟨(i 0).val / 10000, hlt⟩
  refine ⟨⟨(i 0).val / 10000, hlt⟩, flush11_3 _, ?_⟩
  rw [mem_blk11_3]
  intro a
  match a with
  | ⟨0, _⟩ =>
    show win11_3.index ⟨(i 0).val / 10000, hlt⟩ (0 : Fin 2) * 10000 ≤ (i 0).val
      ∧ (i 0).val < win11_3.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win11_3.index ⟨(i 0).val / 10000, hlt⟩ (1 : Fin 2) * 128 ≤ (i 1).val
      ∧ (i 1).val < win11_3.index ⟨(i 0).val / 10000, hlt⟩ (1 : Fin 2) * 128 + 128
    rw [e1]
    omega

/-! ## What a point writes back, and the array after the last point -/

variable (V : (c : Dev nD) → (b : Ref sig .tc) → Buf (Elt Ideal) ((c : Thread nD τ).loc b))

/-- Point t writes back block t of the multiply-add of the arrays as the region finds them. -/
theorem flushed11_3_eq (c : Dev nD) (t : Fin cfg11.N) :
    (dat11 (F := Ideal) V c).flushed 3 t = ((cfg11.win 3).blk t).view.read (Elt Ideal)
      (G11_3 (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz11]
  simp only [View.ld_unit_zero (S := S10000x128) hz11, View.ld_unit_zero (S := S10000x1) hz11]
  unfold iblk11
  exact block11_3_eq _ _ _ t

/-- The output array after the region: the multiply-add of the three input arrays, everywhere. -/
theorem final11_3 (c : Dev nD) :
    (dat11 (F := Ideal) V c).arrAt 3 cfg11.N
      = G11_3 (V c (Pipeline.arrRef spec11 0)) (V c (Pipeline.arrRef spec11 1)) (V c (Pipeline.arrRef spec11 2)) :=
  (dat11 V c).arrAt_eq_of_cover 3
    (G11_3 (V c (Pipeline.arrRef spec11 0)) (V c (Pipeline.arrRef spec11 1)) (V c (Pipeline.arrRef spec11 2)))
    (fun t _ => flushed11_3_eq V c t) rows_covered11_3

end Cert.KernelIdeal.Reg

end
-- ==== Proof.Reg13.lean ====
/- Region 13, a state update over the two hundred thousand node rows (128 columns): the two arrays the region
   leaves in its output windows, each as ONE function of the arrays it reads, index by index.

   The grid has 50 points. Point t stages rows 4000·t … 4000·t + 3999 of every window (all 128 columns of the three wide
   operands, the single column of the per-row factor) and writes back the same rows of both outputs. On one block
   the body is pointwise: entry (p, q) of the first stored block is (x0 (p, q) + x1 (p, q)) · x2 (p, 0), and of the
   second x3 (p, q) plus that. Entry (p, q) of a block at point t is entry (4000·t + p, q) of its array, so what point
   t writes back is block t of the same two functions of the whole arrays. Row r lies in the block of point r / 4000,
   so the 50 blocks cover each output, which therefore ends as its function. No law of arithmetic is used: the
   operations stay in the order the body applies them. -/
import proofs.«137020_j48936857370759_1_alg».proof.Proof.Gen.KernelIdeal.Frame
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-- The scaled sum of region 13 on whole arrays: entry (r, q) is (x0 (r, q) + x1 (r, q)) · x2 (r, 0). -/
def G13_4 (x0 x1 : S200000x128.Idx → Elt Ideal .f32) (x2 : S200000x1.Idx → Elt Ideal .f32) :
    S200000x128.Idx → Elt Ideal .f32 :=
  fun i => (x0 i + x1 i) * x2 (ix2 (n0 := 200000) (n1 := 1) (i 0) 0)

/-- The updated state of region 13 on whole arrays: entry (r, q) is x3 (r, q) + (x0 (r, q) + x1 (r, q)) · x2 (r, 0). -/
def G13_5 (x0 x1 : S200000x128.Idx → Elt Ideal .f32) (x2 : S200000x1.Idx → Elt Ideal .f32) (x3 : S200000x128.Idx → Elt Ideal .f32) :
    S200000x128.Idx → Elt Ideal .f32 :=
  fun i => x3 i + (x0 i + x1 i) * x2 (ix2 (n0 := 200000) (n1 := 1) (i 0) 0)

/-- The scaled sum at row r, column q, in the extended reals' own operations. -/
theorem G13_4_apply (x0 x1 : S200000x128.Idx → Elt Ideal .f32) (x2 : S200000x1.Idx → Elt Ideal .f32)
    (r : Fin 200000) (q : Fin 128) :
    G13_4 x0 x1 x2 (ix2 r q) = (x0 (ix2 r q) + x1 (ix2 r q)) * x2 (ix2 r 0) := rfl

/-- The updated state at row r, column q. -/
theorem G13_5_apply (x0 x1 : S200000x128.Idx → Elt Ideal .f32) (x2 : S200000x1.Idx → Elt Ideal .f32) (x3 : S200000x128.Idx → Elt Ideal .f32)
    (r : Fin 200000) (q : Fin 128) :
    G13_5 x0 x1 x2 x3 (ix2 r q) = x3 (ix2 r q) + (x0 (ix2 r q) + x1 (ix2 r q)) * x2 (ix2 r 0) := rfl

/-! ## One block: the body's two stored values at an entry -/

theorem hz13 : (![0, 0] : Fin 2 → Nat) = fun _ => 0 := funext fun a => by fin_cases a <;> rfl

/-- The per-row factor spread over the 128 columns reads, at (p, q), the factor's entry (p, 0). -/
theorem spread13_apply (v : Vec Ideal S4000x1 .f32) (p : Fin 4000) (q : Fin 128) :
    broadcastTo S4000x128 v broadcasts_S4000x1_S4000x128 (ix2 p q) = v (ix2 p 0) :=
  broadcastTo_apply v broadcasts_S4000x1_S4000x128 (ix2 p q) (ix2 p 0) (fun a => by
    match a with
    | ⟨0, _⟩ => rfl
    | ⟨1, _⟩ => rfl)

/-- The first stored block at entry (p, q): (x0 (p, q) + x1 (p, q)) · x2 (p, 0) of the loaded blocks. -/
theorem k13_pay1_apply (v0 v2 : Vec Ideal S4000x128 .f32) (v5 : Vec Ideal S4000x1 .f32) (p : Fin 4000) (q : Fin 128) :
    k13_pay1 v0 v2 v5 (ix2 p q) = (v0 (ix2 p q) + v2 (ix2 p q)) * v5 (ix2 p 0) := by
  unfold k13_pay1
  show (shapeCast S4000x128 v0 shapeCasts_S4000x128_S4000x128 (ix2 p q)
      + shapeCast S4000x128 v2 shapeCasts_S4000x128_S4000x128 (ix2 p q))
        * broadcastTo S4000x128 (shapeCast S4000x1 v5 shapeCasts_S4000x1_S4000x1) broadcasts_S4000x1_S4000x128 (ix2 p q) = _
  rw [shapeCast_self, shapeCast_self, shapeCast_self, spread13_apply]

/-- The second stored block at entry (p, q): the fourth loaded block's entry plus the first stored block's. -/
theorem k13_pay2_apply (v0 v2 : Vec Ideal S4000x128 .f32) (v5 : Vec Ideal S4000x1 .f32) (v10 : Vec Ideal S4000x128 .f32)
    (p : Fin 4000) (q : Fin 128) :
    k13_pay2 v0 v2 v5 v10 (ix2 p q) = v10 (ix2 p q) + (v0 (ix2 p q) + v2 (ix2 p q)) * v5 (ix2 p 0) := by
  unfold k13_pay2
  show shapeCast S4000x128 v10 shapeCasts_S4000x128_S4000x128 (ix2 p q) + k13_pay1 v0 v2 v5 (ix2 p q) = _
  rw [shapeCast_self, k13_pay1_apply]

/-- So each stored block IS a given function g of the block's index as soon as g agrees with it entry by entry. -/
theorem k13_pay1_eq (v0 v2 : Vec Ideal S4000x128 .f32) (v5 : Vec Ideal S4000x1 .f32) (g : S4000x128.Idx → Elt Ideal .f32)
    (h : ∀ (p : Fin 4000) (q : Fin 128), (v0 (ix2 p q) + v2 (ix2 p q)) * v5 (ix2 p 0) = g (ix2 p q)) :
    k13_pay1 v0 v2 v5 = g := by
  funext j
  obtain ⟨p, q, rfl⟩ : ∃ (p : Fin 4000) (q : Fin 128), j = ix2 p q := ⟨j 0, j 1, eq_ix2 j⟩
  rw [k13_pay1_apply]; exact h p q

theorem k13_pay2_eq (v0 v2 : Vec Ideal S4000x128 .f32) (v5 : Vec Ideal S4000x1 .f32) (v10 : Vec Ideal S4000x128 .f32)
    (g : S4000x128.Idx → Elt Ideal .f32)
    (h : ∀ (p : Fin 4000) (q : Fin 128), v10 (ix2 p q) + (v0 (ix2 p q) + v2 (ix2 p q)) * v5 (ix2 p 0) = g (ix2 p q)) :
    k13_pay2 v0 v2 v5 v10 = g := by
  funext j
  obtain ⟨p, q, rfl⟩ : ∃ (p : Fin 4000) (q : Fin 128), j = ix2 p q := ⟨j 0, j 1, eq_ix2 j⟩
  rw [k13_pay2_apply]; exact h p q

/-! ## The index maps: point t names block (t, 0) of every window -/

theorem idx13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0
    ∧ win13_5.index t (0 : Fin 2) = t.val ∧ win13_5.index t (1 : Fin 2) = 0 :=
  (by decide +kernel : ∀ t : Fin grid13.N, _)

/-! ## A block's entry (p, q) at point t is the array's entry (4000·t + p, q) -/

theorem blk13_0_read (t : Fin cfg13.N) (g : S200000x128.Idx → Elt Ideal .f32) (x : S4000x128.Idx) (k : S200000x128.Idx)
    (hk0 : (k 0).val = 4000 * t.val + (x 0).val) (hk1 : (k 1).val = (x 1).val) :
    (((cfg13.win 0).blk t).view.read (Elt Ideal) g : Vec Ideal S4000x128 .f32) x = g k := by
  obtain ⟨e0, e1, -⟩ := idx13 t
  rw [View.read_apply]
  show g _ = g k
  refine congrArg g ?_
  funext a
  apply Fin.ext
  match a with
  | ⟨0, _⟩ => show win13_0.index t 0 * 4000 + 1 * (x 0).val = (k 0).val; rw [e0, hk0]; omega
  | ⟨1, _⟩ => show win13_0.index t 1 * 128 + 1 * (x 1).val = (k 1).val; rw [e1, hk1]; omega

theorem blk13_1_read (t : Fin cfg13.N) (g : S200000x128.Idx → Elt Ideal .f32) (x : S4000x128.Idx) (k : S200000x128.Idx)
    (hk0 : (k 0).val = 4000 * t.val + (x 0).val) (hk1 : (k 1).val = (x 1).val) :
    (((cfg13.win 1).blk t).view.read (Elt Ideal) g : Vec Ideal S4000x128 .f32) x = g k := by
  obtain ⟨-, -, e0, e1, -⟩ := idx13 t
  rw [View.read_apply]
  show g _ = g k
  refine congrArg g ?_
  funext a
  apply Fin.ext
  match a with
  | ⟨0, _⟩ => show win13_1.index t 0 * 4000 + 1 * (x 0).val = (k 0).val; rw [e0, hk0]; omega
  | ⟨1, _⟩ => show win13_1.index t 1 * 128 + 1 * (x 1).val = (k 1).val; rw [e1, hk1]; omega

theorem blk13_2_read (t : Fin cfg13.N) (g : S200000x1.Idx → Elt Ideal .f32) (x : S4000x1.Idx) (k : S200000x1.Idx)
    (hk0 : (k 0).val = 4000 * t.val + (x 0).val) (hk1 : (k 1).val = (x 1).val) :
    (((cfg13.win 2).blk t).view.read (Elt Ideal) g : Vec Ideal S4000x1 .f32) x = g k := by
  obtain ⟨-, -, -, -, e0, e1, -⟩ := idx13 t
  rw [View.read_apply]
  show g _ = g k
  refine congrArg g ?_
  funext a
  apply Fin.ext
  match a with
  | ⟨0, _⟩ => show win13_2.index t 0 * 4000 + 1 * (x 0).val = (k 0).val; rw [e0, hk0]; omega
  | ⟨1, _⟩ => show win13_2.index t 1 * 1 + 1 * (x 1).val = (k 1).val; rw [e1, hk1]; omega

theorem blk13_3_read (t : Fin cfg13.N) (g : S200000x128.Idx → Elt Ideal .f32) (x : S4000x128.Idx) (k : S200000x128.Idx)
    (hk0 : (k 0).val = 4000 * t.val + (x 0).val) (hk1 : (k 1).val = (x 1).val) :
    (((cfg13.win 3).blk t).view.read (Elt Ideal) g : Vec Ideal S4000x128 .f32) x = g k := by
  obtain ⟨-, -, -, -, -, -, e0, e1, -⟩ := idx13 t
  rw [View.read_apply]
  show g _ = g k
  refine congrArg g ?_
  funext a
  apply Fin.ext
  match a with
  | ⟨0, _⟩ => show win13_3.index t 0 * 4000 + 1 * (x 0).val = (k 0).val; rw [e0, hk0]; omega
  | ⟨1, _⟩ => show win13_3.index t 1 * 128 + 1 * (x 1).val = (k 1).val; rw [e1, hk1]; omega

theorem blk13_4_read (t : Fin cfg13.N) (g : S200000x128.Idx → Elt Ideal .f32) (x : S4000x128.Idx) (k : S200000x128.Idx)
    (hk0 : (k 0).val = 4000 * t.val + (x 0).val) (hk1 : (k 1).val = (x 1).val) :
    (((cfg13.win 4).blk t).view.read (Elt Ideal) g : Vec Ideal S4000x128 .f32) x = g k := by
  obtain ⟨-, -, -, -, -, -, -, -, e0, e1, -⟩ := idx13 t
  rw [View.read_apply]
  show g _ = g k
  refine congrArg g ?_
  funext a
  apply Fin.ext
  match a with
  | ⟨0, _⟩ => show win13_4.index t 0 * 4000 + 1 * (x 0).val = (k 0).val; rw [e0, hk0]; omega
  | ⟨1, _⟩ => show win13_4.index t 1 * 128 + 1 * (x 1).val = (k 1).val; rw [e1, hk1]; omega

theorem blk13_5_read (t : Fin cfg13.N) (g : S200000x128.Idx → Elt Ideal .f32) (x : S4000x128.Idx) (k : S200000x128.Idx)
    (hk0 : (k 0).val = 4000 * t.val + (x 0).val) (hk1 : (k 1).val = (x 1).val) :
    (((cfg13.win 5).blk t).view.read (Elt Ideal) g : Vec Ideal S4000x128 .f32) x = g k := by
  obtain ⟨-, -, -, -, -, -, -, -, -, -, e0, e1⟩ := idx13 t
  rw [View.read_apply]
  show g _ = g k
  refine congrArg g ?_
  funext a
  apply Fin.ext
  match a with
  | ⟨0, _⟩ => show win13_5.index t 0 * 4000 + 1 * (x 0).val = (k 0).val; rw [e0, hk0]; omega
  | ⟨1, _⟩ => show win13_5.index t 1 * 128 + 1 * (x 1).val = (k 1).val; rw [e1, hk1]; omega

/-- What the body stores into the first output at point t is block t of the scaled sum of the whole arrays. -/
theorem block13_4_eq (a0 a1 : S200000x128.Idx → Elt Ideal .f32) (a2 : S200000x1.Idx → Elt Ideal .f32) (t : Fin cfg13.N) :
    k13_pay1 (((cfg13.win 0).blk t).view.read (Elt Ideal) a0) (((cfg13.win 1).blk t).view.read (Elt Ideal) a1)
        (((cfg13.win 2).blk t).view.read (Elt Ideal) a2)
      = ((cfg13.win 4).blk t).view.read (Elt Ideal) (G13_4 a0 a1 a2) := by
  refine k13_pay1_eq _ _ _ _ (fun p q => ?_)
  have ht : t.val < 50 := lt_of_lt_of_eq t.isLt N_13
  have hp : 4000 * t.val + p.val < 200000 := by have := p.isLt; omega
  rw [blk13_0_read t a0 (ix2 p q) (ix2 ⟨4000 * t.val + p.val, hp⟩ q) rfl rfl,
    blk13_1_read t a1 (ix2 p q) (ix2 ⟨4000 * t.val + p.val, hp⟩ q) rfl rfl,
    blk13_2_read t a2 (ix2 p 0) (ix2 ⟨4000 * t.val + p.val, hp⟩ 0) rfl rfl,
    blk13_4_read t (G13_4 a0 a1 a2) (ix2 p q) (ix2 ⟨4000 * t.val + p.val, hp⟩ q) rfl rfl, G13_4_apply]

/-- What the body stores into the second output at point t is block t of the updated state of the whole arrays. -/
theorem block13_5_eq (a0 a1 : S200000x128.Idx → Elt Ideal .f32) (a2 : S200000x1.Idx → Elt Ideal .f32) (a3 : S200000x128.Idx → Elt Ideal .f32)
    (t : Fin cfg13.N) :
    k13_pay2 (((cfg13.win 0).blk t).view.read (Elt Ideal) a0) (((cfg13.win 1).blk t).view.read (Elt Ideal) a1)
        (((cfg13.win 2).blk t).view.read (Elt Ideal) a2) (((cfg13.win 3).blk t).view.read (Elt Ideal) a3)
      = ((cfg13.win 5).blk t).view.read (Elt Ideal) (G13_5 a0 a1 a2 a3) := by
  refine k13_pay2_eq _ _ _ _ _ (fun p q => ?_)
  have ht : t.val < 50 := lt_of_lt_of_eq t.isLt N_13
  have hp : 4000 * t.val + p.val < 200000 := by have := p.isLt; omega
  rw [blk13_0_read t a0 (ix2 p q) (ix2 ⟨4000 * t.val + p.val, hp⟩ q) rfl rfl,
    blk13_1_read t a1 (ix2 p q) (ix2 ⟨4000 * t.val + p.val, hp⟩ q) rfl rfl,
    blk13_2_read t a2 (ix2 p 0) (ix2 ⟨4000 * t.val + p.val, hp⟩ 0) rfl rfl,
    blk13_3_read t a3 (ix2 p q) (ix2 ⟨4000 * t.val + p.val, hp⟩ q) rfl rfl,
    blk13_5_read t (G13_5 a0 a1 a2 a3) (ix2 p q) (ix2 ⟨4000 * t.val + p.val, hp⟩ q) rfl rfl, G13_5_apply]

/-! ## The 50 blocks cover each output array -/

/-- An index of output window 4's array is in point t's block iff each coordinate is in the block's range on its axis. -/
theorem mem_blk13_4 (t : Fin cfg13.N) (i : S200000x128.Idx) :
    i ∈ ((cfg13.win 4).blk t).view.set ↔ ∀ a : Fin 2, win13_4.index t a * S4000x128.size a ≤ (i a).val
      ∧ (i a).val < win13_4.index t a * S4000x128.size a + S4000x128.size a := by
  show i ∈ ((View.whole main_v161_0).slice (win13_4.rect t)).set ↔ _
  rw [View.set_slice_whole, Rect.mem_set_unit]
  exact Iff.rfl

/-- Row r lies in the block of point r / 4000. -/
theorem rows_covered13_4 (i : S200000x128.Idx) :
    ∃ t : Fin cfg13.N, (cfg13.win 4).flush t = true ∧ i ∈ ((cfg13.win 4).blk t).view.set := by
  have hi0 : (i 0).val < 200000 := (i 0).isLt
  have hi1 : (i 1).val < 128 := (i 1).isLt
  have hlt : (i 0).val / 4000 < cfg13.N := by rw [show cfg13.N = 50 from N_13]; omega
  obtain ⟨-, -, -, -, -, -, -, -, e0, e1, -⟩ := idx13 ⟨(i 0).val / 4000, hlt⟩
  refine ⟨⟨(i 0).val / 4000, hlt⟩, flush13_4 _, ?_⟩
  rw [mem_blk13_4]
  intro a
  match a with
  | ⟨0, _⟩ =>
    show win13_4.index ⟨(i 0).val / 4000, hlt⟩ (0 : Fin 2) * 4000 ≤ (i 0).val
      ∧ (i 0).val < win13_4.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win13_4.index ⟨(i 0).val / 4000, hlt⟩ (1 : Fin 2) * 128 ≤ (i 1).val
      ∧ (i 1).val < win13_4.index ⟨(i 0).val / 4000, hlt⟩ (1 : Fin 2) * 128 + 128
    rw [e1]
    omega

/-- An index of output window 5's array is in point t's block iff each coordinate is in the block's range on its axis. -/
theorem mem_blk13_5 (t : Fin cfg13.N) (i : S200000x128.Idx) :
    i ∈ ((cfg13.win 5).blk t).view.set ↔ ∀ a : Fin 2, win13_5.index t a * S4000x128.size a ≤ (i a).val
      ∧ (i a).val < win13_5.index t a * S4000x128.size a + S4000x128.size a := by
  show i ∈ ((View.whole main_v161_1).slice (win13_5.rect t)).set ↔ _
  rw [View.set_slice_whole, Rect.mem_set_unit]
  exact Iff.rfl

/-- Row r lies in the block of point r / 4000. -/
theorem rows_covered13_5 (i : S200000x128.Idx) :
    ∃ t : Fin cfg13.N, (cfg13.win 5).flush t = true ∧ i ∈ ((cfg13.win 5).blk t).view.set := by
  have hi0 : (i 0).val < 200000 := (i 0).isLt
  have hi1 : (i 1).val < 128 := (i 1).isLt
  have hlt : (i 0).val / 4000 < cfg13.N := by rw [show cfg13.N = 50 from N_13]; omega
  obtain ⟨-, -, -, -, -, -, -, -, -, -, e0, e1⟩ := idx13 ⟨(i 0).val / 4000, hlt⟩
  refine ⟨⟨(i 0).val / 4000, hlt⟩, flush13_5 _, ?_⟩
  rw [mem_blk13_5]
  intro a
  match a with
  | ⟨0, _⟩ =>
    show win13_5.index ⟨(i 0).val / 4000, hlt⟩ (0 : Fin 2) * 4000 ≤ (i 0).val
      ∧ (i 0).val < win13_5.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win13_5.index ⟨(i 0).val / 4000, hlt⟩ (1 : Fin 2) * 128 ≤ (i 1).val
      ∧ (i 1).val < win13_5.index ⟨(i 0).val / 4000, hlt⟩ (1 : Fin 2) * 128 + 128
    rw [e1]
    omega

/-! ## What a point writes back, and the arrays after the last point -/

variable (V : (c : Dev nD) → (b : Ref sig .tc) → Buf (Elt Ideal) ((c : Thread nD τ).loc b))

/-- Point t writes back, to output window 4, block t of its function of the arrays as the region finds them. -/
theorem flushed13_4_eq (c : Dev nD) (t : Fin cfg13.N) :
    (dat13 (F := Ideal) V c).flushed 4 t = ((cfg13.win 4).blk t).view.read (Elt Ideal)
      (G13_4 (V c (Pipeline.arrRef spec13 0)) (V c (Pipeline.arrRef spec13 1)) (V c (Pipeline.arrRef spec13 2))) := by
  show (cfg13.win 4).cut (grid13.coords t) ((dat13 V c).after 4 t) = _
  rw [after13_4]
  unfold out13_4
  rw [View.canon_unit_zero hz13]
  simp only [View.ld_unit_zero (S := S4000x128) hz13, View.ld_unit_zero (S := S4000x1) hz13]
  unfold iblk13
  exact block13_4_eq _ _ _ t

/-- Output window 4's array after the region: its function of the input arrays, everywhere. -/
theorem final13_4 (c : Dev nD) :
    (dat13 (F := Ideal) V c).arrAt 4 cfg13.N
      = G13_4 (V c (Pipeline.arrRef spec13 0)) (V c (Pipeline.arrRef spec13 1)) (V c (Pipeline.arrRef spec13 2)) :=
  (dat13 V c).arrAt_eq_of_cover 4
    (G13_4 (V c (Pipeline.arrRef spec13 0)) (V c (Pipeline.arrRef spec13 1)) (V c (Pipeline.arrRef spec13 2)))
    (fun t _ => flushed13_4_eq V c t) rows_covered13_4

/-- Point t writes back, to output window 5, block t of its function of the arrays as the region finds them. -/
theorem flushed13_5_eq (c : Dev nD) (t : Fin cfg13.N) :
    (dat13 (F := Ideal) V c).flushed 5 t = ((cfg13.win 5).blk t).view.read (Elt Ideal)
      (G13_5 (V c (Pipeline.arrRef spec13 0)) (V c (Pipeline.arrRef spec13 1)) (V c (Pipeline.arrRef spec13 2)) (V c (Pipeline.arrRef spec13 3))) := by
  show (cfg13.win 5).cut (grid13.coords t) ((dat13 V c).after 5 t) = _
  rw [after13_5]
  unfold out13_5
  rw [View.canon_unit_zero hz13]
  simp only [View.ld_unit_zero (S := S4000x128) hz13, View.ld_unit_zero (S := S4000x1) hz13]
  unfold iblk13
  exact block13_5_eq _ _ _ _ t

/-- Output window 5's array after the region: its function of the input arrays, everywhere. -/
theorem final13_5 (c : Dev nD) :
    (dat13 (F := Ideal) V c).arrAt 5 cfg13.N
      = G13_5 (V c (Pipeline.arrRef spec13 0)) (V c (Pipeline.arrRef spec13 1)) (V c (Pipeline.arrRef spec13 2)) (V c (Pipeline.arrRef spec13 3)) :=
  (dat13 V c).arrAt_eq_of_cover 5
    (G13_5 (V c (Pipeline.arrRef spec13 0)) (V c (Pipeline.arrRef spec13 1)) (V c (Pipeline.arrRef spec13 2)) (V c (Pipeline.arrRef spec13 3)))
    (fun t _ => flushed13_5_eq V c t) rows_covered13_5

end Cert.KernelIdeal.Reg

end
-- ==== Proof.Reg15.lean ====
/- Region 15 (scaling by a constant): the whole output array as one function of the input array.

   The region walks 50 row blocks of 4000 rows.  At each block the body multiplies every entry of the
   128-column block by the named constant one third.  So the output array at (r, q) is  x (r, q) * (1/3) :
   the block a point writes back is the restriction of this one function to the point's rows, and the
   50 blocks tile the 200000 rows. -/
import proofs.«137020_j48936857370759_1_alg».proof.Proof.Gen.KernelIdeal.Frame
import Idealize.ShloMosaic.Lib.Pipeline.Value
import Idealize.ShloMosaic.Lib.ValueIdx
import Idealize.ShloMosaic.Lib.ValueIdxCoords

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- Every entry times the named constant. -/
def G15_1 (x0 : Vec Ideal S200000x128 .f32) : Vec Ideal S200000x128 .f32 :=
  fun i => x0 i * Named.named (F := Ideal) Cert.KernelIdeal.κ "inv_3" (φ := .f32) 0x3EAAAAAB#32

theorem G15_1_apply (x0 : Vec Ideal S200000x128 .f32) (r : Fin 200000) (q : Fin 128) :
    G15_1 x0 (ix2 r q) = x0 (ix2 r q) * Named.named (F := Ideal) Cert.KernelIdeal.κ "inv_3" (φ := .f32) 0x3EAAAAAB#32 := rfl

/-- The product with the entry read at an index equal to i is the function at i. -/
theorem G15_1_of (x0 : Vec Ideal S200000x128 .f32) (i i0 : S200000x128.Idx) (h0 : i0 = i) :
    x0 i0 * Named.named (F := Ideal) Cert.KernelIdeal.κ "inv_3" (φ := .f32) 0x3EAAAAAB#32 = G15_1 x0 i := by
  subst h0; rfl

/-! ## The body at one entry of a block -/

theorem hz15 : (![0, 0] : Fin 2 → Nat) = fun _ => 0 := funext fun a => by fin_cases a <;> rfl

/-- Entry j of what the body stores: the block's entry times the constant. -/
theorem pay15_apply (v0 : Vec Ideal S4000x128 .f32) (j : S4000x128.Idx) :
    Gen.k15_pay1 v0 j = v0 j * Named.named (F := Ideal) Cert.KernelIdeal.κ "inv_3" (φ := .f32) 0x3EAAAAAB#32 := by
  unfold Gen.k15_pay1
  simp only [shapeCast_self]
  rfl

/-! ## From blocks to the array -/

variable (V : (c : Dev nD) → (b : Ref sig .tc) → Buf (Elt Ideal) ((c : Thread nD τ).loc b))

/-- The index maps, decided over the 50 points: each window's block at point t is block row t,
    block column 0. -/
theorem idx_facts15 : ∀ t : Fin cfg15.N, win15_0.index t (0 : Fin 2) = t.val ∧ win15_0.index t (1 : Fin 2) = 0
    ∧ win15_1.index t (0 : Fin 2) = t.val ∧ win15_1.index t (1 : Fin 2) = 0 :=
  (by decide +kernel : ∀ t : Fin grid15.N, _)

/-- What point t writes back is block t of G15_1 of the input array as the region finds it. -/
theorem flushed15_1_eq (c : Dev nD) (t : Fin cfg15.N) :
    (dat15 (F := Ideal) V c).flushed 1 t
      = ((cfg15.win 1).blk t).view.read (Elt Ideal)
          (G15_1 (V c (Pipeline.arrRef spec15 0))) := by
  show (cfg15.win 1).cut (grid15.coords t) ((dat15 (F := Ideal) V c).after 1 t) = _
  rw [after15_1]
  unfold out15_1
  rw [View.canon_unit_zero hz15]
  simp only [View.ld_unit_zero (S := S4000x128) hz15]
  obtain ⟨e00, e01, e10, e11⟩ := idx_facts15 t
  refine funext fun (j : S4000x128.Idx) => ?_
  show Gen.k15_pay1 (iblk15 V c 0 t) j
    = G15_1 (V c (Pipeline.arrRef spec15 0)) (((cfg15.win 1).blk t).view.emb j)
  refine (pay15_apply (iblk15 V c 0 t) j).trans ?_
  have hj0 : (j 0).val < 4000 := idx2_lt0 j
  have hj1 : (j 1).val < 128 := idx2_lt1 j
  have h0 : ((cfg15.win 0).blk t).view.emb j = ((cfg15.win 1).blk t).view.emb j := by
    funext a; apply Fin.ext
    match a with
    | ⟨0, _⟩ => show win15_0.index t (0 : Fin 2) * 4000 + 1 * (j 0).val = win15_1.index t (0 : Fin 2) * 4000 + 1 * (j 0).val; omega
    | ⟨1, _⟩ => show win15_0.index t (1 : Fin 2) * 128 + 1 * (j 1).val = win15_1.index t (1 : Fin 2) * 128 + 1 * (j 1).val; omega
  exact G15_1_of (V c (Pipeline.arrRef spec15 0)) (((cfg15.win 1).blk t).view.emb j)
    (((cfg15.win 0).blk t).view.emb j) h0

/-- An index of the array is in point t's block iff each coordinate is in the block's range on its axis. -/
theorem mem_blk15_1 (t : Fin cfg15.N) (i : S200000x128.Idx) :
    i ∈ ((cfg15.win 1).blk t).view.set ↔ ∀ a : Fin 2, win15_1.index t a * S4000x128.size a ≤ (i a).val
      ∧ (i a).val < win15_1.index t a * S4000x128.size a + S4000x128.size a := by
  show i ∈ ((View.whole main_v163).slice (win15_1.rect t)).set ↔ _
  rw [View.set_slice_whole, Rect.mem_set_unit]
  exact Iff.rfl

/-- Every row belongs to the block of the point numbered by the row divided by 4000. -/
theorem covered15_1 (i : S200000x128.Idx) :
    ∃ t : Fin cfg15.N, (cfg15.win 1).flush t = true ∧ i ∈ ((cfg15.win 1).blk t).view.set := by
  have hi0 : (i 0).val < 200000 := idx2_lt0 i
  have hi1 : (i 1).val < 128 := idx2_lt1 i
  have hN : (i 0).val / 4000 < cfg15.N := by
    show _ < grid15.N
    rw [N_15]; omega
  obtain ⟨-, -, eo0, eo1⟩ := idx_facts15 ⟨(i 0).val / 4000, hN⟩
  refine ⟨⟨(i 0).val / 4000, hN⟩, flush15_1 _, ?_⟩
  rw [mem_blk15_1]
  intro a
  match a with
  | ⟨0, _⟩ =>
    show win15_1.index ⟨(i 0).val / 4000, hN⟩ (0 : Fin 2) * 4000 ≤ (i 0).val
      ∧ (i 0).val < win15_1.index ⟨(i 0).val / 4000, hN⟩ (0 : Fin 2) * 4000 + 4000
    rw [eo0]
    show (i 0).val / 4000 * 4000 ≤ (i 0).val ∧ (i 0).val < (i 0).val / 4000 * 4000 + 4000
    omega
  | ⟨1, _⟩ =>
    show win15_1.index ⟨(i 0).val / 4000, hN⟩ (1 : Fin 2) * 128 ≤ (i 1).val
      ∧ (i 1).val < win15_1.index ⟨(i 0).val / 4000, hN⟩ (1 : Fin 2) * 128 + 128
    rw [eo1]
    omega

/-- The output array after the region: G15_1 of the input arrays as the region finds them. -/
theorem final15_1 (c : Dev nD) :
    (Gen.dat15 (F := Ideal) V c).arrAt 1 cfg15.N
      = G15_1 (V c (Pipeline.arrRef spec15 0)) :=
  (dat15 (F := Ideal) V c).arrAt_eq_of_cover 1 (G15_1 (V c (Pipeline.arrRef spec15 0)))
    (fun t _ => flushed15_1_eq V c t) covered15_1

end Cert.KernelIdeal.Reg

end
-- ==== Proof.KColH.lean ====
/-
  The right track of the kernel (128 columns: entity_h, the mean review embedding) at an index, as the column
  specification. Column `q` of the track is column `64 + q` of the 192; its initial embedding is the first tiled call's output, the mean of the profiling reviews.
  Each tiled call's output is read through its whole-array form, each host gather and segment sum through the
  row lemmas, in the order the program runs them: scale, message, the two segment sums, update — twice — and the
  final scaling.
-/
import proofs.«137020_j48936857370759_1_alg».proof.Proof.KColInv
import proofs.«137020_j48936857370759_1_alg».proof.Proof.KWireA
import proofs.«137020_j48936857370759_1_alg».proof.Proof.KWireB
import proofs.«137020_j48936857370759_1_alg».proof.Proof.Reg0
import proofs.«137020_j48936857370759_1_alg».proof.Proof.Reg3
import proofs.«137020_j48936857370759_1_alg».proof.Proof.Reg5
import proofs.«137020_j48936857370759_1_alg».proof.Proof.Reg7
import proofs.«137020_j48936857370759_1_alg».proof.Proof.Reg9
import proofs.«137020_j48936857370759_1_alg».proof.Proof.Reg11
import proofs.«137020_j48936857370759_1_alg».proof.Proof.Reg13
import proofs.«137020_j48936857370759_1_alg».proof.Proof.Reg15

noncomputable section

namespace Cert.KernelIdeal.KCol

open Idealize.ShloMosaic Idealize.ShloMosaic.TcCoe Idealize.ShloMosaic.ValueIdx Idealize.SL.Sem
open Cert.KernelIdeal Cert.KernelIdeal.Facts₀ Cert.KernelIdeal.Facts Cert.KernelIdeal.Gen Cert.KernelIdeal.Wire Cert.RowOps

/-- Column `q` of the track's share of the query embeddings. -/
abbrev qH (m : (ℓ : Loc nD τ sig) → Buf (Elt Ideal) ℓ) (c : Dev nD) (q : Fin 128) : Fin 50000 → EReal :=
  fun n => m ((c : Thread nD τ).loc main_arg2) (ix2 n ⟨64 + q.val, by omega⟩)

/-- Column `q` of the track's initial embedding: the mean of the reviews profiling each entity. (The generator
    state is carried only so that the term is written like the arrays it is compared with.) -/
abbrev e0H (m : (ℓ : Loc nD τ sig) → Buf (Elt Ideal) ℓ) (_ρ : Dev nD → PrngReg) (c : Dev nD) (q : Fin 128) :
    Fin 200000 → EReal :=
  fun r => Cert.Col.entH (R m c) (fun e => m ((c : Thread nD τ).loc main_arg1) (ix2 e q)) r

variable (m : (ℓ : Loc nD τ sig) → Buf (Elt Ideal) ℓ) (ρ : Dev nD → PrngReg) (c : Dev nD)

/-- The first tiled call's output is that mean: the segment sum of the gathered review rows over the clamped count. -/
theorem entH_apply (q : Fin 128) (r : Fin 200000) :
    (dat0 (F := Ideal) (V1 m ρ) c).arrAt 2 cfg0.N (ix2 r q) = e0H m ρ c q r := by
  rw [Reg.final0_2 (V1 m ρ) c, in0_0 m ρ c, in0_1 m ρ c, Reg.G0_2_apply,
    scatterAdd_rows_apply scatter_S200000x128_S1000000x1_S1000000x128_1_0_0_1 rfl rfl rfl rfl, col_apply, cnt_apply]
  simp only [gather_rows_apply (by decide) gather_S1000000x128_S1000000x1_S1000000x128_1_0_n_n_0_1_1128 rfl rfl rfl rfl rfl rfl rfl, zero128_apply]
  rfl

/-- The scaled embedding `e · inv` of the first convolution (call 0). -/
theorem scaled1H (q : Fin 128) (r : Fin 200000) :
    (dat3 (F := Ideal) (V5 m ρ) c).arrAt 2 cfg3.N (ix2 r q) = e0H m ρ c q r * Cert.Col.inv (R m c) r := by
  rw [Reg.final3_2 (V5 m ρ) c, in3_0 m ρ c, in3_1 m ρ c, Reg.G3_2_apply, inv_apply]
  rw [entH_apply]

/-- The forward message of the first convolution on edge `e` (call 5). -/
theorem msg1H (q : Fin 128) (e : Fin 1000000) :
    (dat5 (F := Ideal) (V8 m ρ) c).arrAt 3 cfg5.N (ix2 e q)
      = e0H m ρ c q ((R m c).gS e) + qH m c q ((R m c).gQ e) * Cert.Col.inv (R m c) ((R m c).gS e) := by
  rw [Reg.final5_3 (V8 m ρ) c, in5_0 m ρ c, in5_1 m ρ c, in5_2 m ρ c, Reg.G5_3_apply,
    gather_rows_apply (by decide) gather_S200000x128_S1000000x1_S1000000x128_1_0_n_n_0_1_1128 rfl rfl rfl rfl rfl rfl rfl,
    gather_rows_apply (by decide) gather_S50000x128_S1000000x1_S1000000x128_1_0_n_n_0_1_1128 rfl rfl rfl rfl rfl rfl rfl,
    gather_rows_apply (by decide) gather_S200000x1_S1000000x1_S1000000x1_1_0_n_n_0_1_11 rfl rfl rfl rfl rfl rfl rfl,
    sliceHi_apply, inv_apply]
  rw [entH_apply]
  rfl

/-- The first convolution's output (call 7, first result): the column after one step. -/
theorem conv1H (q : Fin 128) (r : Fin 200000) :
    (dat7 (F := Ideal) (V11 m ρ) c).arrAt 4 cfg7.N (ix2 r q) = Cert.Col.e1 (R m c) (qH m c q) (e0H m ρ c q) r := by
  rw [Reg.final7_4 (V11 m ρ) c, in7_0 m ρ c, in7_1 m ρ c, in7_2 m ρ c, Reg.G7_4_apply,
    scatterAdd_rows_apply scatter_S200000x128_S1000000x1_S1000000x128_1_0_0_1 rfl rfl rfl rfl, scatterAdd_rows_apply scatter_S200000x128_S1000000x1_S1000000x128_1_0_0_1 rfl rfl rfl rfl, inv_apply]
  simp only [gather_rows_apply (by decide) gather_S200000x128_S1000000x1_S1000000x128_1_0_n_n_0_1_1128 rfl rfl rfl rfl rfl rfl rfl, msg1H, scaled1H, zero128_apply]
  rfl

/-- The running sum after the first convolution (call 7, second result). -/
theorem sum1H (q : Fin 128) (r : Fin 200000) :
    (dat7 (F := Ideal) (V11 m ρ) c).arrAt 5 cfg7.N (ix2 r q) = Cert.Col.acc1 (R m c) (qH m c q) (e0H m ρ c q) r := by
  rw [Reg.final7_5 (V11 m ρ) c, in7_0 m ρ c, in7_1 m ρ c, in7_2 m ρ c, in7_3 m ρ c, Reg.G7_5_apply,
    scatterAdd_rows_apply scatter_S200000x128_S1000000x1_S1000000x128_1_0_0_1 rfl rfl rfl rfl, scatterAdd_rows_apply scatter_S200000x128_S1000000x1_S1000000x128_1_0_0_1 rfl rfl rfl rfl, inv_apply]
  simp only [gather_rows_apply (by decide) gather_S200000x128_S1000000x1_S1000000x128_1_0_n_n_0_1_1128 rfl rfl rfl rfl rfl rfl rfl, msg1H, scaled1H, zero128_apply]
  rw [entH_apply]
  rfl

/-- The scaled embedding of the second convolution (call 9). -/
theorem scaled2H (q : Fin 128) (r : Fin 200000) :
    (dat9 (F := Ideal) (V13 m ρ) c).arrAt 2 cfg9.N (ix2 r q)
      = Cert.Col.e1 (R m c) (qH m c q) (e0H m ρ c q) r * Cert.Col.inv (R m c) r := by
  rw [Reg.final9_2 (V13 m ρ) c, in9_0 m ρ c, in9_1 m ρ c, Reg.G9_2_apply, inv_apply, conv1H]

/-- The forward message of the second convolution on edge `e` (call 11). -/
theorem msg2H (q : Fin 128) (e : Fin 1000000) :
    (dat11 (F := Ideal) (V16 m ρ) c).arrAt 3 cfg11.N (ix2 e q)
      = Cert.Col.e1 (R m c) (qH m c q) (e0H m ρ c q) ((R m c).gS e) + qH m c q ((R m c).gQ e) * Cert.Col.inv (R m c) ((R m c).gS e) := by
  rw [Reg.final11_3 (V16 m ρ) c, in11_0 m ρ c, in11_1 m ρ c, in11_2 m ρ c, Reg.G11_3_apply,
    gather_rows_apply (by decide) gather_S200000x128_S1000000x1_S1000000x128_1_0_n_n_0_1_1128 rfl rfl rfl rfl rfl rfl rfl,
    gather_rows_apply (by decide) gather_S50000x128_S1000000x1_S1000000x128_1_0_n_n_0_1_1128 rfl rfl rfl rfl rfl rfl rfl,
    gather_rows_apply (by decide) gather_S200000x1_S1000000x1_S1000000x1_1_0_n_n_0_1_11 rfl rfl rfl rfl rfl rfl rfl,
    sliceHi_apply, inv_apply, conv1H]
  rfl

/-- The running sum after the second convolution (call 13, second result): what is averaged. -/
theorem sum2H (q : Fin 128) (r : Fin 200000) :
    (dat13 (F := Ideal) (V19 m ρ) c).arrAt 5 cfg13.N (ix2 r q) = Cert.Col.acc2 (R m c) (qH m c q) (e0H m ρ c q) r := by
  rw [Reg.final13_5 (V19 m ρ) c, in13_0 m ρ c, in13_1 m ρ c, in13_2 m ρ c, in13_3 m ρ c, Reg.G13_5_apply,
    scatterAdd_rows_apply scatter_S200000x128_S1000000x1_S1000000x128_1_0_0_1 rfl rfl rfl rfl, scatterAdd_rows_apply scatter_S200000x128_S1000000x1_S1000000x128_1_0_0_1 rfl rfl rfl rfl, inv_apply, sum1H]
  simp only [gather_rows_apply (by decide) gather_S200000x128_S1000000x1_S1000000x128_1_0_n_n_0_1_1128 rfl rfl rfl rfl rfl rfl rfl, msg2H, scaled2H, zero128_apply]
  rfl

/-- The track's result (call 15): the sum scaled by the named third. -/
theorem outH (q : Fin 128) (r : Fin 200000) :
    (dat15 (F := Ideal) (V21 m ρ) c).arrAt 1 cfg15.N (ix2 r q)
      = Cert.Col.acc2 (R m c) (qH m c q) (e0H m ρ c q) r * Named.named (F := Ideal) Cert.KernelIdeal.κ "inv_3" (φ := .f32) 0x3EAAAAAB#32 := by
  rw [Reg.final15_1 (V21 m ρ) c, in15_0 m ρ c, Reg.G15_1_apply, sum2H]

end Cert.KernelIdeal.KCol

end
-- ==== Proof.KColOut.lean ====
/-
  The kernel's result at `(r, col)`: the concatenation reads the left track at `col < 64` and the right track,
  `64` columns on, otherwise; either way it is the column specification at column `col` of the 192, scaled by
  the named third.
-/
import proofs.«137020_j48936857370759_1_alg».proof.Proof.KColL
import proofs.«137020_j48936857370759_1_alg».proof.Proof.KColH
import proofs.«137020_j48936857370759_1_alg».proof.Proof.KWireB

noncomputable section

namespace Cert.KernelIdeal.KCol

open Idealize.ShloMosaic Idealize.ShloMosaic.TcCoe Idealize.ShloMosaic.ValueIdx Idealize.SL.Sem
open Cert.KernelIdeal Cert.KernelIdeal.Facts₀ Cert.KernelIdeal.Facts Cert.KernelIdeal.Gen Cert.KernelIdeal.Wire Cert.RowOps

variable (m : (ℓ : Loc nD τ sig) → Buf (Elt Ideal) ℓ) (ρ : Dev nD → PrngReg) (c : Dev nD)

/-- Column `col` of the initial 192-wide embedding: `entity_l` on the left, the mean review embedding on the right. -/
def e0col (col : Fin 192) : Fin 200000 → EReal := fun r =>
  if h : col.val < 64 then m ((c : Thread nD τ).loc main_arg0) (ix2 r ⟨col.val, h⟩)
  else Cert.Col.entH (R m c) (fun e => m ((c : Thread nD τ).loc main_arg1) (ix2 e ⟨col.val - 64, by omega⟩)) r

/-- THE KERNEL'S VALUE at an index. -/
theorem kernel_col (r : Fin 200000) (col : Fin 192) :
    W23 m ρ c (Proc.devRef .tc main_v164) (ix2 r col)
      = Cert.Col.acc2 (R m c) (fun n => m ((c : Thread nD τ).loc main_arg2) (ix2 n col)) (e0col m c col) r
        * Named.named (F := Ideal) Cert.KernelIdeal.κ "inv_3" (φ := .f32) 0x3EAAAAAB#32 := by
  rw [result_eq m ρ c]
  by_cases h : col.val < 64
  · refine (concatenate_pair_apply_left (t := S200000x192) (s₁ := S200000x64) (s₂ := S200000x128) (1 : Fin 2) _ _
      Facts₀.concatenates_S200000x64_S200000x128_S200000x192_d1 (ix2 r col) rfl
      (ix2 (n0 := 200000) (n1 := 64) r ⟨col.val, h⟩) (fun b => by
        match b with
        | ⟨0, _⟩ => rfl
        | ⟨1, _⟩ => rfl)).trans ?_
    rw [outL m ρ c ⟨col.val, h⟩ r]
    have e0 : e0L m ρ c ⟨col.val, h⟩ = e0col m c col := by
      funext r'; simp only [e0col, dif_pos h]
    have eq : qL m c ⟨col.val, h⟩ = fun n => m ((c : Thread nD τ).loc main_arg2) (ix2 n col) := by
      funext n; rfl
    rw [e0, eq]
  · have h' : col.val - 64 < 128 := by have := col.isLt; omega
    refine (concatenate_pair_apply_right (t := S200000x192) (s₁ := S200000x64) (s₂ := S200000x128) (1 : Fin 2) _ _
      Facts₀.concatenates_S200000x64_S200000x128_S200000x192_d1 (ix2 r col) rfl rfl
      (ix2 (n0 := 200000) (n1 := 128) r ⟨col.val - 64, h'⟩) (fun b hb => by
        match b, hb with
        | ⟨0, _⟩, _ => rfl
        | ⟨1, _⟩, hb => exact absurd rfl hb) (by show col.val - 64 + 64 = col.val; omega)).trans ?_
    rw [outH m ρ c ⟨col.val - 64, h'⟩ r]
    have e0 : e0H m ρ c ⟨col.val - 64, h'⟩ = e0col m c col := by
      funext r'; simp only [e0col, dif_neg h]
    have eq : qH m c ⟨col.val - 64, h'⟩ = fun n => m ((c : Thread nD τ).loc main_arg2) (ix2 n col) := by
      funext n
      show m ((c : Thread nD τ).loc main_arg2) (ix2 n ⟨64 + (col.val - 64), _⟩) = _
      congr 2
      exact Fin.ext (by show 64 + (col.val - 64) = col.val; omega)
    rw [e0, eq]

end Cert.KernelIdeal.KCol

end
-- ==== Proof.RefCol.lean ====
/-
  The reference's result at one element is the column function of `Cert.Col`.

  The reference computes, from the entity embeddings `a0`, the review embeddings `a1`, the query embeddings `a2` and
  five index arrays, two rounds of message passing over the purchase edges and the mean of the three stages. Every
  operation in it moves whole rows (a gather, a segment sum) or is pointwise with a factor that depends on the row
  only, so the element `(r, col)` of every intermediate array is a function of column `col` of the arrays before
  it. This file follows the program from the top and reads each named intermediate at an element:

  * the review counts `max 1 (number of profile edges into r)` and `entity_h`, the mean review of an entity;
  * the initial embedding `e0`: the first `64` columns are `a0`'s, the other `128` are `entity_h`'s;
  * the degree normaliser `inv`;
  * one convolution, read for the two copies of it in the program (at `e0`, then at the first result);
  * the sum of the three stages divided by three.

  The five index arrays enter only through the rows they name: a gather's start index clamped into the operand's
  rows, a segment sum's index kept when it is a row and dropped otherwise. The program normalises one index array
  several times over (the same term printed again); each repetition is the same function, so one record of row maps
  serves the whole program.
-/
import proofs.«137020_j48936857370759_1_alg».proof.Proof.Gen.ReferenceIdeal.Read
import proofs.«137020_j48936857370759_1_alg».proof.Proof.ColSpec
import Idealize.ShloMosaic.PureOps.Ideal
import Idealize.ShloMosaic.Lib.ValueIdx
import proofs.«137020_j48936857370759_1_alg».proof.Proof.LibRowOps

noncomputable section

open scoped BigOperators

namespace Cert.ReferenceIdeal.RefCol

open Cert.ReferenceIdeal Cert.ReferenceIdeal.Gen Cert.ReferenceIdeal.Read Idealize.ShloMosaic Idealize.ShloMosaic.ValueIdx

/-! ## The constant arrays -/

theorem v0_at (i : S1000000.Idx) : val_main_v0 (F := Ideal) i = Col.one := by
  rw [val_main_v0_apply]; rfl
theorem v1_at (i : S1000000.Idx) : val_main_v1 (F := Ideal) i = Col.one := by
  rw [val_main_v1_apply]; rfl
theorem v2_at (i : S200000.Idx) : val_main_v2 (F := Ideal) i = Col.zero := by
  rw [val_main_v2_apply]; rfl
theorem v20_at (i : S200000.Idx) : val_main_v20 (F := Ideal) i = Col.zero := by
  rw [val_main_v20_apply]; rfl
theorem v23_at (i : S200000.Idx) : val_main_v23 (F := Ideal) i = Col.zero := by
  rw [val_main_v23_apply]; rfl
theorem call0_v1_at (i : S200000.Idx) : val_main_call0_v1 (F := Ideal) i = Col.one := by
  rw [val_main_call0_v1_apply]; rfl
theorem call1_v1_at (i : S200000.Idx) : val_main_call1_v1 (F := Ideal) i = Col.one := by
  rw [val_main_call1_v1_apply]; rfl
theorem v29_at (i : S200000.Idx) : val_main_v29 (F := Ideal) i = Col.one := by
  rw [val_main_v29_apply]; rfl
theorem v13_at (i : S200000x128.Idx) : val_main_v13 (F := Ideal) i = Col.zero := by
  rw [val_main_v13_apply]; rfl
theorem v58_at (i : S200000x192.Idx) : val_main_v58 (F := Ideal) i = Col.zero := by
  rw [val_main_v58_apply]; rfl
theorem v68_at (i : S200000x192.Idx) : val_main_v68 (F := Ideal) i = Col.zero := by
  rw [val_main_v68_apply]; rfl
theorem v101_at (i : S200000x192.Idx) : val_main_v101 (F := Ideal) i = Col.zero := by
  rw [val_main_v101_apply]; rfl
theorem v111_at (i : S200000x192.Idx) : val_main_v111 (F := Ideal) i = Col.zero := by
  rw [val_main_v111_apply]; rfl
theorem v118_at (i : S200000x192.Idx) : val_main_v118 (F := Ideal) i = Col.three := by
  rw [val_main_v118_apply]; rfl

/-! ## The broadcasts' index maps at an index given by coordinates -/

theorem idx_v17 (r : Fin 200000) (c : Fin 128) : idx_main_v17 (ix2 r c) = ix2 r 0 := by
  funext a; match a with | ⟨0, _⟩ => rfl | ⟨1, _⟩ => rfl
theorem idx_v32 (r : Fin 200000) (c : Fin 192) : idx_main_v32 (ix2 r c) = ix2 r 0 := by
  funext a; match a with | ⟨0, _⟩ => rfl | ⟨1, _⟩ => rfl
theorem idx_v72 (r : Fin 200000) (c : Fin 192) : idx_main_v72 (ix2 r c) = ix2 r 0 := by
  funext a; match a with | ⟨0, _⟩ => rfl | ⟨1, _⟩ => rfl
theorem idx_v75 (r : Fin 200000) (c : Fin 192) : idx_main_v75 (ix2 r c) = ix2 r 0 := by
  funext a; match a with | ⟨0, _⟩ => rfl | ⟨1, _⟩ => rfl
theorem idx_v115 (r : Fin 200000) (c : Fin 192) : idx_main_v115 (ix2 r c) = ix2 r 0 := by
  funext a; match a with | ⟨0, _⟩ => rfl | ⟨1, _⟩ => rfl
theorem idx_v55 (e : Fin 1000000) (c : Fin 192) : idx_main_v55 (ix2 e c) = ix2 e 0 := by
  funext a; match a with | ⟨0, _⟩ => rfl | ⟨1, _⟩ => rfl
theorem idx_v98 (e : Fin 1000000) (c : Fin 192) : idx_main_v98 (ix2 e c) = ix2 e 0 := by
  funext a; match a with | ⟨0, _⟩ => rfl | ⟨1, _⟩ => rfl
theorem idx_v16 (r : Fin 200000) (z : Fin 1) : idx_main_v16 (ix2 r z) = ix1 r := by
  funext a; match a with | ⟨0, _⟩ => rfl
theorem idx_v31 (r : Fin 200000) (z : Fin 1) : idx_main_v31 (ix2 r z) = ix1 r := by
  funext a; match a with | ⟨0, _⟩ => rfl

/-! ## The program's gathers and segment sums, at an element -/

/-- A row of the review embeddings. -/
theorem gatherReview_at (x : FVec Ideal S1000000x128 .f32) (idx : IVec S1000000x1 32) (e : Fin 1000000) (c : Fin 128) :
    Host.gather gather_S1000000x128_S1000000x1_S1000000x128_1_0_n_n_0_1_1128 x idx (ix2 e c)
      = x (ix2 (RowOps.gatherRow 1000000 (by decide) (idx (ix2 e 0))) c) :=
  RowOps.gather_rows_apply (by decide) _ rfl rfl rfl rfl rfl rfl rfl x idx e c

/-- A row of an entity array. -/
theorem gatherEntity_at (x : FVec Ideal S200000x192 .f32) (idx : IVec S1000000x1 32) (e : Fin 1000000) (c : Fin 192) :
    Host.gather gather_S200000x192_S1000000x1_S1000000x192_1_0_n_n_0_1_1192 x idx (ix2 e c)
      = x (ix2 (RowOps.gatherRow 200000 (by decide) (idx (ix2 e 0))) c) :=
  RowOps.gather_rows_apply (by decide) _ rfl rfl rfl rfl rfl rfl rfl x idx e c

/-- A row of the query embeddings. -/
theorem gatherQuery_at (x : FVec Ideal S50000x192 .f32) (idx : IVec S1000000x1 32) (e : Fin 1000000) (c : Fin 192) :
    Host.gather gather_S50000x192_S1000000x1_S1000000x192_1_0_n_n_0_1_1192 x idx (ix2 e c)
      = x (ix2 (RowOps.gatherRow 50000 (by decide) (idx (ix2 e 0))) c) :=
  RowOps.gather_rows_apply (by decide) _ rfl rfl rfl rfl rfl rfl rfl x idx e c

/-- A row of a one-column entity array. -/
theorem gatherColumn_at (x : FVec Ideal S200000x1 .f32) (idx : IVec S1000000x1 32) (e : Fin 1000000) (c : Fin 1) :
    Host.gather gather_S200000x1_S1000000x1_S1000000x1_1_0_n_n_0_1_11 x idx (ix2 e c)
      = x (ix2 (RowOps.gatherRow 200000 (by decide) (idx (ix2 e 0))) c) :=
  RowOps.gather_rows_apply (by decide) _ rfl rfl rfl rfl rfl rfl rfl x idx e c

/-- A segment sum of a flat array into zeros. -/
theorem segVec_at (z : FVec Ideal S200000 .f32) (hz : ∀ i, z i = Col.zero) (idx : IVec S1000000x1 32)
    (upd : FVec Ideal S1000000 .f32) (r : Fin 200000) :
    Host.scatterAdd (F := Ideal) scatter_S200000_S1000000x1_S1000000_n_0_0_1 z idx upd (ix1 r)
      = Col.seg (fun e => RowOps.scatterRow 200000 (idx (ix2 e 0))) (fun e => upd (ix1 e)) r := by
  rw [RowOps.scatterAdd_vec_apply _ rfl rfl rfl rfl z idx upd r, hz]
  rfl

/-- A segment sum of `128`-wide rows into zeros. -/
theorem segReview_at (z : FVec Ideal S200000x128 .f32) (hz : ∀ i, z i = Col.zero) (idx : IVec S1000000x1 32)
    (upd : FVec Ideal S1000000x128 .f32) (r : Fin 200000) (c : Fin 128) :
    Host.scatterAdd (F := Ideal) scatter_S200000x128_S1000000x1_S1000000x128_1_0_0_1 z idx upd (ix2 r c)
      = Col.seg (fun e => RowOps.scatterRow 200000 (idx (ix2 e 0))) (fun e => upd (ix2 e c)) r := by
  rw [RowOps.scatterAdd_rows_apply _ rfl rfl rfl rfl z idx upd r c, hz]
  rfl

/-- A segment sum of `192`-wide rows into zeros. -/
theorem segEntity_at (z : FVec Ideal S200000x192 .f32) (hz : ∀ i, z i = Col.zero) (idx : IVec S1000000x1 32)
    (upd : FVec Ideal S1000000x192 .f32) (r : Fin 200000) (c : Fin 192) :
    Host.scatterAdd (F := Ideal) scatter_S200000x192_S1000000x1_S1000000x192_1_0_0_1 z idx upd (ix2 r c)
      = Col.seg (fun e => RowOps.scatterRow 200000 (idx (ix2 e 0))) (fun e => upd (ix2 e c)) r := by
  rw [RowOps.scatterAdd_rows_apply _ rfl rfl rfl rfl z idx upd r c, hz]
  rfl

/-! ## The index arrays: one normalisation each -/

variable (a0 : (⟨S200000x64, .f32⟩ : BufTy).Contents (Elt Ideal)) (a1 : (⟨S1000000x128, .f32⟩ : BufTy).Contents (Elt Ideal))
  (a2 : (⟨S50000x192, .f32⟩ : BufTy).Contents (Elt Ideal)) (a3 a4 a5 a6 a7 : (⟨S1000000, .i32⟩ : BufTy).Contents (Elt Ideal))

theorem v53_eq : val_main_v53 (F := Ideal) a5 = val_main_v39 (F := Ideal) a5 := rfl
theorem v82_eq : val_main_v82 (F := Ideal) a5 = val_main_v39 (F := Ideal) a5 := rfl
theorem v96_eq : val_main_v96 (F := Ideal) a5 = val_main_v39 (F := Ideal) a5 := rfl
theorem v109_eq : val_main_v109 (F := Ideal) a6 = val_main_v66 (F := Ideal) a6 := rfl
theorem v89_eq : val_main_v89 (F := Ideal) a7 = val_main_v46 (F := Ideal) a7 := rfl
theorem v102_eq : val_main_v102 (F := Ideal) a6 = val_main_v59 (F := Ideal) a6 := rfl
theorem v24_eq : val_main_v24 (F := Ideal) a6 = val_main_v59 (F := Ideal) a6 := rfl
theorem v112_eq : val_main_v112 (F := Ideal) a5 = val_main_v69 (F := Ideal) a5 := rfl
theorem v21_eq : val_main_v21 (F := Ideal) a5 = val_main_v69 (F := Ideal) a5 := rfl
theorem v3_eq : val_main_v3 (F := Ideal) a4 = val_main_v14 (F := Ideal) a4 := rfl

/-- The row maps of the five index arrays. -/
def rows : Col.Rows where
  gP := fun e => RowOps.gatherRow 1000000 (by decide) (val_main_v11 (F := Ideal) a3 (ix2 e 0))
  sP := fun e => RowOps.scatterRow 200000 (val_main_v14 (F := Ideal) a4 (ix2 e 0))
  gS := fun e => RowOps.gatherRow 200000 (by decide) (val_main_v39 (F := Ideal) a5 (ix2 e 0))
  gD := fun e => RowOps.gatherRow 200000 (by decide) (val_main_v66 (F := Ideal) a6 (ix2 e 0))
  sS := fun e => RowOps.scatterRow 200000 (val_main_v69 (F := Ideal) a5 (ix2 e 0))
  sD := fun e => RowOps.scatterRow 200000 (val_main_v59 (F := Ideal) a6 (ix2 e 0))
  gQ := fun e => RowOps.gatherRow 50000 (by decide) (val_main_v46 (F := Ideal) a7 (ix2 e 0))

/-- Column `col` of the initial entity embedding: a column of `a0` below `64`, a column of `entity_h` from there on. -/
def e0col (R : Col.Rows) (col : Fin 192) (r : Fin 200000) : EReal :=
  if h : col.val < 64 then a0 (ix2 r ⟨col.val, h⟩)
  else Col.entH R (fun e => a1 (ix2 e ⟨col.val - 64, by omega⟩)) r

/-! ## The review counts and `entity_h` -/

theorem v4_at (r : Fin 200000) :
    val_main_v4 (F := Ideal) a4 (ix1 r) = Col.seg (rows a3 a4 a5 a6 a7).sP (fun _ => Col.one) r := by
  unfold val_main_v4
  rw [segVec_at _ v2_at]
  simp only [v0_at, v3_eq]
  rfl

theorem v5_at (r : Fin 200000) :
    val_main_v5 (F := Ideal) a4 (ix1 r) = max Col.one (Col.seg (rows a3 a4 a5 a6 a7).sP (fun _ => Col.one) r) := by
  rw [val_main_v5_apply, call0_v1_at, v4_at a3 a4 a5 a6 a7]
  rfl

theorem v12_at (e : Fin 1000000) (c : Fin 128) :
    val_main_v12 (F := Ideal) a1 a3 (ix2 e c) = a1 (ix2 ((rows a3 a4 a5 a6 a7).gP e) c) := by
  unfold val_main_v12
  exact gatherReview_at a1 _ e c

theorem v15_at (r : Fin 200000) (c : Fin 128) :
    val_main_v15 (F := Ideal) a1 a3 a4 (ix2 r c)
      = Col.seg (rows a3 a4 a5 a6 a7).sP (fun e => a1 (ix2 ((rows a3 a4 a5 a6 a7).gP e) c)) r := by
  unfold val_main_v15
  rw [segReview_at _ v13_at]
  simp only [v12_at a1 a3 a4 a5 a6 a7]
  rfl

theorem v17_at (r : Fin 200000) (c : Fin 128) :
    val_main_v17 (F := Ideal) a4 (ix2 r c) = max Col.one (Col.seg (rows a3 a4 a5 a6 a7).sP (fun _ => Col.one) r) := by
  rw [val_main_v17_apply, idx_v17, val_main_v16_apply, idx_v16, v5_at a3 a4 a5 a6 a7]

/-- `entity_h` at `(r, c)`: the mean over the reviews profiling `r` of column `c` of their embeddings. -/
theorem v18_at (r : Fin 200000) (c : Fin 128) :
    val_main_v18 (F := Ideal) a1 a3 a4 (ix2 r c) = Col.entH (rows a3 a4 a5 a6 a7) (fun e => a1 (ix2 e c)) r := by
  rw [val_main_v18_apply, v15_at a1 a3 a4 a5 a6 a7, v17_at a3 a4 a5 a6 a7]
  rfl

/-! ## The initial embedding -/

/-- `e0 = [a0 | entity_h]` at `(r, col)`. -/
theorem v19_at (r : Fin 200000) (col : Fin 192) :
    val_main_v19 (F := Ideal) a0 a1 a3 a4 (ix2 r col) = e0col a0 a1 (rows a3 a4 a5 a6 a7) col r := by
  unfold val_main_v19 e0col
  by_cases h : col.val < 64
  · rw [dif_pos h]
    exact concatenate_pair_apply_left (1 : Fin 2) a0 _ _ (ix2 r col) rfl (ix2 r ⟨col.val, h⟩)
      (fun b => by match b with | ⟨0, _⟩ => rfl | ⟨1, _⟩ => rfl)
  · rw [dif_neg h]
    have hc : col.val - 64 < 128 := by omega
    rw [← v18_at a1 a3 a4 a5 a6 a7 r ⟨col.val - 64, hc⟩]
    refine concatenate_pair_apply_right (t := S200000x192) (s₁ := S200000x64) (s₂ := S200000x128) (1 : Fin 2) a0 _ _ (ix2 r col) rfl rfl (ix2 r ⟨col.val - 64, hc⟩) ?_ ?_
    · intro b hb
      match b, hb with
      | ⟨0, _⟩, _ => rfl
      | ⟨1, _⟩, hb => exact absurd rfl hb
    · show col.val - 64 + 64 = col.val
      omega

/-! ## The degree normaliser -/

theorem v22_at (r : Fin 200000) :
    val_main_v22 (F := Ideal) a5 (ix1 r) = Col.seg (rows a3 a4 a5 a6 a7).sS (fun _ => Col.one) r := by
  unfold val_main_v22
  rw [segVec_at _ v20_at]
  simp only [v1_at, v21_eq]
  rfl

theorem v25_at (r : Fin 200000) :
    val_main_v25 (F := Ideal) a6 (ix1 r) = Col.seg (rows a3 a4 a5 a6 a7).sD (fun _ => Col.one) r := by
  unfold val_main_v25
  rw [segVec_at _ v23_at]
  simp only [v1_at, v24_eq]
  rfl

/-- `inv = 1 / sqrt (max 1 (out-degree + in-degree))` at an entity. -/
theorem v30_at (r : Fin 200000) : val_main_v30 (F := Ideal) a5 a6 (ix1 r) = Col.inv (rows a3 a4 a5 a6 a7) r := by
  rw [val_main_v30_apply, val_main_v28_apply, val_main_v27_apply, val_main_v26_apply, v29_at, call1_v1_at,
    v22_at a3 a4 a5 a6 a7, v25_at a3 a4 a5 a6 a7]
  simp only [Ideal.hostDivf_def, Ideal.hostUnary_sqrt_def, Ideal.maximumf_def, Ideal.addf_def]
  rfl

theorem v31_at (r : Fin 200000) (z : Fin 1) : val_main_v31 (F := Ideal) a5 a6 (ix2 r z) = Col.inv (rows a3 a4 a5 a6 a7) r := by
  rw [val_main_v31_apply, idx_v31, v30_at a3 a4 a5 a6 a7]

theorem v32_at (r : Fin 200000) (c : Fin 192) : val_main_v32 (F := Ideal) a5 a6 (ix2 r c) = Col.inv (rows a3 a4 a5 a6 a7) r := by
  rw [val_main_v32_apply, idx_v32, v31_at a3 a4 a5 a6 a7]

theorem v72_at (r : Fin 200000) (c : Fin 192) : val_main_v72 (F := Ideal) a5 a6 (ix2 r c) = Col.inv (rows a3 a4 a5 a6 a7) r := by
  rw [val_main_v72_apply, idx_v72, v31_at a3 a4 a5 a6 a7]

theorem v75_at (r : Fin 200000) (c : Fin 192) : val_main_v75 (F := Ideal) a5 a6 (ix2 r c) = Col.inv (rows a3 a4 a5 a6 a7) r := by
  rw [val_main_v75_apply, idx_v75, v31_at a3 a4 a5 a6 a7]

theorem v115_at (r : Fin 200000) (c : Fin 192) : val_main_v115 (F := Ideal) a5 a6 (ix2 r c) = Col.inv (rows a3 a4 a5 a6 a7) r := by
  rw [val_main_v115_apply, idx_v115, v31_at a3 a4 a5 a6 a7]

/-! ## The first convolution -/

theorem v33_at (r : Fin 200000) (c : Fin 192) :
    val_main_v33 (F := Ideal) a0 a1 a3 a4 a5 a6 (ix2 r c)
      = val_main_v19 (F := Ideal) a0 a1 a3 a4 (ix2 r c) * Col.inv (rows a3 a4 a5 a6 a7) r := by
  rw [val_main_v33_apply, v32_at a3 a4 a5 a6 a7]
  rfl

theorem v40_at (e : Fin 1000000) (c : Fin 192) :
    val_main_v40 (F := Ideal) a0 a1 a3 a4 a5 (ix2 e c)
      = val_main_v19 (F := Ideal) a0 a1 a3 a4 (ix2 ((rows a3 a4 a5 a6 a7).gS e) c) := by
  unfold val_main_v40
  exact gatherEntity_at _ _ e c

theorem v47_at (e : Fin 1000000) (c : Fin 192) :
    val_main_v47 (F := Ideal) a2 a7 (ix2 e c) = a2 (ix2 ((rows a3 a4 a5 a6 a7).gQ e) c) := by
  unfold val_main_v47
  exact gatherQuery_at a2 _ e c

theorem v54_at (e : Fin 1000000) (z : Fin 1) :
    val_main_v54 (F := Ideal) a5 a6 (ix2 e z) = Col.inv (rows a3 a4 a5 a6 a7) ((rows a3 a4 a5 a6 a7).gS e) := by
  unfold val_main_v54
  rw [v53_eq, gatherColumn_at]
  exact v31_at a3 a4 a5 a6 a7 _ z

theorem v55_at (e : Fin 1000000) (c : Fin 192) :
    val_main_v55 (F := Ideal) a5 a6 (ix2 e c) = Col.inv (rows a3 a4 a5 a6 a7) ((rows a3 a4 a5 a6 a7).gS e) := by
  rw [val_main_v55_apply, idx_v55, v54_at a3 a4 a5 a6 a7]

/-- The forward message of edge `e`: the source's embedding plus the query's, scaled by the source's normaliser. -/
theorem v57_at (e : Fin 1000000) (c : Fin 192) :
    val_main_v57 (F := Ideal) a0 a1 a2 a3 a4 a5 a6 a7 (ix2 e c)
      = val_main_v19 (F := Ideal) a0 a1 a3 a4 (ix2 ((rows a3 a4 a5 a6 a7).gS e) c)
        + a2 (ix2 ((rows a3 a4 a5 a6 a7).gQ e) c) * Col.inv (rows a3 a4 a5 a6 a7) ((rows a3 a4 a5 a6 a7).gS e) := by
  rw [val_main_v57_apply, val_main_v56_apply, v40_at a0 a1 a3 a4 a5 a6 a7, v47_at a2 a3 a4 a5 a6 a7, v55_at a3 a4 a5 a6 a7]
  rfl

theorem v60_at (r : Fin 200000) (c : Fin 192) :
    val_main_v60 (F := Ideal) a0 a1 a2 a3 a4 a5 a6 a7 (ix2 r c)
      = Col.seg (rows a3 a4 a5 a6 a7).sD (fun e => val_main_v19 (F := Ideal) a0 a1 a3 a4 (ix2 ((rows a3 a4 a5 a6 a7).gS e) c)
          + a2 (ix2 ((rows a3 a4 a5 a6 a7).gQ e) c) * Col.inv (rows a3 a4 a5 a6 a7) ((rows a3 a4 a5 a6 a7).gS e)) r := by
  unfold val_main_v60
  rw [segEntity_at _ v58_at]
  simp only [v57_at a0 a1 a2 a3 a4 a5 a6 a7]
  rfl

/-- The backward message of edge `e`: the destination's embedding scaled by its normaliser. -/
theorem v67_at (e : Fin 1000000) (c : Fin 192) :
    val_main_v67 (F := Ideal) a0 a1 a3 a4 a5 a6 (ix2 e c)
      = val_main_v19 (F := Ideal) a0 a1 a3 a4 (ix2 ((rows a3 a4 a5 a6 a7).gD e) c) * Col.inv (rows a3 a4 a5 a6 a7) ((rows a3 a4 a5 a6 a7).gD e) := by
  unfold val_main_v67
  exact (gatherEntity_at _ _ e c).trans (v33_at a0 a1 a3 a4 a5 a6 a7 _ c)

theorem v70_at (r : Fin 200000) (c : Fin 192) :
    val_main_v70 (F := Ideal) a0 a1 a3 a4 a5 a6 (ix2 r c)
      = Col.seg (rows a3 a4 a5 a6 a7).sS (fun e => val_main_v19 (F := Ideal) a0 a1 a3 a4 (ix2 ((rows a3 a4 a5 a6 a7).gD e) c)
          * Col.inv (rows a3 a4 a5 a6 a7) ((rows a3 a4 a5 a6 a7).gD e)) r := by
  unfold val_main_v70
  rw [segEntity_at _ v68_at]
  simp only [v67_at a0 a1 a3 a4 a5 a6 a7]
  rfl

/-- The first convolution: the program's operations from the scaled embedding to the first result are one `Col.step` at the initial embedding. -/
theorem v73_at (r : Fin 200000) (c : Fin 192) :
    val_main_v73 (F := Ideal) a0 a1 a2 a3 a4 a5 a6 a7 (ix2 r c)
      = Col.step (rows a3 a4 a5 a6 a7) (fun n => a2 (ix2 n c)) (fun n => val_main_v19 (F := Ideal) a0 a1 a3 a4 (ix2 n c)) r := by
  rw [val_main_v73_apply, val_main_v71_apply, v60_at a0 a1 a2 a3 a4 a5 a6 a7, v70_at a0 a1 a3 a4 a5 a6 a7, v72_at a3 a4 a5 a6 a7]
  rfl

/-! ## The second convolution -/

theorem v76_at (r : Fin 200000) (c : Fin 192) :
    val_main_v76 (F := Ideal) a0 a1 a2 a3 a4 a5 a6 a7 (ix2 r c)
      = val_main_v73 (F := Ideal) a0 a1 a2 a3 a4 a5 a6 a7 (ix2 r c) * Col.inv (rows a3 a4 a5 a6 a7) r := by
  rw [val_main_v76_apply, v75_at a3 a4 a5 a6 a7]
  rfl

theorem v83_at (e : Fin 1000000) (c : Fin 192) :
    val_main_v83 (F := Ideal) a0 a1 a2 a3 a4 a5 a6 a7 (ix2 e c)
      = val_main_v73 (F := Ideal) a0 a1 a2 a3 a4 a5 a6 a7 (ix2 ((rows a3 a4 a5 a6 a7).gS e) c) := by
  unfold val_main_v83
  rw [v82_eq]
  exact gatherEntity_at _ _ e c

theorem v90_at (e : Fin 1000000) (c : Fin 192) :
    val_main_v90 (F := Ideal) a2 a7 (ix2 e c) = a2 (ix2 ((rows a3 a4 a5 a6 a7).gQ e) c) := by
  unfold val_main_v90
  rw [v89_eq]
  exact gatherQuery_at a2 _ e c

theorem v97_at (e : Fin 1000000) (z : Fin 1) :
    val_main_v97 (F := Ideal) a5 a6 (ix2 e z) = Col.inv (rows a3 a4 a5 a6 a7) ((rows a3 a4 a5 a6 a7).gS e) := by
  unfold val_main_v97
  rw [v96_eq, gatherColumn_at]
  exact v31_at a3 a4 a5 a6 a7 _ z

theorem v98_at (e : Fin 1000000) (c : Fin 192) :
    val_main_v98 (F := Ideal) a5 a6 (ix2 e c) = Col.inv (rows a3 a4 a5 a6 a7) ((rows a3 a4 a5 a6 a7).gS e) := by
  rw [val_main_v98_apply, idx_v98, v97_at a3 a4 a5 a6 a7]

/-- The forward message of edge `e`: the source's embedding plus the query's, scaled by the source's normaliser. -/
theorem v100_at (e : Fin 1000000) (c : Fin 192) :
    val_main_v100 (F := Ideal) a0 a1 a2 a3 a4 a5 a6 a7 (ix2 e c)
      = val_main_v73 (F := Ideal) a0 a1 a2 a3 a4 a5 a6 a7 (ix2 ((rows a3 a4 a5 a6 a7).gS e) c)
        + a2 (ix2 ((rows a3 a4 a5 a6 a7).gQ e) c) * Col.inv (rows a3 a4 a5 a6 a7) ((rows a3 a4 a5 a6 a7).gS e) := by
  rw [val_main_v100_apply, val_main_v99_apply, v83_at a0 a1 a2 a3 a4 a5 a6 a7, v90_at a2 a3 a4 a5 a6 a7, v98_at a3 a4 a5 a6 a7]
  rfl

theorem v103_at (r : Fin 200000) (c : Fin 192) :
    val_main_v103 (F := Ideal) a0 a1 a2 a3 a4 a5 a6 a7 (ix2 r c)
      = Col.seg (rows a3 a4 a5 a6 a7).sD (fun e => val_main_v73 (F := Ideal) a0 a1 a2 a3 a4 a5 a6 a7 (ix2 ((rows a3 a4 a5 a6 a7).gS e) c)
          + a2 (ix2 ((rows a3 a4 a5 a6 a7).gQ e) c) * Col.inv (rows a3 a4 a5 a6 a7) ((rows a3 a4 a5 a6 a7).gS e)) r := by
  unfold val_main_v103
  rw [segEntity_at _ v101_at]
  simp only [v100_at a0 a1 a2 a3 a4 a5 a6 a7, v102_eq]
  rfl

/-- The backward message of edge `e`: the destination's embedding scaled by its normaliser. -/
theorem v110_at (e : Fin 1000000) (c : Fin 192) :
    val_main_v110 (F := Ideal) a0 a1 a2 a3 a4 a5 a6 a7 (ix2 e c)
      = val_main_v73 (F := Ideal) a0 a1 a2 a3 a4 a5 a6 a7 (ix2 ((rows a3 a4 a5 a6 a7).gD e) c) * Col.inv (rows a3 a4 a5 a6 a7) ((rows a3 a4 a5 a6 a7).gD e) := by
  unfold val_main_v110
  rw [v109_eq]
  exact (gatherEntity_at _ _ e c).trans (v76_at a0 a1 a2 a3 a4 a5 a6 a7 _ c)

theorem v113_at (r : Fin 200000) (c : Fin 192) :
    val_main_v113 (F := Ideal) a0 a1 a2 a3 a4 a5 a6 a7 (ix2 r c)
      = Col.seg (rows a3 a4 a5 a6 a7).sS (fun e => val_main_v73 (F := Ideal) a0 a1 a2 a3 a4 a5 a6 a7 (ix2 ((rows a3 a4 a5 a6 a7).gD e) c)
          * Col.inv (rows a3 a4 a5 a6 a7) ((rows a3 a4 a5 a6 a7).gD e)) r := by
  unfold val_main_v113
  rw [segEntity_at _ v111_at]
  simp only [v110_at a0 a1 a2 a3 a4 a5 a6 a7, v112_eq]
  rfl

/-- The second convolution: the same operations again, at the first result. -/
theorem v116_at (r : Fin 200000) (c : Fin 192) :
    val_main_v116 (F := Ideal) a0 a1 a2 a3 a4 a5 a6 a7 (ix2 r c)
      = Col.step (rows a3 a4 a5 a6 a7) (fun n => a2 (ix2 n c)) (fun n => val_main_v73 (F := Ideal) a0 a1 a2 a3 a4 a5 a6 a7 (ix2 n c)) r := by
  rw [val_main_v116_apply, val_main_v114_apply, v103_at a0 a1 a2 a3 a4 a5 a6 a7, v113_at a0 a1 a2 a3 a4 a5 a6 a7, v115_at a3 a4 a5 a6 a7]
  rfl

/-! ## The mean of the three stages -/

/-- THE REFERENCE'S RESULT AT `(r, col)`: the column function of the three stages' sum, divided by three. -/
theorem ref_col (r : Fin 200000) (col : Fin 192) :
    val_main_v119 (F := Ideal) a0 a1 a2 a3 a4 a5 a6 a7 (ix2 r col)
      = Ideal.div (Col.acc2 (rows a3 a4 a5 a6 a7) (fun n => a2 (ix2 n col)) (e0col a0 a1 (rows a3 a4 a5 a6 a7) col) r) Col.three := by
  have h0 : (fun n => val_main_v19 (F := Ideal) a0 a1 a3 a4 (ix2 n col)) = e0col a0 a1 (rows a3 a4 a5 a6 a7) col :=
    funext fun n => v19_at a0 a1 a3 a4 a5 a6 a7 n col
  have h1 : (fun n => val_main_v73 (F := Ideal) a0 a1 a2 a3 a4 a5 a6 a7 (ix2 n col))
      = Col.e1 (rows a3 a4 a5 a6 a7) (fun n => a2 (ix2 n col)) (e0col a0 a1 (rows a3 a4 a5 a6 a7) col) :=
    funext fun n => by rw [v73_at a0 a1 a2 a3 a4 a5 a6 a7 n col, h0]; rfl
  rw [val_main_v119_apply, v118_at, val_main_v117_apply, val_main_v74_apply, v116_at a0 a1 a2 a3 a4 a5 a6 a7, h1, v73_at a0 a1 a2 a3 a4 a5 a6 a7, h0,
    v19_at a0 a1 a3 a4 a5 a6 a7]
  rfl

end Cert.ReferenceIdeal.RefCol

end
-- ==== Proof.Bridge.lean ====
/-
  The two programs' row maps are the same. Each side normalises its index arguments by its own host operations
  (a negative entry shifted up by the extent, then the array as a one-column matrix): the same operations on the
  same argument, spelled in two namespaces, so the maps agree by unfolding the names.
-/
import proofs.«137020_j48936857370759_1_alg».proof.Proof.RefCol
import proofs.«137020_j48936857370759_1_alg».proof.Proof.KColBase

noncomputable section

namespace Cert.Bridge

open Idealize.ShloMosaic Idealize.ShloMosaic.ValueIdx
open Cert.ReferenceIdeal.Read

variable (a3 a4 a5 a6 a7 : (⟨Cert.KernelIdeal.S1000000, .i32⟩ : BufTy).Contents (Elt Ideal))

theorem nProf_eq : val_main_v11 (F := Ideal) a3 = Cert.KernelIdeal.Wire.nProf a3 := rfl
theorem bP_eq : val_main_v14 (F := Ideal) a4 = Cert.KernelIdeal.Wire.bcast1 a4 := rfl
theorem nSrc_eq : val_main_v39 (F := Ideal) a5 = Cert.KernelIdeal.Wire.nSrc a5 := rfl
theorem nDst_eq : val_main_v66 (F := Ideal) a6 = Cert.KernelIdeal.Wire.nDst a6 := rfl
theorem bS_eq : val_main_v69 (F := Ideal) a5 = Cert.KernelIdeal.Wire.bcast1 a5 := rfl
theorem bD_eq : val_main_v59 (F := Ideal) a6 = Cert.KernelIdeal.Wire.bcast1 a6 := rfl
theorem nQ_eq : val_main_v46 (F := Ideal) a7 = Cert.KernelIdeal.Wire.nQ a7 := rfl

/-- The reference's row maps are the kernel's. -/
theorem rows_eq : Cert.ReferenceIdeal.RefCol.rows a3 a4 a5 a6 a7 = Cert.KernelIdeal.KCol.rows a3 a4 a5 a6 a7 := by
  unfold Cert.ReferenceIdeal.RefCol.rows Cert.KernelIdeal.KCol.rows
  rw [nProf_eq, bP_eq, nSrc_eq, nDst_eq, bS_eq, bD_eq, nQ_eq]

/-- The initial embedding's column, written out: a column of `a0` below `64`, a column of the mean review embedding
    from there on. -/
theorem e0col_eq (a0 : (⟨Cert.KernelIdeal.S200000x64, .f32⟩ : BufTy).Contents (Elt Ideal))
    (a1 : (⟨Cert.KernelIdeal.S1000000x128, .f32⟩ : BufTy).Contents (Elt Ideal)) (R : Cert.Col.Rows) (col : Fin 192) :
    Cert.ReferenceIdeal.RefCol.e0col a0 a1 R col
      = (fun r => if h : col.val < 64 then a0 (ix2 r ⟨col.val, h⟩)
          else Cert.Col.entH R (fun e => a1 (ix2 e ⟨col.val - 64, by omega⟩)) r) := rfl

end Cert.Bridge

end
-- ==== Proof.lean ====
/-
  The certificate of the two-track message-passing kernel against its 192-wide reference.

  The kernel carries the 192 entity channels as two tracks, 64 and 128 columns wide, through sixteen tiled
  pointwise calls with the row gathers and segment sums between them on the host; the reference carries one
  array of 192 columns. Every operation of either program acts on the columns alike (a gather copies rows, a
  segment sum adds rows into rows, the rest is pointwise with a per-row factor), so at `(r, col)` both results
  are ONE function of column `col` of the inputs (Proof/ColSpec.lean): the kernel's left track reads columns
  `0 … 63`, its right track columns `64 … 191`, and the final concatenation puts them back where the reference
  has them. The only arithmetic difference is the last line: the kernel multiplies by the constant named
  `inv_3`, the real third at the ideal instance, where the reference divides by three; on the extended reals
  the two agree everywhere (`Cert.Col.div_three`). Nothing needs the inputs to be finite.
-/
import proofs.«137020_j48936857370759_1_alg».proof.Defs
import proofs.«137020_j48936857370759_1_alg».proof.Proof.Gen.Kernel
import proofs.«137020_j48936857370759_1_alg».proof.Proof.Gen.Kernel.Frame
import proofs.«137020_j48936857370759_1_alg».proof.Proof.Gen.KernelIdeal
import proofs.«137020_j48936857370759_1_alg».proof.Proof.Gen.KernelIdeal.Frame
import proofs.«137020_j48936857370759_1_alg».proof.Proof.Gen.ReferenceIdeal
import proofs.«137020_j48936857370759_1_alg».proof.Proof.Gen.ReferenceIdeal.Run
import proofs.«137020_j48936857370759_1_alg».proof.Proof.Gen.ReferenceIdeal.Read
import proofs.«137020_j48936857370759_1_alg».proof.Proof.Gen.Pre_finite_inputs
import proofs.«137020_j48936857370759_1_alg».proof.Proof.ColSpec
import proofs.«137020_j48936857370759_1_alg».proof.Proof.KRun
import proofs.«137020_j48936857370759_1_alg».proof.Proof.KColOut
import proofs.«137020_j48936857370759_1_alg».proof.Proof.RefCol
import proofs.«137020_j48936857370759_1_alg».proof.Proof.Bridge
import Idealize.ShloMosaic.Adequacy
import Idealize.ShloMosaic.Init

noncomputable section

namespace Cert.Proof

open Idealize.ShloMosaic Idealize.ShloMosaic.ValueIdx Idealize.SL.Sem

/-- The word-level kernel terminates without a fault and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two final scalings name the literal `0.3333333432674408` as the real third. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- The constant the two final scalings name is the real third at the ideal instance. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- From memories that agree on the arguments both idealized programs run, and at every `(r, col)` both results
    are the averaged column sum of the column specification at column `col`: the kernel's as that sum times the
    named third (its value run, its two tracks read at an index), the reference's as that sum divided by three
    (its run read at an index); the row maps of the two sides are the same terms, and dividing by three is
    multiplying by the third on every extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W23 m ρ c (Proc.devRef .tc Cert.KernelIdeal.main_v164),
    Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v119_eq, h0, h1, h2, h3, h4, h5, h6, h7]
  funext i
  obtain ⟨r, col, rfl⟩ : ∃ (r : Fin 200000) (col : Fin 192), i = ix2 r col := ⟨i 0, i 1, eq_ix2 i⟩
  beta_reduce
  rw [Cert.ReferenceIdeal.RefCol.ref_col, Cert.KernelIdeal.KCol.kernel_col, Cert.Col.div_three, inv_3, Cert.Bridge.rows_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
